-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x40 .f32) (main_arg11 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S3x128 .f32) (main_arg6 : FVec F S3x128x128 .f32) (main_arg7 : FVec F S3x128 .f32) (main_arg8 : FVec F S128x128 .f32) (main_arg9 : FVec F S128 .f32) (main_arg10 : FVec F S128x40 .f32) (main_arg11 : FVec F S40 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S3x128x128 .f32) (main_arg3 : FVec F S3x128 .f32) (main_arg4 : FVec F S3x128 .f32) (main_arg5 : FVec F S3x128 .f32) (main_arg6 : FVec F S3x128x128 .f32) (main_arg7 : FVec F S3x128 .f32) (main_arg8 : FVec F S128x128 .f32) (main_arg9 : FVec F S128 .f32) (main_arg10 : FVec F S128x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S1x128 : Shape := ⟨2, ![1, 128]⟩
abbrev S2000x128 : Shape := ⟨2, ![2000, 128]⟩
abbrev S1x40 : Shape := ⟨2, ![1, 40]⟩
abbrev S50000x40 : Shape := ⟨2, ![50000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 157
  | .vmem => 62
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128, .f32⟩
  | 5 => ⟨S3x128, .f32⟩
  | 6 => ⟨S3x128x128, .f32⟩
  | 7 => ⟨S3x128, .f32⟩
  | 8 => ⟨S128x128, .f32⟩
  | 9 => ⟨S128, .f32⟩
  | 10 => ⟨S128x40, .f32⟩
  | 11 => ⟨S40, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S_, .f32⟩
  | 41 => ⟨S1x128, .f32⟩
  | 42 => ⟨S1x128, .f32⟩
  | 43 => ⟨S1x128, .f32⟩
  | 44 => ⟨S1x128, .f32⟩
  | 45 => ⟨S1x128x128, .f32⟩
  | 46 => ⟨S128x128, .f32⟩
  | 47 => ⟨S1x128, .f32⟩
  | 48 => ⟨S128, .f32⟩
  | 49 => ⟨S1x128, .f32⟩
  | 50 => ⟨S128, .f32⟩
  | 51 => ⟨S1x128, .f32⟩
  | 52 => ⟨S128, .f32⟩
  | 53 => ⟨S1x128x128, .f32⟩
  | 54 => ⟨S128x128, .f32⟩
  | 55 => ⟨S1x128, .f32⟩
  | 56 => ⟨S128, .f32⟩
  | 57 => ⟨S1x128, .f32⟩
  | 58 => ⟨S1x128, .f32⟩
  | 59 => ⟨S1x128, .f32⟩
  | 60 => ⟨S1x128, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S50000x128, .f32⟩
  | 76 => ⟨S1x128x128, .f32⟩
  | 77 => ⟨S128x128, .f32⟩
  | 78 => ⟨S1x128, .f32⟩
  | 79 => ⟨S128, .f32⟩
  | 80 => ⟨S1x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S1x128, .f32⟩
  | 91 => ⟨S1x128x128, .f32⟩
  | 92 => ⟨S128x128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128x128, .f32⟩
  | 100 => ⟨S128x128, .f32⟩
  | 101 => ⟨S1x128, .f32⟩
  | 102 => ⟨S128, .f32⟩
  | 103 => ⟨S1x128, .f32⟩
  | 104 => ⟨S1x128, .f32⟩
  | 105 => ⟨S1x128, .f32⟩
  | 106 => ⟨S1x128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S50000x128, .f32⟩
  | 122 => ⟨S1x128x128, .f32⟩
  | 123 => ⟨S128x128, .f32⟩
  | 124 => ⟨S1x128, .f32⟩
  | 125 => ⟨S128, .f32⟩
  | 126 => ⟨S1x128, .f32⟩
  | 127 => ⟨S1x128, .f32⟩
  | _ => ⟨S50000x128, .f32⟩

abbrev hbmTy0_1 (i : Nat) : BufTy := match i % 128 with
  | 0 => ⟨S1x128, .f32⟩
  | 1 => ⟨S_, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S1x128, .f32⟩
  | 8 => ⟨S1x128, .f32⟩
  | 9 => ⟨S1x128x128, .f32⟩
  | 10 => ⟨S128x128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S1x128, .f32⟩
  | 23 => ⟨S1x128, .f32⟩
  | 24 => ⟨S1x128, .f32⟩
  | 25 => ⟨S50000x128, .f32⟩
  | 26 => ⟨S1x128, .f32⟩
  | 27 => ⟨S1x40, .f32⟩
  | 28 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S128x128, .f32⟩
  | .local _ .vmem, ⟨57, _⟩ => ⟨S1x128, .f32⟩
  | .local _ .vmem, ⟨58, _⟩ => ⟨S128x40, .f32⟩
  | .local _ .vmem, ⟨59, _⟩ => ⟨S1x40, .f32⟩
  | .local _ .vmem, ⟨60, _⟩ => ⟨S2000x40, .f32⟩
  | .local _ .vmem, ⟨61, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_3 : Ref sig .tc := ⟨.hbm, 62, rfl⟩
abbrev main_v44 : Ref sig .tc := ⟨.hbm, 63, rfl⟩
abbrev main_v45 : Ref sig .tc := ⟨.hbm, 64, rfl⟩
abbrev main_c_4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60_0 : Ref sig .tc := ⟨.hbm, 81, rfl⟩
abbrev main_v60_1 : Ref sig .tc := ⟨.hbm, 82, rfl⟩
abbrev main_cst_6 : Ref sig .tc := ⟨.hbm, 83, rfl⟩
abbrev main_v61 : Ref sig .tc := ⟨.hbm, 84, rfl⟩
abbrev main_v62 : Ref sig .tc := ⟨.hbm, 85, rfl⟩
abbrev main_cst_7 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_c_8 : Ref sig .tc := ⟨.hbm, 108, rfl⟩
abbrev main_v84 : Ref sig .tc := ⟨.hbm, 109, rfl⟩
abbrev main_v85 : Ref sig .tc := ⟨.hbm, 110, rfl⟩
abbrev main_c_9 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_10 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100_0 : Ref sig .tc := ⟨.hbm, 127, rfl⟩
abbrev main_v100_1 : Ref sig .tc := ⟨.hbm, 128, rfl⟩
abbrev main_cst_11 : Ref sig .tc := ⟨.hbm, 129, rfl⟩
abbrev main_v101 : Ref sig .tc := ⟨.hbm, 130, rfl⟩
abbrev main_v102 : Ref sig .tc := ⟨.hbm, 131, rfl⟩
abbrev main_cst_12 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg9_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg8_0 : Ref sig .tc := ⟨.vmem, 33, rfl⟩
abbrev cc3_stg9_0 : Ref sig .tc := ⟨.vmem, 34, rfl⟩
abbrev cc3_stg9_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg7_0 : Ref sig .tc := ⟨.vmem, 50, rfl⟩
abbrev cc5_stg8_0 : Ref sig .tc := ⟨.vmem, 51, rfl⟩
abbrev cc5_stg9_0 : Ref sig .tc := ⟨.vmem, 52, rfl⟩
abbrev cc5_stg9_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem9_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem8_0 : DmaSem sig := 33
abbrev cc3_sem9_0 : DmaSem sig := 34
abbrev cc3_sem9_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem6_0 : DmaSem sig := 49
abbrev cc5_sem7_0 : DmaSem sig := 50
abbrev cc5_sem8_0 : DmaSem sig := 51
abbrev cc5_sem9_0 : DmaSem sig := 52
abbrev cc5_sem9_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S2000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x40 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x40 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x40 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x128.size a ≤ S50000x128.size a
  hwx3_9 : ∀ i : grid3.Coords, EltTy.bits .f32 = 32 ∨ (Rect.block (s := S50000x128) S2000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x128.size a ≤ S128x128.size a
  hwx5_7 : ∀ i : grid5.Coords, EltTy.bits .f32 = 32 ∨ (Rect.block (s := S128x128) S128x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2000x128.size a ≤ S50000x128.size a
  hwx5_9 : ∀ i : grid5.Coords, EltTy.bits .f32 = 32 ∨ (Rect.block (s := S50000x128) S2000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x40.size a ≤ S128x40.size a
  hwx6_3 : ∀ i : grid6.Coords, EltTy.bits .f32 = 32 ∨ (Rect.block (s := S128x40) S128x40.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x40.size a ≤ S1x40.size a
  hwx6_4 : ∀ i : grid6.Coords, EltTy.bits .f32 = 32 ∨ (Rect.block (s := S1x40) S1x40.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x40.size a ≤ S50000x40.size a
  hwx6_5 : ∀ i : grid6.Coords, EltTy.bits .f32 = 32 ∨ (Rect.block (s := S50000x40) S2000x40.size (cc6_transform_5 i) (hinb6_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v14) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S1x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S1x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v43) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v54) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60_0) S1x128.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60_1) S1x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v76) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v82) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v83) S2000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v94) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v96) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v99) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v100_0) S1x128.size cc4_transform_3 reads4_3 true true 1 stage4_3 sem4_3
    hrank4 hreads4_3 hinb4_3 nbuf4_3 (Memref.isWhole_whole _) hwx4_3 hstage4_3

abbrev win4_4 : Pipeline.Window sig grid4 :=
  Pipeline.Window.ofSpec (Memref.whole main_v100_1) S1x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v94) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v108) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v119) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v120) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v121) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v102) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v106) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v116) S128x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v122) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v123) S2000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v123) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v124) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg10) S128x40.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v125) S1x40.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v126) S2000x40.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S1x128 : Shape := ⟨2, ![1, 128]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 294
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128, .f32⟩
  | 5 => ⟨S3x128, .f32⟩
  | 6 => ⟨S3x128x128, .f32⟩
  | 7 => ⟨S3x128, .f32⟩
  | 8 => ⟨S128x128, .f32⟩
  | 9 => ⟨S128, .f32⟩
  | 10 => ⟨S128x40, .f32⟩
  | 11 => ⟨S40, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S50000x128, .f32⟩
  | 30 => ⟨S1x128x128, .f32⟩
  | 31 => ⟨S128x128, .f32⟩
  | 32 => ⟨S50000x128, .f32⟩
  | 33 => ⟨S1x128, .f32⟩
  | 34 => ⟨S128, .f32⟩
  | 35 => ⟨S1x128, .f32⟩
  | 36 => ⟨S50000x128, .f32⟩
  | 37 => ⟨S50000x128, .f32⟩
  | 38 => ⟨S1x128, .f32⟩
  | 39 => ⟨S128, .f32⟩
  | 40 => ⟨S1x128, .f32⟩
  | 41 => ⟨S128, .f32⟩
  | 42 => ⟨S_, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S_, .i32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S50000x128, .f32⟩
  | 56 => ⟨S50000x128, .f32⟩
  | 57 => ⟨S50000x128, .f32⟩
  | 58 => ⟨S_, .f32⟩
  | 59 => ⟨S_, .f32⟩
  | 60 => ⟨S_, .f32⟩
  | 61 => ⟨S_, .f32⟩
  | 62 => ⟨S128, .f32⟩
  | 63 => ⟨S1x128, .f32⟩
  | 64 => ⟨S1x128, .f32⟩
  | 65 => ⟨S1x128, .f32⟩
  | 66 => ⟨S_, .f32⟩
  | 67 => ⟨S_, .i1⟩
  | 68 => ⟨S_, .f32⟩
  | 69 => ⟨S_, .f32⟩
  | 70 => ⟨S1x128, .f32⟩
  | 71 => ⟨S1x128, .f32⟩
  | 72 => ⟨S50000x128, .f32⟩
  | 73 => ⟨S50000x128, .f32⟩
  | 74 => ⟨S_, .f32⟩
  | 75 => ⟨S1x128, .f32⟩
  | 76 => ⟨S1x128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S1x128x128, .f32⟩
  | 90 => ⟨S128x128, .f32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S50000x128, .f32⟩
  | 114 => ⟨S1x128x128, .f32⟩
  | 115 => ⟨S128x128, .f32⟩
  | 116 => ⟨S50000x128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S1x128, .f32⟩
  | 123 => ⟨S128, .f32⟩
  | 124 => ⟨S1x128, .f32⟩
  | 125 => ⟨S128, .f32⟩
  | 126 => ⟨S_, .f32⟩
  | 127 => ⟨S128, .f32⟩
  | _ => ⟨S50000x128, .f32⟩

abbrev hbmTy0_1 (i : Nat) : BufTy := match i % 128 with
  | 0 => ⟨S1x128, .f32⟩
  | 1 => ⟨S_, .f32⟩
  | 2 => ⟨S1x128, .f32⟩
  | 3 => ⟨S1x128, .f32⟩
  | 4 => ⟨S_, .i32⟩
  | 5 => ⟨S_, .f32⟩
  | 6 => ⟨S128, .f32⟩
  | 7 => ⟨S1x128, .f32⟩
  | 8 => ⟨S_, .f32⟩
  | 9 => ⟨S1x128, .f32⟩
  | 10 => ⟨S1x128, .f32⟩
  | 11 => ⟨S50000x128, .f32⟩
  | 12 => ⟨S50000x128, .f32⟩
  | 13 => ⟨S50000x128, .f32⟩
  | 14 => ⟨S_, .f32⟩
  | 15 => ⟨S_, .f32⟩
  | 16 => ⟨S_, .f32⟩
  | 17 => ⟨S_, .f32⟩
  | 18 => ⟨S128, .f32⟩
  | 19 => ⟨S1x128, .f32⟩
  | 20 => ⟨S1x128, .f32⟩
  | 21 => ⟨S1x128, .f32⟩
  | 22 => ⟨S_, .f32⟩
  | 23 => ⟨S_, .i1⟩
  | 24 => ⟨S_, .f32⟩
  | 25 => ⟨S_, .f32⟩
  | 26 => ⟨S1x128, .f32⟩
  | 27 => ⟨S1x128, .f32⟩
  | 28 => ⟨S50000x128, .f32⟩
  | 29 => ⟨S50000x128, .f32⟩
  | 30 => ⟨S_, .f32⟩
  | 31 => ⟨S1x128, .f32⟩
  | 32 => ⟨S1x128, .f32⟩
  | 33 => ⟨S1x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S1x128x128, .f32⟩
  | 46 => ⟨S128x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000x128, .f32⟩
  | 70 => ⟨S1x128x128, .f32⟩
  | 71 => ⟨S128x128, .f32⟩
  | 72 => ⟨S50000x128, .f32⟩
  | 73 => ⟨S1x128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S128, .f32⟩
  | 80 => ⟨S1x128, .f32⟩
  | 81 => ⟨S128, .f32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S_, .i32⟩
  | 89 => ⟨S_, .f32⟩
  | 90 => ⟨S128, .f32⟩
  | 91 => ⟨S1x128, .f32⟩
  | 92 => ⟨S_, .f32⟩
  | 93 => ⟨S1x128, .f32⟩
  | 94 => ⟨S1x128, .f32⟩
  | 95 => ⟨S50000x128, .f32⟩
  | 96 => ⟨S50000x128, .f32⟩
  | 97 => ⟨S50000x128, .f32⟩
  | 98 => ⟨S_, .f32⟩
  | 99 => ⟨S_, .f32⟩
  | 100 => ⟨S_, .f32⟩
  | 101 => ⟨S_, .f32⟩
  | 102 => ⟨S128, .f32⟩
  | 103 => ⟨S1x128, .f32⟩
  | 104 => ⟨S1x128, .f32⟩
  | 105 => ⟨S1x128, .f32⟩
  | 106 => ⟨S_, .f32⟩
  | 107 => ⟨S_, .i1⟩
  | 108 => ⟨S_, .f32⟩
  | 109 => ⟨S_, .f32⟩
  | 110 => ⟨S1x128, .f32⟩
  | 111 => ⟨S1x128, .f32⟩
  | 112 => ⟨S50000x128, .f32⟩
  | 113 => ⟨S50000x128, .f32⟩
  | 114 => ⟨S_, .f32⟩
  | 115 => ⟨S1x128, .f32⟩
  | 116 => ⟨S1x128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_2 (i : Nat) : BufTy := match i % 128 with
  | 0 => ⟨S50000x128, .f32⟩
  | 1 => ⟨S1x128x128, .f32⟩
  | 2 => ⟨S128x128, .f32⟩
  | 3 => ⟨S50000x128, .f32⟩
  | 4 => ⟨S1x128, .f32⟩
  | 5 => ⟨S128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S50000x40, .f32⟩
  | 20 => ⟨S1x40, .f32⟩
  | 21 => ⟨S50000x40, .f32⟩
  | 22 => ⟨S50000x40, .f32⟩
  | 23 => ⟨S_, .f32⟩
  | 24 => ⟨S50000, .f32⟩
  | 25 => ⟨S_, .f32⟩
  | 26 => ⟨S50000, .f32⟩
  | 27 => ⟨S50000, .f32⟩
  | 28 => ⟨S50000x1, .f32⟩
  | 29 => ⟨S50000x40, .f32⟩
  | 30 => ⟨S50000x40, .f32⟩
  | 31 => ⟨S50000x40, .f32⟩
  | 32 => ⟨S_, .f32⟩
  | 33 => ⟨S50000, .f32⟩
  | 34 => ⟨S50000x1, .f32⟩
  | 35 => ⟨S50000x1, .f32⟩
  | 36 => ⟨S50000x40, .f32⟩
  | 37 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_c_3 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_v12 : Ref sig .tc := ⟨.hbm, 65, rfl⟩
abbrev main_call0_cst_3 : Ref sig .tc := ⟨.hbm, 66, rfl⟩
abbrev main_call0_v13 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_4 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_call1_cst : Ref sig .tc := ⟨.hbm, 86, rfl⟩
abbrev main_call1_v0 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_call2_cst : Ref sig .tc := ⟨.hbm, 97, rfl⟩
abbrev main_call2_v0 : Ref sig .tc := ⟨.hbm, 98, rfl⟩
abbrev main_v54 : Ref sig .tc := ⟨.hbm, 99, rfl⟩
abbrev main_c_5 : Ref sig .tc := ⟨.hbm, 100, rfl⟩
abbrev main_v55 : Ref sig .tc := ⟨.hbm, 101, rfl⟩
abbrev main_v56 : Ref sig .tc := ⟨.hbm, 102, rfl⟩
abbrev main_c_6 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_7 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_cst_8 : Ref sig .tc := ⟨.hbm, 126, rfl⟩
abbrev main_v78 : Ref sig .tc := ⟨.hbm, 127, rfl⟩
abbrev main_v79 : Ref sig .tc := ⟨.hbm, 128, rfl⟩
abbrev main_cst_9 : Ref sig .tc := ⟨.hbm, 129, rfl⟩
abbrev main_v80 : Ref sig .tc := ⟨.hbm, 130, rfl⟩
abbrev main_v81 : Ref sig .tc := ⟨.hbm, 131, rfl⟩
abbrev main_c_10 : Ref sig .tc := ⟨.hbm, 132, rfl⟩
abbrev main_call3_cst : Ref sig .tc := ⟨.hbm, 133, rfl⟩
abbrev main_call3_v0 : Ref sig .tc := ⟨.hbm, 134, rfl⟩
abbrev main_call3_v1 : Ref sig .tc := ⟨.hbm, 135, rfl⟩
abbrev main_call3_cst_0 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_call3_v5 : Ref sig .tc := ⟨.hbm, 140, rfl⟩
abbrev main_call3_v6 : Ref sig .tc := ⟨.hbm, 141, rfl⟩
abbrev main_call3_v7 : Ref sig .tc := ⟨.hbm, 142, rfl⟩
abbrev main_call3_cst_1 : Ref sig .tc := ⟨.hbm, 143, rfl⟩
abbrev main_call3_v8 : Ref sig .tc := ⟨.hbm, 144, rfl⟩
abbrev main_call3_cst_2 : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_v12 : Ref sig .tc := ⟨.hbm, 149, rfl⟩
abbrev main_call3_cst_3 : Ref sig .tc := ⟨.hbm, 150, rfl⟩
abbrev main_call3_v13 : Ref sig .tc := ⟨.hbm, 151, rfl⟩
abbrev main_call3_cst_4 : Ref sig .tc := ⟨.hbm, 152, rfl⟩
abbrev main_call3_call0_v0 : Ref sig .tc := ⟨.hbm, 153, rfl⟩
abbrev main_call3_call0_v1 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_cst_11 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_call4_cst : Ref sig .tc := ⟨.hbm, 170, rfl⟩
abbrev main_call4_v0 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_call5_cst : Ref sig .tc := ⟨.hbm, 181, rfl⟩
abbrev main_call5_v0 : Ref sig .tc := ⟨.hbm, 182, rfl⟩
abbrev main_v105 : Ref sig .tc := ⟨.hbm, 183, rfl⟩
abbrev main_c_12 : Ref sig .tc := ⟨.hbm, 184, rfl⟩
abbrev main_v106 : Ref sig .tc := ⟨.hbm, 185, rfl⟩
abbrev main_v107 : Ref sig .tc := ⟨.hbm, 186, rfl⟩
abbrev main_c_13 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_cst_14 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_cst_15 : Ref sig .tc := ⟨.hbm, 210, rfl⟩
abbrev main_v129 : Ref sig .tc := ⟨.hbm, 211, rfl⟩
abbrev main_v130 : Ref sig .tc := ⟨.hbm, 212, rfl⟩
abbrev main_cst_16 : Ref sig .tc := ⟨.hbm, 213, rfl⟩
abbrev main_v131 : Ref sig .tc := ⟨.hbm, 214, rfl⟩
abbrev main_v132 : Ref sig .tc := ⟨.hbm, 215, rfl⟩
abbrev main_c_17 : Ref sig .tc := ⟨.hbm, 216, rfl⟩
abbrev main_call6_cst : Ref sig .tc := ⟨.hbm, 217, rfl⟩
abbrev main_call6_v0 : Ref sig .tc := ⟨.hbm, 218, rfl⟩
abbrev main_call6_v1 : Ref sig .tc := ⟨.hbm, 219, rfl⟩
abbrev main_call6_cst_0 : Ref sig .tc := ⟨.hbm, 220, rfl⟩
abbrev main_call6_v2 : Ref sig .tc := ⟨.hbm, 221, rfl⟩
abbrev main_call6_v3 : Ref sig .tc := ⟨.hbm, 222, rfl⟩
abbrev main_call6_v4 : Ref sig .tc := ⟨.hbm, 223, rfl⟩
abbrev main_call6_v5 : Ref sig .tc := ⟨.hbm, 224, rfl⟩
abbrev main_call6_v6 : Ref sig .tc := ⟨.hbm, 225, rfl⟩
abbrev main_call6_v7 : Ref sig .tc := ⟨.hbm, 226, rfl⟩
abbrev main_call6_cst_1 : Ref sig .tc := ⟨.hbm, 227, rfl⟩
abbrev main_call6_v8 : Ref sig .tc := ⟨.hbm, 228, rfl⟩
abbrev main_call6_cst_2 : Ref sig .tc := ⟨.hbm, 229, rfl⟩
abbrev main_call6_v9 : Ref sig .tc := ⟨.hbm, 230, rfl⟩
abbrev main_call6_v10 : Ref sig .tc := ⟨.hbm, 231, rfl⟩
abbrev main_call6_v11 : Ref sig .tc := ⟨.hbm, 232, rfl⟩
abbrev main_call6_v12 : Ref sig .tc := ⟨.hbm, 233, rfl⟩
abbrev main_call6_cst_3 : Ref sig .tc := ⟨.hbm, 234, rfl⟩
abbrev main_call6_v13 : Ref sig .tc := ⟨.hbm, 235, rfl⟩
abbrev main_call6_cst_4 : Ref sig .tc := ⟨.hbm, 236, rfl⟩
abbrev main_call6_call0_v0 : Ref sig .tc := ⟨.hbm, 237, rfl⟩
abbrev main_call6_call0_v1 : Ref sig .tc := ⟨.hbm, 238, rfl⟩
abbrev main_v133 : Ref sig .tc := ⟨.hbm, 239, rfl⟩
abbrev main_v134 : Ref sig .tc := ⟨.hbm, 240, rfl⟩
abbrev main_v135 : Ref sig .tc := ⟨.hbm, 241, rfl⟩
abbrev main_cst_18 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_v139 : Ref sig .tc := ⟨.hbm, 246, rfl⟩
abbrev main_v140 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_call7_cst : Ref sig .tc := ⟨.hbm, 254, rfl⟩
abbrev main_call7_v0 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_call8_cst : Ref sig .tc := ⟨.hbm, 265, rfl⟩
abbrev main_call8_v0 : Ref sig .tc := ⟨.hbm, 266, rfl⟩
abbrev main_v156 : Ref sig .tc := ⟨.hbm, 267, rfl⟩
abbrev main_v157 : Ref sig .tc := ⟨.hbm, 268, rfl⟩
abbrev main_v158 : Ref sig .tc := ⟨.hbm, 269, rfl⟩
abbrev main_v159 : Ref sig .tc := ⟨.hbm, 270, rfl⟩
abbrev main_v160 : Ref sig .tc := ⟨.hbm, 271, rfl⟩
abbrev main_call9_cst : Ref sig .tc := ⟨.hbm, 272, rfl⟩
abbrev main_call9_v0 : Ref sig .tc := ⟨.hbm, 273, rfl⟩
abbrev main_v161 : Ref sig .tc := ⟨.hbm, 274, rfl⟩
abbrev main_v162 : Ref sig .tc := ⟨.hbm, 275, rfl⟩
abbrev main_v163 : Ref sig .tc := ⟨.hbm, 276, rfl⟩
abbrev main_v164 : Ref sig .tc := ⟨.hbm, 277, rfl⟩
abbrev main_v165 : Ref sig .tc := ⟨.hbm, 278, rfl⟩
abbrev main_call10_cst : Ref sig .tc := ⟨.hbm, 279, rfl⟩
abbrev main_call10_v0 : Ref sig .tc := ⟨.hbm, 280, rfl⟩
abbrev main_call10_cst_0 : Ref sig .tc := ⟨.hbm, 281, rfl⟩
abbrev main_call10_v1 : Ref sig .tc := ⟨.hbm, 282, rfl⟩
abbrev main_call10_v2 : Ref sig .tc := ⟨.hbm, 283, rfl⟩
abbrev main_call10_v3 : Ref sig .tc := ⟨.hbm, 284, rfl⟩
abbrev main_call10_v4 : Ref sig .tc := ⟨.hbm, 285, rfl⟩
abbrev main_call10_v5 : Ref sig .tc := ⟨.hbm, 286, rfl⟩
abbrev main_call10_v6 : Ref sig .tc := ⟨.hbm, 287, rfl⟩
abbrev main_call10_cst_1 : Ref sig .tc := ⟨.hbm, 288, rfl⟩
abbrev main_call10_v7 : Ref sig .tc := ⟨.hbm, 289, rfl⟩
abbrev main_call10_v8 : Ref sig .tc := ⟨.hbm, 290, rfl⟩
abbrev main_call10_v9 : Ref sig .tc := ⟨.hbm, 291, rfl⟩
abbrev main_call10_v10 : Ref sig .tc := ⟨.hbm, 292, rfl⟩
abbrev main_v166 : Ref sig .tc := ⟨.hbm, 293, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KRun.lean ====
/-
  The run of the idealized kernel's whole program with its result named: every weakly fair execution terminates without a
  fault, the arguments end as launched, and the result array ends at the last region's write-backs over the contents
  the host operations and the earlier regions leave, in order.
-/
import proofs.«149897_j14525579395559_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting; the result
    array ends at the contents after the last region, and every argument array as launched. -/
theorem run_value : θ_run defs (onTc (τ := τ) (main (F := F))) ⟨m, fun _ => 0, ρ⟩ (fun r => ∀ c : Dev nD,
      r.2.mem ((c.tc : Thread nD τ).loc main_v126) = W14 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v126 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c)⟩)

end Cert.KernelIdeal.Gen

end
-- ==== Proof.LibLayers.lean ====
/-
  The layers of the network as whole-array functions over the extended reals, index by index.

  Rows are nodes. A layer multiplies each node's feature row by a weight matrix (`dense`), the products are gathered along
  the edges, weighted and summed into the target nodes (that part is the same host operations on both sides and is
  never opened), then a bias row is added and the result is cut at zero (`biasRelu`), with the previous layer's output
  added back in the two middle layers (`biasReluRes`); the last layer ends in a row-wise log-softmax (`biasLogSoftmax`):
  with z = a + b, m the row's maximum and s the row's sum of exp (z − m), the entry is (z − m) − log s.
-/
import Idealize.ShloMosaic.Lib.ValueIdx
import Idealize.ShloMosaic.PureOps.Ideal.Laws

noncomputable section

open scoped BigOperators

namespace Cert.Spec

open Idealize.ShloMosaic Idealize.ShloMosaic.ValueIdx

/-- The row of a rank-2 index, below the literal extent. -/
abbrev row {n0 n1 : ℕ} (i : (⟨2, ![n0, n1]⟩ : Shape).Idx) : Fin n0 := ⟨(i 0).val, idx2_lt0 i⟩
/-- The column of a rank-2 index, below the literal extent. -/
abbrev col {n0 n1 : ℕ} (i : (⟨2, ![n0, n1]⟩ : Shape).Idx) : Fin n1 := ⟨(i 1).val, idx2_lt1 i⟩

theorem ix2_row_col {n0 n1 : ℕ} (i : (⟨2, ![n0, n1]⟩ : Shape).Idx) : ix2 (row i) (col i) = i :=
  funext fun a => match a with | ⟨0, _⟩ => rfl | ⟨1, _⟩ => rfl

/-- Each row times the weight matrix: entry (r, c) is the sum over k of h (r, k) · w (k, c). -/
def dense {R K M : ℕ} (h : FVec Ideal ⟨2, ![R, K]⟩ .f32) (w : FVec Ideal ⟨2, ![K, M]⟩ .f32) : FVec Ideal ⟨2, ![R, M]⟩ .f32 :=
  fun i => ∑ k : Fin K, h (ix2 (row i) k) * w (ix2 k (col i))

/-- The bias row added to every row. -/
def biased {R M : ℕ} (a : FVec Ideal ⟨2, ![R, M]⟩ .f32) (b : FVec Ideal ⟨1, ![M]⟩ .f32) : FVec Ideal ⟨2, ![R, M]⟩ .f32 :=
  fun i => a i + b (ix1 (col i))

/-- Bias, then the cut at zero. -/
def biasRelu {R M : ℕ} (a : FVec Ideal ⟨2, ![R, M]⟩ .f32) (b : FVec Ideal ⟨1, ![M]⟩ .f32) : FVec Ideal ⟨2, ![R, M]⟩ .f32 :=
  fun i => max (biased a b i) (Ideal.ofBits .f32 0x00000000#32)

/-- Bias, the cut at zero, and the earlier layer's output added back. -/
def biasReluRes {R M : ℕ} (a : FVec Ideal ⟨2, ![R, M]⟩ .f32) (b : FVec Ideal ⟨1, ![M]⟩ .f32) (r : FVec Ideal ⟨2, ![R, M]⟩ .f32) :
    FVec Ideal ⟨2, ![R, M]⟩ .f32 :=
  fun i => max (biased a b i) (Ideal.ofBits .f32 0x00000000#32) + r i

/-- A row's maximum, folded from −∞. -/
def rowMax {R M : ℕ} (z : FVec Ideal ⟨2, ![R, M]⟩ .f32) (p : Fin R) : EReal :=
  (Finset.univ : Finset (Fin M)).fold max (Ideal.ofBits .f32 0xFF800000#32) (fun k => z (ix2 p k))

/-- The entries with their row's maximum taken off. -/
def centred {R M : ℕ} (z : FVec Ideal ⟨2, ![R, M]⟩ .f32) : FVec Ideal ⟨2, ![R, M]⟩ .f32 :=
  fun i => z i - rowMax z (row i)

/-- Row-wise log-softmax of the biased entries. -/
def biasLogSoftmax {R M : ℕ} (a : FVec Ideal ⟨2, ![R, M]⟩ .f32) (b : FVec Ideal ⟨1, ![M]⟩ .f32) : FVec Ideal ⟨2, ![R, M]⟩ .f32 :=
  fun i => centred (biased a b) i - Ideal.log (∑ k : Fin M, Ideal.exp (centred (biased a b) (ix2 (row i) k)))

/-- The maximum with −∞ is the other operand. -/
theorem max_ninf (x : EReal) : max (Ideal.ofBits .f32 0xFF800000#32) x = x := by
  simp [Ideal.ofBits, Ideal.ieee]

/-- The log-softmax of a row depends on that row and on the bias only: equal rows (of arrays of any heights) and equal biases
    give equal entries. -/
theorem biasLogSoftmax_congr {R R' M : ℕ} (x : FVec Ideal ⟨2, ![R, M]⟩ .f32) (x' : FVec Ideal ⟨2, ![R', M]⟩ .f32) (v v' : FVec Ideal ⟨1, ![M]⟩ .f32)
    (p : Fin R) (p' : Fin R') (q : Fin M) (hrow : ∀ k : Fin M, x (ix2 p k) = x' (ix2 p' k)) (hv : ∀ k : Fin M, v (ix1 k) = v' (ix1 k)) :
    biasLogSoftmax x v (ix2 p q) = biasLogSoftmax x' v' (ix2 p' q) := by
  have hz : ∀ k : Fin M, biased x v (ix2 p k) = biased x' v' (ix2 p' k) := fun k => congrArg₂ (· + ·) (hrow k) (hv k)
  have hm : rowMax (biased x v) p = rowMax (biased x' v') p' := by
    unfold rowMax
    exact congrArg (Finset.fold max (Ideal.ofBits .f32 0xFF800000#32) · Finset.univ) (funext hz)
  have hc : ∀ k : Fin M, centred (biased x v) (ix2 p k) = centred (biased x' v') (ix2 p' k) := fun k => congrArg₂ (· - ·) (hz k) hm
  unfold biasLogSoftmax
  exact congrArg₂ (· - ·) (hc q) (congrArg Ideal.log (Finset.sum_congr rfl fun k _ => congrArg Ideal.exp (hc k)))

end Cert.Spec

end
-- ==== Proof.Net.lean ====
/-
  The network both programs compute, stage by stage, as whole-array functions over the extended reals.

  Rows are the 50000 nodes, columns the 128 features. One graph layer: every node adds to its own row the rows of the
  nodes that send it an edge (`agg`); the rows are multiplied by a weight matrix and a bias is added (`lin`); each
  feature column is centred by its mean over the nodes and scaled by the reciprocal square root of its variance plus a
  small constant, then by a gain and an offset, and cut at zero (`bnRelu`); a second weight matrix and bias follow, cut
  at zero again (`linRelu`). After three layers two more weight matrices (the first cut at zero) and a row-wise
  log-softmax (`final`).

  The variance of a column is written two ways: the mean of the squares minus the square of the mean (`varK`), and the
  mean of the squared distances to the mean (`varR`). On finite entries they are the same number.
-/
import Idealize.ShloMosaic.Lib.ValueIdx
import Idealize.ShloMosaic.PureOps.Ideal.Laws
import proofs.«149897_j14525579395559_1_alg».proof.Proof.LibLayers

noncomputable section

open scoped BigOperators

namespace Cert.Net

open Idealize.ShloMosaic Idealize.ShloMosaic.ValueIdx Cert.Spec

/-- The node-feature arrays: 50000 rows of 128. -/
abbrev SN : Shape := ⟨2, ![50000, 128]⟩

/-- The number of nodes, 50000, as the programs spell it. -/
def nF : EReal := Ideal.ofBits .f32 0x47435000#32
/-- The small constant added to a variance, the nearest single-precision number to 1/100000. -/
def epsF : EReal := Ideal.ofBits .f32 0x3727C5AC#32
/-- Zero, as the programs spell it. -/
def zeroF : EReal := Ideal.ofBits .f32 0x00000000#32

/-- The sender of edge e, counted from the end when negative, clamped into the rows of the table. -/
def srcRow (ei : IVec ⟨2, ![2, 800000]⟩ 32) (e : Fin 800000) : Fin 50000 :=
  ⟨min (if (ei (ix2 (0 : Fin 2) e)).slt 0#32 then ei (ix2 (0 : Fin 2) e) + 50000#32 else ei (ix2 (0 : Fin 2) e)).toInt.toNat (50000 - 1),
    by omega⟩

/-- Each node's row plus the rows of the senders of the edges that name it as receiver (a receiver outside the table
    receives nothing). -/
def agg (h : FVec Ideal SN .f32) (ei : IVec ⟨2, ![2, 800000]⟩ 32) : FVec Ideal SN .f32 :=
  fun i => h i + (zeroF + ∑ e ∈ Finset.univ.filter (fun e : Fin 800000 => (ei (ix2 (1 : Fin 2) e)).toInt = ((row i).val : ℤ)),
    h (ix2 (srcRow ei e) (col i)))

/-- Rows times a weight matrix, plus a bias row. -/
def lin {R K M : ℕ} (h : FVec Ideal ⟨2, ![R, K]⟩ .f32) (W : Fin K → Fin M → EReal) (b : Fin M → EReal) :
    FVec Ideal ⟨2, ![R, M]⟩ .f32 :=
  fun i => (∑ k : Fin K, h (ix2 (row i) k) * W k (col i)) + b (col i)

/-- The same, cut at zero. -/
def linRelu {R K M : ℕ} (h : FVec Ideal ⟨2, ![R, K]⟩ .f32) (W : Fin K → Fin M → EReal) (b : Fin M → EReal) :
    FVec Ideal ⟨2, ![R, M]⟩ .f32 :=
  fun i => max (lin h W b i) zeroF

/-- A column's sum over the nodes. -/
def colSum (z : FVec Ideal SN .f32) (j : Fin 128) : EReal := ∑ n : Fin 50000, z (ix2 n j)
/-- A column's sum of squares over the nodes. -/
def colSumSq (z : FVec Ideal SN .f32) (j : Fin 128) : EReal := ∑ n : Fin 50000, z (ix2 n j) * z (ix2 n j)
/-- A column's mean. -/
def mean (z : FVec Ideal SN .f32) (j : Fin 128) : EReal := Ideal.div (colSum z j) nF
/-- A column's variance as the mean of the squares minus the square of the mean. -/
def varK (z : FVec Ideal SN .f32) (j : Fin 128) : EReal := Ideal.div (colSumSq z j) nF - mean z j * mean z j
/-- A column's variance as the mean of the squared distances to the mean. -/
def varR (z : FVec Ideal SN .f32) (j : Fin 128) : EReal :=
  Ideal.div (∑ n : Fin 50000, (z (ix2 n j) - mean z j) * (z (ix2 n j) - mean z j)) nF

/-- Centre by `mu`, scale by the reciprocal square root of `var` plus the small constant, then by the gain `g`, add the
    offset `be`, cut at zero. -/
def bnRelu (z : FVec Ideal SN .f32) (mu var g be : Fin 128 → EReal) : FVec Ideal SN .f32 :=
  fun i => max ((z i - mu (col i)) * Ideal.rsqrt (var (col i) + epsF) * g (col i) + be (col i)) zeroF

/-- One layer after the aggregation, for a given way `var` of writing the variance. -/
def layer (var : FVec Ideal SN .f32 → Fin 128 → EReal) (hin : FVec Ideal SN .f32) (W1 : Fin 128 → Fin 128 → EReal)
    (b1 g be : Fin 128 → EReal) (W2 : Fin 128 → Fin 128 → EReal) (b2 : Fin 128 → EReal) : FVec Ideal SN .f32 :=
  linRelu (bnRelu (lin hin W1 b1) (mean (lin hin W1 b1)) (var (lin hin W1 b1)) g be) W2 b2

/-- Row-wise log-softmax: with m the row's maximum, (z − m) − log Σ exp (z − m). -/
def logSoftmax {R M : ℕ} (z : FVec Ideal ⟨2, ![R, M]⟩ .f32) : FVec Ideal ⟨2, ![R, M]⟩ .f32 :=
  fun i => (z i - rowMax z (row i)) - Ideal.log (∑ k : Fin M, Ideal.exp (z (ix2 (row i) k) - rowMax z (row i)))

/-- The closing two weight matrices and the log-softmax. -/
def final (h : FVec Ideal SN .f32) (W1 : Fin 128 → Fin 128 → EReal) (b1 : Fin 128 → EReal) (W2 : Fin 128 → Fin 40 → EReal)
    (b2 : Fin 40 → EReal) : FVec Ideal ⟨2, ![50000, 40]⟩ .f32 :=
  logSoftmax (lin (linRelu h W1 b1) W2 b2)

/-- Layer `l`'s matrix out of a stack of three. -/
def mat3 (a : FVec Ideal ⟨3, ![3, 128, 128]⟩ .f32) (l : Fin 3) : Fin 128 → Fin 128 → EReal := fun k j => a (ix3 l k j)
/-- Layer `l`'s row out of a stack of three. -/
def row3 (a : FVec Ideal ⟨2, ![3, 128]⟩ .f32) (l : Fin 3) : Fin 128 → EReal := fun j => a (ix2 l j)

/-- Graph layer `l`: aggregation, then the layer, with the stacked parameters. -/
def conv (var : FVec Ideal SN .f32 → Fin 128 → EReal) (l : Fin 3) (h : FVec Ideal SN .f32) (ei : IVec ⟨2, ![2, 800000]⟩ 32)
    (a2 : FVec Ideal ⟨3, ![3, 128, 128]⟩ .f32) (a3 a4 a5 : FVec Ideal ⟨2, ![3, 128]⟩ .f32)
    (a6 : FVec Ideal ⟨3, ![3, 128, 128]⟩ .f32) (a7 : FVec Ideal ⟨2, ![3, 128]⟩ .f32) : FVec Ideal SN .f32 :=
  layer var (agg h ei) (mat3 a2 l) (row3 a3 l) (row3 a4 l) (row3 a5 l) (mat3 a6 l) (row3 a7 l)

/-- The whole network, for a given way of writing the variance. -/
def net (var : FVec Ideal SN .f32 → Fin 128 → EReal) (x : FVec Ideal SN .f32) (ei : IVec ⟨2, ![2, 800000]⟩ 32)
    (a2 : FVec Ideal ⟨3, ![3, 128, 128]⟩ .f32) (a3 a4 a5 : FVec Ideal ⟨2, ![3, 128]⟩ .f32)
    (a6 : FVec Ideal ⟨3, ![3, 128, 128]⟩ .f32) (a7 : FVec Ideal ⟨2, ![3, 128]⟩ .f32)
    (a8 : FVec Ideal ⟨2, ![128, 128]⟩ .f32) (a9 : FVec Ideal ⟨1, ![128]⟩ .f32)
    (a10 : FVec Ideal ⟨2, ![128, 40]⟩ .f32) (a11 : FVec Ideal ⟨1, ![40]⟩ .f32) : FVec Ideal ⟨2, ![50000, 40]⟩ .f32 :=
  final (conv var 2 (conv var 1 (conv var 0 x ei a2 a3 a4 a5 a6 a7) ei a2 a3 a4 a5 a6 a7) ei a2 a3 a4 a5 a6 a7)
    (fun k j => a8 (ix2 k j)) (fun j => a9 (ix1 j)) (fun k j => a10 (ix2 k j)) (fun j => a11 (ix1 j))

end Cert.Net

end
-- ==== Proof.Consts.lean ====
/-
  The three float constants the network spells, as the extended reals they denote: the number of nodes 50000, zero, and
  the small positive constant added to a variance (the nearest single-precision number to 1/100000, a positive real).
-/
import Idealize.ShloMosaic.PureOps.Ideal
import proofs.«149897_j14525579395559_1_alg».proof.Proof.Net

noncomputable section

namespace Cert.Net

open Idealize.ShloMosaic

/-- The pattern of 50000.0 denotes the real number 50000. -/
theorem nF_eq : nF = ((50000 : ℝ) : EReal) := by
  unfold nF
  simp [Ideal.ofBits, Ideal.ieee, -EReal.coe_mul]; norm_num

/-- The zero pattern denotes zero. -/
theorem zeroF_eq : zeroF = 0 := by
  unfold zeroF
  simp [Ideal.ofBits, Ideal.ieee]

/-- The small constant is a positive real number. -/
theorem epsF_pos : ∃ e : ℝ, 0 < e ∧ epsF = (e : EReal) := by
  unfold epsF
  refine ⟨(10995116 : ℝ) * (2 : ℝ) ^ (-40 : ℤ), by positivity, ?_⟩
  simp [Ideal.ofBits, Ideal.ieee, -EReal.coe_mul]

end Cert.Net

end
-- ==== Proof.NetLaws.lean ====
/-
  On finite entries the two ways of writing a column's variance give the same number, and every stage of the network
  keeps its entries finite; so the network written with either variance is one function of finite inputs.

  An extended real is "a real" when it is neither infinity. Sums, differences, products and maxima of reals are reals;
  the quotient by 50000 is the product with 1/50000; the reciprocal square root of a positive real is a real. For
  reals z₁ … zₙ with mean μ = (Σ z)/n:  (Σ z²)/n − μ² = (Σ (z − μ)²)/n, because Σ (z − μ)² = Σ z² − 2 μ Σ z + n μ².
  The variance, being a mean of squares, is not negative, so the variance plus the small positive constant is positive.
-/
import Mathlib.Tactic
import proofs.«149897_j14525579395559_1_alg».proof.Proof.Net
import proofs.«149897_j14525579395559_1_alg».proof.Proof.Consts

noncomputable section

open scoped BigOperators

namespace Cert.Net

open Idealize.ShloMosaic Idealize.ShloMosaic.ValueIdx Cert.Spec

/-- An extended real that is a real number. -/
def IsR (x : EReal) : Prop := ∃ r : ℝ, x = (r : EReal)

/-- An array all of whose entries are real numbers. -/
def Fn {S : Shape} (a : S.Idx → EReal) : Prop := ∀ i, IsR (a i)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.max {x y : EReal} (hx : IsR x) (hy : IsR y) : IsR (max x y) := by
  rcases le_total x y with h | h
  · rw [max_eq_right h]; exact hy
  · rw [max_eq_left h]; exact hx
theorem IsR.sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))
theorem isR_zeroF : IsR zeroF := ⟨0, by rw [zeroF_eq]; rfl⟩
theorem IsR.divN {x : EReal} (hx : IsR x) : IsR (Ideal.div x nF) := by
  obtain ⟨a, rfl⟩ := hx
  rw [nF_eq, Ideal.div_coe (by norm_num : (50000 : ℝ) ≠ 0)]
  exact ⟨a * (1 / 50000), (EReal.coe_mul _ _).symm⟩

/-- The reciprocal square root of a non-negative real plus the small positive constant is a real. -/
theorem isR_rsqrt {v : ℝ} (hv : 0 ≤ v) : IsR (Ideal.rsqrt ((v : EReal) + epsF)) := by
  obtain ⟨e, he, hE⟩ := epsF_pos
  rw [hE, ← EReal.coe_add, Ideal.rsqrt_coe, if_neg (by linarith), if_neg (by linarith)]
  exact ⟨_, rfl⟩

/-! ## The variance, two ways -/

/-- Over the reals: the mean of the squares minus the square of the mean is the mean of the squared distances to the mean. -/
theorem var_real {n : ℕ} (hn : (n : ℝ) ≠ 0) (z : Fin n → ℝ) :
    (∑ i, z i * z i) * (1 / (n : ℝ)) - ((∑ i, z i) * (1 / (n : ℝ))) * ((∑ i, z i) * (1 / (n : ℝ)))
      = (∑ i, (z i - (∑ i, z i) * (1 / (n : ℝ))) * (z i - (∑ i, z i) * (1 / (n : ℝ)))) * (1 / (n : ℝ)) := by
  set S := ∑ i, z i with hS
  have h1 : ∑ i, (z i - S * (1 / (n : ℝ))) * (z i - S * (1 / (n : ℝ)))
      = (∑ i, z i * z i) - 2 * (S * (1 / (n : ℝ))) * S + (n : ℝ) * ((S * (1 / (n : ℝ))) * (S * (1 / (n : ℝ)))) := by
    have : ∀ i, (z i - S * (1 / (n : ℝ))) * (z i - S * (1 / (n : ℝ)))
        = z i * z i - 2 * (S * (1 / (n : ℝ))) * z i + (S * (1 / (n : ℝ))) * (S * (1 / (n : ℝ))) := fun i => by ring
    rw [Finset.sum_congr rfl fun i _ => this i, Finset.sum_add_distrib, Finset.sum_sub_distrib, ← Finset.mul_sum,
      Finset.sum_const, Finset.card_univ, Fintype.card_fin, nsmul_eq_mul]
  rw [h1]
  field_simp
  ring

section Column
variable (z : FVec Ideal SN .f32) (hz : Fn z) (j : Fin 128)
include hz

/-- The entries of a column of an array of reals, as reals. -/
theorem col_reals : ∃ zr : Fin 50000 → ℝ, ∀ n, z (ix2 n j) = (zr n : EReal) :=
  ⟨fun n => (hz (ix2 n j)).choose, fun n => (hz (ix2 n j)).choose_spec⟩

theorem mean_real (zr : Fin 50000 → ℝ) (h : ∀ n, z (ix2 n j) = (zr n : EReal)) :
    mean z j = (((∑ n, zr n) * (1 / (50000 : ℝ)) : ℝ) : EReal) := by
  unfold mean colSum
  rw [nF_eq, Ideal.div_coe (by norm_num : (50000 : ℝ) ≠ 0), Finset.sum_congr rfl fun n _ => h n, ← coe_sum, ← EReal.coe_mul]

theorem varR_real (zr : Fin 50000 → ℝ) (h : ∀ n, z (ix2 n j) = (zr n : EReal)) :
    varR z j = (((∑ n, (zr n - (∑ n, zr n) * (1 / (50000 : ℝ))) * (zr n - (∑ n, zr n) * (1 / (50000 : ℝ)))) * (1 / (50000 : ℝ)) : ℝ) : EReal) := by
  unfold varR
  rw [mean_real z hz j zr h, nF_eq, Ideal.div_coe (by norm_num : (50000 : ℝ) ≠ 0)]
  rw [Finset.sum_congr rfl fun n _ => by rw [h n, ← EReal.coe_sub, ← EReal.coe_mul]]
  rw [← coe_sum, ← EReal.coe_mul]

theorem varK_real (zr : Fin 50000 → ℝ) (h : ∀ n, z (ix2 n j) = (zr n : EReal)) :
    varK z j = (((∑ n, zr n * zr n) * (1 / (50000 : ℝ)) - ((∑ n, zr n) * (1 / (50000 : ℝ))) * ((∑ n, zr n) * (1 / (50000 : ℝ))) : ℝ) : EReal) := by
  unfold varK colSumSq
  rw [mean_real z hz j zr h, nF_eq, Ideal.div_coe (by norm_num : (50000 : ℝ) ≠ 0)]
  rw [Finset.sum_congr rfl fun n _ => by rw [h n, ← EReal.coe_mul]]
  rw [← coe_sum, ← EReal.coe_mul, ← EReal.coe_mul, ← EReal.coe_sub]

/-- On a column of reals the two variances are one number. -/
theorem varK_eq_varR : varK z j = varR z j := by
  obtain ⟨zr, h⟩ := col_reals z hz j
  rw [varK_real z hz j zr h, varR_real z hz j zr h]
  have := var_real (n := 50000) (by norm_num) zr
  push_cast at this
  exact congrArg _ this

/-- The variance of a column of reals is a non-negative real. -/
theorem varR_nonneg : ∃ v : ℝ, 0 ≤ v ∧ varR z j = (v : EReal) := by
  obtain ⟨zr, h⟩ := col_reals z hz j
  refine ⟨_, ?_, varR_real z hz j zr h⟩
  exact mul_nonneg (Finset.sum_nonneg fun n _ => mul_self_nonneg _) (by norm_num)

theorem isR_mean : IsR (mean z j) := by
  obtain ⟨zr, h⟩ := col_reals z hz j
  exact ⟨_, mean_real z hz j zr h⟩

end Column

/-! ## Every stage keeps the entries real -/

theorem agg_fn (h : FVec Ideal SN .f32) (ei : IVec ⟨2, ![2, 800000]⟩ 32) (hh : Fn h) : Fn (agg h ei) := fun i =>
  (hh i).add (isR_zeroF.add (IsR.sum _ _ fun e _ => hh _))

theorem lin_fn {R K M : ℕ} (h : FVec Ideal ⟨2, ![R, K]⟩ .f32) (W : Fin K → Fin M → EReal) (b : Fin M → EReal)
    (hh : Fn h) (hW : ∀ k j, IsR (W k j)) (hb : ∀ j, IsR (b j)) : Fn (lin h W b) := fun i =>
  (IsR.sum _ _ fun k _ => (hh _).mul (hW k _)).add (hb _)

theorem linRelu_fn {R K M : ℕ} (h : FVec Ideal ⟨2, ![R, K]⟩ .f32) (W : Fin K → Fin M → EReal) (b : Fin M → EReal)
    (hh : Fn h) (hW : ∀ k j, IsR (W k j)) (hb : ∀ j, IsR (b j)) : Fn (linRelu h W b) := fun i =>
  (lin_fn h W b hh hW hb i).max isR_zeroF

theorem bnRelu_fn (z : FVec Ideal SN .f32) (mu var g be : Fin 128 → EReal) (hz : Fn z) (hmu : ∀ j, IsR (mu j))
    (hvar : ∀ j, ∃ v : ℝ, 0 ≤ v ∧ var j = (v : EReal)) (hg : ∀ j, IsR (g j)) (hbe : ∀ j, IsR (be j)) :
    Fn (bnRelu z mu var g be) := fun i => by
  obtain ⟨v, hv, hE⟩ := hvar (col i)
  unfold bnRelu
  rw [hE]
  exact (((((hz i).sub (hmu _)).mul (isR_rsqrt hv)).mul (hg _)).add (hbe _)).max isR_zeroF

/-- One layer on real entries and real parameters: written with either variance it is the same array, of real entries. -/
theorem layer_eq (hin : FVec Ideal SN .f32) (W1 : Fin 128 → Fin 128 → EReal) (b1 g be : Fin 128 → EReal)
    (W2 : Fin 128 → Fin 128 → EReal) (b2 : Fin 128 → EReal) (hh : Fn hin) (hW1 : ∀ k j, IsR (W1 k j)) (hb1 : ∀ j, IsR (b1 j))
    (hg : ∀ j, IsR (g j)) (hbe : ∀ j, IsR (be j)) (hW2 : ∀ k j, IsR (W2 k j)) (hb2 : ∀ j, IsR (b2 j)) :
    layer varK hin W1 b1 g be W2 b2 = layer varR hin W1 b1 g be W2 b2 ∧ Fn (layer varR hin W1 b1 g be W2 b2) := by
  have hz : Fn (lin hin W1 b1) := lin_fn hin W1 b1 hh hW1 hb1
  have hv : varK (lin hin W1 b1) = varR (lin hin W1 b1) := funext fun j => varK_eq_varR _ hz j
  refine ⟨by unfold layer; rw [hv], ?_⟩
  unfold layer
  exact linRelu_fn _ W2 b2 (bnRelu_fn _ _ _ g be hz (fun j => isR_mean _ hz j) (fun j => varR_nonneg _ hz j) hg hbe) hW2 hb2

/-- The finiteness of the float inputs, as the network needs it. -/
structure FinIn (x : FVec Ideal SN .f32) (a2 : FVec Ideal ⟨3, ![3, 128, 128]⟩ .f32) (a3 a4 a5 : FVec Ideal ⟨2, ![3, 128]⟩ .f32)
    (a6 : FVec Ideal ⟨3, ![3, 128, 128]⟩ .f32) (a7 : FVec Ideal ⟨2, ![3, 128]⟩ .f32) : Prop where
  x : Fn x
  a2 : Fn a2
  a3 : Fn a3
  a4 : Fn a4
  a5 : Fn a5
  a6 : Fn a6
  a7 : Fn a7

section Net
variable (x : FVec Ideal SN .f32) (ei : IVec ⟨2, ![2, 800000]⟩ 32)
    (a2 : FVec Ideal ⟨3, ![3, 128, 128]⟩ .f32) (a3 a4 a5 : FVec Ideal ⟨2, ![3, 128]⟩ .f32)
    (a6 : FVec Ideal ⟨3, ![3, 128, 128]⟩ .f32) (a7 : FVec Ideal ⟨2, ![3, 128]⟩ .f32)

theorem conv_eq (hf : FinIn x a2 a3 a4 a5 a6 a7) (l : Fin 3) (h : FVec Ideal SN .f32) (hh : Fn h) :
    conv varK l h ei a2 a3 a4 a5 a6 a7 = conv varR l h ei a2 a3 a4 a5 a6 a7 ∧ Fn (conv varR l h ei a2 a3 a4 a5 a6 a7) := by
  unfold conv
  exact layer_eq _ _ _ _ _ _ _ (agg_fn h ei hh) (fun k j => hf.a2 _) (fun j => hf.a3 _) (fun j => hf.a4 _) (fun j => hf.a5 _)
    (fun k j => hf.a6 _) (fun j => hf.a7 _)

/-- On finite float inputs the network written with either variance is one function. -/
theorem net_eq (hf : FinIn x a2 a3 a4 a5 a6 a7) (a8 : FVec Ideal ⟨2, ![128, 128]⟩ .f32) (a9 : FVec Ideal ⟨1, ![128]⟩ .f32)
    (a10 : FVec Ideal ⟨2, ![128, 40]⟩ .f32) (a11 : FVec Ideal ⟨1, ![40]⟩ .f32) :
    net varK x ei a2 a3 a4 a5 a6 a7 a8 a9 a10 a11 = net varR x ei a2 a3 a4 a5 a6 a7 a8 a9 a10 a11 := by
  unfold net
  obtain ⟨e0, f0⟩ := conv_eq x ei a2 a3 a4 a5 a6 a7 hf 0 x hf.x
  rw [e0]
  obtain ⟨e1, f1⟩ := conv_eq x ei a2 a3 a4 a5 a6 a7 hf 1 _ f0
  rw [e1]
  obtain ⟨e2, _⟩ := conv_eq x ei a2 a3 a4 a5 a6 a7 hf 2 _ f1
  rw [e2]

end Net

end Cert.Net

end
-- ==== Proof.PreFinite.lean ====
/-
  The precondition "every float input is finite", read back: each float argument array has only real entries.

  The predicate is a conjunction of one "all entries are below +∞ in absolute value" per float argument. An extended real
  x whose absolute value max x (−x) is below +∞ is neither +∞ nor −∞, that is, a real number.
-/
import proofs.«149897_j14525579395559_1_alg».proof.Pre_finite_inputs
import Idealize.ShloMosaic.Lib.ReduceAll
import Idealize.ShloMosaic.Lib.ValueIdx
import Idealize.ShloMosaic.PureOps.Ideal
import proofs.«149897_j14525579395559_1_alg».proof.Proof.NetLaws

noncomputable section

namespace Cert.PreFinite

open Idealize.ShloMosaic Cert.Pre_finite_inputs Cert.Net

instance : Subsingleton S_.Idx := ⟨fun a b => funext fun d => d.elim0⟩

/-- An extended real whose absolute value compares below the +∞ pattern is a real number. -/
theorem isR_of_abs_lt (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- "All entries are below +∞ in absolute value", as the predicate spells it, gives an array of reals. -/
theorem fn_of_all {S : Shape} {axes : List (Fin S.rank)} (a : FVec Ideal S .f32)
    (hb : S_.BroadcastsInDim S (![] : Fin 0 → Fin S.rank)) (hr : S.ReducesTo axes S_) (hu : 0 < S_.numel) (j : S_.Idx)
    (e : Host.reduce IntOp.andi (cmpf .olt (Host.absf a) (broadcastInDim S ![] hb (constant (F := Ideal) S_ .f32 0x7F800000#32)))
      (constantI S_ 1 1#1) hr hu j = 1#1) : Fn a := fun i =>
  isR_of_abs_lt (a i) (Host.reduce_andi_all _ _ hr hu j e i)

variable [Facts]

/-- The precondition gives real entries in the node features and in the six stacked per-layer parameter arrays. -/
theorem decode (a0 : FVec Ideal S50000x128 .f32) (a1 : IVec S2x800000 32) (a2 : FVec Ideal S3x128x128 .f32)
    (a3 a4 a5 : FVec Ideal S3x128 .f32) (a6 : FVec Ideal S3x128x128 .f32) (a7 : FVec Ideal S3x128 .f32)
    (a8 : FVec Ideal S128x128 .f32) (a9 : FVec Ideal S128 .f32) (a10 : FVec Ideal S128x40 .f32) (a11 : FVec Ideal S40 .f32)
    (h : fn (F := Ideal) a0 a1 a2 a3 a4 a5 a6 a7 a8 a9 a10 a11 = fun _ => 1#1) :
    Fn a0 ∧ Fn a2 ∧ Fn a3 ∧ Fn a4 ∧ Fn a5 ∧ Fn a6 ∧ Fn a7 := by
  have h0 := congrFun h ValueIdx.ix0
  dsimp only [fn, fn_part1, fn_part2, fn_part3, andi] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨fn_of_all a0 _ _ _ _ e0, fn_of_all a2 _ _ _ _ e2, fn_of_all a3 _ _ _ _ e3, fn_of_all a4 _ _ _ _ e4,
    fn_of_all a5 _ _ _ _ e5, fn_of_all a6 _ _ _ _ e6, fn_of_all a7 _ _ _ _ e7⟩

end Cert.PreFinite

end
-- ==== Proof.RefOps.lean ====
/-
  The reference program's operations, in the order it runs them, with every call of one of its functions (the
  variance, the cut at zero, the log-softmax, and the variance's own select) written out at the place of the call over
  the buffers of that call. The list is cut into nine consecutive pieces at the ends of the network's stages; `ops`
  is their concatenation.
-/
import proofs.«149897_j14525579395559_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first aggregation: the two rows of the edge list cut out, the senders' rows gathered and summed into the receivers' rows, the node's own row added. -/
abbrev p0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)) ]

/-- Layer 0, first part: the first weight matrix and bias, the column means and variances, the normalisation cut at zero, and the second layer's weight and bias slices. -/
abbrev p1 : List (HloOp τ sig (Elt F)) :=
  [ StableHlo.unary main_arg2 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v18 ((extractStridedSlice S1x128 ![0, 0] · slices_S3x128_S1x128_0_0) : (⟨S3x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S50000x128 ![0, 1] bcast_S1x128_S50000x128_0_1 : (⟨S1x128, .f32⟩ : BufTy).Contents (Elt F) → (⟨S50000x128, .f32⟩ : BufTy).Contents (Elt F)),
    StableHlo.binary main_v17 main_v21 main_v22 (addf : (⟨S50000x128, .f32⟩ : BufTy).Contents (Elt F) → (⟨S50000x128, .f32⟩ : BufTy).Contents (Elt F) → (⟨S50000x128, .f32⟩ : BufTy).Contents (Elt F)),
    StableHlo.unary main_arg4 main_v23 ((extractStridedSlice S1x128 ![0, 0] · slices_S3x128_S1x128_0_0) : (⟨S3x128, .f32⟩ : BufTy).Contents (Elt F) → (⟨S1x128, .f32⟩ : BufTy).Contents (Elt F)),
    StableHlo.reshape main_v23 main_v24 rfl shapeCasts_S1x128_S128,
    StableHlo.unary main_arg5 main_v25 ((extractStridedSlice S1x128 ![0, 0] · slices_S3x128_S1x128_0_0) : (⟨S3x128, .f32⟩ : BufTy).Contents (Elt F) → (⟨S1x128, .f32⟩ : BufTy).Contents (Elt F)),
    StableHlo.reshape main_v25 main_v26 rfl shapeCasts_S1x128_S128,
    StableHlo.nullary main_cst_1 (constant S_ .f32 0x00000000#32),
    StableHlo.binary main_v22 main_cst_1 main_v27 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v27 main_v28 (broadcastInDim S1x128 ![1] bcast_S128_S1x128_1 : (⟨S128, .f32⟩ : BufTy).Contents (Elt F) → (⟨S1x128, .f32⟩ : BufTy).Contents (Elt F)),
    StableHlo.nullary main_cst_2 (constant S_ .f32 0x47435000#32),
    StableHlo.unary main_cst_2 main_v29 (broadcastInDim S1x128 ![] bcast_S_S1x128 : (⟨S_, .f32⟩ : BufTy).Contents (Elt F) → (⟨S1x128, .f32⟩ : BufTy).Contents (Elt F)),
    StableHlo.binary main_v28 main_v29 main_v30 (Host.divf : (⟨S1x128, .f32⟩ : BufTy).Contents (Elt F) → (⟨S1x128, .f32⟩ : BufTy).Contents (Elt F) → (⟨S1x128, .f32⟩ : BufTy).Contents (Elt F)),
    StableHlo.nullary main_c_3 (constantI S_ 32 0#32),
    StableHlo.nullary main_call0_cst (constant S_ .f32 0x00000000#32),
    StableHlo.binary main_v22 main_call0_cst main_call0_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call0_v0 main_call0_v1 ((broadcastInDim S1x128 ![1] bcast_S128_S1x128_1) : (⟨S128, .f32⟩ : BufTy).Contents (Elt F) → (⟨S1x128, .f32⟩ : BufTy).Contents (Elt F)),
    StableHlo.nullary main_call0_cst_0 (constant S_ .f32 0x47435000#32),
    StableHlo.unary main_call0_cst_0 main_call0_v2 ((broadcastInDim S1x128 ![] bcast_S_S1x128) : (⟨S_, .f32⟩ : BufTy).Contents (Elt F) → (⟨S1x128, .f32⟩ : BufTy).Contents (Elt F)),
    StableHlo.binary main_call0_v1 main_call0_v2 main_call0_v3 (Host.divf : (⟨S1x128, .f32⟩ : BufTy).Contents (Elt F) → (⟨S1x128, .f32⟩ : BufTy).Contents (Elt F) → (⟨S1x128, .f32⟩ : BufTy).Contents (Elt F)),
    StableHlo.unary main_call0_v3 main_call0_v4 ((broadcastInDim S50000x128 ![0, 1] bcast_S1x128_S50000x128_0_1) : (⟨S1x128, .f32⟩ : BufTy).Contents (Elt F) → (⟨S50000x128, .f32⟩ : BufTy).Contents (Elt F)),
    StableHlo.binary main_v22 main_call0_v4 main_call0_v5 (subf : (⟨S50000x128, .f32⟩ : BufTy).Contents (Elt F) → (⟨S50000x128, .f32⟩ : BufTy).Contents (Elt F) → (⟨S50000x128, .f32⟩ : BufTy).Contents (Elt F)),
    StableHlo.binary main_call0_v5 main_call0_v5 main_call0_v6 (mulf : (⟨S50000x128, .f32⟩ : BufTy).Contents (Elt F) → (⟨S50000x128, .f32⟩ : BufTy).Contents (Elt F) → (⟨S50000x128, .f32⟩ : BufTy).Contents (Elt F)),
    StableHlo.unary main_c_3 main_call0_v7 ((sitofp .f32) : (⟨S_, .i32⟩ : BufTy).Contents (Elt F) → (⟨S_, .f32⟩ : BufTy).Contents (Elt F)),
    StableHlo.nullary main_call0_cst_1 (constant S_ .f32 0x47435000#32),
    StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32),
    StableHlo.binary main_call0_v6 main_call0_cst_2 main_call0_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call0_v9 main_call0_v10 ((broadcastInDim S1x128 ![1] bcast_S128_S1x128_1) : (⟨S128, .f32⟩ : BufTy).Contents (Elt F) → (⟨S1x128, .f32⟩ : BufTy).Contents (Elt F)),
    StableHlo.unary main_call0_v8 main_call0_v11 ((broadcastInDim S1x128 ![] bcast_S_S1x128) : (⟨S_, .f32⟩ : BufTy).Contents (Elt F) → (⟨S1x128, .f32⟩ : BufTy).Contents (Elt F)),
    StableHlo.binary main_call0_v10 main_call0_v11 main_call0_v12 (Host.divf : (⟨S1x128, .f32⟩ : BufTy).Contents (Elt F) → (⟨S1x128, .f32⟩ : BufTy).Contents (Elt F) → (⟨S1x128, .f32⟩ : BufTy).Contents (Elt F)),
    StableHlo.nullary main_call0_cst_3 (constant S_ .f32 0x00000000#32),
    StableHlo.binary main_call0_v8 main_call0_cst_3 main_call0_v13 ((cmpf .ogt) : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32),
    StableHlo.unary main_call0_cst_4 main_call0_call0_v0 (id : (⟨S_, .f32⟩ : BufTy).Contents (Elt F) → (⟨S_, .f32⟩ : BufTy).Contents (Elt F)),
    StableHlo.unary main_call0_call0_v0 main_call0_call0_v1 ((broadcastInDim S1x128 ![] bcast_S_S1x128) : (⟨S_, .f32⟩ : BufTy).Contents (Elt F) → (⟨S1x128, .f32⟩ : BufTy).Contents (Elt F)),
    StableHlo.ternary main_call0_v13 main_call0_v12 main_call0_call0_v1 main_v31 ((fun p a b => select (broadcastInDim S1x128 ![] bcast_S_S1x128 p) a b) : (⟨S_, .i1⟩ : BufTy).Contents (Elt F) → (⟨S1x128, .f32⟩ : BufTy).Contents (Elt F) → (⟨S1x128, .f32⟩ : BufTy).Contents (Elt F) → (⟨S1x128, .f32⟩ : BufTy).Contents (Elt F)),
    StableHlo.unary main_v30 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v22 main_v32 main_v33 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v34 (broadcastInDim S1x128 ![] bcast_S_S1x128 : (⟨S_, .f32⟩ : BufTy).Contents (Elt F) → (⟨S1x128, .f32⟩ : BufTy).Contents (Elt F)),
    StableHlo.binary main_v31 main_v34 main_v35 (addf : (⟨S1x128, .f32⟩ : BufTy).Contents (Elt F) → (⟨S1x128, .f32⟩ : BufTy).Contents (Elt F) → (⟨S1x128, .f32⟩ : BufTy).Contents (Elt F)),
    StableHlo.unary main_v35 main_v36 (Host.rsqrt : (⟨S1x128, .f32⟩ : BufTy).Contents (Elt F) → (⟨S1x128, .f32⟩ : BufTy).Contents (Elt F)),
    StableHlo.unary main_v36 main_v37 (broadcastInDim S50000x128 ![0, 1] bcast_S1x128_S50000x128_0_1 : (⟨S1x128, .f32⟩ : BufTy).Contents (Elt F) → (⟨S50000x128, .f32⟩ : BufTy).Contents (Elt F)),
    StableHlo.binary main_v33 main_v37 main_v38 (mulf : (⟨S50000x128, .f32⟩ : BufTy).Contents (Elt F) → (⟨S50000x128, .f32⟩ : BufTy).Contents (Elt F) → (⟨S50000x128, .f32⟩ : BufTy).Contents (Elt F)),
    StableHlo.unary main_v24 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v40 main_v41 (mulf : (⟨S50000x128, .f32⟩ : BufTy).Contents (Elt F) → (⟨S50000x128, .f32⟩ : BufTy).Contents (Elt F) → (⟨S50000x128, .f32⟩ : BufTy).Contents (Elt F)),
    StableHlo.unary main_v26 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v43 main_v44 (addf : (⟨S50000x128, .f32⟩ : BufTy).Contents (Elt F) → (⟨S50000x128, .f32⟩ : BufTy).Contents (Elt F) → (⟨S50000x128, .f32⟩ : BufTy).Contents (Elt F)),
    StableHlo.nullary main_call1_cst (constant S_ .f32 0x00000000#32),
    StableHlo.unary main_call1_cst main_call1_v0 ((broadcastInDim S50000x128 ![] bcast_S_S50000x128) : (⟨S_, .f32⟩ : BufTy).Contents (Elt F) → (⟨S50000x128, .f32⟩ : BufTy).Contents (Elt F)),
    StableHlo.binary main_v44 main_call1_v0 main_v45 (maximumf : (⟨S50000x128, .f32⟩ : BufTy).Contents (Elt F) → (⟨S50000x128, .f32⟩ : BufTy).Contents (Elt F) → (⟨S50000x128, .f32⟩ : BufTy).Contents (Elt F)),
    StableHlo.unary main_arg6 main_v46 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v46 main_v47 rfl shapeCasts_S1x128x128_S128x128,
    StableHlo.binary main_v45 main_v47 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v49 ((extractStridedSlice S1x128 ![0, 0] · slices_S3x128_S1x128_0_0) : (⟨S3x128, .f32⟩ : BufTy).Contents (Elt F) → (⟨S1x128, .f32⟩ : BufTy).Contents (Elt F)),
    StableHlo.reshape main_v49 main_v50 rfl shapeCasts_S1x128_S128,
    StableHlo.unary main_v50 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S50000x128 ![0, 1] bcast_S1x128_S50000x128_0_1 : (⟨S1x128, .f32⟩ : BufTy).Contents (Elt F) → (⟨S50000x128, .f32⟩ : BufTy).Contents (Elt F)) ]

/-- Layer 0, last part: the second bias added and the cut at zero. -/
abbrev p2 : List (HloOp τ sig (Elt F)) :=
  [ StableHlo.binary main_v48 main_v52 main_v53 (addf : (⟨S50000x128, .f32⟩ : BufTy).Contents (Elt F) → (⟨S50000x128, .f32⟩ : BufTy).Contents (Elt F) → (⟨S50000x128, .f32⟩ : BufTy).Contents (Elt F)),
    StableHlo.nullary main_call2_cst (constant S_ .f32 0x00000000#32),
    StableHlo.unary main_call2_cst main_call2_v0 ((broadcastInDim S50000x128 ![] bcast_S_S50000x128) : (⟨S_, .f32⟩ : BufTy).Contents (Elt F) → (⟨S50000x128, .f32⟩ : BufTy).Contents (Elt F)),
    StableHlo.binary main_v53 main_call2_v0 main_v54 (maximumf : (⟨S50000x128, .f32⟩ : BufTy).Contents (Elt F) → (⟨S50000x128, .f32⟩ : BufTy).Contents (Elt F) → (⟨S50000x128, .f32⟩ : BufTy).Contents (Elt F)) ]

/-- The second aggregation, over the edge rows cut out at the start. -/
abbrev p3 : List (HloOp τ sig (Elt F)) :=
  [ StableHlo.nullary main_c_5 (constantI S_ 32 0#32),
    StableHlo.unary main_c_5 main_v55 (broadcastInDim S800000 ![] bcast_S_S800000 : (⟨S_, .i32⟩ : BufTy).Contents (Elt F) → (⟨S800000, .i32⟩ : BufTy).Contents (Elt F)),
    StableHlo.binary main_v1 main_v55 main_v56 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v57 (broadcastInDim S800000 ![] bcast_S_S800000 : (⟨S_, .i32⟩ : BufTy).Contents (Elt F) → (⟨S800000, .i32⟩ : BufTy).Contents (Elt F)),
    StableHlo.binary main_v1 main_v57 main_v58 (addi : (⟨S800000, .i32⟩ : BufTy).Contents (Elt F) → (⟨S800000, .i32⟩ : BufTy).Contents (Elt F) → (⟨S800000, .i32⟩ : BufTy).Contents (Elt F)),
    StableHlo.ternary main_v56 main_v58 main_v1 main_v59 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v59 main_v60 (broadcastInDim S800000x1 ![0] bcast_S800000_S800000x1_0 : (⟨S800000, .i32⟩ : BufTy).Contents (Elt F) → (⟨S800000x1, .i32⟩ : BufTy).Contents (Elt F)),
    StableHlo.binary main_v54 main_v60 main_v61 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_7 (constant S_ .f32 0x00000000#32),
    StableHlo.unary main_cst_7 main_v62 (broadcastInDim S50000x128 ![] bcast_S_S50000x128 : (⟨S_, .f32⟩ : BufTy).Contents (Elt F) → (⟨S50000x128, .f32⟩ : BufTy).Contents (Elt F)),
    StableHlo.unary main_v3 main_v63 (broadcastInDim S800000x1 ![0] bcast_S800000_S800000x1_0 : (⟨S800000, .i32⟩ : BufTy).Contents (Elt F) → (⟨S800000x1, .i32⟩ : BufTy).Contents (Elt F)),
    StableHlo.ternary main_v62 main_v63 main_v61 main_v64 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v54 main_v64 main_v65 (addf : (⟨S50000x128, .f32⟩ : BufTy).Contents (Elt F) → (⟨S50000x128, .f32⟩ : BufTy).Contents (Elt F) → (⟨S50000x128, .f32⟩ : BufTy).Contents (Elt F)) ]

/-- Layer 1. -/
abbrev p4 : List (HloOp τ sig (Elt F)) :=
  [ StableHlo.unary main_arg2 main_v66 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v66 main_v67 rfl shapeCasts_S1x128x128_S128x128,
    StableHlo.binary main_v65 main_v67 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v69 ((extractStridedSlice S1x128 ![1, 0] · slices_S3x128_S1x128_1_0) : (⟨S3x128, .f32⟩ : BufTy).Contents (Elt F) → (⟨S1x128, .f32⟩ : BufTy).Contents (Elt F)),
    StableHlo.reshape main_v69 main_v70 rfl shapeCasts_S1x128_S128,
    StableHlo.unary main_v70 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v72 main_v73 (addf : (⟨S50000x128, .f32⟩ : BufTy).Contents (Elt F) → (⟨S50000x128, .f32⟩ : BufTy).Contents (Elt F) → (⟨S50000x128, .f32⟩ : BufTy).Contents (Elt F)),
    StableHlo.unary main_arg4 main_v74 ((extractStridedSlice S1x128 ![1, 0] · slices_S3x128_S1x128_1_0) : (⟨S3x128, .f32⟩ : BufTy).Contents (Elt F) → (⟨S1x128, .f32⟩ : BufTy).Contents (Elt F)),
    StableHlo.reshape main_v74 main_v75 rfl shapeCasts_S1x128_S128,
    StableHlo.unary main_arg5 main_v76 ((extractStridedSlice S1x128 ![1, 0] · slices_S3x128_S1x128_1_0) : (⟨S3x128, .f32⟩ : BufTy).Contents (Elt F) → (⟨S1x128, .f32⟩ : BufTy).Contents (Elt F)),
    StableHlo.reshape main_v76 main_v77 rfl shapeCasts_S1x128_S128,
    StableHlo.nullary main_cst_8 (constant S_ .f32 0x00000000#32),
    StableHlo.binary main_v73 main_cst_8 main_v78 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v78 main_v79 (broadcastInDim S1x128 ![1] bcast_S128_S1x128_1 : (⟨S128, .f32⟩ : BufTy).Contents (Elt F) → (⟨S1x128, .f32⟩ : BufTy).Contents (Elt F)),
    StableHlo.nullary main_cst_9 (constant S_ .f32 0x47435000#32),
    StableHlo.unary main_cst_9 main_v80 (broadcastInDim S1x128 ![] bcast_S_S1x128 : (⟨S_, .f32⟩ : BufTy).Contents (Elt F) → (⟨S1x128, .f32⟩ : BufTy).Contents (Elt F)),
    StableHlo.binary main_v79 main_v80 main_v81 (Host.divf : (⟨S1x128, .f32⟩ : BufTy).Contents (Elt F) → (⟨S1x128, .f32⟩ : BufTy).Contents (Elt F) → (⟨S1x128, .f32⟩ : BufTy).Contents (Elt F)),
    StableHlo.nullary main_c_10 (constantI S_ 32 0#32),
    StableHlo.nullary main_call3_cst (constant S_ .f32 0x00000000#32),
    StableHlo.binary main_v73 main_call3_cst main_call3_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call3_v0 main_call3_v1 ((broadcastInDim S1x128 ![1] bcast_S128_S1x128_1) : (⟨S128, .f32⟩ : BufTy).Contents (Elt F) → (⟨S1x128, .f32⟩ : BufTy).Contents (Elt F)),
    StableHlo.nullary main_call3_cst_0 (constant S_ .f32 0x47435000#32),
    StableHlo.unary main_call3_cst_0 main_call3_v2 ((broadcastInDim S1x128 ![] bcast_S_S1x128) : (⟨S_, .f32⟩ : BufTy).Contents (Elt F) → (⟨S1x128, .f32⟩ : BufTy).Contents (Elt F)),
    StableHlo.binary main_call3_v1 main_call3_v2 main_call3_v3 (Host.divf : (⟨S1x128, .f32⟩ : BufTy).Contents (Elt F) → (⟨S1x128, .f32⟩ : BufTy).Contents (Elt F) → (⟨S1x128, .f32⟩ : BufTy).Contents (Elt F)),
    StableHlo.unary main_call3_v3 main_call3_v4 ((broadcastInDim S50000x128 ![0, 1] bcast_S1x128_S50000x128_0_1) : (⟨S1x128, .f32⟩ : BufTy).Contents (Elt F) → (⟨S50000x128, .f32⟩ : BufTy).Contents (Elt F)),
    StableHlo.binary main_v73 main_call3_v4 main_call3_v5 (subf : (⟨S50000x128, .f32⟩ : BufTy).Contents (Elt F) → (⟨S50000x128, .f32⟩ : BufTy).Contents (Elt F) → (⟨S50000x128, .f32⟩ : BufTy).Contents (Elt F)),
    StableHlo.binary main_call3_v5 main_call3_v5 main_call3_v6 (mulf : (⟨S50000x128, .f32⟩ : BufTy).Contents (Elt F) → (⟨S50000x128, .f32⟩ : BufTy).Contents (Elt F) → (⟨S50000x128, .f32⟩ : BufTy).Contents (Elt F)),
    StableHlo.unary main_c_10 main_call3_v7 ((sitofp .f32) : (⟨S_, .i32⟩ : BufTy).Contents (Elt F) → (⟨S_, .f32⟩ : BufTy).Contents (Elt F)),
    StableHlo.nullary main_call3_cst_1 (constant S_ .f32 0x47435000#32),
    StableHlo.binary main_call3_cst_1 main_call3_v7 main_call3_v8 (subf : (⟨S_, .f32⟩ : BufTy).Contents (Elt F) → (⟨S_, .f32⟩ : BufTy).Contents (Elt F) → (⟨S_, .f32⟩ : BufTy).Contents (Elt F)),
    StableHlo.nullary main_call3_cst_2 (constant S_ .f32 0x00000000#32),
    StableHlo.binary main_call3_v6 main_call3_cst_2 main_call3_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call3_v9 main_call3_v10 ((broadcastInDim S1x128 ![1] bcast_S128_S1x128_1) : (⟨S128, .f32⟩ : BufTy).Contents (Elt F) → (⟨S1x128, .f32⟩ : BufTy).Contents (Elt F)),
    StableHlo.unary main_call3_v8 main_call3_v11 ((broadcastInDim S1x128 ![] bcast_S_S1x128) : (⟨S_, .f32⟩ : BufTy).Contents (Elt F) → (⟨S1x128, .f32⟩ : BufTy).Contents (Elt F)),
    StableHlo.binary main_call3_v10 main_call3_v11 main_call3_v12 (Host.divf : (⟨S1x128, .f32⟩ : BufTy).Contents (Elt F) → (⟨S1x128, .f32⟩ : BufTy).Contents (Elt F) → (⟨S1x128, .f32⟩ : BufTy).Contents (Elt F)),
    StableHlo.nullary main_call3_cst_3 (constant S_ .f32 0x00000000#32),
    StableHlo.binary main_call3_v8 main_call3_cst_3 main_call3_v13 ((cmpf .ogt) : (⟨S_, .f32⟩ : BufTy).Contents (Elt F) → (⟨S_, .f32⟩ : BufTy).Contents (Elt F) → (⟨S_, .i1⟩ : BufTy).Contents (Elt F)),
    StableHlo.nullary main_call3_cst_4 (constant S_ .f32 0x7FC00000#32),
    StableHlo.unary main_call3_cst_4 main_call3_call0_v0 (id : (⟨S_, .f32⟩ : BufTy).Contents (Elt F) → (⟨S_, .f32⟩ : BufTy).Contents (Elt F)),
    StableHlo.unary main_call3_call0_v0 main_call3_call0_v1 ((broadcastInDim S1x128 ![] bcast_S_S1x128) : (⟨S_, .f32⟩ : BufTy).Contents (Elt F) → (⟨S1x128, .f32⟩ : BufTy).Contents (Elt F)),
    StableHlo.ternary main_call3_v13 main_call3_v12 main_call3_call0_v1 main_v82 ((fun p a b => select (broadcastInDim S1x128 ![] bcast_S_S1x128 p) a b) : (⟨S_, .i1⟩ : BufTy).Contents (Elt F) → (⟨S1x128, .f32⟩ : BufTy).Contents (Elt F) → (⟨S1x128, .f32⟩ : BufTy).Contents (Elt F) → (⟨S1x128, .f32⟩ : BufTy).Contents (Elt F)),
    StableHlo.unary main_v81 main_v83 (broadcastInDim S50000x128 ![0, 1] bcast_S1x128_S50000x128_0_1 : (⟨S1x128, .f32⟩ : BufTy).Contents (Elt F) → (⟨S50000x128, .f32⟩ : BufTy).Contents (Elt F)),
    StableHlo.binary main_v73 main_v83 main_v84 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v85 (broadcastInDim S1x128 ![] bcast_S_S1x128 : (⟨S_, .f32⟩ : BufTy).Contents (Elt F) → (⟨S1x128, .f32⟩ : BufTy).Contents (Elt F)),
    StableHlo.binary main_v82 main_v85 main_v86 (addf : (⟨S1x128, .f32⟩ : BufTy).Contents (Elt F) → (⟨S1x128, .f32⟩ : BufTy).Contents (Elt F) → (⟨S1x128, .f32⟩ : BufTy).Contents (Elt F)),
    StableHlo.unary main_v86 main_v87 (Host.rsqrt : (⟨S1x128, .f32⟩ : BufTy).Contents (Elt F) → (⟨S1x128, .f32⟩ : BufTy).Contents (Elt F)),
    StableHlo.unary main_v87 main_v88 (broadcastInDim S50000x128 ![0, 1] bcast_S1x128_S50000x128_0_1 : (⟨S1x128, .f32⟩ : BufTy).Contents (Elt F) → (⟨S50000x128, .f32⟩ : BufTy).Contents (Elt F)),
    StableHlo.binary main_v84 main_v88 main_v89 (mulf : (⟨S50000x128, .f32⟩ : BufTy).Contents (Elt F) → (⟨S50000x128, .f32⟩ : BufTy).Contents (Elt F) → (⟨S50000x128, .f32⟩ : BufTy).Contents (Elt F)),
    StableHlo.unary main_v75 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v89 main_v91 main_v92 (mulf : (⟨S50000x128, .f32⟩ : BufTy).Contents (Elt F) → (⟨S50000x128, .f32⟩ : BufTy).Contents (Elt F) → (⟨S50000x128, .f32⟩ : BufTy).Contents (Elt F)),
    StableHlo.unary main_v77 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v94 main_v95 (addf : (⟨S50000x128, .f32⟩ : BufTy).Contents (Elt F) → (⟨S50000x128, .f32⟩ : BufTy).Contents (Elt F) → (⟨S50000x128, .f32⟩ : BufTy).Contents (Elt F)),
    StableHlo.nullary main_call4_cst (constant S_ .f32 0x00000000#32),
    StableHlo.unary main_call4_cst main_call4_v0 ((broadcastInDim S50000x128 ![] bcast_S_S50000x128) : (⟨S_, .f32⟩ : BufTy).Contents (Elt F) → (⟨S50000x128, .f32⟩ : BufTy).Contents (Elt F)),
    StableHlo.binary main_v95 main_call4_v0 main_v96 (maximumf : (⟨S50000x128, .f32⟩ : BufTy).Contents (Elt F) → (⟨S50000x128, .f32⟩ : BufTy).Contents (Elt F) → (⟨S50000x128, .f32⟩ : BufTy).Contents (Elt F)),
    StableHlo.unary main_arg6 main_v97 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v97 main_v98 rfl shapeCasts_S1x128x128_S128x128,
    StableHlo.binary main_v96 main_v98 main_v99 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v100 ((extractStridedSlice S1x128 ![1, 0] · slices_S3x128_S1x128_1_0) : (⟨S3x128, .f32⟩ : BufTy).Contents (Elt F) → (⟨S1x128, .f32⟩ : BufTy).Contents (Elt F)),
    StableHlo.reshape main_v100 main_v101 rfl shapeCasts_S1x128_S128,
    StableHlo.unary main_v101 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S50000x128 ![0, 1] bcast_S1x128_S50000x128_0_1 : (⟨S1x128, .f32⟩ : BufTy).Contents (Elt F) → (⟨S50000x128, .f32⟩ : BufTy).Contents (Elt F)),
    StableHlo.binary main_v99 main_v103 main_v104 (addf : (⟨S50000x128, .f32⟩ : BufTy).Contents (Elt F) → (⟨S50000x128, .f32⟩ : BufTy).Contents (Elt F) → (⟨S50000x128, .f32⟩ : BufTy).Contents (Elt F)),
    StableHlo.nullary main_call5_cst (constant S_ .f32 0x00000000#32),
    StableHlo.unary main_call5_cst main_call5_v0 ((broadcastInDim S50000x128 ![] bcast_S_S50000x128) : (⟨S_, .f32⟩ : BufTy).Contents (Elt F) → (⟨S50000x128, .f32⟩ : BufTy).Contents (Elt F)),
    StableHlo.binary main_v104 main_call5_v0 main_v105 (maximumf : (⟨S50000x128, .f32⟩ : BufTy).Contents (Elt F) → (⟨S50000x128, .f32⟩ : BufTy).Contents (Elt F) → (⟨S50000x128, .f32⟩ : BufTy).Contents (Elt F)) ]

/-- The third aggregation. -/
abbrev p5 : List (HloOp τ sig (Elt F)) :=
  [ StableHlo.nullary main_c_12 (constantI S_ 32 0#32),
    StableHlo.unary main_c_12 main_v106 (broadcastInDim S800000 ![] bcast_S_S800000 : (⟨S_, .i32⟩ : BufTy).Contents (Elt F) → (⟨S800000, .i32⟩ : BufTy).Contents (Elt F)),
    StableHlo.binary main_v1 main_v106 main_v107 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v108 (broadcastInDim S800000 ![] bcast_S_S800000 : (⟨S_, .i32⟩ : BufTy).Contents (Elt F) → (⟨S800000, .i32⟩ : BufTy).Contents (Elt F)),
    StableHlo.binary main_v1 main_v108 main_v109 (addi : (⟨S800000, .i32⟩ : BufTy).Contents (Elt F) → (⟨S800000, .i32⟩ : BufTy).Contents (Elt F) → (⟨S800000, .i32⟩ : BufTy).Contents (Elt F)),
    StableHlo.ternary main_v107 main_v109 main_v1 main_v110 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v110 main_v111 (broadcastInDim S800000x1 ![0] bcast_S800000_S800000x1_0 : (⟨S800000, .i32⟩ : BufTy).Contents (Elt F) → (⟨S800000x1, .i32⟩ : BufTy).Contents (Elt F)),
    StableHlo.binary main_v105 main_v111 main_v112 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_14 (constant S_ .f32 0x00000000#32),
    StableHlo.unary main_cst_14 main_v113 (broadcastInDim S50000x128 ![] bcast_S_S50000x128 : (⟨S_, .f32⟩ : BufTy).Contents (Elt F) → (⟨S50000x128, .f32⟩ : BufTy).Contents (Elt F)),
    StableHlo.unary main_v3 main_v114 (broadcastInDim S800000x1 ![0] bcast_S800000_S800000x1_0 : (⟨S800000, .i32⟩ : BufTy).Contents (Elt F) → (⟨S800000x1, .i32⟩ : BufTy).Contents (Elt F)),
    StableHlo.ternary main_v113 main_v114 main_v112 main_v115 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v105 main_v115 main_v116 (addf : (⟨S50000x128, .f32⟩ : BufTy).Contents (Elt F) → (⟨S50000x128, .f32⟩ : BufTy).Contents (Elt F) → (⟨S50000x128, .f32⟩ : BufTy).Contents (Elt F)) ]

/-- Layer 2. -/
abbrev p6 : List (HloOp τ sig (Elt F)) :=
  [ StableHlo.unary main_arg2 main_v117 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v117 main_v118 rfl shapeCasts_S1x128x128_S128x128,
    StableHlo.binary main_v116 main_v118 main_v119 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v120 ((extractStridedSlice S1x128 ![2, 0] · slices_S3x128_S1x128_2_0) : (⟨S3x128, .f32⟩ : BufTy).Contents (Elt F) → (⟨S1x128, .f32⟩ : BufTy).Contents (Elt F)),
    StableHlo.reshape main_v120 main_v121 rfl shapeCasts_S1x128_S128,
    StableHlo.unary main_v121 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S50000x128 ![0, 1] bcast_S1x128_S50000x128_0_1 : (⟨S1x128, .f32⟩ : BufTy).Contents (Elt F) → (⟨S50000x128, .f32⟩ : BufTy).Contents (Elt F)),
    StableHlo.binary main_v119 main_v123 main_v124 (addf : (⟨S50000x128, .f32⟩ : BufTy).Contents (Elt F) → (⟨S50000x128, .f32⟩ : BufTy).Contents (Elt F) → (⟨S50000x128, .f32⟩ : BufTy).Contents (Elt F)),
    StableHlo.unary main_arg4 main_v125 ((extractStridedSlice S1x128 ![2, 0] · slices_S3x128_S1x128_2_0) : (⟨S3x128, .f32⟩ : BufTy).Contents (Elt F) → (⟨S1x128, .f32⟩ : BufTy).Contents (Elt F)),
    StableHlo.reshape main_v125 main_v126 rfl shapeCasts_S1x128_S128,
    StableHlo.unary main_arg5 main_v127 ((extractStridedSlice S1x128 ![2, 0] · slices_S3x128_S1x128_2_0) : (⟨S3x128, .f32⟩ : BufTy).Contents (Elt F) → (⟨S1x128, .f32⟩ : BufTy).Contents (Elt F)),
    StableHlo.reshape main_v127 main_v128 rfl shapeCasts_S1x128_S128,
    StableHlo.nullary main_cst_15 (constant S_ .f32 0x00000000#32),
    StableHlo.binary main_v124 main_cst_15 main_v129 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_v129 main_v130 (broadcastInDim S1x128 ![1] bcast_S128_S1x128_1 : (⟨S128, .f32⟩ : BufTy).Contents (Elt F) → (⟨S1x128, .f32⟩ : BufTy).Contents (Elt F)),
    StableHlo.nullary main_cst_16 (constant S_ .f32 0x47435000#32),
    StableHlo.unary main_cst_16 main_v131 (broadcastInDim S1x128 ![] bcast_S_S1x128 : (⟨S_, .f32⟩ : BufTy).Contents (Elt F) → (⟨S1x128, .f32⟩ : BufTy).Contents (Elt F)),
    StableHlo.binary main_v130 main_v131 main_v132 (Host.divf : (⟨S1x128, .f32⟩ : BufTy).Contents (Elt F) → (⟨S1x128, .f32⟩ : BufTy).Contents (Elt F) → (⟨S1x128, .f32⟩ : BufTy).Contents (Elt F)),
    StableHlo.nullary main_c_17 (constantI S_ 32 0#32),
    StableHlo.nullary main_call6_cst (constant S_ .f32 0x00000000#32),
    StableHlo.binary main_v124 main_call6_cst main_call6_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call6_v0 main_call6_v1 ((broadcastInDim S1x128 ![1] bcast_S128_S1x128_1) : (⟨S128, .f32⟩ : BufTy).Contents (Elt F) → (⟨S1x128, .f32⟩ : BufTy).Contents (Elt F)),
    StableHlo.nullary main_call6_cst_0 (constant S_ .f32 0x47435000#32),
    StableHlo.unary main_call6_cst_0 main_call6_v2 ((broadcastInDim S1x128 ![] bcast_S_S1x128) : (⟨S_, .f32⟩ : BufTy).Contents (Elt F) → (⟨S1x128, .f32⟩ : BufTy).Contents (Elt F)),
    StableHlo.binary main_call6_v1 main_call6_v2 main_call6_v3 (Host.divf : (⟨S1x128, .f32⟩ : BufTy).Contents (Elt F) → (⟨S1x128, .f32⟩ : BufTy).Contents (Elt F) → (⟨S1x128, .f32⟩ : BufTy).Contents (Elt F)),
    StableHlo.unary main_call6_v3 main_call6_v4 ((broadcastInDim S50000x128 ![0, 1] bcast_S1x128_S50000x128_0_1) : (⟨S1x128, .f32⟩ : BufTy).Contents (Elt F) → (⟨S50000x128, .f32⟩ : BufTy).Contents (Elt F)),
    StableHlo.binary main_v124 main_call6_v4 main_call6_v5 (subf : (⟨S50000x128, .f32⟩ : BufTy).Contents (Elt F) → (⟨S50000x128, .f32⟩ : BufTy).Contents (Elt F) → (⟨S50000x128, .f32⟩ : BufTy).Contents (Elt F)),
    StableHlo.binary main_call6_v5 main_call6_v5 main_call6_v6 (mulf : (⟨S50000x128, .f32⟩ : BufTy).Contents (Elt F) → (⟨S50000x128, .f32⟩ : BufTy).Contents (Elt F) → (⟨S50000x128, .f32⟩ : BufTy).Contents (Elt F)),
    StableHlo.unary main_c_17 main_call6_v7 ((sitofp .f32) : (⟨S_, .i32⟩ : BufTy).Contents (Elt F) → (⟨S_, .f32⟩ : BufTy).Contents (Elt F)),
    StableHlo.nullary main_call6_cst_1 (constant S_ .f32 0x47435000#32),
    StableHlo.binary main_call6_cst_1 main_call6_v7 main_call6_v8 (subf : (⟨S_, .f32⟩ : BufTy).Contents (Elt F) → (⟨S_, .f32⟩ : BufTy).Contents (Elt F) → (⟨S_, .f32⟩ : BufTy).Contents (Elt F)),
    StableHlo.nullary main_call6_cst_2 (constant S_ .f32 0x00000000#32),
    StableHlo.binary main_call6_v6 main_call6_cst_2 main_call6_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.unary main_call6_v9 main_call6_v10 ((broadcastInDim S1x128 ![1] bcast_S128_S1x128_1) : (⟨S128, .f32⟩ : BufTy).Contents (Elt F) → (⟨S1x128, .f32⟩ : BufTy).Contents (Elt F)),
    StableHlo.unary main_call6_v8 main_call6_v11 ((broadcastInDim S1x128 ![] bcast_S_S1x128) : (⟨S_, .f32⟩ : BufTy).Contents (Elt F) → (⟨S1x128, .f32⟩ : BufTy).Contents (Elt F)),
    StableHlo.binary main_call6_v10 main_call6_v11 main_call6_v12 (Host.divf : (⟨S1x128, .f32⟩ : BufTy).Contents (Elt F) → (⟨S1x128, .f32⟩ : BufTy).Contents (Elt F) → (⟨S1x128, .f32⟩ : BufTy).Contents (Elt F)),
    StableHlo.nullary main_call6_cst_3 (constant S_ .f32 0x00000000#32),
    StableHlo.binary main_call6_v8 main_call6_cst_3 main_call6_v13 ((cmpf .ogt) : (⟨S_, .f32⟩ : BufTy).Contents (Elt F) → (⟨S_, .f32⟩ : BufTy).Contents (Elt F) → (⟨S_, .i1⟩ : BufTy).Contents (Elt F)),
    StableHlo.nullary main_call6_cst_4 (constant S_ .f32 0x7FC00000#32),
    StableHlo.unary main_call6_cst_4 main_call6_call0_v0 (id : (⟨S_, .f32⟩ : BufTy).Contents (Elt F) → (⟨S_, .f32⟩ : BufTy).Contents (Elt F)),
    StableHlo.unary main_call6_call0_v0 main_call6_call0_v1 ((broadcastInDim S1x128 ![] bcast_S_S1x128) : (⟨S_, .f32⟩ : BufTy).Contents (Elt F) → (⟨S1x128, .f32⟩ : BufTy).Contents (Elt F)),
    StableHlo.ternary main_call6_v13 main_call6_v12 main_call6_call0_v1 main_v133 ((fun p a b => select (broadcastInDim S1x128 ![] bcast_S_S1x128 p) a b) : (⟨S_, .i1⟩ : BufTy).Contents (Elt F) → (⟨S1x128, .f32⟩ : BufTy).Contents (Elt F) → (⟨S1x128, .f32⟩ : BufTy).Contents (Elt F) → (⟨S1x128, .f32⟩ : BufTy).Contents (Elt F)),
    StableHlo.unary main_v132 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v134 main_v135 (subf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v136 (broadcastInDim S1x128 ![] bcast_S_S1x128 : (⟨S_, .f32⟩ : BufTy).Contents (Elt F) → (⟨S1x128, .f32⟩ : BufTy).Contents (Elt F)),
    StableHlo.binary main_v133 main_v136 main_v137 (addf : (⟨S1x128, .f32⟩ : BufTy).Contents (Elt F) → (⟨S1x128, .f32⟩ : BufTy).Contents (Elt F) → (⟨S1x128, .f32⟩ : BufTy).Contents (Elt F)),
    StableHlo.unary main_v137 main_v138 (Host.rsqrt : (⟨S1x128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v135 main_v139 main_v140 (mulf : (⟨S50000x128, .f32⟩ : BufTy).Contents (Elt F) → (⟨S50000x128, .f32⟩ : BufTy).Contents (Elt F) → (⟨S50000x128, .f32⟩ : BufTy).Contents (Elt F)),
    StableHlo.unary main_v126 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S50000x128 ![0, 1] bcast_S1x128_S50000x128_0_1 : (⟨S1x128, .f32⟩ : BufTy).Contents (Elt F) → (⟨S50000x128, .f32⟩ : BufTy).Contents (Elt F)),
    StableHlo.binary main_v140 main_v142 main_v143 (mulf : (⟨S50000x128, .f32⟩ : BufTy).Contents (Elt F) → (⟨S50000x128, .f32⟩ : BufTy).Contents (Elt F) → (⟨S50000x128, .f32⟩ : BufTy).Contents (Elt F)),
    StableHlo.unary main_v128 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S50000x128 ![0, 1] bcast_S1x128_S50000x128_0_1 : (⟨S1x128, .f32⟩ : BufTy).Contents (Elt F) → (⟨S50000x128, .f32⟩ : BufTy).Contents (Elt F)),
    StableHlo.binary main_v143 main_v145 main_v146 (addf : (⟨S50000x128, .f32⟩ : BufTy).Contents (Elt F) → (⟨S50000x128, .f32⟩ : BufTy).Contents (Elt F) → (⟨S50000x128, .f32⟩ : BufTy).Contents (Elt F)),
    StableHlo.nullary main_call7_cst (constant S_ .f32 0x00000000#32),
    StableHlo.unary main_call7_cst main_call7_v0 ((broadcastInDim S50000x128 ![] bcast_S_S50000x128) : (⟨S_, .f32⟩ : BufTy).Contents (Elt F) → (⟨S50000x128, .f32⟩ : BufTy).Contents (Elt F)),
    StableHlo.binary main_v146 main_call7_v0 main_v147 (maximumf : (⟨S50000x128, .f32⟩ : BufTy).Contents (Elt F) → (⟨S50000x128, .f32⟩ : BufTy).Contents (Elt F) → (⟨S50000x128, .f32⟩ : BufTy).Contents (Elt F)),
    StableHlo.unary main_arg6 main_v148 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v148 main_v149 rfl shapeCasts_S1x128x128_S128x128,
    StableHlo.binary main_v147 main_v149 main_v150 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg7 main_v151 ((extractStridedSlice S1x128 ![2, 0] · slices_S3x128_S1x128_2_0) : (⟨S3x128, .f32⟩ : BufTy).Contents (Elt F) → (⟨S1x128, .f32⟩ : BufTy).Contents (Elt F)),
    StableHlo.reshape main_v151 main_v152 rfl shapeCasts_S1x128_S128,
    StableHlo.unary main_v152 main_v153 (broadcastInDim S1x128 ![1] bcast_S128_S1x128_1 : (⟨S128, .f32⟩ : BufTy).Contents (Elt F) → (⟨S1x128, .f32⟩ : BufTy).Contents (Elt F)),
    StableHlo.unary main_v153 main_v154 (broadcastInDim S50000x128 ![0, 1] bcast_S1x128_S50000x128_0_1 : (⟨S1x128, .f32⟩ : BufTy).Contents (Elt F) → (⟨S50000x128, .f32⟩ : BufTy).Contents (Elt F)),
    StableHlo.binary main_v150 main_v154 main_v155 (addf : (⟨S50000x128, .f32⟩ : BufTy).Contents (Elt F) → (⟨S50000x128, .f32⟩ : BufTy).Contents (Elt F) → (⟨S50000x128, .f32⟩ : BufTy).Contents (Elt F)),
    StableHlo.nullary main_call8_cst (constant S_ .f32 0x00000000#32),
    StableHlo.unary main_call8_cst main_call8_v0 ((broadcastInDim S50000x128 ![] bcast_S_S50000x128) : (⟨S_, .f32⟩ : BufTy).Contents (Elt F) → (⟨S50000x128, .f32⟩ : BufTy).Contents (Elt F)),
    StableHlo.binary main_v155 main_call8_v0 main_v156 (maximumf : (⟨S50000x128, .f32⟩ : BufTy).Contents (Elt F) → (⟨S50000x128, .f32⟩ : BufTy).Contents (Elt F) → (⟨S50000x128, .f32⟩ : BufTy).Contents (Elt F)) ]

/-- The closing stage, first part: the first of the two closing weight matrices and its bias row. -/
abbrev p7 : List (HloOp τ sig (Elt F)) :=
  [ StableHlo.binary main_v156 main_arg8 main_v157 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v158 (broadcastInDim S1x128 ![1] bcast_S128_S1x128_1 : (⟨S128, .f32⟩ : BufTy).Contents (Elt F) → (⟨S1x128, .f32⟩ : BufTy).Contents (Elt F)) ]

/-- The closing stage, last part: the bias added and cut at zero, the second weight matrix and bias, the row-wise log-softmax. -/
abbrev p8 : List (HloOp τ sig (Elt F)) :=
  [ StableHlo.unary main_v158 main_v159 (broadcastInDim S50000x128 ![0, 1] bcast_S1x128_S50000x128_0_1 : (⟨S1x128, .f32⟩ : BufTy).Contents (Elt F) → (⟨S50000x128, .f32⟩ : BufTy).Contents (Elt F)),
    StableHlo.binary main_v157 main_v159 main_v160 (addf : (⟨S50000x128, .f32⟩ : BufTy).Contents (Elt F) → (⟨S50000x128, .f32⟩ : BufTy).Contents (Elt F) → (⟨S50000x128, .f32⟩ : BufTy).Contents (Elt F)),
    StableHlo.nullary main_call9_cst (constant S_ .f32 0x00000000#32),
    StableHlo.unary main_call9_cst main_call9_v0 ((broadcastInDim S50000x128 ![] bcast_S_S50000x128) : (⟨S_, .f32⟩ : BufTy).Contents (Elt F) → (⟨S50000x128, .f32⟩ : BufTy).Contents (Elt F)),
    StableHlo.binary main_v160 main_call9_v0 main_v161 (maximumf : (⟨S50000x128, .f32⟩ : BufTy).Contents (Elt F) → (⟨S50000x128, .f32⟩ : BufTy).Contents (Elt F) → (⟨S50000x128, .f32⟩ : BufTy).Contents (Elt F)),
    StableHlo.binary main_v161 main_arg10 main_v162 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    StableHlo.unary main_arg11 main_v163 (broadcastInDim S1x40 ![1] bcast_S40_S1x40_1 : (⟨S40, .f32⟩ : BufTy).Contents (Elt F) → (⟨S1x40, .f32⟩ : BufTy).Contents (Elt F)),
    StableHlo.unary main_v163 main_v164 (broadcastInDim S50000x40 ![0, 1] bcast_S1x40_S50000x40_0_1 : (⟨S1x40, .f32⟩ : BufTy).Contents (Elt F) → (⟨S50000x40, .f32⟩ : BufTy).Contents (Elt F)),
    StableHlo.binary main_v162 main_v164 main_v165 (addf : (⟨S50000x40, .f32⟩ : BufTy).Contents (Elt F) → (⟨S50000x40, .f32⟩ : BufTy).Contents (Elt F) → (⟨S50000x40, .f32⟩ : BufTy).Contents (Elt F)),
    StableHlo.nullary main_call10_cst (constant S_ .f32 0xFF800000#32),
    StableHlo.binary main_v165 main_call10_cst main_call10_v0 ((fun x v => Host.reduce FloatOps.maximumf x v reducesTo_S50000x40_S50000_d1 h_S_) : (⟨S50000x40, .f32⟩ : BufTy).Contents (Elt F) → (⟨S_, .f32⟩ : BufTy).Contents (Elt F) → (⟨S50000, .f32⟩ : BufTy).Contents (Elt F)),
    StableHlo.nullary main_call10_cst_0 (constant S_ .f32 0xFF800000#32),
    StableHlo.unary main_call10_cst_0 main_call10_v1 ((broadcastInDim S50000 ![] bcast_S_S50000) : (⟨S_, .f32⟩ : BufTy).Contents (Elt F) → (⟨S50000, .f32⟩ : BufTy).Contents (Elt F)),
    StableHlo.binary main_call10_v1 main_call10_v0 main_call10_v2 (maximumf : (⟨S50000, .f32⟩ : BufTy).Contents (Elt F) → (⟨S50000, .f32⟩ : BufTy).Contents (Elt F) → (⟨S50000, .f32⟩ : BufTy).Contents (Elt F)),
    StableHlo.unary main_call10_v2 main_call10_v3 ((broadcastInDim S50000x1 ![0] bcast_S50000_S50000x1_0) : (⟨S50000, .f32⟩ : BufTy).Contents (Elt F) → (⟨S50000x1, .f32⟩ : BufTy).Contents (Elt F)),
    StableHlo.unary main_call10_v3 main_call10_v4 ((broadcastInDim S50000x40 ![0, 1] bcast_S50000x1_S50000x40_0_1) : (⟨S50000x1, .f32⟩ : BufTy).Contents (Elt F) → (⟨S50000x40, .f32⟩ : BufTy).Contents (Elt F)),
    StableHlo.binary main_v165 main_call10_v4 main_call10_v5 (subf : (⟨S50000x40, .f32⟩ : BufTy).Contents (Elt F) → (⟨S50000x40, .f32⟩ : BufTy).Contents (Elt F) → (⟨S50000x40, .f32⟩ : BufTy).Contents (Elt F)),
    StableHlo.unary main_call10_v5 main_call10_v6 (Host.exp : (⟨S50000x40, .f32⟩ : BufTy).Contents (Elt F) → (⟨S50000x40, .f32⟩ : BufTy).Contents (Elt F)),
    StableHlo.nullary main_call10_cst_1 (constant S_ .f32 0x00000000#32),
    StableHlo.binary main_call10_v6 main_call10_cst_1 main_call10_v7 ((fun x v => Host.reduceAdd x v reducesTo_S50000x40_S50000_d1 h_S_) : (⟨S50000x40, .f32⟩ : BufTy).Contents (Elt F) → (⟨S_, .f32⟩ : BufTy).Contents (Elt F) → (⟨S50000, .f32⟩ : BufTy).Contents (Elt F)),
    StableHlo.unary main_call10_v7 main_call10_v8 ((broadcastInDim S50000x1 ![0] bcast_S50000_S50000x1_0) : (⟨S50000, .f32⟩ : BufTy).Contents (Elt F) → (⟨S50000x1, .f32⟩ : BufTy).Contents (Elt F)),
    StableHlo.unary main_call10_v8 main_call10_v9 (Host.log : (⟨S50000x1, .f32⟩ : BufTy).Contents (Elt F) → (⟨S50000x1, .f32⟩ : BufTy).Contents (Elt F)),
    StableHlo.unary main_call10_v9 main_call10_v10 ((broadcastInDim S50000x40 ![0, 1] bcast_S50000x1_S50000x40_0_1) : (⟨S50000x1, .f32⟩ : BufTy).Contents (Elt F) → (⟨S50000x40, .f32⟩ : BufTy).Contents (Elt F)),
    StableHlo.binary main_call10_v5 main_call10_v10 main_v166 (subf : (⟨S50000x40, .f32⟩ : BufTy).Contents (Elt F) → (⟨S50000x40, .f32⟩ : BufTy).Contents (Elt F) → (⟨S50000x40, .f32⟩ : BufTy).Contents (Elt F)) ]

/-- The whole program: 282 operations. -/
abbrev ops : List (HloOp τ sig (Elt F)) :=
  p0 ++ (p1 ++ (p2 ++ (p3 ++ (p4 ++ (p5 ++ (p6 ++ (p7 ++ p8)))))))

/-- The contents after two lists run one after the other. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

end Cert.ReferenceIdeal.RefRun

end
-- ==== Proof.RefKeep.lean ====
/-
  The program's list regrouped by the network's stages — three times an aggregation and a layer, then the closing
  stage — with, for each stage, the buffers its operations write: a buffer a stage does not write keeps its contents
  through it. No operation writes an argument, so the arguments keep their contents through the whole run.
-/
import proofs.«149897_j14525579395559_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the stage's list. -/
local macro "w1" : term => `(by simp only [nullary_writes, unary_writes, binary_writes, ternary_writes, reshape_writes, Finset.singleton_subset_iff, List.mem_toFinset]; exact List.mem_map_of_mem (by decide))

/-- The operations of the first aggregation. -/
abbrev c1 : List (HloOp τ sig (Elt F)) := p0
/-- The buffers they write. -/
abbrev c1_W : List (Ref sig .tc) :=
  [main_v0, main_v1, main_v2, main_v3, main_c, main_v4, main_v5, main_c_0, main_v6, main_v7, main_v8, main_v9, main_v10, main_cst, main_v11, main_v12, main_v13, main_v14]
set_option maxHeartbeats 2000000 in
theorem c1_writes : (c1 : List (HloOp τ sig (Elt F))).Forall fun op =>
    op.writes ⊆ (c1_W.map (Proc.devRef (τ := τ) .tc)).toFinset := by
  simp only [c1, p0, List.cons_append, List.nil_append, List.Forall]
  exact ⟨w1, w1, w1, w1, w1, w1, w1, w1, w1, w1, w1, w1, w1, w1, w1, w1, w1, w1⟩
/-- A buffer that the first aggregation does not write keeps its contents through it. -/
theorem c1_keep (V : Valuation τ sig (Elt F)) (r : Ref sig .tc) (h : r ∉ c1_W) :
    after c1 V (Proc.devRef .tc r) = V (Proc.devRef .tc r) :=
  after_of_writes_sub c1 V c1_writes h

/-- The operations of layer 0. -/
abbrev c2 : List (HloOp τ sig (Elt F)) := p1 ++ p2
/-- The buffers they write. -/
abbrev c2_W : List (Ref sig .tc) :=
  [main_v15, main_v16, main_v17, main_v18, main_v19, main_v20, main_v21, main_v22, main_v23, main_v24, main_v25, main_v26, main_cst_1, main_v27, main_v28, main_cst_2, main_v29, main_v30, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v31, main_v32, main_v33, main_cst_4, main_v34, main_v35, main_v36, main_v37, main_v38, main_v39, main_v40, main_v41, main_v42, main_v43, main_v44, main_call1_cst, main_call1_v0, main_v45, main_v46, main_v47, main_v48, main_v49, main_v50, main_v51, main_v52, main_v53, main_call2_cst, main_call2_v0, main_v54]
set_option maxHeartbeats 2000000 in
theorem c2_writes : (c2 : List (HloOp τ sig (Elt F))).Forall fun op =>
    op.writes ⊆ (c2_W.map (Proc.devRef (τ := τ) .tc)).toFinset := by
  simp only [c2, p1, p2, List.cons_append, List.nil_append, List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩
/-- A buffer that layer 0 does not write keeps its contents through it. -/
theorem c2_keep (V : Valuation τ sig (Elt F)) (r : Ref sig .tc) (h : r ∉ c2_W) :
    after c2 V (Proc.devRef .tc r) = V (Proc.devRef .tc r) :=
  after_of_writes_sub c2 V c2_writes h

/-- The operations of the second aggregation. -/
abbrev c3 : List (HloOp τ sig (Elt F)) := p3
/-- The buffers they write. -/
abbrev c3_W : List (Ref sig .tc) :=
  [main_c_5, main_v55, main_v56, main_c_6, main_v57, main_v58, main_v59, main_v60, main_v61, main_cst_7, main_v62, main_v63, main_v64, main_v65]
set_option maxHeartbeats 2000000 in
theorem c3_writes : (c3 : List (HloOp τ sig (Elt F))).Forall fun op =>
    op.writes ⊆ (c3_W.map (Proc.devRef (τ := τ) .tc)).toFinset := by
  simp only [c3, p3, List.cons_append, List.nil_append, List.Forall]
  exact ⟨w1, w1, w1, w1, w1, w1, w1, w1, w1, w1, w1, w1, w1, w1⟩
/-- A buffer that the second aggregation does not write keeps its contents through it. -/
theorem c3_keep (V : Valuation τ sig (Elt F)) (r : Ref sig .tc) (h : r ∉ c3_W) :
    after c3 V (Proc.devRef .tc r) = V (Proc.devRef .tc r) :=
  after_of_writes_sub c3 V c3_writes h

/-- The operations of layer 1. -/
abbrev c4 : List (HloOp τ sig (Elt F)) := p4
/-- The buffers they write. -/
abbrev c4_W : List (Ref sig .tc) :=
  [main_v66, main_v67, main_v68, main_v69, main_v70, main_v71, main_v72, main_v73, main_v74, main_v75, main_v76, main_v77, main_cst_8, main_v78, main_v79, main_cst_9, main_v80, main_v81, main_c_10, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v82, main_v83, main_v84, main_cst_11, main_v85, main_v86, main_v87, main_v88, main_v89, main_v90, main_v91, main_v92, main_v93, main_v94, main_v95, main_call4_cst, main_call4_v0, main_v96, main_v97, main_v98, main_v99, main_v100, main_v101, main_v102, main_v103, main_v104, main_call5_cst, main_call5_v0, main_v105]
set_option maxHeartbeats 2000000 in
theorem c4_writes : (c4 : List (HloOp τ sig (Elt F))).Forall fun op =>
    op.writes ⊆ (c4_W.map (Proc.devRef (τ := τ) .tc)).toFinset := by
  simp only [c4, p4, List.cons_append, List.nil_append, List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩
/-- A buffer that layer 1 does not write keeps its contents through it. -/
theorem c4_keep (V : Valuation τ sig (Elt F)) (r : Ref sig .tc) (h : r ∉ c4_W) :
    after c4 V (Proc.devRef .tc r) = V (Proc.devRef .tc r) :=
  after_of_writes_sub c4 V c4_writes h

/-- The operations of the third aggregation. -/
abbrev c5 : List (HloOp τ sig (Elt F)) := p5
/-- The buffers they write. -/
abbrev c5_W : List (Ref sig .tc) :=
  [main_c_12, main_v106, main_v107, main_c_13, main_v108, main_v109, main_v110, main_v111, main_v112, main_cst_14, main_v113, main_v114, main_v115, main_v116]
set_option maxHeartbeats 2000000 in
theorem c5_writes : (c5 : List (HloOp τ sig (Elt F))).Forall fun op =>
    op.writes ⊆ (c5_W.map (Proc.devRef (τ := τ) .tc)).toFinset := by
  simp only [c5, p5, List.cons_append, List.nil_append, List.Forall]
  exact ⟨w1, w1, w1, w1, w1, w1, w1, w1, w1, w1, w1, w1, w1, w1⟩
/-- A buffer that the third aggregation does not write keeps its contents through it. -/
theorem c5_keep (V : Valuation τ sig (Elt F)) (r : Ref sig .tc) (h : r ∉ c5_W) :
    after c5 V (Proc.devRef .tc r) = V (Proc.devRef .tc r) :=
  after_of_writes_sub c5 V c5_writes h

/-- The operations of layer 2. -/
abbrev c6 : List (HloOp τ sig (Elt F)) := p6
/-- The buffers they write. -/
abbrev c6_W : List (Ref sig .tc) :=
  [main_v117, main_v118, main_v119, main_v120, main_v121, main_v122, main_v123, main_v124, main_v125, main_v126, main_v127, main_v128, main_cst_15, main_v129, main_v130, main_cst_16, main_v131, main_v132, main_c_17, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v133, main_v134, main_v135, main_cst_18, main_v136, main_v137, main_v138, main_v139, main_v140, main_v141, main_v142, main_v143, main_v144, main_v145, main_v146, main_call7_cst, main_call7_v0, main_v147, main_v148, main_v149, main_v150, main_v151, main_v152, main_v153, main_v154, main_v155, main_call8_cst, main_call8_v0, main_v156]
set_option maxHeartbeats 2000000 in
theorem c6_writes : (c6 : List (HloOp τ sig (Elt F))).Forall fun op =>
    op.writes ⊆ (c6_W.map (Proc.devRef (τ := τ) .tc)).toFinset := by
  simp only [c6, p6, List.cons_append, List.nil_append, List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩
/-- A buffer that layer 2 does not write keeps its contents through it. -/
theorem c6_keep (V : Valuation τ sig (Elt F)) (r : Ref sig .tc) (h : r ∉ c6_W) :
    after c6 V (Proc.devRef .tc r) = V (Proc.devRef .tc r) :=
  after_of_writes_sub c6 V c6_writes h

/-- The operations of the closing stage. -/
abbrev c7 : List (HloOp τ sig (Elt F)) := p7 ++ p8
/-- The buffers they write. -/
abbrev c7_W : List (Ref sig .tc) :=
  [main_v157, main_v158, main_v159, main_v160, main_call9_cst, main_call9_v0, main_v161, main_v162, main_v163, main_v164, main_v165, main_call10_cst, main_call10_v0, main_call10_cst_0, main_call10_v1, main_call10_v2, main_call10_v3, main_call10_v4, main_call10_v5, main_call10_v6, main_call10_cst_1, main_call10_v7, main_call10_v8, main_call10_v9, main_call10_v10, main_v166]
set_option maxHeartbeats 2000000 in
theorem c7_writes : (c7 : List (HloOp τ sig (Elt F))).Forall fun op =>
    op.writes ⊆ (c7_W.map (Proc.devRef (τ := τ) .tc)).toFinset := by
  simp only [c7, p7, p8, List.cons_append, List.nil_append, List.Forall]
  exact ⟨w1, w1, w1, w1, w1, w1, w1, w1, w1, w1, w1, w1, w1, w1, w1, w1, w1, w1, w1, w1, w1, w1, w1, w1, w1, w1⟩
/-- A buffer that the closing stage does not write keeps its contents through it. -/
theorem c7_keep (V : Valuation τ sig (Elt F)) (r : Ref sig .tc) (h : r ∉ c7_W) :
    after c7 V (Proc.devRef .tc r) = V (Proc.devRef .tc r) :=
  after_of_writes_sub c7 V c7_writes h

/-- The whole list is the stages one after the other. -/
theorem ops_chunks : (ops : List (HloOp τ sig (Elt F))) = c1 ++ (c2 ++ (c3 ++ (c4 ++ (c5 ++ (c6 ++ c7))))) := by
  simp only [ops, c1, c2, c3, c4, c5, c6, c7, List.append_assoc]

/-- The contents after the whole run, stage by stage. -/
theorem after_ops (V : Valuation τ sig (Elt F)) :
    after ops V = after c7 (after c6 (after c5 (after c4 (after c3 (after c2 (after c1 V)))))) := by
  rw [ops_chunks]
  simp only [after_app]

/-- No operation writes argument 0. -/
theorem arg0_eq (V : Valuation τ sig (Elt F)) :
    after ops V (main_arg0 : DevRef τ sig) = V (main_arg0 : DevRef τ sig) := by
  rw [after_ops, c7_keep _ main_arg0 (by decide), c6_keep _ main_arg0 (by decide), c5_keep _ main_arg0 (by decide), c4_keep _ main_arg0 (by decide), c3_keep _ main_arg0 (by decide), c2_keep _ main_arg0 (by decide), c1_keep _ main_arg0 (by decide)]

/-- No operation writes argument 1. -/
theorem arg1_eq (V : Valuation τ sig (Elt F)) :
    after ops V (main_arg1 : DevRef τ sig) = V (main_arg1 : DevRef τ sig) := by
  rw [after_ops, c7_keep _ main_arg1 (by decide), c6_keep _ main_arg1 (by decide), c5_keep _ main_arg1 (by decide), c4_keep _ main_arg1 (by decide), c3_keep _ main_arg1 (by decide), c2_keep _ main_arg1 (by decide), c1_keep _ main_arg1 (by decide)]

/-- No operation writes argument 2. -/
theorem arg2_eq (V : Valuation τ sig (Elt F)) :
    after ops V (main_arg2 : DevRef τ sig) = V (main_arg2 : DevRef τ sig) := by
  rw [after_ops, c7_keep _ main_arg2 (by decide), c6_keep _ main_arg2 (by decide), c5_keep _ main_arg2 (by decide), c4_keep _ main_arg2 (by decide), c3_keep _ main_arg2 (by decide), c2_keep _ main_arg2 (by decide), c1_keep _ main_arg2 (by decide)]

/-- No operation writes argument 3. -/
theorem arg3_eq (V : Valuation τ sig (Elt F)) :
    after ops V (main_arg3 : DevRef τ sig) = V (main_arg3 : DevRef τ sig) := by
  rw [after_ops, c7_keep _ main_arg3 (by decide), c6_keep _ main_arg3 (by decide), c5_keep _ main_arg3 (by decide), c4_keep _ main_arg3 (by decide), c3_keep _ main_arg3 (by decide), c2_keep _ main_arg3 (by decide), c1_keep _ main_arg3 (by decide)]

/-- No operation writes argument 4. -/
theorem arg4_eq (V : Valuation τ sig (Elt F)) :
    after ops V (main_arg4 : DevRef τ sig) = V (main_arg4 : DevRef τ sig) := by
  rw [after_ops, c7_keep _ main_arg4 (by decide), c6_keep _ main_arg4 (by decide), c5_keep _ main_arg4 (by decide), c4_keep _ main_arg4 (by decide), c3_keep _ main_arg4 (by decide), c2_keep _ main_arg4 (by decide), c1_keep _ main_arg4 (by decide)]

/-- No operation writes argument 5. -/
theorem arg5_eq (V : Valuation τ sig (Elt F)) :
    after ops V (main_arg5 : DevRef τ sig) = V (main_arg5 : DevRef τ sig) := by
  rw [after_ops, c7_keep _ main_arg5 (by decide), c6_keep _ main_arg5 (by decide), c5_keep _ main_arg5 (by decide), c4_keep _ main_arg5 (by decide), c3_keep _ main_arg5 (by decide), c2_keep _ main_arg5 (by decide), c1_keep _ main_arg5 (by decide)]

/-- No operation writes argument 6. -/
theorem arg6_eq (V : Valuation τ sig (Elt F)) :
    after ops V (main_arg6 : DevRef τ sig) = V (main_arg6 : DevRef τ sig) := by
  rw [after_ops, c7_keep _ main_arg6 (by decide), c6_keep _ main_arg6 (by decide), c5_keep _ main_arg6 (by decide), c4_keep _ main_arg6 (by decide), c3_keep _ main_arg6 (by decide), c2_keep _ main_arg6 (by decide), c1_keep _ main_arg6 (by decide)]

/-- No operation writes argument 7. -/
theorem arg7_eq (V : Valuation τ sig (Elt F)) :
    after ops V (main_arg7 : DevRef τ sig) = V (main_arg7 : DevRef τ sig) := by
  rw [after_ops, c7_keep _ main_arg7 (by decide), c6_keep _ main_arg7 (by decide), c5_keep _ main_arg7 (by decide), c4_keep _ main_arg7 (by decide), c3_keep _ main_arg7 (by decide), c2_keep _ main_arg7 (by decide), c1_keep _ main_arg7 (by decide)]

/-- No operation writes argument 8. -/
theorem arg8_eq (V : Valuation τ sig (Elt F)) :
    after ops V (main_arg8 : DevRef τ sig) = V (main_arg8 : DevRef τ sig) := by
  rw [after_ops, c7_keep _ main_arg8 (by decide), c6_keep _ main_arg8 (by decide), c5_keep _ main_arg8 (by decide), c4_keep _ main_arg8 (by decide), c3_keep _ main_arg8 (by decide), c2_keep _ main_arg8 (by decide), c1_keep _ main_arg8 (by decide)]

/-- No operation writes argument 9. -/
theorem arg9_eq (V : Valuation τ sig (Elt F)) :
    after ops V (main_arg9 : DevRef τ sig) = V (main_arg9 : DevRef τ sig) := by
  rw [after_ops, c7_keep _ main_arg9 (by decide), c6_keep _ main_arg9 (by decide), c5_keep _ main_arg9 (by decide), c4_keep _ main_arg9 (by decide), c3_keep _ main_arg9 (by decide), c2_keep _ main_arg9 (by decide), c1_keep _ main_arg9 (by decide)]

/-- No operation writes argument 10. -/
theorem arg10_eq (V : Valuation τ sig (Elt F)) :
    after ops V (main_arg10 : DevRef τ sig) = V (main_arg10 : DevRef τ sig) := by
  rw [after_ops, c7_keep _ main_arg10 (by decide), c6_keep _ main_arg10 (by decide), c5_keep _ main_arg10 (by decide), c4_keep _ main_arg10 (by decide), c3_keep _ main_arg10 (by decide), c2_keep _ main_arg10 (by decide), c1_keep _ main_arg10 (by decide)]

/-- No operation writes argument 11. -/
theorem arg11_eq (V : Valuation τ sig (Elt F)) :
    after ops V (main_arg11 : DevRef τ sig) = V (main_arg11 : DevRef τ sig) := by
  rw [after_ops, c7_keep _ main_arg11 (by decide), c6_keep _ main_arg11 (by decide), c5_keep _ main_arg11 (by decide), c4_keep _ main_arg11 (by decide), c3_keep _ main_arg11 (by decide), c2_keep _ main_arg11 (by decide), c1_keep _ main_arg11 (by decide)]

end Cert.ReferenceIdeal.RefRun

end
-- ==== Proof.RefTerms.lean ====
/-
  The network the reference program runs, written as the composition of the operations it applies, stage by stage,
  over the extended reals: whole-array functions of the twelve argument arrays.

  Rows are the 50000 nodes, columns the 128 features. One graph layer first adds to every node's row the rows of the
  nodes that send it an edge: the two rows of the edge list are cut out (`edgeRowT`), a negative sender index is counted
  from the end, the senders' rows are gathered and summed into the receivers' rows, and the node's own row is added
  (`aggRowsT`, `aggT`).
  Then layer `l`'s slices of the stacked parameters are cut out (`matT`, `rowT`); the rows are multiplied by a weight
  matrix and a bias row is added (`denseT`); every feature column is centred by its mean over the nodes (`meanT`) and
  scaled by the reciprocal square root of its variance plus a small constant, then by a gain, an offset is added
  (`bnT`), and the result is cut at zero (`reluT`); a second weight matrix and bias follow, cut at zero again
  (`layerT`). The variance of a column is the mean of the squared distances to the column's mean (`varT`): the sum of
  the squares of the centred entries over the number of rows less a correction `d` (zero here), and a fixed word
  where that divisor is not positive. After three layers come two more weight matrices, the first cut at zero, and a
  row-wise log-softmax (`finalT`): with m the row's maximum, (z − m) − log Σ exp (z − m).
-/
import proofs.«149897_j14525579395559_1_alg».proof.Proof.Gen.ReferenceIdeal
import Idealize.ShloMosaic.PureOps.Ideal

noncomputable section

namespace Cert.ReferenceIdeal.RefTerms

open Idealize.ShloMosaic Cert.ReferenceIdeal Cert.ReferenceIdeal.Gen

/-- Layer `l`'s matrix lies inside the stack of three. -/
theorem slices_mat (l : Fin 3) : S3x128x128.Slices ![l.val, 0, 0] S1x128x128 := by revert l; decide
/-- Layer `l`'s row lies inside the stack of three. -/
theorem slices_row (l : Fin 3) : S3x128.Slices ![l.val, 0] S1x128 := by revert l; decide

/-- The scalar zero. -/
def zeroT : FVec Ideal S_ .f32 := constant (F := Ideal) S_ .f32 0x00000000#32
/-- The scalar 50000, the number of nodes. -/
def countT : FVec Ideal S_ .f32 := constant (F := Ideal) S_ .f32 0x47435000#32

/-- Row `r` of the edge list lies inside it. -/
theorem slices_edge (r : Fin 2) : S2x800000.Slices ![r.val, 0] S1x800000 := by revert r; decide

/-- Row `r` of the edge list (row 0 the senders, row 1 the receivers), as a vector of 800000 indices. -/
def edgeRowT (r : Fin 2) (ei : IVec S2x800000 32) : IVec S800000 32 :=
  shapeCast S800000 (extractStridedSlice S1x800000 ![r.val, 0] ei (slices_edge r)) shapeCasts_S1x800000_S800000

/-- The senders `s`, a negative index counted from the end, as a one-column table. -/
def srcT (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The receivers `r`, as a one-column table. -/
def dstT (r : IVec S800000 32) : IVec S800000x1 32 :=
  broadcastInDim S800000x1 ![0] bcast_S800000_S800000x1_0 r

/-- Each node's row plus the sum, over the edges it receives (receivers `r`), of the sender's row (senders `s`). -/
def aggRowsT (h : FVec Ideal S50000x128 .f32) (s r : IVec S800000 32) : FVec Ideal S50000x128 .f32 :=
  addf h
    (Host.scatterAdd (F := Ideal) scatter_S50000x128_S800000x1_S800000x128_1_0_0_1
      (broadcastInDim S50000x128 ![] bcast_S_S50000x128 zeroT) (dstT r)
      (Host.gather gather_S50000x128_S800000x1_S800000x128_1_0_n_n_0_1_1128 h (srcT s)))

/-- The same over the edge list: its row 0 the senders, its row 1 the receivers. -/
def aggT (h : FVec Ideal S50000x128 .f32) (ei : IVec S2x800000 32) : FVec Ideal S50000x128 .f32 :=
  aggRowsT h (edgeRowT 0 ei) (edgeRowT 1 ei)

/-- Layer `l`'s weight matrix out of a stack of three. -/
def matT (l : Fin 3) (a : FVec Ideal S3x128x128 .f32) : FVec Ideal S128x128 .f32 :=
  shapeCast S128x128 (extractStridedSlice S1x128x128 ![l.val, 0, 0] a (slices_mat l)) shapeCasts_S1x128x128_S128x128

/-- Layer `l`'s parameter row out of a stack of three. -/
def rowT (l : Fin 3) (a : FVec Ideal S3x128 .f32) : FVec Ideal S128 .f32 :=
  shapeCast S128 (extractStridedSlice S1x128 ![l.val, 0] a (slices_row l)) shapeCasts_S1x128_S128

/-- A row of 128 repeated for every node. -/
def rowsT (v : FVec Ideal S128 .f32) : FVec Ideal S50000x128 .f32 :=
  broadcastInDim S50000x128 ![0, 1] bcast_S1x128_S50000x128_0_1 (broadcastInDim S1x128 ![1] bcast_S128_S1x128_1 v)

/-- A one-row table repeated for every node. -/
def colsT (r : FVec Ideal S1x128 .f32) : FVec Ideal S50000x128 .f32 :=
  broadcastInDim S50000x128 ![0, 1] bcast_S1x128_S50000x128_0_1 r

/-- Rows times a weight matrix, plus a bias row. -/
def denseT (h : FVec Ideal S50000x128 .f32) (w : FVec Ideal S128x128 .f32) (b : FVec Ideal S128 .f32) :
    FVec Ideal S50000x128 .f32 :=
  addf (Host.dotGeneral (F := Ideal) dot_S50000x128_S128x128_S50000x128_1_0_0_1_n_n none h w) (rowsT b)

/-- The cut at zero. -/
def reluT (z : FVec Ideal S50000x128 .f32) : FVec Ideal S50000x128 .f32 :=
  maximumf z (broadcastInDim S50000x128 ![] bcast_S_S50000x128 zeroT)

/-- Every column's mean over the nodes, as a one-row table. -/
def meanT (z : FVec Ideal S50000x128 .f32) : FVec Ideal S1x128 .f32 :=
  Host.divf (F := Ideal)
    (broadcastInDim S1x128 ![1] bcast_S128_S1x128_1 (Host.reduceAdd (F := Ideal) z zeroT reducesTo_S50000x128_S128_d0 h_S_))
    (broadcastInDim S1x128 ![] bcast_S_S1x128 countT)

/-- The divisor of the variance: the number of nodes less the correction `d`. -/
def divisorT (d : IVec S_ 32) : FVec Ideal S_ .f32 := subf countT (sitofp (F := Ideal) .f32 d)

/-- Every column's variance over the nodes, as a one-row table: the sum of the squared distances to the column's mean
    over the divisor, where the divisor is positive, and a fixed word where it is not. -/
def varT (z : FVec Ideal S50000x128 .f32) (d : IVec S_ 32) : FVec Ideal S1x128 .f32 :=
  select (broadcastInDim S1x128 ![] bcast_S_S1x128 (cmpf .ogt (divisorT d) zeroT))
    (Host.divf (F := Ideal)
      (broadcastInDim S1x128 ![1] bcast_S128_S1x128_1
        (Host.reduceAdd (F := Ideal) (mulf (subf z (colsT (meanT z))) (subf z (colsT (meanT z)))) zeroT
          reducesTo_S50000x128_S128_d0 h_S_))
      (broadcastInDim S1x128 ![] bcast_S_S1x128 (divisorT d)))
    (broadcastInDim S1x128 ![] bcast_S_S1x128 (constant (F := Ideal) S_ .f32 0x7FC00000#32))

/-- Centre every column by its mean, scale by the reciprocal square root of its variance plus the small constant, then
    by the gain `g`, and add the offset `be`. -/
def bnT (z : FVec Ideal S50000x128 .f32) (g be : FVec Ideal S128 .f32) : FVec Ideal S50000x128 .f32 :=
  addf
    (mulf
      (mulf (subf z (colsT (meanT z)))
        (colsT (Host.rsqrt (F := Ideal)
          (addf (varT z (constantI S_ 32 0#32))
            (broadcastInDim S1x128 ![] bcast_S_S1x128 (constant (F := Ideal) S_ .f32 0x3727C5AC#32))))))
      (rowsT g))
    (rowsT be)

/-- Graph layer `l` after the aggregation: the first weight matrix and bias, the normalisation cut at zero, the second
    weight matrix and bias cut at zero. -/
def layerT (l : Fin 3) (hin : FVec Ideal S50000x128 .f32) (a2 : FVec Ideal S3x128x128 .f32)
    (a3 a4 a5 : FVec Ideal S3x128 .f32) (a6 : FVec Ideal S3x128x128 .f32) (a7 : FVec Ideal S3x128 .f32) :
    FVec Ideal S50000x128 .f32 :=
  reluT (denseT (reluT (bnT (denseT hin (matT l a2) (rowT l a3)) (rowT l a4) (rowT l a5))) (matT l a6) (rowT l a7))

/-- Row-wise log-softmax. -/
def logSoftmaxT (z : FVec Ideal S50000x40 .f32) : FVec Ideal S50000x40 .f32 :=
  subf
    (subf z
      (broadcastInDim S50000x40 ![0, 1] bcast_S50000x1_S50000x40_0_1
        (broadcastInDim S50000x1 ![0] bcast_S50000_S50000x1_0
          (maximumf (broadcastInDim S50000 ![] bcast_S_S50000 (constant (F := Ideal) S_ .f32 0xFF800000#32))
            (Host.reduce (FloatOps.maximumf (F := Ideal) (φ := .f32)) z (constant (F := Ideal) S_ .f32 0xFF800000#32)
              reducesTo_S50000x40_S50000_d1 h_S_)))))
    (broadcastInDim S50000x40 ![0, 1] bcast_S50000x1_S50000x40_0_1
      (Host.log (F := Ideal)
        (broadcastInDim S50000x1 ![0] bcast_S50000_S50000x1_0
          (Host.reduceAdd (F := Ideal)
            (Host.exp (F := Ideal)
              (subf z
                (broadcastInDim S50000x40 ![0, 1] bcast_S50000x1_S50000x40_0_1
                  (broadcastInDim S50000x1 ![0] bcast_S50000_S50000x1_0
                    (maximumf (broadcastInDim S50000 ![] bcast_S_S50000 (constant (F := Ideal) S_ .f32 0xFF800000#32))
                      (Host.reduce (FloatOps.maximumf (F := Ideal) (φ := .f32)) z (constant (F := Ideal) S_ .f32 0xFF800000#32)
                        reducesTo_S50000x40_S50000_d1 h_S_))))))
            zeroT reducesTo_S50000x40_S50000_d1 h_S_))))

/-- The closing two weight matrices, the first cut at zero, and the log-softmax. -/
def finalT (h : FVec Ideal S50000x128 .f32) (a8 : FVec Ideal S128x128 .f32) (a9 : FVec Ideal S128 .f32)
    (a10 : FVec Ideal S128x40 .f32) (a11 : FVec Ideal S40 .f32) : FVec Ideal S50000x40 .f32 :=
  logSoftmaxT
    (addf (Host.dotGeneral (F := Ideal) dot_S50000x128_S128x40_S50000x40_1_0_0_1_n_n none (reluT (denseT h a8 a9)) a10)
      (broadcastInDim S50000x40 ![0, 1] bcast_S1x40_S50000x40_0_1 (broadcastInDim S1x40 ![1] bcast_S40_S1x40_1 a11)))

/-- Graph layer `l`: the aggregation, then the layer. -/
def convT (l : Fin 3) (h : FVec Ideal S50000x128 .f32) (ei : IVec S2x800000 32) (a2 : FVec Ideal S3x128x128 .f32)
    (a3 a4 a5 : FVec Ideal S3x128 .f32) (a6 : FVec Ideal S3x128x128 .f32) (a7 : FVec Ideal S3x128 .f32) :
    FVec Ideal S50000x128 .f32 :=
  layerT l (aggT h ei) a2 a3 a4 a5 a6 a7

/-- The whole network: three graph layers and the closing stage. -/
def netT (x : FVec Ideal S50000x128 .f32) (ei : IVec S2x800000 32) (a2 : FVec Ideal S3x128x128 .f32)
    (a3 a4 a5 : FVec Ideal S3x128 .f32) (a6 : FVec Ideal S3x128x128 .f32) (a7 : FVec Ideal S3x128 .f32)
    (a8 : FVec Ideal S128x128 .f32) (a9 : FVec Ideal S128 .f32) (a10 : FVec Ideal S128x40 .f32)
    (a11 : FVec Ideal S40 .f32) : FVec Ideal S50000x40 .f32 :=
  finalT (convT 2 (convT 1 (convT 0 x ei a2 a3 a4 a5 a6 a7) ei a2 a3 a4 a5 a6 a7) ei a2 a3 a4 a5 a6 a7) a8 a9 a10 a11

end Cert.ReferenceIdeal.RefTerms

end
-- ==== Proof.Assemble.lean ====
/-
  The certificate, put together from its parts.

  Both programs compute a three-layer graph network on 50000 nodes with 128 features: in each layer every node adds to
  its row the rows of the nodes that send it an edge, the rows are multiplied by a weight matrix and a bias is added,
  each feature column is normalised by its mean and variance over the nodes, scaled, shifted and cut at zero, and a
  second weight matrix and bias follow, cut at zero again; two more weight matrices and a row-wise log-softmax close
  the network. The one difference is the variance of a column: the kernel takes the mean of the squares minus the
  square of the mean, the reference the mean of the squared distances to the mean. On real numbers these are equal,
  and the law that joins them (expanding the square and moving the mean across the sum) needs every entry to be a real
  number, not an infinity; that is where the precondition "every float input is finite" is used, and nowhere else.

  The parts: the kernel's run ends with its result array at the network written with the kernel's variance
  (`hK` reads the last region's write-backs back to the launch arrays); the reference's run ends with every buffer at
  its operations applied in order to the launch contents (`hRun`), the arguments untouched by any of them, and the result
  buffer at the reference's own term of the twelve arguments (`hOut`), which is the network written with the reference's
  variance (`hNetT`). From memories that agree on the arguments the two results are then equal by the law above. The
  three frame claims are the runs with the result dropped; nothing was rewritten by the idealization, so there is
  nothing to preserve.
-/
import proofs.«149897_j14525579395559_1_alg».proof.Defs
import proofs.«149897_j14525579395559_1_alg».proof.Proof.Gen.Kernel.Frame
import proofs.«149897_j14525579395559_1_alg».proof.Proof.Gen.KernelIdeal.Frame
import proofs.«149897_j14525579395559_1_alg».proof.Proof.Gen.ReferenceIdeal
import proofs.«149897_j14525579395559_1_alg».proof.Proof.Gen.Pre_finite_inputs
import proofs.«149897_j14525579395559_1_alg».proof.Proof.KRun
import proofs.«149897_j14525579395559_1_alg».proof.Proof.NetLaws
import proofs.«149897_j14525579395559_1_alg».proof.Proof.PreFinite
import proofs.«149897_j14525579395559_1_alg».proof.Proof.RefKeep
import proofs.«149897_j14525579395559_1_alg».proof.Proof.RefTerms

noncomputable section

namespace Cert.Proof.Assemble

open Idealize.ShloMosaic Idealize.ShloMosaic.TcCoe Idealize.SL.Sem Idealize.ShloMosaic.StableHlo

local notation "KI.nD" => Cert.KernelIdeal.nD
local notation "KI.τ" => Cert.KernelIdeal.τ
local notation "KI.sig" => Cert.KernelIdeal.sig
local notation "RI.nD" => Cert.ReferenceIdeal.nD
local notation "RI.τ" => Cert.ReferenceIdeal.τ
local notation "RI.sig" => Cert.ReferenceIdeal.sig

/-- The network with the kernel's variance, of the kernel's twelve launch arrays on device `c`. -/
def netK (m : (ℓ : Loc KI.nD KI.τ KI.sig) → Buf (Elt Ideal) ℓ) (c : Dev KI.nD) :
    Buf (Elt Ideal) ((c.tc : Thread KI.nD KI.τ).loc Cert.KernelIdeal.main_v126) :=
  Cert.Net.net Cert.Net.varK (m ((c.tc : Thread KI.nD KI.τ).loc Cert.KernelIdeal.main_arg0))
    (m ((c.tc : Thread KI.nD KI.τ).loc Cert.KernelIdeal.main_arg1))
    (m ((c.tc : Thread KI.nD KI.τ).loc Cert.KernelIdeal.main_arg2))
    (m ((c.tc : Thread KI.nD KI.τ).loc Cert.KernelIdeal.main_arg3))
    (m ((c.tc : Thread KI.nD KI.τ).loc Cert.KernelIdeal.main_arg4))
    (m ((c.tc : Thread KI.nD KI.τ).loc Cert.KernelIdeal.main_arg5))
    (m ((c.tc : Thread KI.nD KI.τ).loc Cert.KernelIdeal.main_arg6))
    (m ((c.tc : Thread KI.nD KI.τ).loc Cert.KernelIdeal.main_arg7))
    (m ((c.tc : Thread KI.nD KI.τ).loc Cert.KernelIdeal.main_arg8))
    (m ((c.tc : Thread KI.nD KI.τ).loc Cert.KernelIdeal.main_arg9))
    (m ((c.tc : Thread KI.nD KI.τ).loc Cert.KernelIdeal.main_arg10))
    (m ((c.tc : Thread KI.nD KI.τ).loc Cert.KernelIdeal.main_arg11))

/-- The precondition on device `c` makes the node features and the six stacked per-layer parameter arrays real. -/
theorem finIn (m : (ℓ : Loc KI.nD KI.τ KI.sig) → Buf (Elt Ideal) ℓ) (hpre : Cert.Pre_KernelIdeal m) (c : Dev KI.nD) :
    Cert.Net.FinIn (m ((c.tc : Thread KI.nD KI.τ).loc Cert.KernelIdeal.main_arg0)) (m ((c.tc : Thread KI.nD KI.τ).loc Cert.KernelIdeal.main_arg2)) (m ((c.tc : Thread KI.nD KI.τ).loc Cert.KernelIdeal.main_arg3)) (m ((c.tc : Thread KI.nD KI.τ).loc Cert.KernelIdeal.main_arg4)) (m ((c.tc : Thread KI.nD KI.τ).loc Cert.KernelIdeal.main_arg5)) (m ((c.tc : Thread KI.nD KI.τ).loc Cert.KernelIdeal.main_arg6)) (m ((c.tc : Thread KI.nD KI.τ).loc Cert.KernelIdeal.main_arg7)) := by
  obtain ⟨h0, h2, h3, h4, h5, h6, h7⟩ := Cert.PreFinite.decode _ _ _ _ _ _ _ _ _ _ _ _ (hpre c)
  exact ⟨h0, h2, h3, h4, h5, h6, h7⟩

/-- The claim, from the value of the kernel's last region (`hK`), the reference's run (`hRun`), its result term
    (`hOut`) and that term as the network with the reference's variance (`hNetT`). -/
theorem claim_of
    (hK : ∀ (m : (ℓ : Loc KI.nD KI.τ KI.sig) → Buf (Elt Ideal) ℓ) (ρ : Dev KI.nD → PrngReg) (c : Dev KI.nD),
      Cert.KernelIdeal.Gen.W14 m ρ c (Proc.devRef .tc Cert.KernelIdeal.main_v126)
        = Cert.Net.net Cert.Net.varK (m ((c.tc : Thread KI.nD KI.τ).loc Cert.KernelIdeal.main_arg0)) (m ((c.tc : Thread KI.nD KI.τ).loc Cert.KernelIdeal.main_arg1)) (m ((c.tc : Thread KI.nD KI.τ).loc Cert.KernelIdeal.main_arg2)) (m ((c.tc : Thread KI.nD KI.τ).loc Cert.KernelIdeal.main_arg3)) (m ((c.tc : Thread KI.nD KI.τ).loc Cert.KernelIdeal.main_arg4)) (m ((c.tc : Thread KI.nD KI.τ).loc Cert.KernelIdeal.main_arg5)) (m ((c.tc : Thread KI.nD KI.τ).loc Cert.KernelIdeal.main_arg6)) (m ((c.tc : Thread KI.nD KI.τ).loc Cert.KernelIdeal.main_arg7)) (m ((c.tc : Thread KI.nD KI.τ).loc Cert.KernelIdeal.main_arg8)) (m ((c.tc : Thread KI.nD KI.τ).loc Cert.KernelIdeal.main_arg9)) (m ((c.tc : Thread KI.nD KI.τ).loc Cert.KernelIdeal.main_arg10)) (m ((c.tc : Thread KI.nD KI.τ).loc Cert.KernelIdeal.main_arg11)))
    (hRun : ∀ (m : (ℓ : Loc RI.nD RI.τ RI.sig) → Buf (Elt Ideal) ℓ) (ρ : Dev RI.nD → PrngReg),
      θ_run Cert.ReferenceIdeal.defs (onTc (τ := RI.τ) (Cert.ReferenceIdeal.main (F := Ideal))) ⟨m, fun _ => 0, ρ⟩ fun r =>
        ∀ (c : Dev RI.nD) (b : Ref RI.sig .tc), r.2.mem ((c.tc : Thread RI.nD RI.τ).loc b)
          = after (Cert.ReferenceIdeal.RefRun.ops (F := Ideal)) (launchContents m c) (b : DevRef RI.τ RI.sig))
    (hOut : ∀ V : Valuation RI.τ RI.sig (Elt Ideal),
      after (Cert.ReferenceIdeal.RefRun.ops (F := Ideal)) V (Cert.ReferenceIdeal.main_v166 : DevRef RI.τ RI.sig)
        = Cert.ReferenceIdeal.RefTerms.netT (V (Cert.ReferenceIdeal.main_arg0 : DevRef RI.τ RI.sig)) (V (Cert.ReferenceIdeal.main_arg1 : DevRef RI.τ RI.sig)) (V (Cert.ReferenceIdeal.main_arg2 : DevRef RI.τ RI.sig)) (V (Cert.ReferenceIdeal.main_arg3 : DevRef RI.τ RI.sig)) (V (Cert.ReferenceIdeal.main_arg4 : DevRef RI.τ RI.sig)) (V (Cert.ReferenceIdeal.main_arg5 : DevRef RI.τ RI.sig)) (V (Cert.ReferenceIdeal.main_arg6 : DevRef RI.τ RI.sig)) (V (Cert.ReferenceIdeal.main_arg7 : DevRef RI.τ RI.sig)) (V (Cert.ReferenceIdeal.main_arg8 : DevRef RI.τ RI.sig)) (V (Cert.ReferenceIdeal.main_arg9 : DevRef RI.τ RI.sig)) (V (Cert.ReferenceIdeal.main_arg10 : DevRef RI.τ RI.sig)) (V (Cert.ReferenceIdeal.main_arg11 : DevRef RI.τ RI.sig)))
    (hNetT : ∀ (x : FVec Ideal Cert.ReferenceIdeal.S50000x128 .f32) (ei : IVec Cert.ReferenceIdeal.S2x800000 32)
      (a2 : FVec Ideal Cert.ReferenceIdeal.S3x128x128 .f32) (a3 a4 a5 : FVec Ideal Cert.ReferenceIdeal.S3x128 .f32)
      (a6 : FVec Ideal Cert.ReferenceIdeal.S3x128x128 .f32) (a7 : FVec Ideal Cert.ReferenceIdeal.S3x128 .f32)
      (a8 : FVec Ideal Cert.ReferenceIdeal.S128x128 .f32) (a9 : FVec Ideal Cert.ReferenceIdeal.S128 .f32)
      (a10 : FVec Ideal Cert.ReferenceIdeal.S128x40 .f32) (a11 : FVec Ideal Cert.ReferenceIdeal.S40 .f32),
      Cert.ReferenceIdeal.RefTerms.netT x ei a2 a3 a4 a5 a6 a7 a8 a9 a10 a11
        = Cert.Net.net Cert.Net.varR x ei a2 a3 a4 a5 a6 a7 a8 a9 a10 a11) :
    Cert.Claim := by
  refine ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, ?frameR, trivial, ?alg⟩
  case frameR =>
    intro m ρ _
    refine (θ_run Cert.ReferenceIdeal.defs _ _).mono (fun r h c => ?_) (hRun m ρ)
    exact ⟨(h c Cert.ReferenceIdeal.main_arg0).trans (Cert.ReferenceIdeal.RefRun.arg0_eq (launchContents m c)),
      (h c Cert.ReferenceIdeal.main_arg1).trans (Cert.ReferenceIdeal.RefRun.arg1_eq (launchContents m c)),
      (h c Cert.ReferenceIdeal.main_arg2).trans (Cert.ReferenceIdeal.RefRun.arg2_eq (launchContents m c)),
      (h c Cert.ReferenceIdeal.main_arg3).trans (Cert.ReferenceIdeal.RefRun.arg3_eq (launchContents m c)),
      (h c Cert.ReferenceIdeal.main_arg4).trans (Cert.ReferenceIdeal.RefRun.arg4_eq (launchContents m c)),
      (h c Cert.ReferenceIdeal.main_arg5).trans (Cert.ReferenceIdeal.RefRun.arg5_eq (launchContents m c)),
      (h c Cert.ReferenceIdeal.main_arg6).trans (Cert.ReferenceIdeal.RefRun.arg6_eq (launchContents m c)),
      (h c Cert.ReferenceIdeal.main_arg7).trans (Cert.ReferenceIdeal.RefRun.arg7_eq (launchContents m c)),
      (h c Cert.ReferenceIdeal.main_arg8).trans (Cert.ReferenceIdeal.RefRun.arg8_eq (launchContents m c)),
      (h c Cert.ReferenceIdeal.main_arg9).trans (Cert.ReferenceIdeal.RefRun.arg9_eq (launchContents m c)),
      (h c Cert.ReferenceIdeal.main_arg10).trans (Cert.ReferenceIdeal.RefRun.arg10_eq (launchContents m c)),
      (h c Cert.ReferenceIdeal.main_arg11).trans (Cert.ReferenceIdeal.RefRun.arg11_eq (launchContents m c))⟩
  case alg =>
    intro m ρ m' ρ' hpre hagree
    refine ⟨netK m, ?_, ?_⟩
    · exact (θ_run Cert.KernelIdeal.defs _ _).mono (fun r h c => ⟨(h c).1.trans (hK m ρ c), (h c).2⟩)
        (Cert.KernelIdeal.Gen.run_value m ρ)
    · refine (θ_run Cert.ReferenceIdeal.defs _ _).mono (fun r h c => ?_) (hRun m' ρ')
      have hres : Cert.ReferenceIdeal.RefTerms.netT (m' ((c.tc : Thread RI.nD RI.τ).loc Cert.ReferenceIdeal.main_arg0)) (m' ((c.tc : Thread RI.nD RI.τ).loc Cert.ReferenceIdeal.main_arg1)) (m' ((c.tc : Thread RI.nD RI.τ).loc Cert.ReferenceIdeal.main_arg2)) (m' ((c.tc : Thread RI.nD RI.τ).loc Cert.ReferenceIdeal.main_arg3)) (m' ((c.tc : Thread RI.nD RI.τ).loc Cert.ReferenceIdeal.main_arg4)) (m' ((c.tc : Thread RI.nD RI.τ).loc Cert.ReferenceIdeal.main_arg5)) (m' ((c.tc : Thread RI.nD RI.τ).loc Cert.ReferenceIdeal.main_arg6)) (m' ((c.tc : Thread RI.nD RI.τ).loc Cert.ReferenceIdeal.main_arg7)) (m' ((c.tc : Thread RI.nD RI.τ).loc Cert.ReferenceIdeal.main_arg8)) (m' ((c.tc : Thread RI.nD RI.τ).loc Cert.ReferenceIdeal.main_arg9)) (m' ((c.tc : Thread RI.nD RI.τ).loc Cert.ReferenceIdeal.main_arg10)) (m' ((c.tc : Thread RI.nD RI.τ).loc Cert.ReferenceIdeal.main_arg11)) = netK m c := by
        rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
        refine (hNetT _ _ _ _ _ _ _ _ _ _ _ _).trans ?_
        exact (Cert.Net.net_eq _ _ _ _ _ _ _ _ (finIn m hpre c) _ _ _ _).symm
      exact ⟨(h c Cert.ReferenceIdeal.main_v166).trans ((hOut (launchContents m' c)).trans hres),
        (h c Cert.ReferenceIdeal.main_arg0).trans (Cert.ReferenceIdeal.RefRun.arg0_eq (launchContents m' c)),
        (h c Cert.ReferenceIdeal.main_arg1).trans (Cert.ReferenceIdeal.RefRun.arg1_eq (launchContents m' c)),
        (h c Cert.ReferenceIdeal.main_arg2).trans (Cert.ReferenceIdeal.RefRun.arg2_eq (launchContents m' c)),
        (h c Cert.ReferenceIdeal.main_arg3).trans (Cert.ReferenceIdeal.RefRun.arg3_eq (launchContents m' c)),
        (h c Cert.ReferenceIdeal.main_arg4).trans (Cert.ReferenceIdeal.RefRun.arg4_eq (launchContents m' c)),
        (h c Cert.ReferenceIdeal.main_arg5).trans (Cert.ReferenceIdeal.RefRun.arg5_eq (launchContents m' c)),
        (h c Cert.ReferenceIdeal.main_arg6).trans (Cert.ReferenceIdeal.RefRun.arg6_eq (launchContents m' c)),
        (h c Cert.ReferenceIdeal.main_arg7).trans (Cert.ReferenceIdeal.RefRun.arg7_eq (launchContents m' c)),
        (h c Cert.ReferenceIdeal.main_arg8).trans (Cert.ReferenceIdeal.RefRun.arg8_eq (launchContents m' c)),
        (h c Cert.ReferenceIdeal.main_arg9).trans (Cert.ReferenceIdeal.RefRun.arg9_eq (launchContents m' c)),
        (h c Cert.ReferenceIdeal.main_arg10).trans (Cert.ReferenceIdeal.RefRun.arg10_eq (launchContents m' c)),
        (h c Cert.ReferenceIdeal.main_arg11).trans (Cert.ReferenceIdeal.RefRun.arg11_eq (launchContents m' c))⟩

end Cert.Proof.Assemble

end
-- ==== Proof.KKeep.lean ====
/-
  Buffers that a stretch of host operations does not write, and buffers that are not among a region's arrays, hold after
  it what they held before it: one step down the chain of boundary contents.
-/
import proofs.«149897_j14525579395559_1_alg».proof.Proof.Gen.KernelIdeal.Frame
import Idealize.ShloMosaic.Lib.StableHlo.Run

noncomputable section

namespace Cert.KernelIdeal.Gen

open Idealize.ShloMosaic Idealize.ShloMosaic.TcCoe Idealize.SL.Sem

/-- No operation of the listed stretch writes the buffer. -/
macro "host_nw" ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- One step down through a stretch of host operations that does not write the buffer. -/
macro "whost" ops:ident : tactic => `(tactic| (
  refine (StableHlo.after_of_forall_not_mem $ops:ident _ ?_).trans ?_
  · host_nw $ops:ident))

/-- One step down through a region the buffer is not an array of (the argument is that region's "not one of its arrays"
    fact). -/
macro "wreg" lem:ident : tactic => `(tactic| (
  refine ($lem:ident _ _ _ _ ?_).trans ?_
  · decide))

end Cert.KernelIdeal.Gen

end
-- ==== Proof.KRead.lean ====
/-
  Readings at an index of the small host operations that prepare a layer's parameters: a layer's matrix cut out of a stack
  of three and its leading unit axis dropped; a layer's row cut out, recast as a vector and again as one row; a vector
  recast as one row; a row divided by the number of nodes.
-/
import Idealize.ShloMosaic.Lib.ValueIdx
import Idealize.ShloMosaic.Lib.ValueLayout
import Idealize.ShloMosaic.Lib.Pipeline.Value
import Idealize.ShloMosaic.PureOps.Ideal.Laws
import proofs.«149897_j14525579395559_1_alg».proof.Proof.Net

noncomputable section

namespace Cert.KRead

open Idealize.ShloMosaic Idealize.ShloMosaic.ValueIdx Cert.Net

variable {α : Type}

/-- Layer l's matrix: the slice at offset l of the stack, its unit axis dropped, reads at (k, j) the stack at (l, k, j). -/
theorem mat_read (o : ℕ) (A : (⟨3, ![3, 128, 128]⟩ : Shape).Idx → α)
    (hs : (⟨3, ![3, 128, 128]⟩ : Shape).Slices ![o, 0, 0] ⟨3, ![1, 128, 128]⟩)
    (hc : (⟨3, ![1, 128, 128]⟩ : Shape).ShapeCasts ⟨2, ![128, 128]⟩) (l : Fin 3) (hl : l.val = o) (k j : Fin 128) :
    shapeCast ⟨2, ![128, 128]⟩ (extractStridedSlice ⟨3, ![1, 128, 128]⟩ ![o, 0, 0] A hs) hc (ix2 k j) = A (ix3 l k j) := by
  rw [shapeCast_1ab_ab_apply]
  refine extractStridedSlice_apply _ _ _ _ _ (fun ax => ?_)
  match ax with
  | ⟨0, _⟩ => exact hl.trans (Nat.add_zero _).symm
  | ⟨1, _⟩ => exact (Nat.zero_add _).symm
  | ⟨2, _⟩ => exact (Nat.zero_add _).symm

/-- Layer l's row, cut out of the stack, recast as a vector and again as one row, reads at (0, j) the stack at (l, j). -/
theorem row_read (o : ℕ) (A : (⟨2, ![3, 128]⟩ : Shape).Idx → α) (hs : (⟨2, ![3, 128]⟩ : Shape).Slices ![o, 0] ⟨2, ![1, 128]⟩)
    (h1 : (⟨2, ![1, 128]⟩ : Shape).ShapeCasts ⟨1, ![128]⟩) (h2 : (⟨1, ![128]⟩ : Shape).ShapeCasts ⟨2, ![1, 128]⟩)
    (l : Fin 3) (hl : l.val = o) (j : Fin 128) :
    shapeCast ⟨2, ![1, 128]⟩ (shapeCast ⟨1, ![128]⟩ (extractStridedSlice ⟨2, ![1, 128]⟩ ![o, 0] A hs) h1) h2 (ix2 (0 : Fin 1) j)
      = A (ix2 l j) := by
  rw [shapeCast_a_1a_apply, shapeCast_1a_a_apply]
  exact slice2_axis0_apply o A hs (0 : Fin 1) j l (by rw [hl]; rfl)

/-- A vector recast as one row reads at (0, j) the vector at j. -/
theorem vec_row_read {n : ℕ} (v : (⟨1, ![n]⟩ : Shape).Idx → α) (h : (⟨1, ![n]⟩ : Shape).ShapeCasts ⟨2, ![1, n]⟩) (j : Fin n) :
    shapeCast ⟨2, ![1, n]⟩ v h (ix2 (0 : Fin 1) j) = v (ix1 j) := shapeCast_a_1a_apply v h 0 j

/-- A row divided by the number of nodes spread along it. -/
theorem divn_read (s : FVec Ideal ⟨2, ![1, 128]⟩ .f32) (hb : (⟨0, ![]⟩ : Shape).BroadcastsInDim ⟨2, ![1, 128]⟩ ![])
    (i : (⟨2, ![1, 128]⟩ : Shape).Idx) :
    Host.divf s (broadcastInDim ⟨2, ![1, 128]⟩ ![] hb (constant (F := Ideal) ⟨0, ![]⟩ .f32 0x47435000#32)) i = Ideal.div (s i) nF := rfl

end Cert.KRead

end
-- ==== Proof.KLayer.lean ====
/-
  One layer of the network read off its pieces: if a row holds the column sums of z = h·W1 + b1 and another the column
  sums of squares, the mean row is the first divided by the number of nodes, the variance row the second divided by it
  minus the square of the mean, and the output is the normalisation, the cut at zero, the second weight matrix and the
  cut at zero again with those two rows, then the output is the layer written with the variance "mean of squares minus
  square of the mean".
-/
import proofs.«149897_j14525579395559_1_alg».proof.Proof.Net

noncomputable section

namespace Cert.Net

open Idealize.ShloMosaic Idealize.ShloMosaic.ValueIdx Cert.Spec

theorem layer_of_reads (hin out : FVec Ideal SN .f32) (sum sumsq mu var : (⟨2, ![1, 128]⟩ : Shape).Idx → EReal)
    (W1 : Fin 128 → Fin 128 → EReal) (b1 g be : Fin 128 → EReal) (W2 : Fin 128 → Fin 128 → EReal) (b2 : Fin 128 → EReal)
    (hsum : ∀ j : Fin 128, sum (ix2 (0 : Fin 1) j) = colSum (lin hin W1 b1) j)
    (hsq : ∀ j : Fin 128, sumsq (ix2 (0 : Fin 1) j) = colSumSq (lin hin W1 b1) j)
    (hmu : ∀ j : Fin 128, mu (ix2 (0 : Fin 1) j) = Ideal.div (sum (ix2 (0 : Fin 1) j)) nF)
    (hvar : ∀ j : Fin 128, var (ix2 (0 : Fin 1) j)
      = Ideal.div (sumsq (ix2 (0 : Fin 1) j)) nF - mu (ix2 (0 : Fin 1) j) * mu (ix2 (0 : Fin 1) j))
    (hout : out = linRelu (bnRelu (lin hin W1 b1) (fun j => mu (ix2 (0 : Fin 1) j)) (fun j => var (ix2 (0 : Fin 1) j)) g be) W2 b2) :
    out = layer varK hin W1 b1 g be W2 b2 := by
  have hm : (fun j => mu (ix2 (0 : Fin 1) j)) = mean (lin hin W1 b1) := funext fun j => by rw [hmu, hsum]; rfl
  have hv : (fun j => var (ix2 (0 : Fin 1) j)) = varK (lin hin W1 b1) := funext fun j => by
    rw [hvar, hsq, hmu, hsum]; rfl
  rw [hout, hm, hv]; rfl

end Cert.Net

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«149897_j14525579395559_1_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«149897_j14525579395559_1_alg».proof.Proof.LibDenseRows
import proofs.«149897_j14525579395559_1_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.StatsBody.lean ====
/-
  One grid point of a column-statistics kernel, read at an entry over the extended reals, and the way the points'
  contributions add up to whole-column sums.

  A point holds a block of 2000 rows x. It forms z = x · W + b (a [2000,128] by [128,128] product into a zero accumulator
  plus the bias row repeated down the rows; the change of float format before the product is the identity on extended
  reals), and adds to each of two running rows: to the first the column sums of z over the block's rows, to the second
  the column sums of z · z. So after the point the first row holds, at column j, what it held before plus
  Σ_r z (r, j), and the second what it held before plus Σ_r z (r, j)².

  The 50000 rows are 25 blocks of 2000, row r of block s being row 2000·s + r. Addition of extended reals is
  commutative and associative, so the sum of a column over all rows is the sum over the blocks of the sums over a block's
  rows.
-/
import Idealize.ShloMosaic.Lib.ValueIdx
import Idealize.ShloMosaic.Lib.ValueLayout
import Idealize.ShloMosaic.Lib.Pipeline.Value
import Idealize.ShloMosaic.PureOps.Ideal.Laws
import proofs.«149897_j14525579395559_1_alg».proof.Proof.Gen.KernelIdeal.Skeleton
import proofs.«149897_j14525579395559_1_alg».proof.Proof.LibPlainLayers
import proofs.«149897_j14525579395559_1_alg».proof.Proof.LibChunkSum
import proofs.«149897_j14525579395559_1_alg».proof.Proof.Net

noncomputable section

open scoped BigOperators

namespace Cert.KernelIdeal.StatsValue

open Idealize.ShloMosaic Idealize.ShloMosaic.ValueIdx Cert.KernelIdeal

/-- The zero offsets of a rank-2 access, as a constant function. -/
theorem hz2 : (![0, 0] : Fin 2 → Nat) = fun _ => 0 := funext fun a => by fin_cases a <;> rfl

/-! ## Sums along the leading axis -/

/-- The sum of an [A, B] array along its first axis, at q, is the sum over r of the array at (r, q). -/
theorem leadAxisSum_apply {A B : ℕ} {φ : FTy} (src : FVec Ideal ⟨2, ![A, B]⟩ φ) (acc : BitVec φ.bits)
    (h : (⟨2, ![A, B]⟩ : Shape).Reduces [0] ⟨1, ![B]⟩) (hφ : FKind.Formats φ) (hacc : acc = FKind.add.neutral φ hφ) (q : Fin B) :
    multiReduction .add [0] ⟨1, ![B]⟩ src acc h hφ hacc (ix1 q) = ∑ r : Fin A, src (ix2 r q) := by
  refine (Ideal.multiReduction_add_single src acc h hφ hacc (ix1 q)).trans ?_
  refine Finset.sum_congr rfl fun k _ => congrArg src (funext fun c => Fin.ext ?_)
  rw [h.lift_val]
  match c with
  | ⟨0, _⟩ => rfl
  | ⟨1, _⟩ => rfl

/-! ## One block's z = x · W + b -/

/-- Entry (r, j) of a block's rows times the weight matrix plus the bias row. -/
def zBlk (x : Vec Ideal S2000x128 .f32) (W : Vec Ideal S128x128 .f32) (b : Vec Ideal S1x128 .f32) (r : Fin 2000) (j : Fin 128) : EReal :=
  (∑ k : Fin 128, x (ix2 r k) * W (ix2 k j)) + b (ix2 (0 : Fin 1) j)

/-- The block's product-plus-bias at (r, j). -/
theorem pay3_apply (x : Vec Ideal S2000x128 .f32) (W : Vec Ideal S128x128 .f32) (b : Vec Ideal S1x128 .f32) (r : Fin 2000) (j : Fin 128) :
    Gen.k0_pay3 x W b (ix2 r j) = zBlk x W b r j := by
  unfold Gen.k0_pay3 zBlk
  refine congrArg₂ (· + ·) ?_ ((broadcastTo_1b_ab_apply _ _ r j).trans (congrFun (shapeCast_self b _) _))
  refine (Cert.PlainLayers.plainMM_of_eq _ rfl none _ _ r j).trans ?_
  exact Finset.sum_congr rfl fun k _ => congrArg₂ (· * ·) (congrFun (shapeCast_self x _) _) (congrFun (shapeCast_self W _) _)

/-- The zero row a first point stores is zero at every entry. -/
theorem pay1_apply (i : S1x128.Idx) : Gen.k0_pay1 (F := Ideal) i = 0 := Ideal.ofBits_zero_f32
theorem pay2_apply (i : S1x128.Idx) : Gen.k0_pay2 (F := Ideal) i = 0 := Ideal.ofBits_zero_f32

/-- The first running row after a point: what it held plus the block's column sums of z. -/
theorem pay4_apply (x : Vec Ideal S2000x128 .f32) (W : Vec Ideal S128x128 .f32) (b acc : Vec Ideal S1x128 .f32) (u : Fin 1) (j : Fin 128) :
    Gen.k0_pay4 x W b acc (ix2 u j) = acc (ix2 u j) + ∑ r : Fin 2000, zBlk x W b r j := by
  unfold Gen.k0_pay4
  refine congrArg₂ (· + ·) (congrFun (shapeCast_self acc _) _) ?_
  refine (shapeCast_a_1a_apply _ _ u j).trans ?_
  refine (leadAxisSum_apply (Gen.k0_pay3 x W b) _ _ _ _ j).trans ?_
  exact Finset.sum_congr rfl fun r _ => pay3_apply x W b r j

/-- The second running row after a point: what it held plus the block's column sums of z · z. -/
theorem pay5_apply (x : Vec Ideal S2000x128 .f32) (W : Vec Ideal S128x128 .f32) (b acc : Vec Ideal S1x128 .f32) (u : Fin 1) (j : Fin 128) :
    Gen.k0_pay5 x W b acc (ix2 u j) = acc (ix2 u j) + ∑ r : Fin 2000, zBlk x W b r j * zBlk x W b r j := by
  unfold Gen.k0_pay5
  refine congrArg₂ (· + ·) (congrFun (shapeCast_self acc _) _) ?_
  refine (shapeCast_a_1a_apply _ _ u j).trans ?_
  refine (leadAxisSum_apply (mulf (Gen.k0_pay3 x W b) (Gen.k0_pay3 x W b)) _ _ _ _ j).trans ?_
  exact Finset.sum_congr rfl fun r _ => congrArg₂ (· * ·) (pay3_apply x W b r j) (pay3_apply x W b r j)

/-- The same steps as the second and third statistics regions spell them (the same terms under other names). -/
theorem pay1_apply_2 (i : S1x128.Idx) : Gen.k2_pay1 (F := Ideal) i = 0 := Ideal.ofBits_zero_f32
theorem pay2_apply_2 (i : S1x128.Idx) : Gen.k2_pay2 (F := Ideal) i = 0 := Ideal.ofBits_zero_f32
theorem pay4_apply_2 (x : Vec Ideal S2000x128 .f32) (W : Vec Ideal S128x128 .f32) (b acc : Vec Ideal S1x128 .f32) (u : Fin 1) (j : Fin 128) :
    Gen.k2_pay4 x W b acc (ix2 u j) = acc (ix2 u j) + ∑ r : Fin 2000, zBlk x W b r j := pay4_apply x W b acc u j
theorem pay5_apply_2 (x : Vec Ideal S2000x128 .f32) (W : Vec Ideal S128x128 .f32) (b acc : Vec Ideal S1x128 .f32) (u : Fin 1) (j : Fin 128) :
    Gen.k2_pay5 x W b acc (ix2 u j) = acc (ix2 u j) + ∑ r : Fin 2000, zBlk x W b r j * zBlk x W b r j := pay5_apply x W b acc u j

theorem pay1_apply_4 (i : S1x128.Idx) : Gen.k4_pay1 (F := Ideal) i = 0 := Ideal.ofBits_zero_f32
theorem pay2_apply_4 (i : S1x128.Idx) : Gen.k4_pay2 (F := Ideal) i = 0 := Ideal.ofBits_zero_f32
theorem pay4_apply_4 (x : Vec Ideal S2000x128 .f32) (W : Vec Ideal S128x128 .f32) (b acc : Vec Ideal S1x128 .f32) (u : Fin 1) (j : Fin 128) :
    Gen.k4_pay4 x W b acc (ix2 u j) = acc (ix2 u j) + ∑ r : Fin 2000, zBlk x W b r j := pay4_apply x W b acc u j
theorem pay5_apply_4 (x : Vec Ideal S2000x128 .f32) (W : Vec Ideal S128x128 .f32) (b acc : Vec Ideal S1x128 .f32) (u : Fin 1) (j : Fin 128) :
    Gen.k4_pay5 x W b acc (ix2 u j) = acc (ix2 u j) + ∑ r : Fin 2000, zBlk x W b r j * zBlk x W b r j := pay5_apply x W b acc u j

/-! ## A running total over the points -/

/-- A quantity that starts at the first point's addend and at every later point is what it was plus that point's addend
    is, after point n, the sum of the addends of points 0 … n. -/
theorem running_total {N : ℕ} (o : (n : ℕ) → n < N → Fin 1 → Fin 128 → EReal) (B : ℕ → Fin 128 → EReal)
    (h0 : ∀ (h : 0 < N) (u : Fin 1) (j : Fin 128), o 0 h u j = B 0 j)
    (hs : ∀ (n : ℕ) (h : n + 1 < N) (u : Fin 1) (j : Fin 128), o (n + 1) h u j = o n (Nat.lt_of_succ_lt h) u j + B (n + 1) j) :
    ∀ (n : ℕ) (h : n < N) (u : Fin 1) (j : Fin 128), o n h u j = ∑ s ∈ Finset.range (n + 1), B s j
  | 0, h, u, j => by rw [h0 h u j, Finset.sum_range_one]
  | n + 1, h, u, j => by rw [hs n h u j, running_total o B h0 hs n (Nat.lt_of_succ_lt h) u j, Finset.sum_range_succ _ (n + 1)]

/-! ## Blocks of rows -/

/-- Row r of block s among the 50000 rows. -/
def blkRow (s : Fin 25) (r : Fin 2000) : Fin 50000 := ⟨2000 * s.val + r.val, by have := s.isLt; have := r.isLt; omega⟩

/-- A sum over the 50000 rows is the sum over the 25 blocks of the sums over a block's 2000 rows. -/
theorem sum_rows_blocks (T : Fin 50000 → EReal) : ∑ n : Fin 50000, T n = ∑ s : Fin 25, ∑ r : Fin 2000, T (blkRow s r) :=
  Cert.LibChunkSum.sum_chunks 25 2000 T blkRow (fun _ _ => rfl)

/-- The blocks' addends, given as a function of every natural that is the block's sum below 25, add up over the 25 points
    to the whole sum. -/
theorem total_of_blocks (T : Fin 50000 → EReal) (B : ℕ → EReal) (hB : ∀ s : Fin 25, B s.val = ∑ r : Fin 2000, T (blkRow s r)) :
    ∑ s ∈ Finset.range (24 + 1), B s = ∑ n : Fin 50000, T n := by
  rw [sum_rows_blocks T, Finset.sum_range (n := 24 + 1) B]
  exact Finset.sum_congr rfl fun s _ => hB s

end Cert.KernelIdeal.StatsValue

end
-- ==== Proof.Stats0.lean ====
/-
  What the two running rows of the column-statistics region 0 hold when the region ends.

  The region visits 25 points; point t sees rows 2000·t … 2000·t + 1999 of the node array, the whole weight matrix and
  the whole bias row. The first point stores zero rows and then adds its block's column sums of z = x · W + b and of
  z · z; every later point adds its block's sums to what the point before left (the rows' block never moves, so nothing
  is written back in between). Hence after point n the rows hold the sums over the rows of blocks 0 … n, and after the
  last point — the only one that writes the rows back — the sums over all 50000 rows.
-/
import proofs.«149897_j14525579395559_1_alg».proof.Proof.Gen.KernelIdeal.Frame
import proofs.«149897_j14525579395559_1_alg».proof.Proof.StatsBody
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.StatsValue

open Cert.KernelIdeal Cert.KernelIdeal.Gen

/-! ## What a point leaves in the two rows, at any float values -/

section Pieces

variable {F : FTy → Type} [FloatOps F]
variable (V : (c : Dev nD) → (b : Ref sig .tc) → Buf (Elt F) ((c : Thread nD τ).loc b))

/-- A later point leaves in the first row the step applied to what the row held. -/
theorem out0_B_3_eq (c : Dev nD) (i : grid0.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond0_0 i) (x0 : Vec F S2000x128 .f32) (x1 : Vec F S128x128 .f32) (x2 xo3 xo4 : Vec F S1x128 .f32) :
    out0_B_3 c i a1 h1 a2 h2 a3 h3 a4 h4 a5 h5 hc x0 x1 x2 xo3 xo4 = k0_pay4 x0 x1 x2 xo3 := by
  unfold out0_B_3
  rw [View.read_writes_eq_canon _ _ _ (cover0_B_3 c i a1 h1 a2 h2 a3 h3 a4 h4 a5 h5 hc x0 x1 x2 xo3 xo4)]
  unfold kernelRun0_B
  dsimp only
  rw [View.canon_unit_zero hz2]
  simp only [View.readAt_eq_ld, h1.read_unread, h2.read_unread, h3.read_unread, h4.read_unread,
    View.ld_unit_zero (S := S2000x128) hz2, View.ld_unit_zero (S := S128x128) hz2, View.ld_unit_zero (S := S1x128) hz2]

/-- A later point leaves in the second row the step applied to what the row held. -/
theorem out0_B_4_eq (c : Dev nD) (i : grid0.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond0_0 i) (x0 : Vec F S2000x128 .f32) (x1 : Vec F S128x128 .f32) (x2 xo3 xo4 : Vec F S1x128 .f32) :
    out0_B_4 c i a1 h1 a2 h2 a3 h3 a4 h4 a5 h5 hc x0 x1 x2 xo3 xo4 = k0_pay5 x0 x1 x2 xo4 := by
  unfold out0_B_4
  rw [View.read_writes_eq_canon _ _ _ (cover0_B_4 c i a1 h1 a2 h2 a3 h3 a4 h4 a5 h5 hc x0 x1 x2 xo3 xo4)]
  unfold kernelRun0_B
  dsimp only
  rw [View.canon_unit_zero hz2]
  simp only [View.readAt_eq_ld, h1.read_unread, h2.read_unread, h3.read_unread, h5.read_unread,
    View.ld_unit_zero (S := S2000x128) hz2, View.ld_unit_zero (S := S128x128) hz2, View.ld_unit_zero (S := S1x128) hz2]

/-- The first point leaves in the first row the step applied to the zero row it has just stored. -/
theorem out0_A_3_eq (c : Dev nD) (i : grid0.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond0_0 i) (x0 : Vec F S2000x128 .f32) (x1 : Vec F S128x128 .f32) (x2 : Vec F S1x128 .f32) :
    out0_A_3 c i a1 h1 a2 h2 a3 h3 a4 h4 a5 h5 hc x0 x1 x2 = k0_pay4 x0 x1 x2 k0_pay1 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S2000x128) hz2, View.ld_unit_zero (S := S128x128) hz2, View.ld_unit_zero (S := S1x128) hz2]

/-- The first point leaves in the second row the step applied to the zero row it has just stored. -/
theorem out0_A_4_eq (c : Dev nD) (i : grid0.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond0_0 i) (x0 : Vec F S2000x128 .f32) (x1 : Vec F S128x128 .f32) (x2 : Vec F S1x128 .f32) :
    out0_A_4 c i a1 h1 a2 h2 a3 h3 a4 h4 a5 h5 hc x0 x1 x2 = k0_pay5 x0 x1 x2 k0_pay2 := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S2000x128) hz2, View.ld_unit_zero (S := S128x128) hz2, View.ld_unit_zero (S := S1x128) hz2]

/-- The rows after the first point. -/
theorem fst0_A (c : Dev nD) (t : Fin cfg0.N) (h0 : t.val % 25 = 0) :
    (outsAt0 V c t.val t.isLt).1 = k0_pay4 (iblk0 V c 0 t) (iblk0 V c 1 t) (iblk0 V c 2 t) k0_pay1 := by
  rw [outsAt0_A V c t h0]
  exact out0_A_3_eq c (grid0.coords t) (ms0_0 t) (hs0_0 t) (ms0_1 t) (hs0_1 t) (ms0_2 t) (hs0_2 t) (ms0_3 t) (hs0_3 t) (ms0_4 t) (hs0_4 t)
    ((hcond0_0 t).mpr h0) (iblk0 V c 0 t) (iblk0 V c 1 t) (iblk0 V c 2 t)

theorem snd0_A (c : Dev nD) (t : Fin cfg0.N) (h0 : t.val % 25 = 0) :
    (outsAt0 V c t.val t.isLt).2 = k0_pay5 (iblk0 V c 0 t) (iblk0 V c 1 t) (iblk0 V c 2 t) k0_pay2 := by
  rw [outsAt0_A V c t h0]
  exact out0_A_4_eq c (grid0.coords t) (ms0_0 t) (hs0_0 t) (ms0_1 t) (hs0_1 t) (ms0_2 t) (hs0_2 t) (ms0_3 t) (hs0_3 t) (ms0_4 t) (hs0_4 t)
    ((hcond0_0 t).mpr h0) (iblk0 V c 0 t) (iblk0 V c 1 t) (iblk0 V c 2 t)

/-- The rows after a later point, from the rows after the point before. -/
theorem fst0_B (c : Dev nD) (t : Fin cfg0.N) (h0 : ¬t.val % 25 = 0) :
    (outsAt0 V c t.val t.isLt).1 = k0_pay4 (iblk0 V c 0 t) (iblk0 V c 1 t) (iblk0 V c 2 t)
      (outsAt0 V c (t.val - 1) (Nat.lt_of_le_of_lt (Nat.sub_le _ _) t.isLt)).1 := by
  rw [outsAt0_B V c t h0]
  exact out0_B_3_eq c (grid0.coords t) (ms0_0 t) (hs0_0 t) (ms0_1 t) (hs0_1 t) (ms0_2 t) (hs0_2 t) (ms0_3 t) (hs0_3 t) (ms0_4 t) (hs0_4 t)
    (fun h => h0 ((hcond0_0 t).mp h)) (iblk0 V c 0 t) (iblk0 V c 1 t) (iblk0 V c 2 t)
    (outsAt0 V c (t.val - 1) (Nat.lt_of_le_of_lt (Nat.sub_le _ _) t.isLt)).1 (outsAt0 V c (t.val - 1) (Nat.lt_of_le_of_lt (Nat.sub_le _ _) t.isLt)).2

theorem snd0_B (c : Dev nD) (t : Fin cfg0.N) (h0 : ¬t.val % 25 = 0) :
    (outsAt0 V c t.val t.isLt).2 = k0_pay5 (iblk0 V c 0 t) (iblk0 V c 1 t) (iblk0 V c 2 t)
      (outsAt0 V c (t.val - 1) (Nat.lt_of_le_of_lt (Nat.sub_le _ _) t.isLt)).2 := by
  rw [outsAt0_B V c t h0]
  exact out0_B_4_eq c (grid0.coords t) (ms0_0 t) (hs0_0 t) (ms0_1 t) (hs0_1 t) (ms0_2 t) (hs0_2 t) (ms0_3 t) (hs0_3 t) (ms0_4 t) (hs0_4 t)
    (fun h => h0 ((hcond0_0 t).mp h)) (iblk0 V c 0 t) (iblk0 V c 1 t) (iblk0 V c 2 t)
    (outsAt0 V c (t.val - 1) (Nat.lt_of_le_of_lt (Nat.sub_le _ _) t.isLt)).1 (outsAt0 V c (t.val - 1) (Nat.lt_of_le_of_lt (Nat.sub_le _ _) t.isLt)).2

/-! ## The blocks the windows read -/

/-- Where the three input windows sit at point t: the node rows' block is block t, the matrix and the bias row are whole. -/
theorem idx0_in : ∀ t : Fin cfg0.N, (win0_0.index t (0 : Fin 2) = t.val ∧ win0_0.index t (1 : Fin 2) = 0)
      ∧ (win0_1.index t (0 : Fin 2) = 0 ∧ win0_1.index t (1 : Fin 2) = 0) ∧ (win0_2.index t (0 : Fin 2) = 0 ∧ win0_2.index t (1 : Fin 2) = 0) :=
  (by decide +kernel : ∀ t : Fin grid0.N, (win0_0.index t (0 : Fin 2) = t.val ∧ win0_0.index t (1 : Fin 2) = 0)
      ∧ (win0_1.index t (0 : Fin 2) = 0 ∧ win0_1.index t (1 : Fin 2) = 0) ∧ (win0_2.index t (0 : Fin 2) = 0 ∧ win0_2.index t (1 : Fin 2) = 0))

/-- Entry (r, k) of the node rows' block at point t is entry (2000·t + r, k) of the node array. -/
theorem blk0_0_apply (c : Dev nD) (t : Fin cfg0.N) (r : Fin 2000) (k : Fin 128) (hr : 2000 * t.val + r.val < 50000) :
    (iblk0 V c 0 t : Vec F S2000x128 .f32) (ix2 r k) = (V c main_v14 : Vec F S50000x128 .f32) (ix2 (⟨2000 * t.val + r.val, hr⟩ : Fin 50000) k) := by
  unfold iblk0
  rw [View.read_apply]
  show V c main_v14 _ = V c main_v14 _
  refine congrArg (V c main_v14) (funext fun a => Fin.ext ?_)
  match a with
  | ⟨0, _⟩ => show win0_0.index t 0 * 2000 + 1 * r.val = 2000 * t.val + r.val; rw [(idx0_in t).1.1]; omega
  | ⟨1, _⟩ => show win0_0.index t 1 * 128 + 1 * k.val = k.val; rw [(idx0_in t).1.2]; omega

/-- The weight matrix's block is the matrix. -/
theorem blk0_1_apply (c : Dev nD) (t : Fin cfg0.N) (k j : Fin 128) :
    (iblk0 V c 1 t : Vec F S128x128 .f32) (ix2 k j) = (V c main_v16 : Vec F S128x128 .f32) (ix2 k j) := by
  unfold iblk0
  rw [View.read_apply]
  show V c main_v16 _ = V c main_v16 _
  refine congrArg (V c main_v16) (funext fun a => Fin.ext ?_)
  match a with
  | ⟨0, _⟩ => show win0_1.index t 0 * 128 + 1 * k.val = k.val; rw [(idx0_in t).2.1.1]; omega
  | ⟨1, _⟩ => show win0_1.index t 1 * 128 + 1 * j.val = j.val; rw [(idx0_in t).2.1.2]; omega

/-- The bias row's block is the row. -/
theorem blk0_2_apply (c : Dev nD) (t : Fin cfg0.N) (u : Fin 1) (j : Fin 128) :
    (iblk0 V c 2 t : Vec F S1x128 .f32) (ix2 u j) = (V c main_v19 : Vec F S1x128 .f32) (ix2 u j) := by
  unfold iblk0
  rw [View.read_apply]
  show V c main_v19 _ = V c main_v19 _
  refine congrArg (V c main_v19) (funext fun a => Fin.ext ?_)
  match a with
  | ⟨0, _⟩ => show win0_2.index t 0 * 1 + 1 * u.val = u.val; rw [(idx0_in t).2.2.1]; omega
  | ⟨1, _⟩ => show win0_2.index t 1 * 128 + 1 * j.val = j.val; rw [(idx0_in t).2.2.2]; omega

end Pieces

/-! ## The totals, over the extended reals -/

section Totals

variable (V : (c : Dev nD) → (b : Ref sig .tc) → Buf (Elt Ideal) ((c : Thread nD τ).loc b))

/-- The node rows, the weight matrix and the bias row as the region finds them. -/
abbrev hArr0 (c : Dev nD) : FVec Ideal Cert.Net.SN .f32 := V c main_v14
abbrev wMat0 (c : Dev nD) : Fin 128 → Fin 128 → EReal := fun k j => V c main_v16 (ix2 k j)
abbrev bRow0 (c : Dev nD) : Fin 128 → EReal := fun j => V c main_v19 (ix2 (0 : Fin 1) j)

/-- z = h · W + b over all the node rows. -/
abbrev zAll0 (c : Dev nD) : FVec Ideal Cert.Net.SN .f32 := Cert.Net.lin (hArr0 V c) (wMat0 V c) (bRow0 V c)

/-- Point s's addend to the first row: its block's column sums of z (zero past the grid). -/
def add0_3 (c : Dev nD) (s : ℕ) (j : Fin 128) : EReal :=
  if h : s < cfg0.N then ∑ r : Fin 2000, zBlk (iblk0 V c 0 ⟨s, h⟩) (iblk0 V c 1 ⟨s, h⟩) (iblk0 V c 2 ⟨s, h⟩) r j else 0

/-- Point s's addend to the second row: its block's column sums of z · z. -/
def add0_4 (c : Dev nD) (s : ℕ) (j : Fin 128) : EReal :=
  if h : s < cfg0.N then ∑ r : Fin 2000, zBlk (iblk0 V c 0 ⟨s, h⟩) (iblk0 V c 1 ⟨s, h⟩) (iblk0 V c 2 ⟨s, h⟩) r j
      * zBlk (iblk0 V c 0 ⟨s, h⟩) (iblk0 V c 1 ⟨s, h⟩) (iblk0 V c 2 ⟨s, h⟩) r j else 0

/-- Row r of block s of z is row 2000·s + r of z over all the rows. -/
theorem zBlk0_eq (c : Dev nD) (s : Fin 25) (h : s.val < cfg0.N) (r : Fin 2000) (j : Fin 128) :
    zBlk (iblk0 V c 0 ⟨s.val, h⟩) (iblk0 V c 1 ⟨s.val, h⟩) (iblk0 V c 2 ⟨s.val, h⟩) r j = zAll0 V c (ix2 (blkRow s r) j) := by
  unfold zBlk
  show _ = (∑ k : Fin 128, hArr0 V c (ix2 (blkRow s r) k) * wMat0 V c k j) + bRow0 V c j
  refine congrArg₂ (· + ·) (Finset.sum_congr rfl fun k _ => congrArg₂ (· * ·) ?_ ?_) ?_
  · exact blk0_0_apply V c ⟨s.val, h⟩ r k (blkRow s r).isLt
  · exact blk0_1_apply V c ⟨s.val, h⟩ k j
  · exact blk0_2_apply V c ⟨s.val, h⟩ 0 j

theorem add0_3_eq (c : Dev nD) (s : Fin 25) (j : Fin 128) :
    add0_3 V c s.val j = ∑ r : Fin 2000, zAll0 V c (ix2 (blkRow s r) j) := by
  have h : s.val < cfg0.N := lt_of_lt_of_eq s.isLt (show cfg0.N = 25 from N_0).symm
  unfold add0_3
  rw [dif_pos h]
  exact Finset.sum_congr rfl fun r _ => zBlk0_eq V c s h r j

theorem add0_4_eq (c : Dev nD) (s : Fin 25) (j : Fin 128) :
    add0_4 V c s.val j = ∑ r : Fin 2000, zAll0 V c (ix2 (blkRow s r) j) * zAll0 V c (ix2 (blkRow s r) j) := by
  have h : s.val < cfg0.N := lt_of_lt_of_eq s.isLt (show cfg0.N = 25 from N_0).symm
  unfold add0_4
  rw [dif_pos h]
  exact Finset.sum_congr rfl fun r _ => congrArg₂ (· * ·) (zBlk0_eq V c s h r j) (zBlk0_eq V c s h r j)

/-- After point n the first row holds the addends of points 0 … n. -/
theorem run0_3 (c : Dev nD) : ∀ (n : ℕ) (h : n < cfg0.N) (u : Fin 1) (j : Fin 128),
    (outsAt0 V c n h).1 (ix2 u j) = ∑ s ∈ Finset.range (n + 1), add0_3 V c s j :=
  running_total (fun n h u j => (outsAt0 V c n h).1 (ix2 u j)) (add0_3 V c)
    (fun h u j => by
      refine (congrFun (fst0_A V c ⟨0, h⟩ rfl) (ix2 u j)).trans ?_
      refine (pay4_apply (iblk0 V c 0 ⟨0, h⟩) (iblk0 V c 1 ⟨0, h⟩) (iblk0 V c 2 ⟨0, h⟩) (k0_pay1 (F := Ideal)) u j).trans ?_
      rw [pay1_apply, zero_add]
      unfold add0_3; rw [dif_pos h])
    (fun n h u j => by
      have hN : cfg0.N = 25 := N_0
      have hB : ¬(⟨n + 1, h⟩ : Fin cfg0.N).val % 25 = 0 := by dsimp only; omega
      refine (congrFun (fst0_B V c ⟨n + 1, h⟩ hB) (ix2 u j)).trans ?_
      refine (pay4_apply (iblk0 V c 0 ⟨n + 1, h⟩) (iblk0 V c 1 ⟨n + 1, h⟩) (iblk0 V c 2 ⟨n + 1, h⟩) _ u j).trans ?_
      refine congrArg₂ (· + ·) rfl ?_
      unfold add0_3; rw [dif_pos h])

/-- After point n the second row holds the addends of points 0 … n. -/
theorem run0_4 (c : Dev nD) : ∀ (n : ℕ) (h : n < cfg0.N) (u : Fin 1) (j : Fin 128),
    (outsAt0 V c n h).2 (ix2 u j) = ∑ s ∈ Finset.range (n + 1), add0_4 V c s j :=
  running_total (fun n h u j => (outsAt0 V c n h).2 (ix2 u j)) (add0_4 V c)
    (fun h u j => by
      refine (congrFun (snd0_A V c ⟨0, h⟩ rfl) (ix2 u j)).trans ?_
      refine (pay5_apply (iblk0 V c 0 ⟨0, h⟩) (iblk0 V c 1 ⟨0, h⟩) (iblk0 V c 2 ⟨0, h⟩) (k0_pay2 (F := Ideal)) u j).trans ?_
      rw [pay2_apply, zero_add]
      unfold add0_4; rw [dif_pos h])
    (fun n h u j => by
      have hN : cfg0.N = 25 := N_0
      have hB : ¬(⟨n + 1, h⟩ : Fin cfg0.N).val % 25 = 0 := by dsimp only; omega
      refine (congrFun (snd0_B V c ⟨n + 1, h⟩ hB) (ix2 u j)).trans ?_
      refine (pay5_apply (iblk0 V c 0 ⟨n + 1, h⟩) (iblk0 V c 1 ⟨n + 1, h⟩) (iblk0 V c 2 ⟨n + 1, h⟩) _ u j).trans ?_
      refine congrArg₂ (· + ·) rfl ?_
      unfold add0_4; rw [dif_pos h])

/-- The column sums of z over all the rows, as contents of the first result row; -/
def sum0 (c : Dev nD) : Buf (Elt Ideal) ((c : Thread nD τ).loc main_v20_0) :=
  fun (i : S1x128.Idx) => Cert.Net.colSum (zAll0 V c) (Cert.Spec.col i)
/-- and of z · z, as contents of the second. -/
def sumsq0 (c : Dev nD) : Buf (Elt Ideal) ((c : Thread nD τ).loc main_v20_1) :=
  fun (i : S1x128.Idx) => Cert.Net.colSumSq (zAll0 V c) (Cert.Spec.col i)

/-- The last point. -/
theorem last0 : (24 : ℕ) < cfg0.N := by rw [show cfg0.N = 25 from N_0]; decide
abbrev tLast0 : Fin cfg0.N := ⟨24, last0⟩

/-- After the last point the first row holds the column sums over all the rows. -/
theorem row0_3_last (c : Dev nD) : (outsAt0 V c 24 last0).1 = sum0 V c := by
  funext i
  obtain ⟨u, j, rfl⟩ : ∃ (u : Fin 1) (j : Fin 128), i = ix2 u j := ⟨i 0, i 1, eq_ix2 i⟩
  refine (run0_3 V c 24 last0 u j).trans ?_
  show _ = Cert.Net.colSum (zAll0 V c) j
  unfold Cert.Net.colSum
  exact total_of_blocks (fun n => zAll0 V c (ix2 n j)) (fun s => add0_3 V c s j) (fun s => add0_3_eq V c s j)

theorem row0_4_last (c : Dev nD) : (outsAt0 V c 24 last0).2 = sumsq0 V c := by
  funext i
  obtain ⟨u, j, rfl⟩ : ∃ (u : Fin 1) (j : Fin 128), i = ix2 u j := ⟨i 0, i 1, eq_ix2 i⟩
  refine (run0_4 V c 24 last0 u j).trans ?_
  show _ = Cert.Net.colSumSq (zAll0 V c) j
  unfold Cert.Net.colSumSq
  exact total_of_blocks (fun n => zAll0 V c (ix2 n j) * zAll0 V c (ix2 n j)) (fun s => add0_4 V c s j) (fun s => add0_4_eq V c s j)

/-- The two result rows' block never moves: it is block (0, 0), the whole row. -/
theorem idx0_out : ∀ t : Fin cfg0.N, (win0_3.index t (0 : Fin 2) = 0 ∧ win0_3.index t (1 : Fin 2) = 0)
      ∧ (win0_4.index t (0 : Fin 2) = 0 ∧ win0_4.index t (1 : Fin 2) = 0) :=
  (by decide +kernel : ∀ t : Fin grid0.N, (win0_3.index t (0 : Fin 2) = 0 ∧ win0_3.index t (1 : Fin 2) = 0)
      ∧ (win0_4.index t (0 : Fin 2) = 0 ∧ win0_4.index t (1 : Fin 2) = 0))

/-- The one write-back of the first row, at the last point, writes the column sums. -/
theorem flushed0_3_eq (c : Dev nD) (t : Fin cfg0.N) (hf : (cfg0.win 3).flush t = true) :
    (dat0 V c).flushed 3 t = ((cfg0.win 3).blk t).view.read (Elt Ideal) (sum0 V c) := by
  have hN : cfg0.N = 25 := N_0
  have h24 : t.val = 24 := by have := (flush0_3 t).mp hf; have := t.isLt; omega
  obtain rfl : t = tLast0 := Fin.ext h24
  show (cfg0.win 3).cut (grid0.coords tLast0) ((dat0 V c).after 3 tLast0) = _
  rw [after0_3]
  show (cfg0.win 3).cut (grid0.coords tLast0) (outsAt0 V c 24 last0).1 = _
  rw [row0_3_last]
  have hz' : (fun a => win0_3.index tLast0 a * main_v20_0.ty.shape.size a) = fun _ => 0 := funext fun a => by
    match a with
    | ⟨0, _⟩ => show win0_3.index tLast0 0 * 1 = 0; rw [(idx0_out tLast0).1.1]
    | ⟨1, _⟩ => show win0_3.index tLast0 1 * 128 = 0; rw [(idx0_out tLast0).1.2]
  exact (Memref.read_access_unit_zero (Elt Ideal) main_v20_0 hz' (fun a => by rw [congrFun hz' a]; simp) (sum0 V c)).symm

theorem flushed0_4_eq (c : Dev nD) (t : Fin cfg0.N) (hf : (cfg0.win 4).flush t = true) :
    (dat0 V c).flushed 4 t = ((cfg0.win 4).blk t).view.read (Elt Ideal) (sumsq0 V c) := by
  have hN : cfg0.N = 25 := N_0
  have h24 : t.val = 24 := by have := (flush0_4 t).mp hf; have := t.isLt; omega
  obtain rfl : t = tLast0 := Fin.ext h24
  show (cfg0.win 4).cut (grid0.coords tLast0) ((dat0 V c).after 4 tLast0) = _
  rw [after0_4]
  show (cfg0.win 4).cut (grid0.coords tLast0) (outsAt0 V c 24 last0).2 = _
  rw [row0_4_last]
  have hz' : (fun a => win0_4.index tLast0 a * main_v20_1.ty.shape.size a) = fun _ => 0 := funext fun a => by
    match a with
    | ⟨0, _⟩ => show win0_4.index tLast0 0 * 1 = 0; rw [(idx0_out tLast0).2.1]
    | ⟨1, _⟩ => show win0_4.index tLast0 1 * 128 = 0; rw [(idx0_out tLast0).2.2]
  exact (Memref.read_access_unit_zero (Elt Ideal) main_v20_1 hz' (fun a => by rw [congrFun hz' a]; simp) (sumsq0 V c)).symm

/-- The first result row when the region ends: at column j the sum over all 50000 rows of z (·, j). -/
theorem arr0_3_eq (c : Dev nD) : (dat0 V c).arrAt 3 cfg0.N = sum0 V c :=
  (dat0 V c).arrAt_eq_of_cover 3 (sum0 V c) (flushed0_3_eq V c) fun i =>
    ⟨tLast0, (flush0_3 tLast0).mpr rfl, by
      show i ∈ ((View.whole main_v20_0).slice (win0_3.rect tLast0)).set
      rw [View.set_slice_whole, Rect.mem_set_unit]
      intro a
      have h0 : (i 0 : Nat) < 1 := (i 0).isLt
      have h1 : (i 1 : Nat) < 128 := (i 1).isLt
      match a with
      | ⟨0, _⟩ => show win0_3.index tLast0 0 * 1 ≤ (i 0 : Nat) ∧ (i 0 : Nat) < win0_3.index tLast0 0 * 1 + 1
                  rw [(idx0_out tLast0).1.1]; omega
      | ⟨1, _⟩ => show win0_3.index tLast0 1 * 128 ≤ (i 1 : Nat) ∧ (i 1 : Nat) < win0_3.index tLast0 1 * 128 + 128
                  rw [(idx0_out tLast0).1.2]; omega⟩

/-- The second result row when the region ends: at column j the sum over all 50000 rows of z (·, j)². -/
theorem arr0_4_eq (c : Dev nD) : (dat0 V c).arrAt 4 cfg0.N = sumsq0 V c :=
  (dat0 V c).arrAt_eq_of_cover 4 (sumsq0 V c) (flushed0_4_eq V c) fun i =>
    ⟨tLast0, (flush0_4 tLast0).mpr rfl, by
      show i ∈ ((View.whole main_v20_1).slice (win0_4.rect tLast0)).set
      rw [View.set_slice_whole, Rect.mem_set_unit]
      intro a
      have h0 : (i 0 : Nat) < 1 := (i 0).isLt
      have h1 : (i 1 : Nat) < 128 := (i 1).isLt
      match a with
      | ⟨0, _⟩ => show win0_4.index tLast0 0 * 1 ≤ (i 0 : Nat) ∧ (i 0 : Nat) < win0_4.index tLast0 0 * 1 + 1
                  rw [(idx0_out tLast0).2.1]; omega
      | ⟨1, _⟩ => show win0_4.index tLast0 1 * 128 ≤ (i 1 : Nat) ∧ (i 1 : Nat) < win0_4.index tLast0 1 * 128 + 128
                  rw [(idx0_out tLast0).2.2]; omega⟩

/-- The same, with the column sums written out. -/
theorem stats0_sum (c : Dev nD) : (dat0 V c).arrAt 3 cfg0.N = fun (i : S1x128.Idx) =>
    Cert.Net.colSum (Cert.Net.lin (V c main_v14) (fun k j => V c main_v16 (ix2 k j)) (fun j => V c main_v19 (ix2 (0 : Fin 1) j))) (Cert.Spec.col i) :=
  arr0_3_eq V c

theorem stats0_sumsq (c : Dev nD) : (dat0 V c).arrAt 4 cfg0.N = fun (i : S1x128.Idx) =>
    Cert.Net.colSumSq (Cert.Net.lin (V c main_v14) (fun k j => V c main_v16 (ix2 k j)) (fun j => V c main_v19 (ix2 (0 : Fin 1) j))) (Cert.Spec.col i) :=
  arr0_4_eq V c

end Totals

end Cert.KernelIdeal.StatsValue

end
-- ==== Proof.LibBiasRows.lean ====
/-
  General lemmas for kernel bodies that work on a tile of rows with a bias row, read at an entry over the extended reals
  (the whole-array functions they are stated against are LibLayers.lean's).

  * `biasRow_apply`: a [b] vector recast as one row and repeated down the rows reads, at (p, q), the vector at q.
  * `biasRelu_apply` / `biasReluRes_apply`: tile plus bias row, cut at zero (and another tile added back), at (p, q).
  * `rowMaxCol_apply`: a tile's maximum along its last axis from −∞, kept as a column and repeated along the rows, reads at
    (p, q) the fold of max over row p.
  * `logSoftmaxRows_apply`: bias, row maximum taken off, exp, row sum, log, taken off — the row-wise log-softmax of the biased
    tile at (p, q).
-/
import Idealize.ShloMosaic.Lib.ValueIdx
import Idealize.ShloMosaic.Lib.ValueLayout
import Idealize.ShloMosaic.Lib.Pipeline.Value
import Idealize.ShloMosaic.PureOps.Ideal.Laws
import proofs.«149897_j14525579395559_1_alg».proof.Proof.LibLayers
import proofs.«149897_j14525579395559_1_alg».proof.Proof.LibColumns

noncomputable section

open scoped BigOperators

namespace Cert.BiasRows

open Idealize.ShloMosaic Idealize.ShloMosaic.ValueIdx

variable {a b : ℕ}

/-- A [b] vector recast as one row and repeated down the rows reads, at (p, q), the vector at q. -/
theorem biasRow_apply (v : FVec Ideal ⟨1, ![b]⟩ .f32) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The tile (recast to its own shape) plus the bias row, at (p, q). -/
theorem biased_apply (x : FVec Ideal ⟨2, ![a, b]⟩ .f32) (v : FVec Ideal ⟨1, ![b]⟩ .f32) (hs : (⟨2, ![a, b]⟩ : Shape).ShapeCasts ⟨2, ![a, b]⟩)
    (hc : (⟨1, ![b]⟩ : Shape).ShapeCasts ⟨2, ![1, b]⟩) (hb : (⟨2, ![1, b]⟩ : Shape).Broadcasts ⟨2, ![a, b]⟩) (p : Fin a) (q : Fin b) :
    addf (shapeCast ⟨2, ![a, b]⟩ x hs) (broadcastTo ⟨2, ![a, b]⟩ (shapeCast ⟨2, ![1, b]⟩ v hc) hb) (ix2 p q) = Spec.biased x v (ix2 p q) :=
  congrArg₂ (· + ·) (congrFun (shapeCast_self x hs) _) (biasRow_apply v hc hb p q)

/-- Tile plus bias row, cut at zero, at (p, q). -/
theorem biasRelu_apply (x : FVec Ideal ⟨2, ![a, b]⟩ .f32) (v : FVec Ideal ⟨1, ![b]⟩ .f32) (hs : (⟨2, ![a, b]⟩ : Shape).ShapeCasts ⟨2, ![a, b]⟩)
    (hc : (⟨1, ![b]⟩ : Shape).ShapeCasts ⟨2, ![1, b]⟩) (hb : (⟨2, ![1, b]⟩ : Shape).Broadcasts ⟨2, ![a, b]⟩) (p : Fin a) (q : Fin b) :
    maximumf (addf (shapeCast ⟨2, ![a, b]⟩ x hs) (broadcastTo ⟨2, ![a, b]⟩ (shapeCast ⟨2, ![1, b]⟩ v hc) hb))
        (broadcast ⟨2, ![a, b]⟩ (Scalar.ofBits (F := Ideal) .f32 0x00000000#32)) (ix2 p q)
      = Spec.biasRelu x v (ix2 p q) :=
  congrArg₂ max (biased_apply x v hs hc hb p q) rfl

/-- Tile plus bias row, cut at zero, plus another tile (recast to its own shape), at (p, q). -/
theorem biasReluRes_apply (x r : FVec Ideal ⟨2, ![a, b]⟩ .f32) (v : FVec Ideal ⟨1, ![b]⟩ .f32) (hs : (⟨2, ![a, b]⟩ : Shape).ShapeCasts ⟨2, ![a, b]⟩)
    (hc : (⟨1, ![b]⟩ : Shape).ShapeCasts ⟨2, ![1, b]⟩) (hb : (⟨2, ![1, b]⟩ : Shape).Broadcasts ⟨2, ![a, b]⟩) (p : Fin a) (q : Fin b) :
    addf (maximumf (addf (shapeCast ⟨2, ![a, b]⟩ x hs) (broadcastTo ⟨2, ![a, b]⟩ (shapeCast ⟨2, ![1, b]⟩ v hc) hb))
        (broadcast ⟨2, ![a, b]⟩ (Scalar.ofBits (F := Ideal) .f32 0x00000000#32))) (shapeCast ⟨2, ![a, b]⟩ r hs) (ix2 p q)
      = Spec.biasReluRes x v r (ix2 p q) :=
  congrArg₂ (· + ·) (biasRelu_apply x v hs hc hb p q) (congrFun (shapeCast_self r hs) _)

/-- A tile's maximum along its last axis from −∞, at p: the fold of max over row p. -/
theorem rowMax_apply (z : FVec Ideal ⟨2, ![a, b]⟩ .f32) (hr : (⟨2, ![a, b]⟩ : Shape).Reduces [1] ⟨1, ![a]⟩) (hφ : FKind.Formats .f32)
    (hmax : (0xFF800000#32 : BitVec FTy.f32.bits) = FKind.maximumf.neutral .f32 hφ) (p : Fin a) :
    multiReduction .maximumf [1] ⟨1, ![a]⟩ z 0xFF800000#32 hr hφ hmax (ix1 p) = Spec.rowMax z p := by
  refine (Ideal.multiReduction_maximumf_single z _ hr hφ hmax (ix1 p)).trans ?_
  unfold Spec.rowMax
  refine congrArg (Finset.fold max (Ideal.ofBits .f32 0xFF800000#32) · Finset.univ) (funext fun k => ?_)
  refine congrArg z (funext fun c => Fin.ext ?_)
  rw [hr.lift_val]
  match c with
  | ⟨0, _⟩ => rfl
  | ⟨1, _⟩ => rfl

/-- That maximum kept as a column and repeated along the rows, at (p, q). -/
theorem rowMaxCol_apply (z : FVec Ideal ⟨2, ![a, b]⟩ .f32) (hr : (⟨2, ![a, b]⟩ : Shape).Reduces [1] ⟨1, ![a]⟩) (hφ : FKind.Formats .f32)
    (hmax : (0xFF800000#32 : BitVec FTy.f32.bits) = FKind.maximumf.neutral .f32 hφ)
    (hcol : (⟨1, ![a]⟩ : Shape).ShapeCasts ⟨2, ![a, 1]⟩) (hbc : (⟨2, ![a, 1]⟩ : Shape).Broadcasts ⟨2, ![a, b]⟩) (p : Fin a) (q : Fin b) :
    broadcastTo ⟨2, ![a, b]⟩ (shapeCast ⟨2, ![a, 1]⟩ (multiReduction .maximumf [1] ⟨1, ![a]⟩ z 0xFF800000#32 hr hφ hmax) hcol) hbc (ix2 p q)
      = Spec.rowMax z p :=
  ((Cert.Columns.broadcastTo_a1_ab_apply _ hbc p q).trans (Cert.DenseRows.shapeCast_a_a1_apply _ hcol p 0)).trans (rowMax_apply z hr hφ hmax p)

/-- Bias, the row's maximum taken off, exp, the row's sum, log, taken off: the row-wise log-softmax of the biased tile. -/
theorem logSoftmaxRows_apply (x : FVec Ideal ⟨2, ![a, b]⟩ .f32) (v : FVec Ideal ⟨1, ![b]⟩ .f32) (hs : (⟨2, ![a, b]⟩ : Shape).ShapeCasts ⟨2, ![a, b]⟩)
    (hc : (⟨1, ![b]⟩ : Shape).ShapeCasts ⟨2, ![1, b]⟩) (hb : (⟨2, ![1, b]⟩ : Shape).Broadcasts ⟨2, ![a, b]⟩)
    (hr : (⟨2, ![a, b]⟩ : Shape).Reduces [1] ⟨1, ![a]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hcol : (⟨1, ![a]⟩ : Shape).ShapeCasts ⟨2, ![a, 1]⟩) (hbc : (⟨2, ![a, 1]⟩ : Shape).Broadcasts ⟨2, ![a, b]⟩) (p : Fin a) (q : Fin b) :
    subf (subf (addf (shapeCast ⟨2, ![a, b]⟩ x hs) (broadcastTo ⟨2, ![a, b]⟩ (shapeCast ⟨2, ![1, b]⟩ v hc) hb))
          (broadcastTo ⟨2, ![a, b]⟩ (shapeCast ⟨2, ![a, 1]⟩ (multiReduction .maximumf [1] ⟨1, ![a]⟩
            (addf (shapeCast ⟨2, ![a, b]⟩ x hs) (broadcastTo ⟨2, ![a, b]⟩ (shapeCast ⟨2, ![1, b]⟩ v hc) hb)) 0xFF800000#32 hr hφ hmax) hcol) hbc))
        (broadcastTo ⟨2, ![a, b]⟩ (log (shapeCast ⟨2, ![a, 1]⟩ (multiReduction .add [1] ⟨1, ![a]⟩
          (exp (subf (addf (shapeCast ⟨2, ![a, b]⟩ x hs) (broadcastTo ⟨2, ![a, b]⟩ (shapeCast ⟨2, ![1, b]⟩ v hc) hb))
            (broadcastTo ⟨2, ![a, b]⟩ (shapeCast ⟨2, ![a, 1]⟩ (multiReduction .maximumf [1] ⟨1, ![a]⟩
              (addf (shapeCast ⟨2, ![a, b]⟩ x hs) (broadcastTo ⟨2, ![a, b]⟩ (shapeCast ⟨2, ![1, b]⟩ v hc) hb)) 0xFF800000#32 hr hφ hmax) hcol) hbc)))
          0x00000000#32 hr hφ hadd) hcol)) hbc) (ix2 p q)
      = Spec.biasLogSoftmax x v (ix2 p q) := by
  have hz : addf (shapeCast ⟨2, ![a, b]⟩ x hs) (broadcastTo ⟨2, ![a, b]⟩ (shapeCast ⟨2, ![1, b]⟩ v hc) hb) = Spec.biased x v :=
    funext fun j => by rw [eq_ix2 j]; exact biased_apply x v hs hc hb (j 0) (j 1)
  rw [hz]
  have hcen : subf (Spec.biased x v) (broadcastTo ⟨2, ![a, b]⟩ (shapeCast ⟨2, ![a, 1]⟩ (multiReduction .maximumf [1] ⟨1, ![a]⟩
      (Spec.biased x v) 0xFF800000#32 hr hφ hmax) hcol) hbc) = Spec.centred (Spec.biased x v) :=
    funext fun j => by
      rw [eq_ix2 j]
      exact congrArg (Spec.biased x v (ix2 (j 0) (j 1)) - ·) (rowMaxCol_apply (Spec.biased x v) hr hφ hmax hcol hbc (j 0) (j 1))
  rw [hcen]
  unfold Spec.biasLogSoftmax
  refine congrArg (Spec.centred (Spec.biased x v) (ix2 p q) - ·) ?_
  refine (Cert.Columns.broadcastTo_a1_ab_apply _ hbc p q).trans ?_
  show Ideal.log (shapeCast ⟨2, ![a, 1]⟩ (multiReduction .add [1] ⟨1, ![a]⟩ (exp (Spec.centred (Spec.biased x v))) 0x00000000#32 hr hφ hadd) hcol (ix2 p (0 : Fin 1))) = _
  refine congrArg Ideal.log ?_
  exact Cert.Columns.keepdimsSum_apply _ _ hr hφ hadd hcol p 0

end Cert.BiasRows

end
-- ==== Proof.TileBody.lean ====
/-
  What the row-tile bodies compute, read as whole-tile functions over the extended reals.

  A tile is a block of consecutive node rows. Every stage of the network acts on each row by itself (given the weights,
  the bias rows and, for the normalisation, the two per-column numbers), so a tile's result is the network's stage
  applied to the tile as if it were the whole array, and a row of the result depends on that row of the input only.

  * `linTile`: tile times weights into a zero accumulator, plus the bias row repeated down the rows, is `Net.lin`.
  * `reluTile`: the maximum with the zero splat is the cut at zero.
  * `bnTile`: centring by a row of means, scaling by the reciprocal square root of a row of variances plus the small
    constant, then by a gain row, plus an offset row, cut at zero: `bnReluT`, the normalisation at any tile height.
  * `logSoftmaxTile`: row maximum taken off, exp, row sum, log, taken off: `Net.logSoftmax`.
  * `*_rows`: each stage at a row of one array equals the stage at a row of another array holding the same row.
-/
import Idealize.ShloMosaic.Lib.ValueIdx
import Idealize.ShloMosaic.Lib.ValueLayout
import Idealize.ShloMosaic.Lib.Pipeline.Value
import Idealize.ShloMosaic.PureOps.Ideal.Laws
import proofs.«149897_j14525579395559_1_alg».proof.Proof.Net
import proofs.«149897_j14525579395559_1_alg».proof.Proof.LibPlainLayers
import proofs.«149897_j14525579395559_1_alg».proof.Proof.LibBiasRows

noncomputable section

open scoped BigOperators

namespace Cert.KernelIdeal.TileValue

open Idealize.ShloMosaic Idealize.ShloMosaic.ValueIdx Cert.Spec Cert.Net

/-! ## The stages on a tile -/

/-- Tile times weights into a zero accumulator, plus the bias row repeated down the rows: `Net.lin` of the tile. -/
theorem linTile {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hlt : FTy.bf16.bits < FTy.f32.bits)
    (hc : (⟨2, ![1, N]⟩ : Shape).ShapeCasts ⟨2, ![1, N]⟩) (hb : (⟨2, ![1, N]⟩ : Shape).Broadcasts ⟨2, ![M, N]⟩) :
    addf (matmul D prec (truncf .bf16 x hlt) (truncf .bf16 w hlt) (constant ⟨2, ![M, N]⟩ .f32 0x00000000#32))
        (broadcastTo ⟨2, ![M, N]⟩ (shapeCast ⟨2, ![1, N]⟩ b hc) hb)
      = Net.lin x (fun k j => w (ix2 k j)) (fun j => b (ix2 (0 : Fin 1) j)) := by
  funext i
  obtain ⟨p, q, rfl⟩ : ∃ (p : Fin M) (q : Fin N), i = ix2 p q := ⟨i 0, i 1, eq_ix2 i⟩
  exact congrArg₂ (· + ·) (Cert.PlainLayers.plainMM_of_eq D hD prec (truncf .bf16 x hlt) (truncf .bf16 w hlt) p q)
    ((broadcastTo_1b_ab_apply _ hb p q).trans (congrFun (shapeCast_self b hc) _))

/-- The maximum with the zero splat is the cut at zero. -/
theorem reluTile {M K N : ℕ} (x : FVec Ideal ⟨2, ![M, K]⟩ .f32) (W : Fin K → Fin N → EReal) (b : Fin N → EReal) :
    maximumf (Net.lin x W b) (broadcast ⟨2, ![M, N]⟩ (Scalar.ofBits (F := Ideal) .f32 0x00000000#32)) = Net.linRelu x W b := rfl

/-- The normalisation at any tile height: centre by `mu`, scale by the reciprocal square root of `var` plus the small
    constant, then by the gain `g`, add the offset `be`, cut at zero. -/
def bnReluT {R M : ℕ} (z : FVec Ideal ⟨2, ![R, M]⟩ .f32) (mu var g be : Fin M → EReal) : FVec Ideal ⟨2, ![R, M]⟩ .f32 :=
  fun i => max ((z i - mu (col i)) * Ideal.rsqrt (var (col i) + epsF) * g (col i) + be (col i)) zeroF

/-- At the whole array's height it is `Net.bnRelu`. -/
theorem bnReluT_whole (z : FVec Ideal SN .f32) (mu var g be : Fin 128 → EReal) : bnReluT z mu var g be = Net.bnRelu z mu var g be := rfl

/-- The body's normalisation of a tile `z` by the rows `vmu`, `vvar`, `vg`, `vbe`. -/
theorem bnTile {R M : ℕ} (z : FVec Ideal ⟨2, ![R, M]⟩ .f32) (vvar vmu vg vbe : FVec Ideal ⟨2, ![1, M]⟩ .f32)
    (hc : (⟨2, ![1, M]⟩ : Shape).ShapeCasts ⟨2, ![1, M]⟩) (hb : (⟨2, ![1, M]⟩ : Shape).Broadcasts ⟨2, ![R, M]⟩) :
    maximumf (addf (mulf (mulf (subf z (broadcastTo ⟨2, ![R, M]⟩ (shapeCast ⟨2, ![1, M]⟩ vmu hc) hb))
          (broadcastTo ⟨2, ![R, M]⟩ (rsqrt (addf (shapeCast ⟨2, ![1, M]⟩ vvar hc)
            (broadcast ⟨2, ![1, M]⟩ (Scalar.ofBits (F := Ideal) .f32 0x3727C5AC#32)))) hb))
          (broadcastTo ⟨2, ![R, M]⟩ (shapeCast ⟨2, ![1, M]⟩ vg hc) hb))
        (broadcastTo ⟨2, ![R, M]⟩ (shapeCast ⟨2, ![1, M]⟩ vbe hc) hb))
        (broadcast ⟨2, ![R, M]⟩ (Scalar.ofBits (F := Ideal) .f32 0x00000000#32))
      = bnReluT z (fun j => vmu (ix2 (0 : Fin 1) j)) (fun j => vvar (ix2 (0 : Fin 1) j)) (fun j => vg (ix2 (0 : Fin 1) j))
          (fun j => vbe (ix2 (0 : Fin 1) j)) := by
  rw [shapeCast_self vmu hc, shapeCast_self vvar hc, shapeCast_self vg hc, shapeCast_self vbe hc]
  funext i
  obtain ⟨p, q, rfl⟩ : ∃ (p : Fin R) (q : Fin M), i = ix2 p q := ⟨i 0, i 1, eq_ix2 i⟩
  show max ((z (ix2 p q) - broadcastTo ⟨2, ![R, M]⟩ vmu hb (ix2 p q))
      * broadcastTo ⟨2, ![R, M]⟩ (rsqrt (addf vvar (broadcast ⟨2, ![1, M]⟩ (Scalar.ofBits (F := Ideal) .f32 0x3727C5AC#32)))) hb (ix2 p q)
      * broadcastTo ⟨2, ![R, M]⟩ vg hb (ix2 p q) + broadcastTo ⟨2, ![R, M]⟩ vbe hb (ix2 p q)) zeroF = _
  rw [broadcastTo_1b_ab_apply vmu hb p q, broadcastTo_1b_ab_apply vg hb p q, broadcastTo_1b_ab_apply vbe hb p q,
    broadcastTo_1b_ab_apply _ hb p q]
  rfl

/-- Row maximum taken off, exp, row sum, log, taken off: the row-wise log-softmax of the tile. -/
theorem logSoftmaxTile {a b : ℕ} (Z : FVec Ideal ⟨2, ![a, b]⟩ .f32)
    (hr : (⟨2, ![a, b]⟩ : Shape).Reduces [1] ⟨1, ![a]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hcol : (⟨1, ![a]⟩ : Shape).ShapeCasts ⟨2, ![a, 1]⟩) (hbc : (⟨2, ![a, 1]⟩ : Shape).Broadcasts ⟨2, ![a, b]⟩) :
    subf (subf Z (broadcastTo ⟨2, ![a, b]⟩ (shapeCast ⟨2, ![a, 1]⟩ (multiReduction .maximumf [1] ⟨1, ![a]⟩ Z 0xFF800000#32 hr hφ hmax) hcol) hbc))
        (broadcastTo ⟨2, ![a, b]⟩ (log (shapeCast ⟨2, ![a, 1]⟩ (multiReduction .add [1] ⟨1, ![a]⟩
          (exp (subf Z (broadcastTo ⟨2, ![a, b]⟩ (shapeCast ⟨2, ![a, 1]⟩ (multiReduction .maximumf [1] ⟨1, ![a]⟩ Z 0xFF800000#32 hr hφ hmax) hcol) hbc)))
          0x00000000#32 hr hφ hadd) hcol)) hbc)
      = Net.logSoftmax Z := by
  have hcen : subf Z (broadcastTo ⟨2, ![a, b]⟩ (shapeCast ⟨2, ![a, 1]⟩ (multiReduction .maximumf [1] ⟨1, ![a]⟩ Z 0xFF800000#32 hr hφ hmax) hcol) hbc)
      = Spec.centred Z :=
    funext fun j => by
      rw [eq_ix2 j]
      exact congrArg (Z (ix2 (j 0) (j 1)) - ·) (Cert.BiasRows.rowMaxCol_apply Z hr hφ hmax hcol hbc (j 0) (j 1))
  rw [hcen]
  funext i
  obtain ⟨p, q, rfl⟩ : ∃ (p : Fin a) (q : Fin b), i = ix2 p q := ⟨i 0, i 1, eq_ix2 i⟩
  show Spec.centred Z (ix2 p q) - _ = Spec.centred Z (ix2 p q) - Ideal.log (∑ k : Fin b, Ideal.exp (Spec.centred Z (ix2 p k)))
  refine congrArg (Spec.centred Z (ix2 p q) - ·) ?_
  refine (Cert.Columns.broadcastTo_a1_ab_apply _ hbc p q).trans ?_
  show Ideal.log (shapeCast ⟨2, ![a, 1]⟩ (multiReduction .add [1] ⟨1, ![a]⟩ (exp (Spec.centred Z)) 0x00000000#32 hr hφ hadd) hcol (ix2 p (0 : Fin 1))) = _
  refine congrArg Ideal.log ?_
  exact Cert.Columns.keepdimsSum_apply _ _ hr hφ hadd hcol p 0

/-- The whole transform body on a tile: weights and bias, the normalisation by the given rows, the second weights and bias,
    each cut at zero where the network cuts. -/
theorem transformTile {R : ℕ} (D : DotDims ⟨2, ![R, 128]⟩ ⟨2, ![128, 128]⟩ ⟨2, ![R, 128]⟩) (hD : D = DotDims.plain R 128 128)
    (x0 : FVec Ideal ⟨2, ![R, 128]⟩ .f32) (w1 : FVec Ideal ⟨2, ![128, 128]⟩ .f32) (vb1 vvar vmu vg vbe : FVec Ideal ⟨2, ![1, 128]⟩ .f32)
    (w2 : FVec Ideal ⟨2, ![128, 128]⟩ .f32) (vb2 : FVec Ideal ⟨2, ![1, 128]⟩ .f32)
    (hs0 : (⟨2, ![R, 128]⟩ : Shape).ShapeCasts ⟨2, ![R, 128]⟩) (hsw : (⟨2, ![128, 128]⟩ : Shape).ShapeCasts ⟨2, ![128, 128]⟩)
    (hlt : FTy.bf16.bits < FTy.f32.bits)
    (hc : (⟨2, ![1, 128]⟩ : Shape).ShapeCasts ⟨2, ![1, 128]⟩) (hb : (⟨2, ![1, 128]⟩ : Shape).Broadcasts ⟨2, ![R, 128]⟩) :
    maximumf (addf (matmul D none
        (truncf .bf16 (maximumf (addf (mulf (mulf (subf
            (addf (matmul D none (truncf .bf16 (shapeCast ⟨2, ![R, 128]⟩ x0 hs0) hlt) (truncf .bf16 (shapeCast ⟨2, ![128, 128]⟩ w1 hsw) hlt)
                (constant ⟨2, ![R, 128]⟩ .f32 0x00000000#32))
              (broadcastTo ⟨2, ![R, 128]⟩ (shapeCast ⟨2, ![1, 128]⟩ vb1 hc) hb))
            (broadcastTo ⟨2, ![R, 128]⟩ (shapeCast ⟨2, ![1, 128]⟩ vmu hc) hb))
            (broadcastTo ⟨2, ![R, 128]⟩ (rsqrt (addf (shapeCast ⟨2, ![1, 128]⟩ vvar hc)
              (broadcast ⟨2, ![1, 128]⟩ (Scalar.ofBits (F := Ideal) .f32 0x3727C5AC#32)))) hb))
            (broadcastTo ⟨2, ![R, 128]⟩ (shapeCast ⟨2, ![1, 128]⟩ vg hc) hb))
            (broadcastTo ⟨2, ![R, 128]⟩ (shapeCast ⟨2, ![1, 128]⟩ vbe hc) hb))
            (broadcast ⟨2, ![R, 128]⟩ (Scalar.ofBits (F := Ideal) .f32 0x00000000#32))) hlt)
        (truncf .bf16 (shapeCast ⟨2, ![128, 128]⟩ w2 hsw) hlt) (constant ⟨2, ![R, 128]⟩ .f32 0x00000000#32))
        (broadcastTo ⟨2, ![R, 128]⟩ (shapeCast ⟨2, ![1, 128]⟩ vb2 hc) hb))
      (broadcast ⟨2, ![R, 128]⟩ (Scalar.ofBits (F := Ideal) .f32 0x00000000#32))
      = Net.linRelu (bnReluT (Net.lin x0 (fun k j => w1 (ix2 k j)) (fun j => vb1 (ix2 (0 : Fin 1) j)))
          (fun j => vmu (ix2 (0 : Fin 1) j)) (fun j => vvar (ix2 (0 : Fin 1) j)) (fun j => vg (ix2 (0 : Fin 1) j))
          (fun j => vbe (ix2 (0 : Fin 1) j))) (fun k j => w2 (ix2 k j)) (fun j => vb2 (ix2 (0 : Fin 1) j)) := by
  rw [shapeCast_self x0 hs0, shapeCast_self w1 hsw, shapeCast_self w2 hsw, linTile D hD none x0 w1 vb1 hlt hc hb,
    bnTile _ vvar vmu vg vbe hc hb, linTile D hD none _ w2 vb2 hlt hc hb, reluTile]

/-! ## A row of a stage's result depends on that row of its input only -/

theorem lin_rows {R R' K M : ℕ} (h : FVec Ideal ⟨2, ![R, K]⟩ .f32) (h' : FVec Ideal ⟨2, ![R', K]⟩ .f32)
    (W W' : Fin K → Fin M → EReal) (b b' : Fin M → EReal) (p : Fin R) (p' : Fin R') (q : Fin M)
    (hrow : ∀ k : Fin K, h (ix2 p k) = h' (ix2 p' k)) (hW : W = W') (hb : b = b') :
    Net.lin h W b (ix2 p q) = Net.lin h' W' b' (ix2 p' q) := by
  subst hW hb
  show (∑ k : Fin K, h (ix2 p k) * W k q) + b q = (∑ k : Fin K, h' (ix2 p' k) * W k q) + b q
  rw [Finset.sum_congr rfl fun k _ => congrArg (· * W k q) (hrow k)]

theorem linRelu_rows {R R' K M : ℕ} (h : FVec Ideal ⟨2, ![R, K]⟩ .f32) (h' : FVec Ideal ⟨2, ![R', K]⟩ .f32)
    (W W' : Fin K → Fin M → EReal) (b b' : Fin M → EReal) (p : Fin R) (p' : Fin R') (q : Fin M)
    (hrow : ∀ k : Fin K, h (ix2 p k) = h' (ix2 p' k)) (hW : W = W') (hb : b = b') :
    Net.linRelu h W b (ix2 p q) = Net.linRelu h' W' b' (ix2 p' q) :=
  congrArg (max · zeroF) (lin_rows h h' W W' b b' p p' q hrow hW hb)

theorem bnReluT_rows {R R' M : ℕ} (z : FVec Ideal ⟨2, ![R, M]⟩ .f32) (z' : FVec Ideal ⟨2, ![R', M]⟩ .f32)
    (mu mu' var var' g g' be be' : Fin M → EReal) (p : Fin R) (p' : Fin R') (q : Fin M)
    (hz : z (ix2 p q) = z' (ix2 p' q)) (hmu : mu = mu') (hvar : var = var') (hg : g = g') (hbe : be = be') :
    bnReluT z mu var g be (ix2 p q) = bnReluT z' mu' var' g' be' (ix2 p' q) := by
  subst hmu hvar hg hbe
  show max ((z (ix2 p q) - mu q) * Ideal.rsqrt (var q + epsF) * g q + be q) zeroF
    = max ((z' (ix2 p' q) - mu q) * Ideal.rsqrt (var q + epsF) * g q + be q) zeroF
  rw [hz]

theorem logSoftmax_rows {R R' M : ℕ} (z : FVec Ideal ⟨2, ![R, M]⟩ .f32) (z' : FVec Ideal ⟨2, ![R', M]⟩ .f32)
    (p : Fin R) (p' : Fin R') (q : Fin M) (hrow : ∀ k : Fin M, z (ix2 p k) = z' (ix2 p' k)) :
    Net.logSoftmax z (ix2 p q) = Net.logSoftmax z' (ix2 p' q) := by
  have hm : rowMax z p = rowMax z' p' := by
    unfold rowMax
    exact congrArg (Finset.fold max (Ideal.ofBits .f32 0xFF800000#32) · Finset.univ) (funext hrow)
  show (z (ix2 p q) - rowMax z p) - Ideal.log (∑ k : Fin M, Ideal.exp (z (ix2 p k) - rowMax z p))
    = (z' (ix2 p' q) - rowMax z' p') - Ideal.log (∑ k : Fin M, Ideal.exp (z' (ix2 p' k) - rowMax z' p'))
  rw [hm, hrow q, Finset.sum_congr rfl fun k _ => congrArg (fun t => Ideal.exp (t - rowMax z' p')) (hrow k)]

/-- The closing stage: a row of the result from that row of the input. -/
theorem final_rows {R R' : ℕ} (h : FVec Ideal ⟨2, ![R, 128]⟩ .f32) (h' : FVec Ideal ⟨2, ![R', 128]⟩ .f32)
    (W1 W1' : Fin 128 → Fin 128 → EReal) (b1 b1' : Fin 128 → EReal) (W2 W2' : Fin 128 → Fin 40 → EReal) (b2 b2' : Fin 40 → EReal)
    (p : Fin R) (p' : Fin R') (q : Fin 40) (hrow : ∀ k : Fin 128, h (ix2 p k) = h' (ix2 p' k))
    (hW1 : W1 = W1') (hb1 : b1 = b1') (hW2 : W2 = W2') (hb2 : b2 = b2') :
    Net.logSoftmax (Net.lin (Net.linRelu h W1 b1) W2 b2) (ix2 p q)
      = Net.logSoftmax (Net.lin (Net.linRelu h' W1' b1') W2' b2') (ix2 p' q) :=
  logSoftmax_rows _ _ p p' q fun k =>
    lin_rows _ _ W2 W2' b2 b2' p p' k (fun k' => linRelu_rows h h' W1 W1' b1 b1' p p' k' hrow hW1 hb1) hW2 hb2

/-- One layer after the aggregation, with the normalisation's two numbers given: a row of the result from that row of the
    input. -/
theorem layer_rows {R R' : ℕ} (h : FVec Ideal ⟨2, ![R, 128]⟩ .f32) (h' : FVec Ideal ⟨2, ![R', 128]⟩ .f32)
    (W1 W1' : Fin 128 → Fin 128 → EReal) (b1 b1' mu mu' var var' g g' be be' : Fin 128 → EReal)
    (W2 W2' : Fin 128 → Fin 128 → EReal) (b2 b2' : Fin 128 → EReal)
    (p : Fin R) (p' : Fin R') (q : Fin 128) (hrow : ∀ k : Fin 128, h (ix2 p k) = h' (ix2 p' k))
    (hW1 : W1 = W1') (hb1 : b1 = b1') (hmu : mu = mu') (hvar : var = var') (hg : g = g') (hbe : be = be')
    (hW2 : W2 = W2') (hb2 : b2 = b2') :
    Net.linRelu (bnReluT (Net.lin h W1 b1) mu var g be) W2 b2 (ix2 p q)
      = Net.linRelu (bnReluT (Net.lin h' W1' b1') mu' var' g' be') W2' b2' (ix2 p' q) :=
  linRelu_rows _ _ W2 W2' b2 b2' p p' q
    (fun k => bnReluT_rows _ _ mu mu' var var' g g' be be' p p' k (lin_rows h h' W1 W1' b1 b1' p p' k hrow hW1 hb1) hmu hvar hg hbe)
    hW2 hb2

end Cert.KernelIdeal.TileValue

end
-- ==== Proof.Transform1.lean ====
/-
  The first transform region's output array: one graph layer after the aggregation, with the normalisation's two
  per-column numbers taken from the rows the region is given.

  The region's grid has 25 points; point t works on rows 2000 t … 2000 t + 1999 of the input and of the output, and sees
  the two weight matrices and the six rows (bias, gain, offset, mean, variance, second bias) whole. A row of the result
  depends on that row of the input only, so what point t writes back is block t of ONE whole-array function of the arrays
  as the region finds them, and the 25 blocks tile the output.
-/
import proofs.«149897_j14525579395559_1_alg».proof.Proof.Gen.KernelIdeal.Frame
import proofs.«149897_j14525579395559_1_alg».proof.Proof.TileBody
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.TileValue

open Cert.KernelIdeal Cert.KernelIdeal.Gen Cert.Spec Cert.Net

theorem hz1 : (![0, 0] : Fin 2 → Nat) = fun _ => 0 := funext fun a => by fin_cases a <;> rfl

/-- The body's stored value is the layer applied to its input tile, the weights and rows read off their blocks. -/
theorem pay1_eq (x0 : Vec Ideal S2000x128 .f32) (x1 : Vec Ideal S128x128 .f32) (x2 x3 x4 x5 x6 : Vec Ideal S1x128 .f32)
    (x7 : Vec Ideal S128x128 .f32) (x8 : Vec Ideal S1x128 .f32) :
    k1_pay1 (k1_pay2 x0 x1 x2 x6 x5 x3 x4 x7) x8
      = Net.linRelu (bnReluT (Net.lin x0 (fun k j => x1 (ix2 k j)) (fun j => x2 (ix2 (0 : Fin 1) j)))
          (fun j => x5 (ix2 (0 : Fin 1) j)) (fun j => x6 (ix2 (0 : Fin 1) j)) (fun j => x3 (ix2 (0 : Fin 1) j))
          (fun j => x4 (ix2 (0 : Fin 1) j))) (fun k j => x7 (ix2 k j)) (fun j => x8 (ix2 (0 : Fin 1) j)) := by
  unfold k1_pay1 k1_pay2
  dsimp only
  exact transformTile dot_S2000x128_S128x128_S2000x128_1_0_0_1_n_n rfl x0 x1 x2 x6 x5 x3 x4 x7 x8 _ _ _ _ _

/-- The stored value at row p of the tile is the layer's value at row n of a whole array that holds the tile's row p as
    its row n, the weights and rows being the blocks' contents. -/
theorem pay1_at (x0 : Vec Ideal S2000x128 .f32) (x1 : Vec Ideal S128x128 .f32) (x2 x3 x4 x5 x6 : Vec Ideal S1x128 .f32)
    (x7 : Vec Ideal S128x128 .f32) (x8 : Vec Ideal S1x128 .f32) (H : FVec Ideal SN .f32)
    (W1 : Fin 128 → Fin 128 → EReal) (b1 mu var g be : Fin 128 → EReal) (W2 : Fin 128 → Fin 128 → EReal) (b2 : Fin 128 → EReal)
    (p : Fin 2000) (n : Fin 50000) (q : Fin 128)
    (h0 : ∀ k : Fin 128, x0 (ix2 p k) = H (ix2 n k)) (h1 : ∀ (k : Fin 128) (j : Fin 128), x1 (ix2 k j) = W1 k j)
    (h2 : ∀ j : Fin 128, x2 (ix2 (0 : Fin 1) j) = b1 j) (h3 : ∀ j : Fin 128, x3 (ix2 (0 : Fin 1) j) = g j)
    (h4 : ∀ j : Fin 128, x4 (ix2 (0 : Fin 1) j) = be j) (h5 : ∀ j : Fin 128, x5 (ix2 (0 : Fin 1) j) = mu j)
    (h6 : ∀ j : Fin 128, x6 (ix2 (0 : Fin 1) j) = var j) (h7 : ∀ (k : Fin 128) (j : Fin 128), x7 (ix2 k j) = W2 k j)
    (h8 : ∀ j : Fin 128, x8 (ix2 (0 : Fin 1) j) = b2 j) :
    k1_pay1 (k1_pay2 x0 x1 x2 x6 x5 x3 x4 x7) x8 (ix2 p q)
      = Net.linRelu (Net.bnRelu (Net.lin H W1 b1) mu var g be) W2 b2 (ix2 n q) :=
  (congrFun (pay1_eq x0 x1 x2 x3 x4 x5 x6 x7 x8) (ix2 p q)).trans
    (layer_rows x0 H _ W1 _ b1 _ mu _ var _ g _ be _ W2 _ b2 p n q h0 (funext fun k => funext fun j => h1 k j) (funext h2)
      (funext h5) (funext h6) (funext h3) (funext h4) (funext fun k => funext fun j => h7 k j) (funext h8))

section
variable (V : (c : Dev nD) → (b : Ref sig .tc) → Buf (Elt Ideal) ((c : Thread nD τ).loc b))

/-- The block indices over the grid: the row-tiled windows are at block (t, 0), the others at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- What the output array ends holding. -/
abbrev G1 (c : Dev nD) : FVec Ideal SN .f32 :=
  Net.linRelu (Net.bnRelu (Net.lin (V c main_v14) (fun k j => V c main_v28 (ix2 k j)) (fun j => V c main_v39 (ix2 (0 : Fin 1) j)))
      (fun j => V c main_v22 (ix2 (0 : Fin 1) j)) (fun j => V c main_v26 (ix2 (0 : Fin 1) j))
      (fun j => V c main_v40 (ix2 (0 : Fin 1) j)) (fun j => V c main_v41 (ix2 (0 : Fin 1) j)))
    (fun k j => V c main_v36 (ix2 k j)) (fun j => V c main_v42 (ix2 (0 : Fin 1) j))

/-- The input tile at point t is rows 2000 t … of the input array. -/
theorem iblk1_0_apply (c : Dev nD) (t : Fin cfg1.N) (p : Fin 2000) (k : Fin 128) (n : Fin 50000) (hn : n.val = 2000 * t.val + p.val) :
    (iblk1 V c 0 t : Vec Ideal S2000x128 .f32) (ix2 p k) = (V c main_v14 : S50000x128.Idx → EReal) (ix2 n k) := by
  obtain ⟨e0, e1, -⟩ := idx1 t
  unfold iblk1
  rw [View.read_apply]
  show (V c main_v14 : S50000x128.Idx → EReal) _ = _
  refine congrArg (V c main_v14 : S50000x128.Idx → EReal) (funext fun a => Fin.ext ?_)
  match a with
  | ⟨0, _⟩ => show win1_0.index t (0 : Fin 2) * 2000 + 1 * p.val = n.val; rw [e0, hn]; omega
  | ⟨1, _⟩ => show win1_0.index t (1 : Fin 2) * 128 + 1 * k.val = k.val; rw [e1]; omega

/-- The windows that are not tiled hold their whole arrays at every point. -/
theorem iblk1_1_apply (c : Dev nD) (t : Fin cfg1.N) (k : Fin 128) (j : Fin 128) :
    (iblk1 V c 1 t : Vec Ideal S128x128 .f32) (ix2 k j) = (V c main_v28 : S128x128.Idx → EReal) (ix2 k j) := by
  obtain ⟨-, -, e0, e1, -⟩ := idx1 t
  unfold iblk1
  rw [View.read_apply]
  show (V c main_v28 : S128x128.Idx → EReal) _ = _
  refine congrArg (V c main_v28 : S128x128.Idx → EReal) (funext fun a => Fin.ext ?_)
  match a with
  | ⟨0, _⟩ => show win1_1.index t (0 : Fin 2) * 128 + 1 * k.val = k.val; rw [e0]; omega
  | ⟨1, _⟩ => show win1_1.index t (1 : Fin 2) * 128 + 1 * j.val = j.val; rw [e1]; omega

theorem iblk1_7_apply (c : Dev nD) (t : Fin cfg1.N) (k : Fin 128) (j : Fin 128) :
    (iblk1 V c 7 t : Vec Ideal S128x128 .f32) (ix2 k j) = (V c main_v36 : S128x128.Idx → EReal) (ix2 k j) := by
  obtain ⟨-, -, -, -, -, -, -, -, -, -, -, -, -, -, e0, e1, -⟩ := idx1 t
  unfold iblk1
  rw [View.read_apply]
  show (V c main_v36 : S128x128.Idx → EReal) _ = _
  refine congrArg (V c main_v36 : S128x128.Idx → EReal) (funext fun a => Fin.ext ?_)
  match a with
  | ⟨0, _⟩ => show win1_7.index t (0 : Fin 2) * 128 + 1 * k.val = k.val; rw [e0]; omega
  | ⟨1, _⟩ => show win1_7.index t (1 : Fin 2) * 128 + 1 * j.val = j.val; rw [e1]; omega

theorem iblk1_2_apply (c : Dev nD) (t : Fin cfg1.N) (j : Fin 128) :
    (iblk1 V c 2 t : Vec Ideal S1x128 .f32) (ix2 (0 : Fin 1) j) = (V c main_v39 : S1x128.Idx → EReal) (ix2 (0 : Fin 1) j) := by
  obtain ⟨-, -, -, -, e0, e1, -⟩ := idx1 t
  unfold iblk1
  rw [View.read_apply]
  show (V c main_v39 : S1x128.Idx → EReal) _ = _
  refine congrArg (V c main_v39 : S1x128.Idx → EReal) (funext fun a => Fin.ext ?_)
  match a with
  | ⟨0, _⟩ => show win1_2.index t (0 : Fin 2) * 1 + 1 * 0 = 0; rw [e0]
  | ⟨1, _⟩ => show win1_2.index t (1 : Fin 2) * 128 + 1 * j.val = j.val; rw [e1]; omega

theorem iblk1_3_apply (c : Dev nD) (t : Fin cfg1.N) (j : Fin 128) :
    (iblk1 V c 3 t : Vec Ideal S1x128 .f32) (ix2 (0 : Fin 1) j) = (V c main_v40 : S1x128.Idx → EReal) (ix2 (0 : Fin 1) j) := by
  obtain ⟨-, -, -, -, -, -, e0, e1, -⟩ := idx1 t
  unfold iblk1
  rw [View.read_apply]
  show (V c main_v40 : S1x128.Idx → EReal) _ = _
  refine congrArg (V c main_v40 : S1x128.Idx → EReal) (funext fun a => Fin.ext ?_)
  match a with
  | ⟨0, _⟩ => show win1_3.index t (0 : Fin 2) * 1 + 1 * 0 = 0; rw [e0]
  | ⟨1, _⟩ => show win1_3.index t (1 : Fin 2) * 128 + 1 * j.val = j.val; rw [e1]; omega

theorem iblk1_4_apply (c : Dev nD) (t : Fin cfg1.N) (j : Fin 128) :
    (iblk1 V c 4 t : Vec Ideal S1x128 .f32) (ix2 (0 : Fin 1) j) = (V c main_v41 : S1x128.Idx → EReal) (ix2 (0 : Fin 1) j) := by
  obtain ⟨-, -, -, -, -, -, -, -, e0, e1, -⟩ := idx1 t
  unfold iblk1
  rw [View.read_apply]
  show (V c main_v41 : S1x128.Idx → EReal) _ = _
  refine congrArg (V c main_v41 : S1x128.Idx → EReal) (funext fun a => Fin.ext ?_)
  match a with
  | ⟨0, _⟩ => show win1_4.index t (0 : Fin 2) * 1 + 1 * 0 = 0; rw [e0]
  | ⟨1, _⟩ => show win1_4.index t (1 : Fin 2) * 128 + 1 * j.val = j.val; rw [e1]; omega

theorem iblk1_5_apply (c : Dev nD) (t : Fin cfg1.N) (j : Fin 128) :
    (iblk1 V c 5 t : Vec Ideal S1x128 .f32) (ix2 (0 : Fin 1) j) = (V c main_v22 : S1x128.Idx → EReal) (ix2 (0 : Fin 1) j) := by
  obtain ⟨-, -, -, -, -, -, -, -, -, -, e0, e1, -⟩ := idx1 t
  unfold iblk1
  rw [View.read_apply]
  show (V c main_v22 : S1x128.Idx → EReal) _ = _
  refine congrArg (V c main_v22 : S1x128.Idx → EReal) (funext fun a => Fin.ext ?_)
  match a with
  | ⟨0, _⟩ => show win1_5.index t (0 : Fin 2) * 1 + 1 * 0 = 0; rw [e0]
  | ⟨1, _⟩ => show win1_5.index t (1 : Fin 2) * 128 + 1 * j.val = j.val; rw [e1]; omega

theorem iblk1_6_apply (c : Dev nD) (t : Fin cfg1.N) (j : Fin 128) :
    (iblk1 V c 6 t : Vec Ideal S1x128 .f32) (ix2 (0 : Fin 1) j) = (V c main_v26 : S1x128.Idx → EReal) (ix2 (0 : Fin 1) j) := by
  obtain ⟨-, -, -, -, -, -, -, -, -, -, -, -, e0, e1, -⟩ := idx1 t
  unfold iblk1
  rw [View.read_apply]
  show (V c main_v26 : S1x128.Idx → EReal) _ = _
  refine congrArg (V c main_v26 : S1x128.Idx → EReal) (funext fun a => Fin.ext ?_)
  match a with
  | ⟨0, _⟩ => show win1_6.index t (0 : Fin 2) * 1 + 1 * 0 = 0; rw [e0]
  | ⟨1, _⟩ => show win1_6.index t (1 : Fin 2) * 128 + 1 * j.val = j.val; rw [e1]; omega

theorem iblk1_8_apply (c : Dev nD) (t : Fin cfg1.N) (j : Fin 128) :
    (iblk1 V c 8 t : Vec Ideal S1x128 .f32) (ix2 (0 : Fin 1) j) = (V c main_v42 : S1x128.Idx → EReal) (ix2 (0 : Fin 1) j) := by
  obtain ⟨-, -, -, -, -, -, -, -, -, -, -, -, -, -, -, -, e0, e1, -⟩ := idx1 t
  unfold iblk1
  rw [View.read_apply]
  show (V c main_v42 : S1x128.Idx → EReal) _ = _
  refine congrArg (V c main_v42 : S1x128.Idx → EReal) (funext fun a => Fin.ext ?_)
  match a with
  | ⟨0, _⟩ => show win1_8.index t (0 : Fin 2) * 1 + 1 * 0 = 0; rw [e0]
  | ⟨1, _⟩ => show win1_8.index t (1 : Fin 2) * 128 + 1 * j.val = j.val; rw [e1]; omega

/-- What point t writes back is block t of `G1`. -/
theorem flushed1_eq (c : Dev nD) (t : Fin cfg1.N) :
    (dat1 V c).flushed 9 t = ((cfg1.win 9).blk t).view.read (Elt Ideal) (G1 V c) := by
  show (cfg1.win 9).cut (grid1.coords t) ((dat1 V c).after 9 t) = _
  rw [after1_9]
  unfold out1_9
  rw [View.canon_unit_zero hz1]
  simp only [View.ld_unit_zero (S := S2000x128) hz1, View.ld_unit_zero (S := S128x128) hz1, View.ld_unit_zero (S := S1x128) hz1]
  funext y
  rw [View.read_apply]
  have hy0 : (y 0).val < 2000 := (y 0).isLt
  have hy1 : (y 1).val < 128 := (y 1).isLt
  have ht : t.val < 25 := Nat.lt_of_lt_of_eq t.isLt N_1
  obtain ⟨-, -, -, -, -, -, -, -, -, -, -, -, -, -, -, -, -, -, e0, e1⟩ := idx1 t
  have hx : (cfg1.win 9).xinj (grid1.coords t) y = (ix2 (⟨(y 0).val, hy0⟩ : Fin 2000) (⟨(y 1).val, hy1⟩ : Fin 128) : S2000x128.Idx) :=
    funext fun a => match a with | ⟨0, _⟩ => rfl | ⟨1, _⟩ => rfl
  have hemb : (((cfg1.win 9).blk t).view.emb y : S50000x128.Idx)
      = ix2 (⟨2000 * t.val + (y 0).val, by omega⟩ : Fin 50000) (⟨(y 1).val, hy1⟩ : Fin 128) :=
    funext fun a => Fin.ext (by
      match a with
      | ⟨0, _⟩ => show win1_9.index t (0 : Fin 2) * 2000 + 1 * (y 0).val = 2000 * t.val + (y 0).val; rw [e0]; omega
      | ⟨1, _⟩ => show win1_9.index t (1 : Fin 2) * 128 + 1 * (y 1).val = (y 1).val; rw [e1]; omega)
  refine Eq.trans ?_ (congrArg (G1 V c) hemb).symm
  refine Eq.trans (congrArg (k1_pay1 (k1_pay2 (iblk1 V c 0 t) (iblk1 V c 1 t) (iblk1 V c 2 t) (iblk1 V c 6 t) (iblk1 V c 5 t)
    (iblk1 V c 3 t) (iblk1 V c 4 t) (iblk1 V c 7 t)) (iblk1 V c 8 t)) hx) ?_
  exact pay1_at (iblk1 V c 0 t) (iblk1 V c 1 t) (iblk1 V c 2 t) (iblk1 V c 3 t) (iblk1 V c 4 t) (iblk1 V c 5 t)
    (iblk1 V c 6 t) (iblk1 V c 7 t) (iblk1 V c 8 t) (V c main_v14)
    (fun k j => V c main_v28 (ix2 k j)) (fun j => V c main_v39 (ix2 (0 : Fin 1) j))
    (fun j => V c main_v22 (ix2 (0 : Fin 1) j)) (fun j => V c main_v26 (ix2 (0 : Fin 1) j))
    (fun j => V c main_v40 (ix2 (0 : Fin 1) j)) (fun j => V c main_v41 (ix2 (0 : Fin 1) j))
    (fun k j => V c main_v36 (ix2 k j)) (fun j => V c main_v42 (ix2 (0 : Fin 1) j))
    (⟨(y 0).val, hy0⟩ : Fin 2000) (⟨2000 * t.val + (y 0).val, by omega⟩ : Fin 50000) (⟨(y 1).val, hy1⟩ : Fin 128)
    (fun k => iblk1_0_apply V c t _ k _ rfl)
    (fun k j => iblk1_1_apply V c t k j) (fun j => iblk1_2_apply V c t j)
    (fun j => iblk1_3_apply V c t j) (fun j => iblk1_4_apply V c t j)
    (fun j => iblk1_5_apply V c t j) (fun j => iblk1_6_apply V c t j)
    (fun k j => iblk1_7_apply V c t k j) (fun j => iblk1_8_apply V c t j)

/-- An index of the output array is in point t's block iff its row is in rows 2000 t … 2000 t + 1999. -/
theorem mem_blk1 (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v43).slice (win1_9.rect t)).set ↔ _
  rw [View.set_slice_whole, Rect.mem_set_unit]
  exact Iff.rfl

/-- Every index of the output array is in the block of the point its row's quotient by 2000 names. -/
theorem cover1 (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_9 _, ?_⟩
  rw [mem_blk1]
  obtain ⟨-, -, -, -, -, -, -, -, -, -, -, -, -, -, -, -, -, -, e0, e1⟩ := idx1 ⟨(i 0).val / 2000, by rw [hN]; omega⟩
  intro a
  match a with
  | ⟨0, _⟩ =>
    show win1_9.index _ (0 : Fin 2) * 2000 ≤ (i 0).val ∧ (i 0).val < win1_9.index _ (0 : Fin 2) * 2000 + 2000
    rw [e0]; show (i 0).val / 2000 * 2000 ≤ (i 0).val ∧ (i 0).val < (i 0).val / 2000 * 2000 + 2000; omega
  | ⟨1, _⟩ =>
    show win1_9.index _ (1 : Fin 2) * 128 ≤ (i 1).val ∧ (i 1).val < win1_9.index _ (1 : Fin 2) * 128 + 128
    rw [e1]; omega

/-- The first transform region's output array after the region: the layer applied to the region's input, with the weights and
    rows as the region finds them. -/
theorem transform1 (c : Dev nD) :
    (dat1 V c).arrAt 9 cfg1.N
      = Net.linRelu (Net.bnRelu (Net.lin (V c main_v14) (fun k j => V c main_v28 (ix2 k j)) (fun j => V c main_v39 (ix2 (0 : Fin 1) j)))
            (fun j => V c main_v22 (ix2 (0 : Fin 1) j)) (fun j => V c main_v26 (ix2 (0 : Fin 1) j))
            (fun j => V c main_v40 (ix2 (0 : Fin 1) j)) (fun j => V c main_v41 (ix2 (0 : Fin 1) j)))
          (fun k j => V c main_v36 (ix2 k j)) (fun j => V c main_v42 (ix2 (0 : Fin 1) j)) :=
  (dat1 V c).arrAt_eq_of_cover 9 (G1 V c) (fun t _ => flushed1_eq V c t) cover1

end

end Cert.KernelIdeal.TileValue

end
-- ==== Proof.KLayer0.lean ====
/-
  The first graph layer of the idealized kernel, after its aggregation: the array the transform region leaves is the
  layer of the network (written with the variance "mean of squares minus square of the mean") of the aggregated rows and
  of the layer's slices of the stacked parameters. The statistics region leaves the column sums of z = h·W1 + b1 and of
  z², the host divides them by the number of nodes and forms the variance, and the transform region normalises,
  cuts at zero, applies the second matrix and cuts at zero again.
-/
import proofs.«149897_j14525579395559_1_alg».proof.Proof.KKeep
import proofs.«149897_j14525579395559_1_alg».proof.Proof.KRead
import proofs.«149897_j14525579395559_1_alg».proof.Proof.KLayer
import proofs.«149897_j14525579395559_1_alg».proof.Proof.Stats0
import proofs.«149897_j14525579395559_1_alg».proof.Proof.Transform1

set_option maxRecDepth 16384

noncomputable section

namespace Cert.KernelIdeal.KValue

open Cert.KernelIdeal Cert.KernelIdeal.Gen Cert.Net
open Idealize.ShloMosaic Idealize.ShloMosaic.TcCoe Idealize.ShloMosaic.Tactic Idealize.ShloMosaic.ValueIdx Idealize.SL.Sem

variable (m : (ℓ : Loc nD τ sig) → Buf (Elt Ideal) ℓ) (ρ : Dev nD → PrngReg) (c : Dev nD)

/-! ## The stacked parameters reach the layer as launched -/

theorem pre0_arg2 : W0 m ρ c (Proc.devRef .tc main_arg2) = (m ((c : Thread nD τ).loc main_arg2)) := by rfl
theorem pre0_arg3 : W0 m ρ c (Proc.devRef .tc main_arg3) = (m ((c : Thread nD τ).loc main_arg3)) := by rfl
theorem mid0_arg2 : W2 m ρ c (Proc.devRef .tc main_arg2) = (m ((c : Thread nD τ).loc main_arg2)) := by wreg W2_of_ne; whost hostOps0; rfl
theorem mid0_arg3 : W2 m ρ c (Proc.devRef .tc main_arg3) = (m ((c : Thread nD τ).loc main_arg3)) := by wreg W2_of_ne; whost hostOps0; rfl
theorem mid0_arg4 : W2 m ρ c (Proc.devRef .tc main_arg4) = (m ((c : Thread nD τ).loc main_arg4)) := by wreg W2_of_ne; whost hostOps0; rfl
theorem mid0_arg5 : W2 m ρ c (Proc.devRef .tc main_arg5) = (m ((c : Thread nD τ).loc main_arg5)) := by wreg W2_of_ne; whost hostOps0; rfl
theorem mid0_arg6 : W2 m ρ c (Proc.devRef .tc main_arg6) = (m ((c : Thread nD τ).loc main_arg6)) := by wreg W2_of_ne; whost hostOps0; rfl
theorem mid0_arg7 : W2 m ρ c (Proc.devRef .tc main_arg7) = (m ((c : Thread nD τ).loc main_arg7)) := by wreg W2_of_ne; whost hostOps0; rfl

/-! ## What the statistics region is given -/

theorem in0_w1 : (fun k j => V1 m ρ c main_v16 (ix2 k j)) = mat3 (m ((c : Thread nD τ).loc main_arg2)) 0 := by
  have e : (V1 m ρ c main_v16 : S128x128.Idx → EReal)
      = shapeCast S128x128 (extractStridedSlice S1x128x128 ![0, 0, 0] (W0 m ρ c (Proc.devRef .tc main_arg2)) slices_S3x128x128_S1x128x128_0_0_0)
          shapeCasts_S1x128x128_S128x128 := by
    dsimp only [V1, W1, hostOps0]; after_results <;> rfl
  funext k j
  rw [e, pre0_arg2]
  exact KRead.mat_read 0 _ _ _ 0 rfl k j

theorem in0_b1 : (fun j => V1 m ρ c main_v19 (ix2 (0 : Fin 1) j)) = row3 (m ((c : Thread nD τ).loc main_arg3)) 0 := by
  have e : (V1 m ρ c main_v19 : S1x128.Idx → EReal)
      = shapeCast S1x128 (shapeCast S128 (extractStridedSlice S1x128 ![0, 0] (W0 m ρ c (Proc.devRef .tc main_arg3)) slices_S3x128_S1x128_0_0)
          shapeCasts_S1x128_S128) shapeCasts_S128_S1x128 := by
    dsimp only [V1, W1, hostOps0]; after_results <;> rfl
  funext j
  rw [e, pre0_arg3]
  exact KRead.row_read 0 _ _ _ _ 0 rfl j

/-! ## What it leaves: the column sums of z and of z² -/

/-- The aggregated rows the layer starts from. -/
abbrev hin0 : FVec Ideal SN .f32 := V1 m ρ c main_v14
/-- The row of column sums, the row of column sums of squares, the mean row and the variance row. -/
abbrev sumRow0 : (⟨2, ![1, 128]⟩ : Shape).Idx → EReal := V2 m ρ c main_v20_0
abbrev sqRow0 : (⟨2, ![1, 128]⟩ : Shape).Idx → EReal := V2 m ρ c main_v20_1
abbrev muRow0 : (⟨2, ![1, 128]⟩ : Shape).Idx → EReal := V3 m ρ c main_v22
abbrev varRow0 : (⟨2, ![1, 128]⟩ : Shape).Idx → EReal := V3 m ρ c main_v26

theorem sum0 (j : Fin 128) : sumRow0 m ρ c (ix2 (0 : Fin 1) j)
    = colSum (lin (hin0 m ρ c) (mat3 (m ((c : Thread nD τ).loc main_arg2)) 0) (row3 (m ((c : Thread nD τ).loc main_arg3)) 0)) j := by
  have e : sumRow0 m ρ c = (dat0 (V1 m ρ) c).arrAt 3 cfg0.N := W2_arr m ρ c 3
  rw [e, StatsValue.stats0_sum (V1 m ρ) c, in0_w1, in0_b1]

theorem sumsq0 (j : Fin 128) : sqRow0 m ρ c (ix2 (0 : Fin 1) j)
    = colSumSq (lin (hin0 m ρ c) (mat3 (m ((c : Thread nD τ).loc main_arg2)) 0) (row3 (m ((c : Thread nD τ).loc main_arg3)) 0)) j := by
  have e : sqRow0 m ρ c = (dat0 (V1 m ρ) c).arrAt 4 cfg0.N := W2_arr m ρ c 4
  rw [e, StatsValue.stats0_sumsq (V1 m ρ) c, in0_w1, in0_b1]

/-! ## The host's mean and variance rows -/

theorem muRow0_eq : muRow0 m ρ c = Host.divf (sumRow0 m ρ c) (broadcastInDim S1x128 ![] bcast_S_S1x128 (constant (F := Ideal) S_ .f32 0x47435000#32)) := by
  dsimp only [muRow0, sumRow0, V3, V2, W3, hostOps1]; after_results <;> rfl

theorem varRow0_eq : varRow0 m ρ c
    = subf (Host.divf (sqRow0 m ρ c) (broadcastInDim S1x128 ![] bcast_S_S1x128 (constant (F := Ideal) S_ .f32 0x47435000#32)))
        (mulf (Host.divf (sumRow0 m ρ c) (broadcastInDim S1x128 ![] bcast_S_S1x128 (constant (F := Ideal) S_ .f32 0x47435000#32))) (Host.divf (sumRow0 m ρ c) (broadcastInDim S1x128 ![] bcast_S_S1x128 (constant (F := Ideal) S_ .f32 0x47435000#32)))) := by
  dsimp only [varRow0, sumRow0, sqRow0, V3, V2, W3, hostOps1]; after_results <;> rfl

theorem mu0 (j : Fin 128) : muRow0 m ρ c (ix2 (0 : Fin 1) j) = Ideal.div (sumRow0 m ρ c (ix2 (0 : Fin 1) j)) nF := by
  rw [muRow0_eq]; rfl

theorem var0 (j : Fin 128) : varRow0 m ρ c (ix2 (0 : Fin 1) j)
    = Ideal.div (sqRow0 m ρ c (ix2 (0 : Fin 1) j)) nF - muRow0 m ρ c (ix2 (0 : Fin 1) j) * muRow0 m ρ c (ix2 (0 : Fin 1) j) := by
  rw [varRow0_eq, muRow0_eq]; rfl

/-! ## What the transform region is given -/

theorem tr0_hin : V3 m ρ c main_v14 = hin0 m ρ c := by
  show W3 m ρ c (Proc.devRef .tc main_v14) = W1 m ρ c (Proc.devRef .tc main_v14)
  whost hostOps1
  exact (W2_arr m ρ c 0).trans (((dat0 (V1 m ρ) c).arrAt_in 0 rfl _).trans (A_eq0 (V1 m ρ) c 0))

theorem tr0_w1 : (fun k j => V3 m ρ c main_v28 (ix2 k j)) = mat3 (m ((c : Thread nD τ).loc main_arg2)) 0 := by
  have e : (V3 m ρ c main_v28 : S128x128.Idx → EReal)
      = shapeCast S128x128 (extractStridedSlice S1x128x128 ![0, 0, 0] (W2 m ρ c (Proc.devRef .tc main_arg2)) slices_S3x128x128_S1x128x128_0_0_0)
          shapeCasts_S1x128x128_S128x128 := by
    dsimp only [V3, W3, hostOps1]; after_results <;> rfl
  funext k j
  rw [e, mid0_arg2]
  exact KRead.mat_read 0 _ _ _ 0 rfl k j

theorem tr0_w2 : (fun k j => V3 m ρ c main_v36 (ix2 k j)) = mat3 (m ((c : Thread nD τ).loc main_arg6)) 0 := by
  have e : (V3 m ρ c main_v36 : S128x128.Idx → EReal)
      = shapeCast S128x128 (extractStridedSlice S1x128x128 ![0, 0, 0] (W2 m ρ c (Proc.devRef .tc main_arg6)) slices_S3x128x128_S1x128x128_0_0_0)
          shapeCasts_S1x128x128_S128x128 := by
    dsimp only [V3, W3, hostOps1]; after_results <;> rfl
  funext k j
  rw [e, mid0_arg6]
  exact KRead.mat_read 0 _ _ _ 0 rfl k j

theorem tr0_b1 : (fun j => V3 m ρ c main_v39 (ix2 (0 : Fin 1) j)) = row3 (m ((c : Thread nD τ).loc main_arg3)) 0 := by
  have e : (V3 m ρ c main_v39 : S1x128.Idx → EReal)
      = shapeCast S1x128 (shapeCast S128 (extractStridedSlice S1x128 ![0, 0] (W2 m ρ c (Proc.devRef .tc main_arg3)) slices_S3x128_S1x128_0_0)
          shapeCasts_S1x128_S128) shapeCasts_S128_S1x128 := by
    dsimp only [V3, W3, hostOps1]; after_results <;> rfl
  funext j
  rw [e, mid0_arg3]
  exact KRead.row_read 0 _ _ _ _ 0 rfl j

theorem tr0_g : (fun j => V3 m ρ c main_v40 (ix2 (0 : Fin 1) j)) = row3 (m ((c : Thread nD τ).loc main_arg4)) 0 := by
  have e : (V3 m ρ c main_v40 : S1x128.Idx → EReal)
      = shapeCast S1x128 (shapeCast S128 (extractStridedSlice S1x128 ![0, 0] (W2 m ρ c (Proc.devRef .tc main_arg4)) slices_S3x128_S1x128_0_0)
          shapeCasts_S1x128_S128) shapeCasts_S128_S1x128 := by
    dsimp only [V3, W3, hostOps1]; after_results <;> rfl
  funext j
  rw [e, mid0_arg4]
  exact KRead.row_read 0 _ _ _ _ 0 rfl j

theorem tr0_be : (fun j => V3 m ρ c main_v41 (ix2 (0 : Fin 1) j)) = row3 (m ((c : Thread nD τ).loc main_arg5)) 0 := by
  have e : (V3 m ρ c main_v41 : S1x128.Idx → EReal)
      = shapeCast S1x128 (shapeCast S128 (extractStridedSlice S1x128 ![0, 0] (W2 m ρ c (Proc.devRef .tc main_arg5)) slices_S3x128_S1x128_0_0)
          shapeCasts_S1x128_S128) shapeCasts_S128_S1x128 := by
    dsimp only [V3, W3, hostOps1]; after_results <;> rfl
  funext j
  rw [e, mid0_arg5]
  exact KRead.row_read 0 _ _ _ _ 0 rfl j

theorem tr0_b2 : (fun j => V3 m ρ c main_v42 (ix2 (0 : Fin 1) j)) = row3 (m ((c : Thread nD τ).loc main_arg7)) 0 := by
  have e : (V3 m ρ c main_v42 : S1x128.Idx → EReal)
      = shapeCast S1x128 (shapeCast S128 (extractStridedSlice S1x128 ![0, 0] (W2 m ρ c (Proc.devRef .tc main_arg7)) slices_S3x128_S1x128_0_0)
          shapeCasts_S1x128_S128) shapeCasts_S128_S1x128 := by
    dsimp only [V3, W3, hostOps1]; after_results <;> rfl
  funext j
  rw [e, mid0_arg7]
  exact KRead.row_read 0 _ _ _ _ 0 rfl j

/-! ## The layer -/

/-- The transform region's output is the layer of the aggregated rows. -/
theorem layer0 : W4 m ρ c (Proc.devRef .tc main_v43)
    = layer varK (hin0 m ρ c) (mat3 (m ((c : Thread nD τ).loc main_arg2)) 0) (row3 (m ((c : Thread nD τ).loc main_arg3)) 0) (row3 (m ((c : Thread nD τ).loc main_arg4)) 0) (row3 (m ((c : Thread nD τ).loc main_arg5)) 0)
        (mat3 (m ((c : Thread nD τ).loc main_arg6)) 0) (row3 (m ((c : Thread nD τ).loc main_arg7)) 0) := by
  refine layer_of_reads (hin0 m ρ c) _ (sumRow0 m ρ c) (sqRow0 m ρ c) (muRow0 m ρ c) (varRow0 m ρ c)
    _ _ _ _ _ _ (sum0 m ρ c) (sumsq0 m ρ c) (mu0 m ρ c) (var0 m ρ c) ?_
  have e : W4 m ρ c (Proc.devRef .tc main_v43) = (dat1 (V3 m ρ) c).arrAt 9 cfg1.N := W4_arr m ρ c 9
  rw [e, TileValue.transform1 (V3 m ρ) c, tr0_hin, tr0_w1, tr0_b1, tr0_g, tr0_be, tr0_w2, tr0_b2]

end Cert.KernelIdeal.KValue

end
-- ==== Proof.Stats2.lean ====
/-
  What the two running rows of the column-statistics region 2 hold when the region ends.

  The region visits 25 points; point t sees rows 2000·t … 2000·t + 1999 of the node array, the whole weight matrix and
  the whole bias row. The first point stores zero rows and then adds its block's column sums of z = x · W + b and of
  z · z; every later point adds its block's sums to what the point before left (the rows' block never moves, so nothing
  is written back in between). Hence after point n the rows hold the sums over the rows of blocks 0 … n, and after the
  last point — the only one that writes the rows back — the sums over all 50000 rows.
-/
import proofs.«149897_j14525579395559_1_alg».proof.Proof.Gen.KernelIdeal.Frame
import proofs.«149897_j14525579395559_1_alg».proof.Proof.StatsBody
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.StatsValue

open Cert.KernelIdeal Cert.KernelIdeal.Gen

/-! ## What a point leaves in the two rows, at any float values -/

section Pieces

variable {F : FTy → Type} [FloatOps F]
variable (V : (c : Dev nD) → (b : Ref sig .tc) → Buf (Elt F) ((c : Thread nD τ).loc b))

/-- A later point leaves in the first row the step applied to what the row held. -/
theorem out2_B_3_eq (c : Dev nD) (i : grid2.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond2_0 i) (x0 : Vec F S2000x128 .f32) (x1 : Vec F S128x128 .f32) (x2 xo3 xo4 : Vec F S1x128 .f32) :
    out2_B_3 c i a1 h1 a2 h2 a3 h3 a4 h4 a5 h5 hc x0 x1 x2 xo3 xo4 = k2_pay4 x0 x1 x2 xo3 := by
  unfold out2_B_3
  rw [View.read_writes_eq_canon _ _ _ (cover2_B_3 c i a1 h1 a2 h2 a3 h3 a4 h4 a5 h5 hc x0 x1 x2 xo3 xo4)]
  unfold kernelRun2_B
  dsimp only
  rw [View.canon_unit_zero hz2]
  simp only [View.readAt_eq_ld, h1.read_unread, h2.read_unread, h3.read_unread, h4.read_unread,
    View.ld_unit_zero (S := S2000x128) hz2, View.ld_unit_zero (S := S128x128) hz2, View.ld_unit_zero (S := S1x128) hz2]

/-- A later point leaves in the second row the step applied to what the row held. -/
theorem out2_B_4_eq (c : Dev nD) (i : grid2.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond2_0 i) (x0 : Vec F S2000x128 .f32) (x1 : Vec F S128x128 .f32) (x2 xo3 xo4 : Vec F S1x128 .f32) :
    out2_B_4 c i a1 h1 a2 h2 a3 h3 a4 h4 a5 h5 hc x0 x1 x2 xo3 xo4 = k2_pay5 x0 x1 x2 xo4 := by
  unfold out2_B_4
  rw [View.read_writes_eq_canon _ _ _ (cover2_B_4 c i a1 h1 a2 h2 a3 h3 a4 h4 a5 h5 hc x0 x1 x2 xo3 xo4)]
  unfold kernelRun2_B
  dsimp only
  rw [View.canon_unit_zero hz2]
  simp only [View.readAt_eq_ld, h1.read_unread, h2.read_unread, h3.read_unread, h5.read_unread,
    View.ld_unit_zero (S := S2000x128) hz2, View.ld_unit_zero (S := S128x128) hz2, View.ld_unit_zero (S := S1x128) hz2]

/-- The first point leaves in the first row the step applied to the zero row it has just stored. -/
theorem out2_A_3_eq (c : Dev nD) (i : grid2.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond2_0 i) (x0 : Vec F S2000x128 .f32) (x1 : Vec F S128x128 .f32) (x2 : Vec F S1x128 .f32) :
    out2_A_3 c i a1 h1 a2 h2 a3 h3 a4 h4 a5 h5 hc x0 x1 x2 = k2_pay4 x0 x1 x2 k2_pay1 := by
  unfold out2_A_3
  rw [View.read_writes_eq_canon _ _ _ (cover2_A_3 c i a1 h1 a2 h2 a3 h3 a4 h4 a5 h5 hc x0 x1 x2)]
  unfold kernelRun2_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S2000x128) hz2, View.ld_unit_zero (S := S128x128) hz2, View.ld_unit_zero (S := S1x128) hz2]

/-- The first point leaves in the second row the step applied to the zero row it has just stored. -/
theorem out2_A_4_eq (c : Dev nD) (i : grid2.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond2_0 i) (x0 : Vec F S2000x128 .f32) (x1 : Vec F S128x128 .f32) (x2 : Vec F S1x128 .f32) :
    out2_A_4 c i a1 h1 a2 h2 a3 h3 a4 h4 a5 h5 hc x0 x1 x2 = k2_pay5 x0 x1 x2 k2_pay2 := by
  unfold out2_A_4
  rw [View.read_writes_eq_canon _ _ _ (cover2_A_4 c i a1 h1 a2 h2 a3 h3 a4 h4 a5 h5 hc x0 x1 x2)]
  unfold kernelRun2_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S2000x128) hz2, View.ld_unit_zero (S := S128x128) hz2, View.ld_unit_zero (S := S1x128) hz2]

/-- The rows after the first point. -/
theorem fst2_A (c : Dev nD) (t : Fin cfg2.N) (h0 : t.val % 25 = 0) :
    (outsAt2 V c t.val t.isLt).1 = k2_pay4 (iblk2 V c 0 t) (iblk2 V c 1 t) (iblk2 V c 2 t) k2_pay1 := by
  rw [outsAt2_A V c t h0]
  exact out2_A_3_eq c (grid2.coords t) (ms2_0 t) (hs2_0 t) (ms2_1 t) (hs2_1 t) (ms2_2 t) (hs2_2 t) (ms2_3 t) (hs2_3 t) (ms2_4 t) (hs2_4 t)
    ((hcond2_0 t).mpr h0) (iblk2 V c 0 t) (iblk2 V c 1 t) (iblk2 V c 2 t)

theorem snd2_A (c : Dev nD) (t : Fin cfg2.N) (h0 : t.val % 25 = 0) :
    (outsAt2 V c t.val t.isLt).2 = k2_pay5 (iblk2 V c 0 t) (iblk2 V c 1 t) (iblk2 V c 2 t) k2_pay2 := by
  rw [outsAt2_A V c t h0]
  exact out2_A_4_eq c (grid2.coords t) (ms2_0 t) (hs2_0 t) (ms2_1 t) (hs2_1 t) (ms2_2 t) (hs2_2 t) (ms2_3 t) (hs2_3 t) (ms2_4 t) (hs2_4 t)
    ((hcond2_0 t).mpr h0) (iblk2 V c 0 t) (iblk2 V c 1 t) (iblk2 V c 2 t)

/-- The rows after a later point, from the rows after the point before. -/
theorem fst2_B (c : Dev nD) (t : Fin cfg2.N) (h0 : ¬t.val % 25 = 0) :
    (outsAt2 V c t.val t.isLt).1 = k2_pay4 (iblk2 V c 0 t) (iblk2 V c 1 t) (iblk2 V c 2 t)
      (outsAt2 V c (t.val - 1) (Nat.lt_of_le_of_lt (Nat.sub_le _ _) t.isLt)).1 := by
  rw [outsAt2_B V c t h0]
  exact out2_B_3_eq c (grid2.coords t) (ms2_0 t) (hs2_0 t) (ms2_1 t) (hs2_1 t) (ms2_2 t) (hs2_2 t) (ms2_3 t) (hs2_3 t) (ms2_4 t) (hs2_4 t)
    (fun h => h0 ((hcond2_0 t).mp h)) (iblk2 V c 0 t) (iblk2 V c 1 t) (iblk2 V c 2 t)
    (outsAt2 V c (t.val - 1) (Nat.lt_of_le_of_lt (Nat.sub_le _ _) t.isLt)).1 (outsAt2 V c (t.val - 1) (Nat.lt_of_le_of_lt (Nat.sub_le _ _) t.isLt)).2

theorem snd2_B (c : Dev nD) (t : Fin cfg2.N) (h0 : ¬t.val % 25 = 0) :
    (outsAt2 V c t.val t.isLt).2 = k2_pay5 (iblk2 V c 0 t) (iblk2 V c 1 t) (iblk2 V c 2 t)
      (outsAt2 V c (t.val - 1) (Nat.lt_of_le_of_lt (Nat.sub_le _ _) t.isLt)).2 := by
  rw [outsAt2_B V c t h0]
  exact out2_B_4_eq c (grid2.coords t) (ms2_0 t) (hs2_0 t) (ms2_1 t) (hs2_1 t) (ms2_2 t) (hs2_2 t) (ms2_3 t) (hs2_3 t) (ms2_4 t) (hs2_4 t)
    (fun h => h0 ((hcond2_0 t).mp h)) (iblk2 V c 0 t) (iblk2 V c 1 t) (iblk2 V c 2 t)
    (outsAt2 V c (t.val - 1) (Nat.lt_of_le_of_lt (Nat.sub_le _ _) t.isLt)).1 (outsAt2 V c (t.val - 1) (Nat.lt_of_le_of_lt (Nat.sub_le _ _) t.isLt)).2

/-! ## The blocks the windows read -/

/-- Where the three input windows sit at point t: the node rows' block is block t, the matrix and the bias row are whole. -/
theorem idx2_in : ∀ t : Fin cfg2.N, (win2_0.index t (0 : Fin 2) = t.val ∧ win2_0.index t (1 : Fin 2) = 0)
      ∧ (win2_1.index t (0 : Fin 2) = 0 ∧ win2_1.index t (1 : Fin 2) = 0) ∧ (win2_2.index t (0 : Fin 2) = 0 ∧ win2_2.index t (1 : Fin 2) = 0) :=
  (by decide +kernel : ∀ t : Fin grid2.N, (win2_0.index t (0 : Fin 2) = t.val ∧ win2_0.index t (1 : Fin 2) = 0)
      ∧ (win2_1.index t (0 : Fin 2) = 0 ∧ win2_1.index t (1 : Fin 2) = 0) ∧ (win2_2.index t (0 : Fin 2) = 0 ∧ win2_2.index t (1 : Fin 2) = 0))

/-- Entry (r, k) of the node rows' block at point t is entry (2000·t + r, k) of the node array. -/
theorem blk2_0_apply (c : Dev nD) (t : Fin cfg2.N) (r : Fin 2000) (k : Fin 128) (hr : 2000 * t.val + r.val < 50000) :
    (iblk2 V c 0 t : Vec F S2000x128 .f32) (ix2 r k) = (V c main_v54 : Vec F S50000x128 .f32) (ix2 (⟨2000 * t.val + r.val, hr⟩ : Fin 50000) k) := by
  unfold iblk2
  rw [View.read_apply]
  show V c main_v54 _ = V c main_v54 _
  refine congrArg (V c main_v54) (funext fun a => Fin.ext ?_)
  match a with
  | ⟨0, _⟩ => show win2_0.index t 0 * 2000 + 1 * r.val = 2000 * t.val + r.val; rw [(idx2_in t).1.1]; omega
  | ⟨1, _⟩ => show win2_0.index t 1 * 128 + 1 * k.val = k.val; rw [(idx2_in t).1.2]; omega

/-- The weight matrix's block is the matrix. -/
theorem blk2_1_apply (c : Dev nD) (t : Fin cfg2.N) (k j : Fin 128) :
    (iblk2 V c 1 t : Vec F S128x128 .f32) (ix2 k j) = (V c main_v56 : Vec F S128x128 .f32) (ix2 k j) := by
  unfold iblk2
  rw [View.read_apply]
  show V c main_v56 _ = V c main_v56 _
  refine congrArg (V c main_v56) (funext fun a => Fin.ext ?_)
  match a with
  | ⟨0, _⟩ => show win2_1.index t 0 * 128 + 1 * k.val = k.val; rw [(idx2_in t).2.1.1]; omega
  | ⟨1, _⟩ => show win2_1.index t 1 * 128 + 1 * j.val = j.val; rw [(idx2_in t).2.1.2]; omega

/-- The bias row's block is the row. -/
theorem blk2_2_apply (c : Dev nD) (t : Fin cfg2.N) (u : Fin 1) (j : Fin 128) :
    (iblk2 V c 2 t : Vec F S1x128 .f32) (ix2 u j) = (V c main_v59 : Vec F S1x128 .f32) (ix2 u j) := by
  unfold iblk2
  rw [View.read_apply]
  show V c main_v59 _ = V c main_v59 _
  refine congrArg (V c main_v59) (funext fun a => Fin.ext ?_)
  match a with
  | ⟨0, _⟩ => show win2_2.index t 0 * 1 + 1 * u.val = u.val; rw [(idx2_in t).2.2.1]; omega
  | ⟨1, _⟩ => show win2_2.index t 1 * 128 + 1 * j.val = j.val; rw [(idx2_in t).2.2.2]; omega

end Pieces

/-! ## The totals, over the extended reals -/

section Totals

variable (V : (c : Dev nD) → (b : Ref sig .tc) → Buf (Elt Ideal) ((c : Thread nD τ).loc b))

/-- The node rows, the weight matrix and the bias row as the region finds them. -/
abbrev hArr2 (c : Dev nD) : FVec Ideal Cert.Net.SN .f32 := V c main_v54
abbrev wMat2 (c : Dev nD) : Fin 128 → Fin 128 → EReal := fun k j => V c main_v56 (ix2 k j)
abbrev bRow2 (c : Dev nD) : Fin 128 → EReal := fun j => V c main_v59 (ix2 (0 : Fin 1) j)

/-- z = h · W + b over all the node rows. -/
abbrev zAll2 (c : Dev nD) : FVec Ideal Cert.Net.SN .f32 := Cert.Net.lin (hArr2 V c) (wMat2 V c) (bRow2 V c)

/-- Point s's addend to the first row: its block's column sums of z (zero past the grid). -/
def add2_3 (c : Dev nD) (s : ℕ) (j : Fin 128) : EReal :=
  if h : s < cfg2.N then ∑ r : Fin 2000, zBlk (iblk2 V c 0 ⟨s, h⟩) (iblk2 V c 1 ⟨s, h⟩) (iblk2 V c 2 ⟨s, h⟩) r j else 0

/-- Point s's addend to the second row: its block's column sums of z · z. -/
def add2_4 (c : Dev nD) (s : ℕ) (j : Fin 128) : EReal :=
  if h : s < cfg2.N then ∑ r : Fin 2000, zBlk (iblk2 V c 0 ⟨s, h⟩) (iblk2 V c 1 ⟨s, h⟩) (iblk2 V c 2 ⟨s, h⟩) r j
      * zBlk (iblk2 V c 0 ⟨s, h⟩) (iblk2 V c 1 ⟨s, h⟩) (iblk2 V c 2 ⟨s, h⟩) r j else 0

/-- Row r of block s of z is row 2000·s + r of z over all the rows. -/
theorem zBlk2_eq (c : Dev nD) (s : Fin 25) (h : s.val < cfg2.N) (r : Fin 2000) (j : Fin 128) :
    zBlk (iblk2 V c 0 ⟨s.val, h⟩) (iblk2 V c 1 ⟨s.val, h⟩) (iblk2 V c 2 ⟨s.val, h⟩) r j = zAll2 V c (ix2 (blkRow s r) j) := by
  unfold zBlk
  show _ = (∑ k : Fin 128, hArr2 V c (ix2 (blkRow s r) k) * wMat2 V c k j) + bRow2 V c j
  refine congrArg₂ (· + ·) (Finset.sum_congr rfl fun k _ => congrArg₂ (· * ·) ?_ ?_) ?_
  · exact blk2_0_apply V c ⟨s.val, h⟩ r k (blkRow s r).isLt
  · exact blk2_1_apply V c ⟨s.val, h⟩ k j
  · exact blk2_2_apply V c ⟨s.val, h⟩ 0 j

theorem add2_3_eq (c : Dev nD) (s : Fin 25) (j : Fin 128) :
    add2_3 V c s.val j = ∑ r : Fin 2000, zAll2 V c (ix2 (blkRow s r) j) := by
  have h : s.val < cfg2.N := lt_of_lt_of_eq s.isLt (show cfg2.N = 25 from N_2).symm
  unfold add2_3
  rw [dif_pos h]
  exact Finset.sum_congr rfl fun r _ => zBlk2_eq V c s h r j

theorem add2_4_eq (c : Dev nD) (s : Fin 25) (j : Fin 128) :
    add2_4 V c s.val j = ∑ r : Fin 2000, zAll2 V c (ix2 (blkRow s r) j) * zAll2 V c (ix2 (blkRow s r) j) := by
  have h : s.val < cfg2.N := lt_of_lt_of_eq s.isLt (show cfg2.N = 25 from N_2).symm
  unfold add2_4
  rw [dif_pos h]
  exact Finset.sum_congr rfl fun r _ => congrArg₂ (· * ·) (zBlk2_eq V c s h r j) (zBlk2_eq V c s h r j)

/-- After point n the first row holds the addends of points 0 … n. -/
theorem run2_3 (c : Dev nD) : ∀ (n : ℕ) (h : n < cfg2.N) (u : Fin 1) (j : Fin 128),
    (outsAt2 V c n h).1 (ix2 u j) = ∑ s ∈ Finset.range (n + 1), add2_3 V c s j :=
  running_total (fun n h u j => (outsAt2 V c n h).1 (ix2 u j)) (add2_3 V c)
    (fun h u j => by
      refine (congrFun (fst2_A V c ⟨0, h⟩ rfl) (ix2 u j)).trans ?_
      refine (pay4_apply_2 (iblk2 V c 0 ⟨0, h⟩) (iblk2 V c 1 ⟨0, h⟩) (iblk2 V c 2 ⟨0, h⟩) (k2_pay1 (F := Ideal)) u j).trans ?_
      rw [pay1_apply_2, zero_add]
      unfold add2_3; rw [dif_pos h])
    (fun n h u j => by
      have hN : cfg2.N = 25 := N_2
      have hB : ¬(⟨n + 1, h⟩ : Fin cfg2.N).val % 25 = 0 := by dsimp only; omega
      refine (congrFun (fst2_B V c ⟨n + 1, h⟩ hB) (ix2 u j)).trans ?_
      refine (pay4_apply_2 (iblk2 V c 0 ⟨n + 1, h⟩) (iblk2 V c 1 ⟨n + 1, h⟩) (iblk2 V c 2 ⟨n + 1, h⟩) _ u j).trans ?_
      refine congrArg₂ (· + ·) rfl ?_
      unfold add2_3; rw [dif_pos h])

/-- After point n the second row holds the addends of points 0 … n. -/
theorem run2_4 (c : Dev nD) : ∀ (n : ℕ) (h : n < cfg2.N) (u : Fin 1) (j : Fin 128),
    (outsAt2 V c n h).2 (ix2 u j) = ∑ s ∈ Finset.range (n + 1), add2_4 V c s j :=
  running_total (fun n h u j => (outsAt2 V c n h).2 (ix2 u j)) (add2_4 V c)
    (fun h u j => by
      refine (congrFun (snd2_A V c ⟨0, h⟩ rfl) (ix2 u j)).trans ?_
      refine (pay5_apply_2 (iblk2 V c 0 ⟨0, h⟩) (iblk2 V c 1 ⟨0, h⟩) (iblk2 V c 2 ⟨0, h⟩) (k2_pay2 (F := Ideal)) u j).trans ?_
      rw [pay2_apply_2, zero_add]
      unfold add2_4; rw [dif_pos h])
    (fun n h u j => by
      have hN : cfg2.N = 25 := N_2
      have hB : ¬(⟨n + 1, h⟩ : Fin cfg2.N).val % 25 = 0 := by dsimp only; omega
      refine (congrFun (snd2_B V c ⟨n + 1, h⟩ hB) (ix2 u j)).trans ?_
      refine (pay5_apply_2 (iblk2 V c 0 ⟨n + 1, h⟩) (iblk2 V c 1 ⟨n + 1, h⟩) (iblk2 V c 2 ⟨n + 1, h⟩) _ u j).trans ?_
      refine congrArg₂ (· + ·) rfl ?_
      unfold add2_4; rw [dif_pos h])

/-- The column sums of z over all the rows, as contents of the first result row; -/
def sum2 (c : Dev nD) : Buf (Elt Ideal) ((c : Thread nD τ).loc main_v60_0) :=
  fun (i : S1x128.Idx) => Cert.Net.colSum (zAll2 V c) (Cert.Spec.col i)
/-- and of z · z, as contents of the second. -/
def sumsq2 (c : Dev nD) : Buf (Elt Ideal) ((c : Thread nD τ).loc main_v60_1) :=
  fun (i : S1x128.Idx) => Cert.Net.colSumSq (zAll2 V c) (Cert.Spec.col i)

/-- The last point. -/
theorem last2 : (24 : ℕ) < cfg2.N := by rw [show cfg2.N = 25 from N_2]; decide
abbrev tLast2 : Fin cfg2.N := ⟨24, last2⟩

/-- After the last point the first row holds the column sums over all the rows. -/
theorem row2_3_last (c : Dev nD) : (outsAt2 V c 24 last2).1 = sum2 V c := by
  funext i
  obtain ⟨u, j, rfl⟩ : ∃ (u : Fin 1) (j : Fin 128), i = ix2 u j := ⟨i 0, i 1, eq_ix2 i⟩
  refine (run2_3 V c 24 last2 u j).trans ?_
  show _ = Cert.Net.colSum (zAll2 V c) j
  unfold Cert.Net.colSum
  exact total_of_blocks (fun n => zAll2 V c (ix2 n j)) (fun s => add2_3 V c s j) (fun s => add2_3_eq V c s j)

theorem row2_4_last (c : Dev nD) : (outsAt2 V c 24 last2).2 = sumsq2 V c := by
  funext i
  obtain ⟨u, j, rfl⟩ : ∃ (u : Fin 1) (j : Fin 128), i = ix2 u j := ⟨i 0, i 1, eq_ix2 i⟩
  refine (run2_4 V c 24 last2 u j).trans ?_
  show _ = Cert.Net.colSumSq (zAll2 V c) j
  unfold Cert.Net.colSumSq
  exact total_of_blocks (fun n => zAll2 V c (ix2 n j) * zAll2 V c (ix2 n j)) (fun s => add2_4 V c s j) (fun s => add2_4_eq V c s j)

/-- The two result rows' block never moves: it is block (0, 0), the whole row. -/
theorem idx2_out : ∀ t : Fin cfg2.N, (win2_3.index t (0 : Fin 2) = 0 ∧ win2_3.index t (1 : Fin 2) = 0)
      ∧ (win2_4.index t (0 : Fin 2) = 0 ∧ win2_4.index t (1 : Fin 2) = 0) :=
  (by decide +kernel : ∀ t : Fin grid2.N, (win2_3.index t (0 : Fin 2) = 0 ∧ win2_3.index t (1 : Fin 2) = 0)
      ∧ (win2_4.index t (0 : Fin 2) = 0 ∧ win2_4.index t (1 : Fin 2) = 0))

/-- The one write-back of the first row, at the last point, writes the column sums. -/
theorem flushed2_3_eq (c : Dev nD) (t : Fin cfg2.N) (hf : (cfg2.win 3).flush t = true) :
    (dat2 V c).flushed 3 t = ((cfg2.win 3).blk t).view.read (Elt Ideal) (sum2 V c) := by
  have hN : cfg2.N = 25 := N_2
  have h24 : t.val = 24 := by have := (flush2_3 t).mp hf; have := t.isLt; omega
  obtain rfl : t = tLast2 := Fin.ext h24
  show (cfg2.win 3).cut (grid2.coords tLast2) ((dat2 V c).after 3 tLast2) = _
  rw [after2_3]
  show (cfg2.win 3).cut (grid2.coords tLast2) (outsAt2 V c 24 last2).1 = _
  rw [row2_3_last]
  have hz' : (fun a => win2_3.index tLast2 a * main_v60_0.ty.shape.size a) = fun _ => 0 := funext fun a => by
    match a with
    | ⟨0, _⟩ => show win2_3.index tLast2 0 * 1 = 0; rw [(idx2_out tLast2).1.1]
    | ⟨1, _⟩ => show win2_3.index tLast2 1 * 128 = 0; rw [(idx2_out tLast2).1.2]
  exact (Memref.read_access_unit_zero (Elt Ideal) main_v60_0 hz' (fun a => by rw [congrFun hz' a]; simp) (sum2 V c)).symm

theorem flushed2_4_eq (c : Dev nD) (t : Fin cfg2.N) (hf : (cfg2.win 4).flush t = true) :
    (dat2 V c).flushed 4 t = ((cfg2.win 4).blk t).view.read (Elt Ideal) (sumsq2 V c) := by
  have hN : cfg2.N = 25 := N_2
  have h24 : t.val = 24 := by have := (flush2_4 t).mp hf; have := t.isLt; omega
  obtain rfl : t = tLast2 := Fin.ext h24
  show (cfg2.win 4).cut (grid2.coords tLast2) ((dat2 V c).after 4 tLast2) = _
  rw [after2_4]
  show (cfg2.win 4).cut (grid2.coords tLast2) (outsAt2 V c 24 last2).2 = _
  rw [row2_4_last]
  have hz' : (fun a => win2_4.index tLast2 a * main_v60_1.ty.shape.size a) = fun _ => 0 := funext fun a => by
    match a with
    | ⟨0, _⟩ => show win2_4.index tLast2 0 * 1 = 0; rw [(idx2_out tLast2).2.1]
    | ⟨1, _⟩ => show win2_4.index tLast2 1 * 128 = 0; rw [(idx2_out tLast2).2.2]
  exact (Memref.read_access_unit_zero (Elt Ideal) main_v60_1 hz' (fun a => by rw [congrFun hz' a]; simp) (sumsq2 V c)).symm

/-- The first result row when the region ends: at column j the sum over all 50000 rows of z (·, j). -/
theorem arr2_3_eq (c : Dev nD) : (dat2 V c).arrAt 3 cfg2.N = sum2 V c :=
  (dat2 V c).arrAt_eq_of_cover 3 (sum2 V c) (flushed2_3_eq V c) fun i =>
    ⟨tLast2, (flush2_3 tLast2).mpr rfl, by
      show i ∈ ((View.whole main_v60_0).slice (win2_3.rect tLast2)).set
      rw [View.set_slice_whole, Rect.mem_set_unit]
      intro a
      have h0 : (i 0 : Nat) < 1 := (i 0).isLt
      have h1 : (i 1 : Nat) < 128 := (i 1).isLt
      match a with
      | ⟨0, _⟩ => show win2_3.index tLast2 0 * 1 ≤ (i 0 : Nat) ∧ (i 0 : Nat) < win2_3.index tLast2 0 * 1 + 1
                  rw [(idx2_out tLast2).1.1]; omega
      | ⟨1, _⟩ => show win2_3.index tLast2 1 * 128 ≤ (i 1 : Nat) ∧ (i 1 : Nat) < win2_3.index tLast2 1 * 128 + 128
                  rw [(idx2_out tLast2).1.2]; omega⟩

/-- The second result row when the region ends: at column j the sum over all 50000 rows of z (·, j)². -/
theorem arr2_4_eq (c : Dev nD) : (dat2 V c).arrAt 4 cfg2.N = sumsq2 V c :=
  (dat2 V c).arrAt_eq_of_cover 4 (sumsq2 V c) (flushed2_4_eq V c) fun i =>
    ⟨tLast2, (flush2_4 tLast2).mpr rfl, by
      show i ∈ ((View.whole main_v60_1).slice (win2_4.rect tLast2)).set
      rw [View.set_slice_whole, Rect.mem_set_unit]
      intro a
      have h0 : (i 0 : Nat) < 1 := (i 0).isLt
      have h1 : (i 1 : Nat) < 128 := (i 1).isLt
      match a with
      | ⟨0, _⟩ => show win2_4.index tLast2 0 * 1 ≤ (i 0 : Nat) ∧ (i 0 : Nat) < win2_4.index tLast2 0 * 1 + 1
                  rw [(idx2_out tLast2).2.1]; omega
      | ⟨1, _⟩ => show win2_4.index tLast2 1 * 128 ≤ (i 1 : Nat) ∧ (i 1 : Nat) < win2_4.index tLast2 1 * 128 + 128
                  rw [(idx2_out tLast2).2.2]; omega⟩

/-- The same, with the column sums written out. -/
theorem stats2_sum (c : Dev nD) : (dat2 V c).arrAt 3 cfg2.N = fun (i : S1x128.Idx) =>
    Cert.Net.colSum (Cert.Net.lin (V c main_v54) (fun k j => V c main_v56 (ix2 k j)) (fun j => V c main_v59 (ix2 (0 : Fin 1) j))) (Cert.Spec.col i) :=
  arr2_3_eq V c

theorem stats2_sumsq (c : Dev nD) : (dat2 V c).arrAt 4 cfg2.N = fun (i : S1x128.Idx) =>
    Cert.Net.colSumSq (Cert.Net.lin (V c main_v54) (fun k j => V c main_v56 (ix2 k j)) (fun j => V c main_v59 (ix2 (0 : Fin 1) j))) (Cert.Spec.col i) :=
  arr2_4_eq V c

end Totals

end Cert.KernelIdeal.StatsValue

end
-- ==== Proof.Transform3.lean ====
/-
  The second transform region's output array: one graph layer after the aggregation, with the normalisation's two
  per-column numbers taken from the rows the region is given.

  The region's grid has 25 points; point t works on rows 2000 t … 2000 t + 1999 of the input and of the output, and sees
  the two weight matrices and the six rows (bias, gain, offset, mean, variance, second bias) whole. A row of the result
  depends on that row of the input only, so what point t writes back is block t of ONE whole-array function of the arrays
  as the region finds them, and the 25 blocks tile the output.
-/
import proofs.«149897_j14525579395559_1_alg».proof.Proof.Gen.KernelIdeal.Frame
import proofs.«149897_j14525579395559_1_alg».proof.Proof.TileBody
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.TileValue

open Cert.KernelIdeal Cert.KernelIdeal.Gen Cert.Spec Cert.Net

theorem hz3 : (![0, 0] : Fin 2 → Nat) = fun _ => 0 := funext fun a => by fin_cases a <;> rfl

/-- The body's stored value is the layer applied to its input tile, the weights and rows read off their blocks. -/
theorem pay3_eq (x0 : Vec Ideal S2000x128 .f32) (x1 : Vec Ideal S128x128 .f32) (x2 x3 x4 x5 x6 : Vec Ideal S1x128 .f32)
    (x7 : Vec Ideal S128x128 .f32) (x8 : Vec Ideal S1x128 .f32) :
    k3_pay1 (k3_pay2 x0 x1 x2 x6 x5 x3 x4 x7) x8
      = Net.linRelu (bnReluT (Net.lin x0 (fun k j => x1 (ix2 k j)) (fun j => x2 (ix2 (0 : Fin 1) j)))
          (fun j => x5 (ix2 (0 : Fin 1) j)) (fun j => x6 (ix2 (0 : Fin 1) j)) (fun j => x3 (ix2 (0 : Fin 1) j))
          (fun j => x4 (ix2 (0 : Fin 1) j))) (fun k j => x7 (ix2 k j)) (fun j => x8 (ix2 (0 : Fin 1) j)) := by
  unfold k3_pay1 k3_pay2
  dsimp only
  exact transformTile dot_S2000x128_S128x128_S2000x128_1_0_0_1_n_n rfl x0 x1 x2 x6 x5 x3 x4 x7 x8 _ _ _ _ _

/-- The stored value at row p of the tile is the layer's value at row n of a whole array that holds the tile's row p as
    its row n, the weights and rows being the blocks' contents. -/
theorem pay3_at (x0 : Vec Ideal S2000x128 .f32) (x1 : Vec Ideal S128x128 .f32) (x2 x3 x4 x5 x6 : Vec Ideal S1x128 .f32)
    (x7 : Vec Ideal S128x128 .f32) (x8 : Vec Ideal S1x128 .f32) (H : FVec Ideal SN .f32)
    (W1 : Fin 128 → Fin 128 → EReal) (b1 mu var g be : Fin 128 → EReal) (W2 : Fin 128 → Fin 128 → EReal) (b2 : Fin 128 → EReal)
    (p : Fin 2000) (n : Fin 50000) (q : Fin 128)
    (h0 : ∀ k : Fin 128, x0 (ix2 p k) = H (ix2 n k)) (h1 : ∀ (k : Fin 128) (j : Fin 128), x1 (ix2 k j) = W1 k j)
    (h2 : ∀ j : Fin 128, x2 (ix2 (0 : Fin 1) j) = b1 j) (h3 : ∀ j : Fin 128, x3 (ix2 (0 : Fin 1) j) = g j)
    (h4 : ∀ j : Fin 128, x4 (ix2 (0 : Fin 1) j) = be j) (h5 : ∀ j : Fin 128, x5 (ix2 (0 : Fin 1) j) = mu j)
    (h6 : ∀ j : Fin 128, x6 (ix2 (0 : Fin 1) j) = var j) (h7 : ∀ (k : Fin 128) (j : Fin 128), x7 (ix2 k j) = W2 k j)
    (h8 : ∀ j : Fin 128, x8 (ix2 (0 : Fin 1) j) = b2 j) :
    k3_pay1 (k3_pay2 x0 x1 x2 x6 x5 x3 x4 x7) x8 (ix2 p q)
      = Net.linRelu (Net.bnRelu (Net.lin H W1 b1) mu var g be) W2 b2 (ix2 n q) :=
  (congrFun (pay3_eq x0 x1 x2 x3 x4 x5 x6 x7 x8) (ix2 p q)).trans
    (layer_rows x0 H _ W1 _ b1 _ mu _ var _ g _ be _ W2 _ b2 p n q h0 (funext fun k => funext fun j => h1 k j) (funext h2)
      (funext h5) (funext h6) (funext h3) (funext h4) (funext fun k => funext fun j => h7 k j) (funext h8))

section
variable (V : (c : Dev nD) → (b : Ref sig .tc) → Buf (Elt Ideal) ((c : Thread nD τ).loc b))

/-- The block indices over the grid: the row-tiled windows are at block (t, 0), the others at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-- What the output array ends holding. -/
abbrev G3 (c : Dev nD) : FVec Ideal SN .f32 :=
  Net.linRelu (Net.bnRelu (Net.lin (V c main_v54) (fun k j => V c main_v68 (ix2 k j)) (fun j => V c main_v79 (ix2 (0 : Fin 1) j)))
      (fun j => V c main_v62 (ix2 (0 : Fin 1) j)) (fun j => V c main_v66 (ix2 (0 : Fin 1) j))
      (fun j => V c main_v80 (ix2 (0 : Fin 1) j)) (fun j => V c main_v81 (ix2 (0 : Fin 1) j)))
    (fun k j => V c main_v76 (ix2 k j)) (fun j => V c main_v82 (ix2 (0 : Fin 1) j))

/-- The input tile at point t is rows 2000 t … of the input array. -/
theorem iblk3_0_apply (c : Dev nD) (t : Fin cfg3.N) (p : Fin 2000) (k : Fin 128) (n : Fin 50000) (hn : n.val = 2000 * t.val + p.val) :
    (iblk3 V c 0 t : Vec Ideal S2000x128 .f32) (ix2 p k) = (V c main_v54 : S50000x128.Idx → EReal) (ix2 n k) := by
  obtain ⟨e0, e1, -⟩ := idx3 t
  unfold iblk3
  rw [View.read_apply]
  show (V c main_v54 : S50000x128.Idx → EReal) _ = _
  refine congrArg (V c main_v54 : S50000x128.Idx → EReal) (funext fun a => Fin.ext ?_)
  match a with
  | ⟨0, _⟩ => show win3_0.index t (0 : Fin 2) * 2000 + 1 * p.val = n.val; rw [e0, hn]; omega
  | ⟨1, _⟩ => show win3_0.index t (1 : Fin 2) * 128 + 1 * k.val = k.val; rw [e1]; omega

/-- The windows that are not tiled hold their whole arrays at every point. -/
theorem iblk3_1_apply (c : Dev nD) (t : Fin cfg3.N) (k : Fin 128) (j : Fin 128) :
    (iblk3 V c 1 t : Vec Ideal S128x128 .f32) (ix2 k j) = (V c main_v68 : S128x128.Idx → EReal) (ix2 k j) := by
  obtain ⟨-, -, e0, e1, -⟩ := idx3 t
  unfold iblk3
  rw [View.read_apply]
  show (V c main_v68 : S128x128.Idx → EReal) _ = _
  refine congrArg (V c main_v68 : S128x128.Idx → EReal) (funext fun a => Fin.ext ?_)
  match a with
  | ⟨0, _⟩ => show win3_1.index t (0 : Fin 2) * 128 + 1 * k.val = k.val; rw [e0]; omega
  | ⟨1, _⟩ => show win3_1.index t (1 : Fin 2) * 128 + 1 * j.val = j.val; rw [e1]; omega

theorem iblk3_7_apply (c : Dev nD) (t : Fin cfg3.N) (k : Fin 128) (j : Fin 128) :
    (iblk3 V c 7 t : Vec Ideal S128x128 .f32) (ix2 k j) = (V c main_v76 : S128x128.Idx → EReal) (ix2 k j) := by
  obtain ⟨-, -, -, -, -, -, -, -, -, -, -, -, -, -, e0, e1, -⟩ := idx3 t
  unfold iblk3
  rw [View.read_apply]
  show (V c main_v76 : S128x128.Idx → EReal) _ = _
  refine congrArg (V c main_v76 : S128x128.Idx → EReal) (funext fun a => Fin.ext ?_)
  match a with
  | ⟨0, _⟩ => show win3_7.index t (0 : Fin 2) * 128 + 1 * k.val = k.val; rw [e0]; omega
  | ⟨1, _⟩ => show win3_7.index t (1 : Fin 2) * 128 + 1 * j.val = j.val; rw [e1]; omega

theorem iblk3_2_apply (c : Dev nD) (t : Fin cfg3.N) (j : Fin 128) :
    (iblk3 V c 2 t : Vec Ideal S1x128 .f32) (ix2 (0 : Fin 1) j) = (V c main_v79 : S1x128.Idx → EReal) (ix2 (0 : Fin 1) j) := by
  obtain ⟨-, -, -, -, e0, e1, -⟩ := idx3 t
  unfold iblk3
  rw [View.read_apply]
  show (V c main_v79 : S1x128.Idx → EReal) _ = _
  refine congrArg (V c main_v79 : S1x128.Idx → EReal) (funext fun a => Fin.ext ?_)
  match a with
  | ⟨0, _⟩ => show win3_2.index t (0 : Fin 2) * 1 + 1 * 0 = 0; rw [e0]
  | ⟨1, _⟩ => show win3_2.index t (1 : Fin 2) * 128 + 1 * j.val = j.val; rw [e1]; omega

theorem iblk3_3_apply (c : Dev nD) (t : Fin cfg3.N) (j : Fin 128) :
    (iblk3 V c 3 t : Vec Ideal S1x128 .f32) (ix2 (0 : Fin 1) j) = (V c main_v80 : S1x128.Idx → EReal) (ix2 (0 : Fin 1) j) := by
  obtain ⟨-, -, -, -, -, -, e0, e1, -⟩ := idx3 t
  unfold iblk3
  rw [View.read_apply]
  show (V c main_v80 : S1x128.Idx → EReal) _ = _
  refine congrArg (V c main_v80 : S1x128.Idx → EReal) (funext fun a => Fin.ext ?_)
  match a with
  | ⟨0, _⟩ => show win3_3.index t (0 : Fin 2) * 1 + 1 * 0 = 0; rw [e0]
  | ⟨1, _⟩ => show win3_3.index t (1 : Fin 2) * 128 + 1 * j.val = j.val; rw [e1]; omega

theorem iblk3_4_apply (c : Dev nD) (t : Fin cfg3.N) (j : Fin 128) :
    (iblk3 V c 4 t : Vec Ideal S1x128 .f32) (ix2 (0 : Fin 1) j) = (V c main_v81 : S1x128.Idx → EReal) (ix2 (0 : Fin 1) j) := by
  obtain ⟨-, -, -, -, -, -, -, -, e0, e1, -⟩ := idx3 t
  unfold iblk3
  rw [View.read_apply]
  show (V c main_v81 : S1x128.Idx → EReal) _ = _
  refine congrArg (V c main_v81 : S1x128.Idx → EReal) (funext fun a => Fin.ext ?_)
  match a with
  | ⟨0, _⟩ => show win3_4.index t (0 : Fin 2) * 1 + 1 * 0 = 0; rw [e0]
  | ⟨1, _⟩ => show win3_4.index t (1 : Fin 2) * 128 + 1 * j.val = j.val; rw [e1]; omega

theorem iblk3_5_apply (c : Dev nD) (t : Fin cfg3.N) (j : Fin 128) :
    (iblk3 V c 5 t : Vec Ideal S1x128 .f32) (ix2 (0 : Fin 1) j) = (V c main_v62 : S1x128.Idx → EReal) (ix2 (0 : Fin 1) j) := by
  obtain ⟨-, -, -, -, -, -, -, -, -, -, e0, e1, -⟩ := idx3 t
  unfold iblk3
  rw [View.read_apply]
  show (V c main_v62 : S1x128.Idx → EReal) _ = _
  refine congrArg (V c main_v62 : S1x128.Idx → EReal) (funext fun a => Fin.ext ?_)
  match a with
  | ⟨0, _⟩ => show win3_5.index t (0 : Fin 2) * 1 + 1 * 0 = 0; rw [e0]
  | ⟨1, _⟩ => show win3_5.index t (1 : Fin 2) * 128 + 1 * j.val = j.val; rw [e1]; omega

theorem iblk3_6_apply (c : Dev nD) (t : Fin cfg3.N) (j : Fin 128) :
    (iblk3 V c 6 t : Vec Ideal S1x128 .f32) (ix2 (0 : Fin 1) j) = (V c main_v66 : S1x128.Idx → EReal) (ix2 (0 : Fin 1) j) := by
  obtain ⟨-, -, -, -, -, -, -, -, -, -, -, -, e0, e1, -⟩ := idx3 t
  unfold iblk3
  rw [View.read_apply]
  show (V c main_v66 : S1x128.Idx → EReal) _ = _
  refine congrArg (V c main_v66 : S1x128.Idx → EReal) (funext fun a => Fin.ext ?_)
  match a with
  | ⟨0, _⟩ => show win3_6.index t (0 : Fin 2) * 1 + 1 * 0 = 0; rw [e0]
  | ⟨1, _⟩ => show win3_6.index t (1 : Fin 2) * 128 + 1 * j.val = j.val; rw [e1]; omega

theorem iblk3_8_apply (c : Dev nD) (t : Fin cfg3.N) (j : Fin 128) :
    (iblk3 V c 8 t : Vec Ideal S1x128 .f32) (ix2 (0 : Fin 1) j) = (V c main_v82 : S1x128.Idx → EReal) (ix2 (0 : Fin 1) j) := by
  obtain ⟨-, -, -, -, -, -, -, -, -, -, -, -, -, -, -, -, e0, e1, -⟩ := idx3 t
  unfold iblk3
  rw [View.read_apply]
  show (V c main_v82 : S1x128.Idx → EReal) _ = _
  refine congrArg (V c main_v82 : S1x128.Idx → EReal) (funext fun a => Fin.ext ?_)
  match a with
  | ⟨0, _⟩ => show win3_8.index t (0 : Fin 2) * 1 + 1 * 0 = 0; rw [e0]
  | ⟨1, _⟩ => show win3_8.index t (1 : Fin 2) * 128 + 1 * j.val = j.val; rw [e1]; omega

/-- What point t writes back is block t of `G3`. -/
theorem flushed3_eq (c : Dev nD) (t : Fin cfg3.N) :
    (dat3 V c).flushed 9 t = ((cfg3.win 9).blk t).view.read (Elt Ideal) (G3 V c) := by
  show (cfg3.win 9).cut (grid3.coords t) ((dat3 V c).after 9 t) = _
  rw [after3_9]
  unfold out3_9
  rw [View.canon_unit_zero hz3]
  simp only [View.ld_unit_zero (S := S2000x128) hz3, View.ld_unit_zero (S := S128x128) hz3, View.ld_unit_zero (S := S1x128) hz3]
  funext y
  rw [View.read_apply]
  have hy0 : (y 0).val < 2000 := (y 0).isLt
  have hy1 : (y 1).val < 128 := (y 1).isLt
  have ht : t.val < 25 := Nat.lt_of_lt_of_eq t.isLt N_3
  obtain ⟨-, -, -, -, -, -, -, -, -, -, -, -, -, -, -, -, -, -, e0, e1⟩ := idx3 t
  have hx : (cfg3.win 9).xinj (grid3.coords t) y = (ix2 (⟨(y 0).val, hy0⟩ : Fin 2000) (⟨(y 1).val, hy1⟩ : Fin 128) : S2000x128.Idx) :=
    funext fun a => match a with | ⟨0, _⟩ => rfl | ⟨1, _⟩ => rfl
  have hemb : (((cfg3.win 9).blk t).view.emb y : S50000x128.Idx)
      = ix2 (⟨2000 * t.val + (y 0).val, by omega⟩ : Fin 50000) (⟨(y 1).val, hy1⟩ : Fin 128) :=
    funext fun a => Fin.ext (by
      match a with
      | ⟨0, _⟩ => show win3_9.index t (0 : Fin 2) * 2000 + 1 * (y 0).val = 2000 * t.val + (y 0).val; rw [e0]; omega
      | ⟨1, _⟩ => show win3_9.index t (1 : Fin 2) * 128 + 1 * (y 1).val = (y 1).val; rw [e1]; omega)
  refine Eq.trans ?_ (congrArg (G3 V c) hemb).symm
  refine Eq.trans (congrArg (k3_pay1 (k3_pay2 (iblk3 V c 0 t) (iblk3 V c 1 t) (iblk3 V c 2 t) (iblk3 V c 6 t) (iblk3 V c 5 t)
    (iblk3 V c 3 t) (iblk3 V c 4 t) (iblk3 V c 7 t)) (iblk3 V c 8 t)) hx) ?_
  exact pay3_at (iblk3 V c 0 t) (iblk3 V c 1 t) (iblk3 V c 2 t) (iblk3 V c 3 t) (iblk3 V c 4 t) (iblk3 V c 5 t)
    (iblk3 V c 6 t) (iblk3 V c 7 t) (iblk3 V c 8 t) (V c main_v54)
    (fun k j => V c main_v68 (ix2 k j)) (fun j => V c main_v79 (ix2 (0 : Fin 1) j))
    (fun j => V c main_v62 (ix2 (0 : Fin 1) j)) (fun j => V c main_v66 (ix2 (0 : Fin 1) j))
    (fun j => V c main_v80 (ix2 (0 : Fin 1) j)) (fun j => V c main_v81 (ix2 (0 : Fin 1) j))
    (fun k j => V c main_v76 (ix2 k j)) (fun j => V c main_v82 (ix2 (0 : Fin 1) j))
    (⟨(y 0).val, hy0⟩ : Fin 2000) (⟨2000 * t.val + (y 0).val, by omega⟩ : Fin 50000) (⟨(y 1).val, hy1⟩ : Fin 128)
    (fun k => iblk3_0_apply V c t _ k _ rfl)
    (fun k j => iblk3_1_apply V c t k j) (fun j => iblk3_2_apply V c t j)
    (fun j => iblk3_3_apply V c t j) (fun j => iblk3_4_apply V c t j)
    (fun j => iblk3_5_apply V c t j) (fun j => iblk3_6_apply V c t j)
    (fun k j => iblk3_7_apply V c t k j) (fun j => iblk3_8_apply V c t j)

/-- An index of the output array is in point t's block iff its row is in rows 2000 t … 2000 t + 1999. -/
theorem mem_blk3 (t : Fin cfg3.N) (i : S50000x128.Idx) :
    i ∈ ((cfg3.win 9).blk t).view.set ↔ ∀ a : Fin 2, win3_9.index t a * S2000x128.size a ≤ (i a).val ∧ (i a).val < win3_9.index t a * S2000x128.size a + S2000x128.size a := by
  show i ∈ ((View.whole main_v83).slice (win3_9.rect t)).set ↔ _
  rw [View.set_slice_whole, Rect.mem_set_unit]
  exact Iff.rfl

/-- Every index of the output array is in the block of the point its row's quotient by 2000 names. -/
theorem cover3 (i : S50000x128.Idx) : ∃ t : Fin cfg3.N, (cfg3.win 9).flush t = true ∧ i ∈ ((cfg3.win 9).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_9 _, ?_⟩
  rw [mem_blk3]
  obtain ⟨-, -, -, -, -, -, -, -, -, -, -, -, -, -, -, -, -, -, e0, e1⟩ := idx3 ⟨(i 0).val / 2000, by rw [hN]; omega⟩
  intro a
  match a with
  | ⟨0, _⟩ =>
    show win3_9.index _ (0 : Fin 2) * 2000 ≤ (i 0).val ∧ (i 0).val < win3_9.index _ (0 : Fin 2) * 2000 + 2000
    rw [e0]; show (i 0).val / 2000 * 2000 ≤ (i 0).val ∧ (i 0).val < (i 0).val / 2000 * 2000 + 2000; omega
  | ⟨1, _⟩ =>
    show win3_9.index _ (1 : Fin 2) * 128 ≤ (i 1).val ∧ (i 1).val < win3_9.index _ (1 : Fin 2) * 128 + 128
    rw [e1]; omega

/-- The second transform region's output array after the region: the layer applied to the region's input, with the weights and
    rows as the region finds them. -/
theorem transform3 (c : Dev nD) :
    (dat3 V c).arrAt 9 cfg3.N
      = Net.linRelu (Net.bnRelu (Net.lin (V c main_v54) (fun k j => V c main_v68 (ix2 k j)) (fun j => V c main_v79 (ix2 (0 : Fin 1) j)))
            (fun j => V c main_v62 (ix2 (0 : Fin 1) j)) (fun j => V c main_v66 (ix2 (0 : Fin 1) j))
            (fun j => V c main_v80 (ix2 (0 : Fin 1) j)) (fun j => V c main_v81 (ix2 (0 : Fin 1) j)))
          (fun k j => V c main_v76 (ix2 k j)) (fun j => V c main_v82 (ix2 (0 : Fin 1) j)) :=
  (dat3 V c).arrAt_eq_of_cover 9 (G3 V c) (fun t _ => flushed3_eq V c t) cover3

end

end Cert.KernelIdeal.TileValue

end
-- ==== Proof.KLayer1.lean ====
/-
  The second graph layer of the idealized kernel, after its aggregation: the array the transform region leaves is the
  layer of the network (written with the variance "mean of squares minus square of the mean") of the aggregated rows and
  of the layer's slices of the stacked parameters. The statistics region leaves the column sums of z = h·W1 + b1 and of
  z², the host divides them by the number of nodes and forms the variance, and the transform region normalises,
  cuts at zero, applies the second matrix and cuts at zero again.
-/
import proofs.«149897_j14525579395559_1_alg».proof.Proof.KKeep
import proofs.«149897_j14525579395559_1_alg».proof.Proof.KRead
import proofs.«149897_j14525579395559_1_alg».proof.Proof.KLayer
import proofs.«149897_j14525579395559_1_alg».proof.Proof.Stats2
import proofs.«149897_j14525579395559_1_alg».proof.Proof.Transform3

set_option maxRecDepth 16384

noncomputable section

namespace Cert.KernelIdeal.KValue

open Cert.KernelIdeal Cert.KernelIdeal.Gen Cert.Net
open Idealize.ShloMosaic Idealize.ShloMosaic.TcCoe Idealize.ShloMosaic.Tactic Idealize.ShloMosaic.ValueIdx Idealize.SL.Sem

variable (m : (ℓ : Loc nD τ sig) → Buf (Elt Ideal) ℓ) (ρ : Dev nD → PrngReg) (c : Dev nD)

/-! ## The stacked parameters reach the layer as launched -/

theorem pre1_arg2 : W4 m ρ c (Proc.devRef .tc main_arg2) = (m ((c : Thread nD τ).loc main_arg2)) := by wreg W4_of_ne; whost hostOps1; wreg W2_of_ne; whost hostOps0; rfl
theorem pre1_arg3 : W4 m ρ c (Proc.devRef .tc main_arg3) = (m ((c : Thread nD τ).loc main_arg3)) := by wreg W4_of_ne; whost hostOps1; wreg W2_of_ne; whost hostOps0; rfl
theorem mid1_arg2 : W6 m ρ c (Proc.devRef .tc main_arg2) = (m ((c : Thread nD τ).loc main_arg2)) := by wreg W6_of_ne; whost hostOps2; wreg W4_of_ne; whost hostOps1; wreg W2_of_ne; whost hostOps0; rfl
theorem mid1_arg3 : W6 m ρ c (Proc.devRef .tc main_arg3) = (m ((c : Thread nD τ).loc main_arg3)) := by wreg W6_of_ne; whost hostOps2; wreg W4_of_ne; whost hostOps1; wreg W2_of_ne; whost hostOps0; rfl
theorem mid1_arg4 : W6 m ρ c (Proc.devRef .tc main_arg4) = (m ((c : Thread nD τ).loc main_arg4)) := by wreg W6_of_ne; whost hostOps2; wreg W4_of_ne; whost hostOps1; wreg W2_of_ne; whost hostOps0; rfl
theorem mid1_arg5 : W6 m ρ c (Proc.devRef .tc main_arg5) = (m ((c : Thread nD τ).loc main_arg5)) := by wreg W6_of_ne; whost hostOps2; wreg W4_of_ne; whost hostOps1; wreg W2_of_ne; whost hostOps0; rfl
theorem mid1_arg6 : W6 m ρ c (Proc.devRef .tc main_arg6) = (m ((c : Thread nD τ).loc main_arg6)) := by wreg W6_of_ne; whost hostOps2; wreg W4_of_ne; whost hostOps1; wreg W2_of_ne; whost hostOps0; rfl
theorem mid1_arg7 : W6 m ρ c (Proc.devRef .tc main_arg7) = (m ((c : Thread nD τ).loc main_arg7)) := by wreg W6_of_ne; whost hostOps2; wreg W4_of_ne; whost hostOps1; wreg W2_of_ne; whost hostOps0; rfl

/-! ## What the statistics region is given -/

theorem in1_w1 : (fun k j => V5 m ρ c main_v56 (ix2 k j)) = mat3 (m ((c : Thread nD τ).loc main_arg2)) 1 := by
  have e : (V5 m ρ c main_v56 : S128x128.Idx → EReal)
      = shapeCast S128x128 (extractStridedSlice S1x128x128 ![1, 0, 0] (W4 m ρ c (Proc.devRef .tc main_arg2)) slices_S3x128x128_S1x128x128_1_0_0)
          shapeCasts_S1x128x128_S128x128 := by
    dsimp only [V5, W5, hostOps2]; after_results <;> rfl
  funext k j
  rw [e, pre1_arg2]
  exact KRead.mat_read 1 _ _ _ 1 rfl k j

theorem in1_b1 : (fun j => V5 m ρ c main_v59 (ix2 (0 : Fin 1) j)) = row3 (m ((c : Thread nD τ).loc main_arg3)) 1 := by
  have e : (V5 m ρ c main_v59 : S1x128.Idx → EReal)
      = shapeCast S1x128 (shapeCast S128 (extractStridedSlice S1x128 ![1, 0] (W4 m ρ c (Proc.devRef .tc main_arg3)) slices_S3x128_S1x128_1_0)
          shapeCasts_S1x128_S128) shapeCasts_S128_S1x128 := by
    dsimp only [V5, W5, hostOps2]; after_results <;> rfl
  funext j
  rw [e, pre1_arg3]
  exact KRead.row_read 1 _ _ _ _ 1 rfl j

/-! ## What it leaves: the column sums of z and of z² -/

/-- The aggregated rows the layer starts from. -/
abbrev hin1 : FVec Ideal SN .f32 := V5 m ρ c main_v54
/-- The row of column sums, the row of column sums of squares, the mean row and the variance row. -/
abbrev sumRow1 : (⟨2, ![1, 128]⟩ : Shape).Idx → EReal := V6 m ρ c main_v60_0
abbrev sqRow1 : (⟨2, ![1, 128]⟩ : Shape).Idx → EReal := V6 m ρ c main_v60_1
abbrev muRow1 : (⟨2, ![1, 128]⟩ : Shape).Idx → EReal := V7 m ρ c main_v62
abbrev varRow1 : (⟨2, ![1, 128]⟩ : Shape).Idx → EReal := V7 m ρ c main_v66

theorem sum1 (j : Fin 128) : sumRow1 m ρ c (ix2 (0 : Fin 1) j)
    = colSum (lin (hin1 m ρ c) (mat3 (m ((c : Thread nD τ).loc main_arg2)) 1) (row3 (m ((c : Thread nD τ).loc main_arg3)) 1)) j := by
  have e : sumRow1 m ρ c = (dat2 (V5 m ρ) c).arrAt 3 cfg2.N := W6_arr m ρ c 3
  rw [e, StatsValue.stats2_sum (V5 m ρ) c, in1_w1, in1_b1]

theorem sumsq1 (j : Fin 128) : sqRow1 m ρ c (ix2 (0 : Fin 1) j)
    = colSumSq (lin (hin1 m ρ c) (mat3 (m ((c : Thread nD τ).loc main_arg2)) 1) (row3 (m ((c : Thread nD τ).loc main_arg3)) 1)) j := by
  have e : sqRow1 m ρ c = (dat2 (V5 m ρ) c).arrAt 4 cfg2.N := W6_arr m ρ c 4
  rw [e, StatsValue.stats2_sumsq (V5 m ρ) c, in1_w1, in1_b1]

/-! ## The host's mean and variance rows -/

theorem muRow1_eq : muRow1 m ρ c = Host.divf (sumRow1 m ρ c) (broadcastInDim S1x128 ![] bcast_S_S1x128 (constant (F := Ideal) S_ .f32 0x47435000#32)) := by
  dsimp only [muRow1, sumRow1, V7, V6, W7, hostOps3]; after_results <;> rfl

theorem varRow1_eq : varRow1 m ρ c
    = subf (Host.divf (sqRow1 m ρ c) (broadcastInDim S1x128 ![] bcast_S_S1x128 (constant (F := Ideal) S_ .f32 0x47435000#32)))
        (mulf (Host.divf (sumRow1 m ρ c) (broadcastInDim S1x128 ![] bcast_S_S1x128 (constant (F := Ideal) S_ .f32 0x47435000#32))) (Host.divf (sumRow1 m ρ c) (broadcastInDim S1x128 ![] bcast_S_S1x128 (constant (F := Ideal) S_ .f32 0x47435000#32)))) := by
  dsimp only [varRow1, sumRow1, sqRow1, V7, V6, W7, hostOps3]; after_results <;> rfl

theorem mu1 (j : Fin 128) : muRow1 m ρ c (ix2 (0 : Fin 1) j) = Ideal.div (sumRow1 m ρ c (ix2 (0 : Fin 1) j)) nF := by
  rw [muRow1_eq]; rfl

theorem var1 (j : Fin 128) : varRow1 m ρ c (ix2 (0 : Fin 1) j)
    = Ideal.div (sqRow1 m ρ c (ix2 (0 : Fin 1) j)) nF - muRow1 m ρ c (ix2 (0 : Fin 1) j) * muRow1 m ρ c (ix2 (0 : Fin 1) j) := by
  rw [varRow1_eq, muRow1_eq]; rfl

/-! ## What the transform region is given -/

theorem tr1_hin : V7 m ρ c main_v54 = hin1 m ρ c := by
  show W7 m ρ c (Proc.devRef .tc main_v54) = W5 m ρ c (Proc.devRef .tc main_v54)
  whost hostOps3
  exact (W6_arr m ρ c 0).trans (((dat2 (V5 m ρ) c).arrAt_in 0 rfl _).trans (A_eq2 (V5 m ρ) c 0))

theorem tr1_w1 : (fun k j => V7 m ρ c main_v68 (ix2 k j)) = mat3 (m ((c : Thread nD τ).loc main_arg2)) 1 := by
  have e : (V7 m ρ c main_v68 : S128x128.Idx → EReal)
      = shapeCast S128x128 (extractStridedSlice S1x128x128 ![1, 0, 0] (W6 m ρ c (Proc.devRef .tc main_arg2)) slices_S3x128x128_S1x128x128_1_0_0)
          shapeCasts_S1x128x128_S128x128 := by
    dsimp only [V7, W7, hostOps3]; after_results <;> rfl
  funext k j
  rw [e, mid1_arg2]
  exact KRead.mat_read 1 _ _ _ 1 rfl k j

theorem tr1_w2 : (fun k j => V7 m ρ c main_v76 (ix2 k j)) = mat3 (m ((c : Thread nD τ).loc main_arg6)) 1 := by
  have e : (V7 m ρ c main_v76 : S128x128.Idx → EReal)
      = shapeCast S128x128 (extractStridedSlice S1x128x128 ![1, 0, 0] (W6 m ρ c (Proc.devRef .tc main_arg6)) slices_S3x128x128_S1x128x128_1_0_0)
          shapeCasts_S1x128x128_S128x128 := by
    dsimp only [V7, W7, hostOps3]; after_results <;> rfl
  funext k j
  rw [e, mid1_arg6]
  exact KRead.mat_read 1 _ _ _ 1 rfl k j

theorem tr1_b1 : (fun j => V7 m ρ c main_v79 (ix2 (0 : Fin 1) j)) = row3 (m ((c : Thread nD τ).loc main_arg3)) 1 := by
  have e : (V7 m ρ c main_v79 : S1x128.Idx → EReal)
      = shapeCast S1x128 (shapeCast S128 (extractStridedSlice S1x128 ![1, 0] (W6 m ρ c (Proc.devRef .tc main_arg3)) slices_S3x128_S1x128_1_0)
          shapeCasts_S1x128_S128) shapeCasts_S128_S1x128 := by
    dsimp only [V7, W7, hostOps3]; after_results <;> rfl
  funext j
  rw [e, mid1_arg3]
  exact KRead.row_read 1 _ _ _ _ 1 rfl j

theorem tr1_g : (fun j => V7 m ρ c main_v80 (ix2 (0 : Fin 1) j)) = row3 (m ((c : Thread nD τ).loc main_arg4)) 1 := by
  have e : (V7 m ρ c main_v80 : S1x128.Idx → EReal)
      = shapeCast S1x128 (shapeCast S128 (extractStridedSlice S1x128 ![1, 0] (W6 m ρ c (Proc.devRef .tc main_arg4)) slices_S3x128_S1x128_1_0)
          shapeCasts_S1x128_S128) shapeCasts_S128_S1x128 := by
    dsimp only [V7, W7, hostOps3]; after_results <;> rfl
  funext j
  rw [e, mid1_arg4]
  exact KRead.row_read 1 _ _ _ _ 1 rfl j

theorem tr1_be : (fun j => V7 m ρ c main_v81 (ix2 (0 : Fin 1) j)) = row3 (m ((c : Thread nD τ).loc main_arg5)) 1 := by
  have e : (V7 m ρ c main_v81 : S1x128.Idx → EReal)
      = shapeCast S1x128 (shapeCast S128 (extractStridedSlice S1x128 ![1, 0] (W6 m ρ c (Proc.devRef .tc main_arg5)) slices_S3x128_S1x128_1_0)
          shapeCasts_S1x128_S128) shapeCasts_S128_S1x128 := by
    dsimp only [V7, W7, hostOps3]; after_results <;> rfl
  funext j
  rw [e, mid1_arg5]
  exact KRead.row_read 1 _ _ _ _ 1 rfl j

theorem tr1_b2 : (fun j => V7 m ρ c main_v82 (ix2 (0 : Fin 1) j)) = row3 (m ((c : Thread nD τ).loc main_arg7)) 1 := by
  have e : (V7 m ρ c main_v82 : S1x128.Idx → EReal)
      = shapeCast S1x128 (shapeCast S128 (extractStridedSlice S1x128 ![1, 0] (W6 m ρ c (Proc.devRef .tc main_arg7)) slices_S3x128_S1x128_1_0)
          shapeCasts_S1x128_S128) shapeCasts_S128_S1x128 := by
    dsimp only [V7, W7, hostOps3]; after_results <;> rfl
  funext j
  rw [e, mid1_arg7]
  exact KRead.row_read 1 _ _ _ _ 1 rfl j

/-! ## The layer -/

/-- The transform region's output is the layer of the aggregated rows. -/
theorem layer1 : W8 m ρ c (Proc.devRef .tc main_v83)
    = layer varK (hin1 m ρ c) (mat3 (m ((c : Thread nD τ).loc main_arg2)) 1) (row3 (m ((c : Thread nD τ).loc main_arg3)) 1) (row3 (m ((c : Thread nD τ).loc main_arg4)) 1) (row3 (m ((c : Thread nD τ).loc main_arg5)) 1)
        (mat3 (m ((c : Thread nD τ).loc main_arg6)) 1) (row3 (m ((c : Thread nD τ).loc main_arg7)) 1) := by
  refine layer_of_reads (hin1 m ρ c) _ (sumRow1 m ρ c) (sqRow1 m ρ c) (muRow1 m ρ c) (varRow1 m ρ c)
    _ _ _ _ _ _ (sum1 m ρ c) (sumsq1 m ρ c) (mu1 m ρ c) (var1 m ρ c) ?_
  have e : W8 m ρ c (Proc.devRef .tc main_v83) = (dat3 (V7 m ρ) c).arrAt 9 cfg3.N := W8_arr m ρ c 9
  rw [e, TileValue.transform3 (V7 m ρ) c, tr1_hin, tr1_w1, tr1_b1, tr1_g, tr1_be, tr1_w2, tr1_b2]

end Cert.KernelIdeal.KValue

end
-- ==== Proof.Stats4.lean ====
/-
  What the two running rows of the column-statistics region 4 hold when the region ends.

  The region visits 25 points; point t sees rows 2000·t … 2000·t + 1999 of the node array, the whole weight matrix and
  the whole bias row. The first point stores zero rows and then adds its block's column sums of z = x · W + b and of
  z · z; every later point adds its block's sums to what the point before left (the rows' block never moves, so nothing
  is written back in between). Hence after point n the rows hold the sums over the rows of blocks 0 … n, and after the
  last point — the only one that writes the rows back — the sums over all 50000 rows.
-/
import proofs.«149897_j14525579395559_1_alg».proof.Proof.Gen.KernelIdeal.Frame
import proofs.«149897_j14525579395559_1_alg».proof.Proof.StatsBody
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.StatsValue

open Cert.KernelIdeal Cert.KernelIdeal.Gen

/-! ## What a point leaves in the two rows, at any float values -/

section Pieces

variable {F : FTy → Type} [FloatOps F]
variable (V : (c : Dev nD) → (b : Ref sig .tc) → Buf (Elt F) ((c : Thread nD τ).loc b))

/-- A later point leaves in the first row the step applied to what the row held. -/
theorem out4_B_3_eq (c : Dev nD) (i : grid4.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond4_0 i) (x0 : Vec F S2000x128 .f32) (x1 : Vec F S128x128 .f32) (x2 xo3 xo4 : Vec F S1x128 .f32) :
    out4_B_3 c i a1 h1 a2 h2 a3 h3 a4 h4 a5 h5 hc x0 x1 x2 xo3 xo4 = k4_pay4 x0 x1 x2 xo3 := by
  unfold out4_B_3
  rw [View.read_writes_eq_canon _ _ _ (cover4_B_3 c i a1 h1 a2 h2 a3 h3 a4 h4 a5 h5 hc x0 x1 x2 xo3 xo4)]
  unfold kernelRun4_B
  dsimp only
  rw [View.canon_unit_zero hz2]
  simp only [View.readAt_eq_ld, h1.read_unread, h2.read_unread, h3.read_unread, h4.read_unread,
    View.ld_unit_zero (S := S2000x128) hz2, View.ld_unit_zero (S := S128x128) hz2, View.ld_unit_zero (S := S1x128) hz2]

/-- A later point leaves in the second row the step applied to what the row held. -/
theorem out4_B_4_eq (c : Dev nD) (i : grid4.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : ¬cond4_0 i) (x0 : Vec F S2000x128 .f32) (x1 : Vec F S128x128 .f32) (x2 xo3 xo4 : Vec F S1x128 .f32) :
    out4_B_4 c i a1 h1 a2 h2 a3 h3 a4 h4 a5 h5 hc x0 x1 x2 xo3 xo4 = k4_pay5 x0 x1 x2 xo4 := by
  unfold out4_B_4
  rw [View.read_writes_eq_canon _ _ _ (cover4_B_4 c i a1 h1 a2 h2 a3 h3 a4 h4 a5 h5 hc x0 x1 x2 xo3 xo4)]
  unfold kernelRun4_B
  dsimp only
  rw [View.canon_unit_zero hz2]
  simp only [View.readAt_eq_ld, h1.read_unread, h2.read_unread, h3.read_unread, h5.read_unread,
    View.ld_unit_zero (S := S2000x128) hz2, View.ld_unit_zero (S := S128x128) hz2, View.ld_unit_zero (S := S1x128) hz2]

/-- The first point leaves in the first row the step applied to the zero row it has just stored. -/
theorem out4_A_3_eq (c : Dev nD) (i : grid4.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond4_0 i) (x0 : Vec F S2000x128 .f32) (x1 : Vec F S128x128 .f32) (x2 : Vec F S1x128 .f32) :
    out4_A_3 c i a1 h1 a2 h2 a3 h3 a4 h4 a5 h5 hc x0 x1 x2 = k4_pay4 x0 x1 x2 k4_pay1 := by
  unfold out4_A_3
  rw [View.read_writes_eq_canon _ _ _ (cover4_A_3 c i a1 h1 a2 h2 a3 h3 a4 h4 a5 h5 hc x0 x1 x2)]
  unfold kernelRun4_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S2000x128) hz2, View.ld_unit_zero (S := S128x128) hz2, View.ld_unit_zero (S := S1x128) hz2]

/-- The first point leaves in the second row the step applied to the zero row it has just stored. -/
theorem out4_A_4_eq (c : Dev nD) (i : grid4.Coords) (a1 : Memref sig .tc .vmem S2000x128 .f32) (h1 : a1.IsWhole)
    (a2 : Memref sig .tc .vmem S128x128 .f32) (h2 : a2.IsWhole) (a3 : Memref sig .tc .vmem S1x128 .f32) (h3 : a3.IsWhole)
    (a4 : Memref sig .tc .vmem S1x128 .f32) (h4 : a4.IsWhole) (a5 : Memref sig .tc .vmem S1x128 .f32) (h5 : a5.IsWhole)
    (hc : cond4_0 i) (x0 : Vec F S2000x128 .f32) (x1 : Vec F S128x128 .f32) (x2 : Vec F S1x128 .f32) :
    out4_A_4 c i a1 h1 a2 h2 a3 h3 a4 h4 a5 h5 hc x0 x1 x2 = k4_pay5 x0 x1 x2 k4_pay2 := by
  unfold out4_A_4
  rw [View.read_writes_eq_canon _ _ _ (cover4_A_4 c i a1 h1 a2 h2 a3 h3 a4 h4 a5 h5 hc x0 x1 x2)]
  unfold kernelRun4_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S2000x128) hz2, View.ld_unit_zero (S := S128x128) hz2, View.ld_unit_zero (S := S1x128) hz2]

/-- The rows after the first point. -/
theorem fst4_A (c : Dev nD) (t : Fin cfg4.N) (h0 : t.val % 25 = 0) :
    (outsAt4 V c t.val t.isLt).1 = k4_pay4 (iblk4 V c 0 t) (iblk4 V c 1 t) (iblk4 V c 2 t) k4_pay1 := by
  rw [outsAt4_A V c t h0]
  exact out4_A_3_eq c (grid4.coords t) (ms4_0 t) (hs4_0 t) (ms4_1 t) (hs4_1 t) (ms4_2 t) (hs4_2 t) (ms4_3 t) (hs4_3 t) (ms4_4 t) (hs4_4 t)
    ((hcond4_0 t).mpr h0) (iblk4 V c 0 t) (iblk4 V c 1 t) (iblk4 V c 2 t)

theorem snd4_A (c : Dev nD) (t : Fin cfg4.N) (h0 : t.val % 25 = 0) :
    (outsAt4 V c t.val t.isLt).2 = k4_pay5 (iblk4 V c 0 t) (iblk4 V c 1 t) (iblk4 V c 2 t) k4_pay2 := by
  rw [outsAt4_A V c t h0]
  exact out4_A_4_eq c (grid4.coords t) (ms4_0 t) (hs4_0 t) (ms4_1 t) (hs4_1 t) (ms4_2 t) (hs4_2 t) (ms4_3 t) (hs4_3 t) (ms4_4 t) (hs4_4 t)
    ((hcond4_0 t).mpr h0) (iblk4 V c 0 t) (iblk4 V c 1 t) (iblk4 V c 2 t)

/-- The rows after a later point, from the rows after the point before. -/
theorem fst4_B (c : Dev nD) (t : Fin cfg4.N) (h0 : ¬t.val % 25 = 0) :
    (outsAt4 V c t.val t.isLt).1 = k4_pay4 (iblk4 V c 0 t) (iblk4 V c 1 t) (iblk4 V c 2 t)
      (outsAt4 V c (t.val - 1) (Nat.lt_of_le_of_lt (Nat.sub_le _ _) t.isLt)).1 := by
  rw [outsAt4_B V c t h0]
  exact out4_B_3_eq c (grid4.coords t) (ms4_0 t) (hs4_0 t) (ms4_1 t) (hs4_1 t) (ms4_2 t) (hs4_2 t) (ms4_3 t) (hs4_3 t) (ms4_4 t) (hs4_4 t)
    (fun h => h0 ((hcond4_0 t).mp h)) (iblk4 V c 0 t) (iblk4 V c 1 t) (iblk4 V c 2 t)
    (outsAt4 V c (t.val - 1) (Nat.lt_of_le_of_lt (Nat.sub_le _ _) t.isLt)).1 (outsAt4 V c (t.val - 1) (Nat.lt_of_le_of_lt (Nat.sub_le _ _) t.isLt)).2

theorem snd4_B (c : Dev nD) (t : Fin cfg4.N) (h0 : ¬t.val % 25 = 0) :
    (outsAt4 V c t.val t.isLt).2 = k4_pay5 (iblk4 V c 0 t) (iblk4 V c 1 t) (iblk4 V c 2 t)
      (outsAt4 V c (t.val - 1) (Nat.lt_of_le_of_lt (Nat.sub_le _ _) t.isLt)).2 := by
  rw [outsAt4_B V c t h0]
  exact out4_B_4_eq c (grid4.coords t) (ms4_0 t) (hs4_0 t) (ms4_1 t) (hs4_1 t) (ms4_2 t) (hs4_2 t) (ms4_3 t) (hs4_3 t) (ms4_4 t) (hs4_4 t)
    (fun h => h0 ((hcond4_0 t).mp h)) (iblk4 V c 0 t) (iblk4 V c 1 t) (iblk4 V c 2 t)
    (outsAt4 V c (t.val - 1) (Nat.lt_of_le_of_lt (Nat.sub_le _ _) t.isLt)).1 (outsAt4 V c (t.val - 1) (Nat.lt_of_le_of_lt (Nat.sub_le _ _) t.isLt)).2

/-! ## The blocks the windows read -/

/-- Where the three input windows sit at point t: the node rows' block is block t, the matrix and the bias row are whole. -/
theorem idx4_in : ∀ t : Fin cfg4.N, (win4_0.index t (0 : Fin 2) = t.val ∧ win4_0.index t (1 : Fin 2) = 0)
      ∧ (win4_1.index t (0 : Fin 2) = 0 ∧ win4_1.index t (1 : Fin 2) = 0) ∧ (win4_2.index t (0 : Fin 2) = 0 ∧ win4_2.index t (1 : Fin 2) = 0) :=
  (by decide +kernel : ∀ t : Fin grid4.N, (win4_0.index t (0 : Fin 2) = t.val ∧ win4_0.index t (1 : Fin 2) = 0)
      ∧ (win4_1.index t (0 : Fin 2) = 0 ∧ win4_1.index t (1 : Fin 2) = 0) ∧ (win4_2.index t (0 : Fin 2) = 0 ∧ win4_2.index t (1 : Fin 2) = 0))

/-- Entry (r, k) of the node rows' block at point t is entry (2000·t + r, k) of the node array. -/
theorem blk4_0_apply (c : Dev nD) (t : Fin cfg4.N) (r : Fin 2000) (k : Fin 128) (hr : 2000 * t.val + r.val < 50000) :
    (iblk4 V c 0 t : Vec F S2000x128 .f32) (ix2 r k) = (V c main_v94 : Vec F S50000x128 .f32) (ix2 (⟨2000 * t.val + r.val, hr⟩ : Fin 50000) k) := by
  unfold iblk4
  rw [View.read_apply]
  show V c main_v94 _ = V c main_v94 _
  refine congrArg (V c main_v94) (funext fun a => Fin.ext ?_)
  match a with
  | ⟨0, _⟩ => show win4_0.index t 0 * 2000 + 1 * r.val = 2000 * t.val + r.val; rw [(idx4_in t).1.1]; omega
  | ⟨1, _⟩ => show win4_0.index t 1 * 128 + 1 * k.val = k.val; rw [(idx4_in t).1.2]; omega

/-- The weight matrix's block is the matrix. -/
theorem blk4_1_apply (c : Dev nD) (t : Fin cfg4.N) (k j : Fin 128) :
    (iblk4 V c 1 t : Vec F S128x128 .f32) (ix2 k j) = (V c main_v96 : Vec F S128x128 .f32) (ix2 k j) := by
  unfold iblk4
  rw [View.read_apply]
  show V c main_v96 _ = V c main_v96 _
  refine congrArg (V c main_v96) (funext fun a => Fin.ext ?_)
  match a with
  | ⟨0, _⟩ => show win4_1.index t 0 * 128 + 1 * k.val = k.val; rw [(idx4_in t).2.1.1]; omega
  | ⟨1, _⟩ => show win4_1.index t 1 * 128 + 1 * j.val = j.val; rw [(idx4_in t).2.1.2]; omega

/-- The bias row's block is the row. -/
theorem blk4_2_apply (c : Dev nD) (t : Fin cfg4.N) (u : Fin 1) (j : Fin 128) :
    (iblk4 V c 2 t : Vec F S1x128 .f32) (ix2 u j) = (V c main_v99 : Vec F S1x128 .f32) (ix2 u j) := by
  unfold iblk4
  rw [View.read_apply]
  show V c main_v99 _ = V c main_v99 _
  refine congrArg (V c main_v99) (funext fun a => Fin.ext ?_)
  match a with
  | ⟨0, _⟩ => show win4_2.index t 0 * 1 + 1 * u.val = u.val; rw [(idx4_in t).2.2.1]; omega
  | ⟨1, _⟩ => show win4_2.index t 1 * 128 + 1 * j.val = j.val; rw [(idx4_in t).2.2.2]; omega

end Pieces

/-! ## The totals, over the extended reals -/

section Totals

variable (V : (c : Dev nD) → (b : Ref sig .tc) → Buf (Elt Ideal) ((c : Thread nD τ).loc b))

/-- The node rows, the weight matrix and the bias row as the region finds them. -/
abbrev hArr4 (c : Dev nD) : FVec Ideal Cert.Net.SN .f32 := V c main_v94
abbrev wMat4 (c : Dev nD) : Fin 128 → Fin 128 → EReal := fun k j => V c main_v96 (ix2 k j)
abbrev bRow4 (c : Dev nD) : Fin 128 → EReal := fun j => V c main_v99 (ix2 (0 : Fin 1) j)

/-- z = h · W + b over all the node rows. -/
abbrev zAll4 (c : Dev nD) : FVec Ideal Cert.Net.SN .f32 := Cert.Net.lin (hArr4 V c) (wMat4 V c) (bRow4 V c)

/-- Point s's addend to the first row: its block's column sums of z (zero past the grid). -/
def add4_3 (c : Dev nD) (s : ℕ) (j : Fin 128) : EReal :=
  if h : s < cfg4.N then ∑ r : Fin 2000, zBlk (iblk4 V c 0 ⟨s, h⟩) (iblk4 V c 1 ⟨s, h⟩) (iblk4 V c 2 ⟨s, h⟩) r j else 0

/-- Point s's addend to the second row: its block's column sums of z · z. -/
def add4_4 (c : Dev nD) (s : ℕ) (j : Fin 128) : EReal :=
  if h : s < cfg4.N then ∑ r : Fin 2000, zBlk (iblk4 V c 0 ⟨s, h⟩) (iblk4 V c 1 ⟨s, h⟩) (iblk4 V c 2 ⟨s, h⟩) r j
      * zBlk (iblk4 V c 0 ⟨s, h⟩) (iblk4 V c 1 ⟨s, h⟩) (iblk4 V c 2 ⟨s, h⟩) r j else 0

/-- Row r of block s of z is row 2000·s + r of z over all the rows. -/
theorem zBlk4_eq (c : Dev nD) (s : Fin 25) (h : s.val < cfg4.N) (r : Fin 2000) (j : Fin 128) :
    zBlk (iblk4 V c 0 ⟨s.val, h⟩) (iblk4 V c 1 ⟨s.val, h⟩) (iblk4 V c 2 ⟨s.val, h⟩) r j = zAll4 V c (ix2 (blkRow s r) j) := by
  unfold zBlk
  show _ = (∑ k : Fin 128, hArr4 V c (ix2 (blkRow s r) k) * wMat4 V c k j) + bRow4 V c j
  refine congrArg₂ (· + ·) (Finset.sum_congr rfl fun k _ => congrArg₂ (· * ·) ?_ ?_) ?_
  · exact blk4_0_apply V c ⟨s.val, h⟩ r k (blkRow s r).isLt
  · exact blk4_1_apply V c ⟨s.val, h⟩ k j
  · exact blk4_2_apply V c ⟨s.val, h⟩ 0 j

theorem add4_3_eq (c : Dev nD) (s : Fin 25) (j : Fin 128) :
    add4_3 V c s.val j = ∑ r : Fin 2000, zAll4 V c (ix2 (blkRow s r) j) := by
  have h : s.val < cfg4.N := lt_of_lt_of_eq s.isLt (show cfg4.N = 25 from N_4).symm
  unfold add4_3
  rw [dif_pos h]
  exact Finset.sum_congr rfl fun r _ => zBlk4_eq V c s h r j

theorem add4_4_eq (c : Dev nD) (s : Fin 25) (j : Fin 128) :
    add4_4 V c s.val j = ∑ r : Fin 2000, zAll4 V c (ix2 (blkRow s r) j) * zAll4 V c (ix2 (blkRow s r) j) := by
  have h : s.val < cfg4.N := lt_of_lt_of_eq s.isLt (show cfg4.N = 25 from N_4).symm
  unfold add4_4
  rw [dif_pos h]
  exact Finset.sum_congr rfl fun r _ => congrArg₂ (· * ·) (zBlk4_eq V c s h r j) (zBlk4_eq V c s h r j)

/-- After point n the first row holds the addends of points 0 … n. -/
theorem run4_3 (c : Dev nD) : ∀ (n : ℕ) (h : n < cfg4.N) (u : Fin 1) (j : Fin 128),
    (outsAt4 V c n h).1 (ix2 u j) = ∑ s ∈ Finset.range (n + 1), add4_3 V c s j :=
  running_total (fun n h u j => (outsAt4 V c n h).1 (ix2 u j)) (add4_3 V c)
    (fun h u j => by
      refine (congrFun (fst4_A V c ⟨0, h⟩ rfl) (ix2 u j)).trans ?_
      refine (pay4_apply_4 (iblk4 V c 0 ⟨0, h⟩) (iblk4 V c 1 ⟨0, h⟩) (iblk4 V c 2 ⟨0, h⟩) (k4_pay1 (F := Ideal)) u j).trans ?_
      rw [pay1_apply_4, zero_add]
      unfold add4_3; rw [dif_pos h])
    (fun n h u j => by
      have hN : cfg4.N = 25 := N_4
      have hB : ¬(⟨n + 1, h⟩ : Fin cfg4.N).val % 25 = 0 := by dsimp only; omega
      refine (congrFun (fst4_B V c ⟨n + 1, h⟩ hB) (ix2 u j)).trans ?_
      refine (pay4_apply_4 (iblk4 V c 0 ⟨n + 1, h⟩) (iblk4 V c 1 ⟨n + 1, h⟩) (iblk4 V c 2 ⟨n + 1, h⟩) _ u j).trans ?_
      refine congrArg₂ (· + ·) rfl ?_
      unfold add4_3; rw [dif_pos h])

/-- After point n the second row holds the addends of points 0 … n. -/
theorem run4_4 (c : Dev nD) : ∀ (n : ℕ) (h : n < cfg4.N) (u : Fin 1) (j : Fin 128),
    (outsAt4 V c n h).2 (ix2 u j) = ∑ s ∈ Finset.range (n + 1), add4_4 V c s j :=
  running_total (fun n h u j => (outsAt4 V c n h).2 (ix2 u j)) (add4_4 V c)
    (fun h u j => by
      refine (congrFun (snd4_A V c ⟨0, h⟩ rfl) (ix2 u j)).trans ?_
      refine (pay5_apply_4 (iblk4 V c 0 ⟨0, h⟩) (iblk4 V c 1 ⟨0, h⟩) (iblk4 V c 2 ⟨0, h⟩) (k4_pay2 (F := Ideal)) u j).trans ?_
      rw [pay2_apply_4, zero_add]
      unfold add4_4; rw [dif_pos h])
    (fun n h u j => by
      have hN : cfg4.N = 25 := N_4
      have hB : ¬(⟨n + 1, h⟩ : Fin cfg4.N).val % 25 = 0 := by dsimp only; omega
      refine (congrFun (snd4_B V c ⟨n + 1, h⟩ hB) (ix2 u j)).trans ?_
      refine (pay5_apply_4 (iblk4 V c 0 ⟨n + 1, h⟩) (iblk4 V c 1 ⟨n + 1, h⟩) (iblk4 V c 2 ⟨n + 1, h⟩) _ u j).trans ?_
      refine congrArg₂ (· + ·) rfl ?_
      unfold add4_4; rw [dif_pos h])

/-- The column sums of z over all the rows, as contents of the first result row; -/
def sum4 (c : Dev nD) : Buf (Elt Ideal) ((c : Thread nD τ).loc main_v100_0) :=
  fun (i : S1x128.Idx) => Cert.Net.colSum (zAll4 V c) (Cert.Spec.col i)
/-- and of z · z, as contents of the second. -/
def sumsq4 (c : Dev nD) : Buf (Elt Ideal) ((c : Thread nD τ).loc main_v100_1) :=
  fun (i : S1x128.Idx) => Cert.Net.colSumSq (zAll4 V c) (Cert.Spec.col i)

/-- The last point. -/
theorem last4 : (24 : ℕ) < cfg4.N := by rw [show cfg4.N = 25 from N_4]; decide
abbrev tLast4 : Fin cfg4.N := ⟨24, last4⟩

/-- After the last point the first row holds the column sums over all the rows. -/
theorem row4_3_last (c : Dev nD) : (outsAt4 V c 24 last4).1 = sum4 V c := by
  funext i
  obtain ⟨u, j, rfl⟩ : ∃ (u : Fin 1) (j : Fin 128), i = ix2 u j := ⟨i 0, i 1, eq_ix2 i⟩
  refine (run4_3 V c 24 last4 u j).trans ?_
  show _ = Cert.Net.colSum (zAll4 V c) j
  unfold Cert.Net.colSum
  exact total_of_blocks (fun n => zAll4 V c (ix2 n j)) (fun s => add4_3 V c s j) (fun s => add4_3_eq V c s j)

theorem row4_4_last (c : Dev nD) : (outsAt4 V c 24 last4).2 = sumsq4 V c := by
  funext i
  obtain ⟨u, j, rfl⟩ : ∃ (u : Fin 1) (j : Fin 128), i = ix2 u j := ⟨i 0, i 1, eq_ix2 i⟩
  refine (run4_4 V c 24 last4 u j).trans ?_
  show _ = Cert.Net.colSumSq (zAll4 V c) j
  unfold Cert.Net.colSumSq
  exact total_of_blocks (fun n => zAll4 V c (ix2 n j) * zAll4 V c (ix2 n j)) (fun s => add4_4 V c s j) (fun s => add4_4_eq V c s j)

/-- The two result rows' block never moves: it is block (0, 0), the whole row. -/
theorem idx4_out : ∀ t : Fin cfg4.N, (win4_3.index t (0 : Fin 2) = 0 ∧ win4_3.index t (1 : Fin 2) = 0)
      ∧ (win4_4.index t (0 : Fin 2) = 0 ∧ win4_4.index t (1 : Fin 2) = 0) :=
  (by decide +kernel : ∀ t : Fin grid4.N, (win4_3.index t (0 : Fin 2) = 0 ∧ win4_3.index t (1 : Fin 2) = 0)
      ∧ (win4_4.index t (0 : Fin 2) = 0 ∧ win4_4.index t (1 : Fin 2) = 0))

/-- The one write-back of the first row, at the last point, writes the column sums. -/
theorem flushed4_3_eq (c : Dev nD) (t : Fin cfg4.N) (hf : (cfg4.win 3).flush t = true) :
    (dat4 V c).flushed 3 t = ((cfg4.win 3).blk t).view.read (Elt Ideal) (sum4 V c) := by
  have hN : cfg4.N = 25 := N_4
  have h24 : t.val = 24 := by have := (flush4_3 t).mp hf; have := t.isLt; omega
  obtain rfl : t = tLast4 := Fin.ext h24
  show (cfg4.win 3).cut (grid4.coords tLast4) ((dat4 V c).after 3 tLast4) = _
  rw [after4_3]
  show (cfg4.win 3).cut (grid4.coords tLast4) (outsAt4 V c 24 last4).1 = _
  rw [row4_3_last]
  have hz' : (fun a => win4_3.index tLast4 a * main_v100_0.ty.shape.size a) = fun _ => 0 := funext fun a => by
    match a with
    | ⟨0, _⟩ => show win4_3.index tLast4 0 * 1 = 0; rw [(idx4_out tLast4).1.1]
    | ⟨1, _⟩ => show win4_3.index tLast4 1 * 128 = 0; rw [(idx4_out tLast4).1.2]
  exact (Memref.read_access_unit_zero (Elt Ideal) main_v100_0 hz' (fun a => by rw [congrFun hz' a]; simp) (sum4 V c)).symm

theorem flushed4_4_eq (c : Dev nD) (t : Fin cfg4.N) (hf : (cfg4.win 4).flush t = true) :
    (dat4 V c).flushed 4 t = ((cfg4.win 4).blk t).view.read (Elt Ideal) (sumsq4 V c) := by
  have hN : cfg4.N = 25 := N_4
  have h24 : t.val = 24 := by have := (flush4_4 t).mp hf; have := t.isLt; omega
  obtain rfl : t = tLast4 := Fin.ext h24
  show (cfg4.win 4).cut (grid4.coords tLast4) ((dat4 V c).after 4 tLast4) = _
  rw [after4_4]
  show (cfg4.win 4).cut (grid4.coords tLast4) (outsAt4 V c 24 last4).2 = _
  rw [row4_4_last]
  have hz' : (fun a => win4_4.index tLast4 a * main_v100_1.ty.shape.size a) = fun _ => 0 := funext fun a => by
    match a with
    | ⟨0, _⟩ => show win4_4.index tLast4 0 * 1 = 0; rw [(idx4_out tLast4).2.1]
    | ⟨1, _⟩ => show win4_4.index tLast4 1 * 128 = 0; rw [(idx4_out tLast4).2.2]
  exact (Memref.read_access_unit_zero (Elt Ideal) main_v100_1 hz' (fun a => by rw [congrFun hz' a]; simp) (sumsq4 V c)).symm

/-- The first result row when the region ends: at column j the sum over all 50000 rows of z (·, j). -/
theorem arr4_3_eq (c : Dev nD) : (dat4 V c).arrAt 3 cfg4.N = sum4 V c :=
  (dat4 V c).arrAt_eq_of_cover 3 (sum4 V c) (flushed4_3_eq V c) fun i =>
    ⟨tLast4, (flush4_3 tLast4).mpr rfl, by
      show i ∈ ((View.whole main_v100_0).slice (win4_3.rect tLast4)).set
      rw [View.set_slice_whole, Rect.mem_set_unit]
      intro a
      have h0 : (i 0 : Nat) < 1 := (i 0).isLt
      have h1 : (i 1 : Nat) < 128 := (i 1).isLt
      match a with
      | ⟨0, _⟩ => show win4_3.index tLast4 0 * 1 ≤ (i 0 : Nat) ∧ (i 0 : Nat) < win4_3.index tLast4 0 * 1 + 1
                  rw [(idx4_out tLast4).1.1]; omega
      | ⟨1, _⟩ => show win4_3.index tLast4 1 * 128 ≤ (i 1 : Nat) ∧ (i 1 : Nat) < win4_3.index tLast4 1 * 128 + 128
                  rw [(idx4_out tLast4).1.2]; omega⟩

/-- The second result row when the region ends: at column j the sum over all 50000 rows of z (·, j)². -/
theorem arr4_4_eq (c : Dev nD) : (dat4 V c).arrAt 4 cfg4.N = sumsq4 V c :=
  (dat4 V c).arrAt_eq_of_cover 4 (sumsq4 V c) (flushed4_4_eq V c) fun i =>
    ⟨tLast4, (flush4_4 tLast4).mpr rfl, by
      show i ∈ ((View.whole main_v100_1).slice (win4_4.rect tLast4)).set
      rw [View.set_slice_whole, Rect.mem_set_unit]
      intro a
      have h0 : (i 0 : Nat) < 1 := (i 0).isLt
      have h1 : (i 1 : Nat) < 128 := (i 1).isLt
      match a with
      | ⟨0, _⟩ => show win4_4.index tLast4 0 * 1 ≤ (i 0 : Nat) ∧ (i 0 : Nat) < win4_4.index tLast4 0 * 1 + 1
                  rw [(idx4_out tLast4).2.1]; omega
      | ⟨1, _⟩ => show win4_4.index tLast4 1 * 128 ≤ (i 1 : Nat) ∧ (i 1 : Nat) < win4_4.index tLast4 1 * 128 + 128
                  rw [(idx4_out tLast4).2.2]; omega⟩

/-- The same, with the column sums written out. -/
theorem stats4_sum (c : Dev nD) : (dat4 V c).arrAt 3 cfg4.N = fun (i : S1x128.Idx) =>
    Cert.Net.colSum (Cert.Net.lin (V c main_v94) (fun k j => V c main_v96 (ix2 k j)) (fun j => V c main_v99 (ix2 (0 : Fin 1) j))) (Cert.Spec.col i) :=
  arr4_3_eq V c

theorem stats4_sumsq (c : Dev nD) : (dat4 V c).arrAt 4 cfg4.N = fun (i : S1x128.Idx) =>
    Cert.Net.colSumSq (Cert.Net.lin (V c main_v94) (fun k j => V c main_v96 (ix2 k j)) (fun j => V c main_v99 (ix2 (0 : Fin 1) j))) (Cert.Spec.col i) :=
  arr4_4_eq V c

end Totals

end Cert.KernelIdeal.StatsValue

end
-- ==== Proof.Transform5.lean ====
/-
  The third transform region's output array: one graph layer after the aggregation, with the normalisation's two
  per-column numbers taken from the rows the region is given.

  The region's grid has 25 points; point t works on rows 2000 t … 2000 t + 1999 of the input and of the output, and sees
  the two weight matrices and the six rows (bias, gain, offset, mean, variance, second bias) whole. A row of the result
  depends on that row of the input only, so what point t writes back is block t of ONE whole-array function of the arrays
  as the region finds them, and the 25 blocks tile the output.
-/
import proofs.«149897_j14525579395559_1_alg».proof.Proof.Gen.KernelIdeal.Frame
import proofs.«149897_j14525579395559_1_alg».proof.Proof.TileBody
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.TileValue

open Cert.KernelIdeal Cert.KernelIdeal.Gen Cert.Spec Cert.Net

theorem hz5 : (![0, 0] : Fin 2 → Nat) = fun _ => 0 := funext fun a => by fin_cases a <;> rfl

/-- The body's stored value is the layer applied to its input tile, the weights and rows read off their blocks. -/
theorem pay5_eq (x0 : Vec Ideal S2000x128 .f32) (x1 : Vec Ideal S128x128 .f32) (x2 x3 x4 x5 x6 : Vec Ideal S1x128 .f32)
    (x7 : Vec Ideal S128x128 .f32) (x8 : Vec Ideal S1x128 .f32) :
    k5_pay1 (k5_pay2 x0 x1 x2 x6 x5 x3 x4 x7) x8
      = Net.linRelu (bnReluT (Net.lin x0 (fun k j => x1 (ix2 k j)) (fun j => x2 (ix2 (0 : Fin 1) j)))
          (fun j => x5 (ix2 (0 : Fin 1) j)) (fun j => x6 (ix2 (0 : Fin 1) j)) (fun j => x3 (ix2 (0 : Fin 1) j))
          (fun j => x4 (ix2 (0 : Fin 1) j))) (fun k j => x7 (ix2 k j)) (fun j => x8 (ix2 (0 : Fin 1) j)) := by
  unfold k5_pay1 k5_pay2
  dsimp only
  exact transformTile dot_S2000x128_S128x128_S2000x128_1_0_0_1_n_n rfl x0 x1 x2 x6 x5 x3 x4 x7 x8 _ _ _ _ _

/-- The stored value at row p of the tile is the layer's value at row n of a whole array that holds the tile's row p as
    its row n, the weights and rows being the blocks' contents. -/
theorem pay5_at (x0 : Vec Ideal S2000x128 .f32) (x1 : Vec Ideal S128x128 .f32) (x2 x3 x4 x5 x6 : Vec Ideal S1x128 .f32)
    (x7 : Vec Ideal S128x128 .f32) (x8 : Vec Ideal S1x128 .f32) (H : FVec Ideal SN .f32)
    (W1 : Fin 128 → Fin 128 → EReal) (b1 mu var g be : Fin 128 → EReal) (W2 : Fin 128 → Fin 128 → EReal) (b2 : Fin 128 → EReal)
    (p : Fin 2000) (n : Fin 50000) (q : Fin 128)
    (h0 : ∀ k : Fin 128, x0 (ix2 p k) = H (ix2 n k)) (h1 : ∀ (k : Fin 128) (j : Fin 128), x1 (ix2 k j) = W1 k j)
    (h2 : ∀ j : Fin 128, x2 (ix2 (0 : Fin 1) j) = b1 j) (h3 : ∀ j : Fin 128, x3 (ix2 (0 : Fin 1) j) = g j)
    (h4 : ∀ j : Fin 128, x4 (ix2 (0 : Fin 1) j) = be j) (h5 : ∀ j : Fin 128, x5 (ix2 (0 : Fin 1) j) = mu j)
    (h6 : ∀ j : Fin 128, x6 (ix2 (0 : Fin 1) j) = var j) (h7 : ∀ (k : Fin 128) (j : Fin 128), x7 (ix2 k j) = W2 k j)
    (h8 : ∀ j : Fin 128, x8 (ix2 (0 : Fin 1) j) = b2 j) :
    k5_pay1 (k5_pay2 x0 x1 x2 x6 x5 x3 x4 x7) x8 (ix2 p q)
      = Net.linRelu (Net.bnRelu (Net.lin H W1 b1) mu var g be) W2 b2 (ix2 n q) :=
  (congrFun (pay5_eq x0 x1 x2 x3 x4 x5 x6 x7 x8) (ix2 p q)).trans
    (layer_rows x0 H _ W1 _ b1 _ mu _ var _ g _ be _ W2 _ b2 p n q h0 (funext fun k => funext fun j => h1 k j) (funext h2)
      (funext h5) (funext h6) (funext h3) (funext h4) (funext fun k => funext fun j => h7 k j) (funext h8))

section
variable (V : (c : Dev nD) → (b : Ref sig .tc) → Buf (Elt Ideal) ((c : Thread nD τ).loc b))

/-- The block indices over the grid: the row-tiled windows are at block (t, 0), the others at block (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = t.val ∧ win5_9.index t (1 : Fin 2) = 0 :=
  (by decide +kernel : ∀ t : Fin grid5.N, _)

/-- What the output array ends holding. -/
abbrev G5 (c : Dev nD) : FVec Ideal SN .f32 :=
  Net.linRelu (Net.bnRelu (Net.lin (V c main_v94) (fun k j => V c main_v108 (ix2 k j)) (fun j => V c main_v119 (ix2 (0 : Fin 1) j)))
      (fun j => V c main_v102 (ix2 (0 : Fin 1) j)) (fun j => V c main_v106 (ix2 (0 : Fin 1) j))
      (fun j => V c main_v120 (ix2 (0 : Fin 1) j)) (fun j => V c main_v121 (ix2 (0 : Fin 1) j)))
    (fun k j => V c main_v116 (ix2 k j)) (fun j => V c main_v122 (ix2 (0 : Fin 1) j))

/-- The input tile at point t is rows 2000 t … of the input array. -/
theorem iblk5_0_apply (c : Dev nD) (t : Fin cfg5.N) (p : Fin 2000) (k : Fin 128) (n : Fin 50000) (hn : n.val = 2000 * t.val + p.val) :
    (iblk5 V c 0 t : Vec Ideal S2000x128 .f32) (ix2 p k) = (V c main_v94 : S50000x128.Idx → EReal) (ix2 n k) := by
  obtain ⟨e0, e1, -⟩ := idx5 t
  unfold iblk5
  rw [View.read_apply]
  show (V c main_v94 : S50000x128.Idx → EReal) _ = _
  refine congrArg (V c main_v94 : S50000x128.Idx → EReal) (funext fun a => Fin.ext ?_)
  match a with
  | ⟨0, _⟩ => show win5_0.index t (0 : Fin 2) * 2000 + 1 * p.val = n.val; rw [e0, hn]; omega
  | ⟨1, _⟩ => show win5_0.index t (1 : Fin 2) * 128 + 1 * k.val = k.val; rw [e1]; omega

/-- The windows that are not tiled hold their whole arrays at every point. -/
theorem iblk5_1_apply (c : Dev nD) (t : Fin cfg5.N) (k : Fin 128) (j : Fin 128) :
    (iblk5 V c 1 t : Vec Ideal S128x128 .f32) (ix2 k j) = (V c main_v108 : S128x128.Idx → EReal) (ix2 k j) := by
  obtain ⟨-, -, e0, e1, -⟩ := idx5 t
  unfold iblk5
  rw [View.read_apply]
  show (V c main_v108 : S128x128.Idx → EReal) _ = _
  refine congrArg (V c main_v108 : S128x128.Idx → EReal) (funext fun a => Fin.ext ?_)
  match a with
  | ⟨0, _⟩ => show win5_1.index t (0 : Fin 2) * 128 + 1 * k.val = k.val; rw [e0]; omega
  | ⟨1, _⟩ => show win5_1.index t (1 : Fin 2) * 128 + 1 * j.val = j.val; rw [e1]; omega

theorem iblk5_7_apply (c : Dev nD) (t : Fin cfg5.N) (k : Fin 128) (j : Fin 128) :
    (iblk5 V c 7 t : Vec Ideal S128x128 .f32) (ix2 k j) = (V c main_v116 : S128x128.Idx → EReal) (ix2 k j) := by
  obtain ⟨-, -, -, -, -, -, -, -, -, -, -, -, -, -, e0, e1, -⟩ := idx5 t
  unfold iblk5
  rw [View.read_apply]
  show (V c main_v116 : S128x128.Idx → EReal) _ = _
  refine congrArg (V c main_v116 : S128x128.Idx → EReal) (funext fun a => Fin.ext ?_)
  match a with
  | ⟨0, _⟩ => show win5_7.index t (0 : Fin 2) * 128 + 1 * k.val = k.val; rw [e0]; omega
  | ⟨1, _⟩ => show win5_7.index t (1 : Fin 2) * 128 + 1 * j.val = j.val; rw [e1]; omega

theorem iblk5_2_apply (c : Dev nD) (t : Fin cfg5.N) (j : Fin 128) :
    (iblk5 V c 2 t : Vec Ideal S1x128 .f32) (ix2 (0 : Fin 1) j) = (V c main_v119 : S1x128.Idx → EReal) (ix2 (0 : Fin 1) j) := by
  obtain ⟨-, -, -, -, e0, e1, -⟩ := idx5 t
  unfold iblk5
  rw [View.read_apply]
  show (V c main_v119 : S1x128.Idx → EReal) _ = _
  refine congrArg (V c main_v119 : S1x128.Idx → EReal) (funext fun a => Fin.ext ?_)
  match a with
  | ⟨0, _⟩ => show win5_2.index t (0 : Fin 2) * 1 + 1 * 0 = 0; rw [e0]
  | ⟨1, _⟩ => show win5_2.index t (1 : Fin 2) * 128 + 1 * j.val = j.val; rw [e1]; omega

theorem iblk5_3_apply (c : Dev nD) (t : Fin cfg5.N) (j : Fin 128) :
    (iblk5 V c 3 t : Vec Ideal S1x128 .f32) (ix2 (0 : Fin 1) j) = (V c main_v120 : S1x128.Idx → EReal) (ix2 (0 : Fin 1) j) := by
  obtain ⟨-, -, -, -, -, -, e0, e1, -⟩ := idx5 t
  unfold iblk5
  rw [View.read_apply]
  show (V c main_v120 : S1x128.Idx → EReal) _ = _
  refine congrArg (V c main_v120 : S1x128.Idx → EReal) (funext fun a => Fin.ext ?_)
  match a with
  | ⟨0, _⟩ => show win5_3.index t (0 : Fin 2) * 1 + 1 * 0 = 0; rw [e0]
  | ⟨1, _⟩ => show win5_3.index t (1 : Fin 2) * 128 + 1 * j.val = j.val; rw [e1]; omega

theorem iblk5_4_apply (c : Dev nD) (t : Fin cfg5.N) (j : Fin 128) :
    (iblk5 V c 4 t : Vec Ideal S1x128 .f32) (ix2 (0 : Fin 1) j) = (V c main_v121 : S1x128.Idx → EReal) (ix2 (0 : Fin 1) j) := by
  obtain ⟨-, -, -, -, -, -, -, -, e0, e1, -⟩ := idx5 t
  unfold iblk5
  rw [View.read_apply]
  show (V c main_v121 : S1x128.Idx → EReal) _ = _
  refine congrArg (V c main_v121 : S1x128.Idx → EReal) (funext fun a => Fin.ext ?_)
  match a with
  | ⟨0, _⟩ => show win5_4.index t (0 : Fin 2) * 1 + 1 * 0 = 0; rw [e0]
  | ⟨1, _⟩ => show win5_4.index t (1 : Fin 2) * 128 + 1 * j.val = j.val; rw [e1]; omega

theorem iblk5_5_apply (c : Dev nD) (t : Fin cfg5.N) (j : Fin 128) :
    (iblk5 V c 5 t : Vec Ideal S1x128 .f32) (ix2 (0 : Fin 1) j) = (V c main_v102 : S1x128.Idx → EReal) (ix2 (0 : Fin 1) j) := by
  obtain ⟨-, -, -, -, -, -, -, -, -, -, e0, e1, -⟩ := idx5 t
  unfold iblk5
  rw [View.read_apply]
  show (V c main_v102 : S1x128.Idx → EReal) _ = _
  refine congrArg (V c main_v102 : S1x128.Idx → EReal) (funext fun a => Fin.ext ?_)
  match a with
  | ⟨0, _⟩ => show win5_5.index t (0 : Fin 2) * 1 + 1 * 0 = 0; rw [e0]
  | ⟨1, _⟩ => show win5_5.index t (1 : Fin 2) * 128 + 1 * j.val = j.val; rw [e1]; omega

theorem iblk5_6_apply (c : Dev nD) (t : Fin cfg5.N) (j : Fin 128) :
    (iblk5 V c 6 t : Vec Ideal S1x128 .f32) (ix2 (0 : Fin 1) j) = (V c main_v106 : S1x128.Idx → EReal) (ix2 (0 : Fin 1) j) := by
  obtain ⟨-, -, -, -, -, -, -, -, -, -, -, -, e0, e1, -⟩ := idx5 t
  unfold iblk5
  rw [View.read_apply]
  show (V c main_v106 : S1x128.Idx → EReal) _ = _
  refine congrArg (V c main_v106 : S1x128.Idx → EReal) (funext fun a => Fin.ext ?_)
  match a with
  | ⟨0, _⟩ => show win5_6.index t (0 : Fin 2) * 1 + 1 * 0 = 0; rw [e0]
  | ⟨1, _⟩ => show win5_6.index t (1 : Fin 2) * 128 + 1 * j.val = j.val; rw [e1]; omega

theorem iblk5_8_apply (c : Dev nD) (t : Fin cfg5.N) (j : Fin 128) :
    (iblk5 V c 8 t : Vec Ideal S1x128 .f32) (ix2 (0 : Fin 1) j) = (V c main_v122 : S1x128.Idx → EReal) (ix2 (0 : Fin 1) j) := by
  obtain ⟨-, -, -, -, -, -, -, -, -, -, -, -, -, -, -, -, e0, e1, -⟩ := idx5 t
  unfold iblk5
  rw [View.read_apply]
  show (V c main_v122 : S1x128.Idx → EReal) _ = _
  refine congrArg (V c main_v122 : S1x128.Idx → EReal) (funext fun a => Fin.ext ?_)
  match a with
  | ⟨0, _⟩ => show win5_8.index t (0 : Fin 2) * 1 + 1 * 0 = 0; rw [e0]
  | ⟨1, _⟩ => show win5_8.index t (1 : Fin 2) * 128 + 1 * j.val = j.val; rw [e1]; omega

/-- What point t writes back is block t of `G5`. -/
theorem flushed5_eq (c : Dev nD) (t : Fin cfg5.N) :
    (dat5 V c).flushed 9 t = ((cfg5.win 9).blk t).view.read (Elt Ideal) (G5 V c) := by
  show (cfg5.win 9).cut (grid5.coords t) ((dat5 V c).after 9 t) = _
  rw [after5_9]
  unfold out5_9
  rw [View.canon_unit_zero hz5]
  simp only [View.ld_unit_zero (S := S2000x128) hz5, View.ld_unit_zero (S := S128x128) hz5, View.ld_unit_zero (S := S1x128) hz5]
  funext y
  rw [View.read_apply]
  have hy0 : (y 0).val < 2000 := (y 0).isLt
  have hy1 : (y 1).val < 128 := (y 1).isLt
  have ht : t.val < 25 := Nat.lt_of_lt_of_eq t.isLt N_5
  obtain ⟨-, -, -, -, -, -, -, -, -, -, -, -, -, -, -, -, -, -, e0, e1⟩ := idx5 t
  have hx : (cfg5.win 9).xinj (grid5.coords t) y = (ix2 (⟨(y 0).val, hy0⟩ : Fin 2000) (⟨(y 1).val, hy1⟩ : Fin 128) : S2000x128.Idx) :=
    funext fun a => match a with | ⟨0, _⟩ => rfl | ⟨1, _⟩ => rfl
  have hemb : (((cfg5.win 9).blk t).view.emb y : S50000x128.Idx)
      = ix2 (⟨2000 * t.val + (y 0).val, by omega⟩ : Fin 50000) (⟨(y 1).val, hy1⟩ : Fin 128) :=
    funext fun a => Fin.ext (by
      match a with
      | ⟨0, _⟩ => show win5_9.index t (0 : Fin 2) * 2000 + 1 * (y 0).val = 2000 * t.val + (y 0).val; rw [e0]; omega
      | ⟨1, _⟩ => show win5_9.index t (1 : Fin 2) * 128 + 1 * (y 1).val = (y 1).val; rw [e1]; omega)
  refine Eq.trans ?_ (congrArg (G5 V c) hemb).symm
  refine Eq.trans (congrArg (k5_pay1 (k5_pay2 (iblk5 V c 0 t) (iblk5 V c 1 t) (iblk5 V c 2 t) (iblk5 V c 6 t) (iblk5 V c 5 t)
    (iblk5 V c 3 t) (iblk5 V c 4 t) (iblk5 V c 7 t)) (iblk5 V c 8 t)) hx) ?_
  exact pay5_at (iblk5 V c 0 t) (iblk5 V c 1 t) (iblk5 V c 2 t) (iblk5 V c 3 t) (iblk5 V c 4 t) (iblk5 V c 5 t)
    (iblk5 V c 6 t) (iblk5 V c 7 t) (iblk5 V c 8 t) (V c main_v94)
    (fun k j => V c main_v108 (ix2 k j)) (fun j => V c main_v119 (ix2 (0 : Fin 1) j))
    (fun j => V c main_v102 (ix2 (0 : Fin 1) j)) (fun j => V c main_v106 (ix2 (0 : Fin 1) j))
    (fun j => V c main_v120 (ix2 (0 : Fin 1) j)) (fun j => V c main_v121 (ix2 (0 : Fin 1) j))
    (fun k j => V c main_v116 (ix2 k j)) (fun j => V c main_v122 (ix2 (0 : Fin 1) j))
    (⟨(y 0).val, hy0⟩ : Fin 2000) (⟨2000 * t.val + (y 0).val, by omega⟩ : Fin 50000) (⟨(y 1).val, hy1⟩ : Fin 128)
    (fun k => iblk5_0_apply V c t _ k _ rfl)
    (fun k j => iblk5_1_apply V c t k j) (fun j => iblk5_2_apply V c t j)
    (fun j => iblk5_3_apply V c t j) (fun j => iblk5_4_apply V c t j)
    (fun j => iblk5_5_apply V c t j) (fun j => iblk5_6_apply V c t j)
    (fun k j => iblk5_7_apply V c t k j) (fun j => iblk5_8_apply V c t j)

/-- An index of the output array is in point t's block iff its row is in rows 2000 t … 2000 t + 1999. -/
theorem mem_blk5 (t : Fin cfg5.N) (i : S50000x128.Idx) :
    i ∈ ((cfg5.win 9).blk t).view.set ↔ ∀ a : Fin 2, win5_9.index t a * S2000x128.size a ≤ (i a).val ∧ (i a).val < win5_9.index t a * S2000x128.size a + S2000x128.size a := by
  show i ∈ ((View.whole main_v123).slice (win5_9.rect t)).set ↔ _
  rw [View.set_slice_whole, Rect.mem_set_unit]
  exact Iff.rfl

/-- Every index of the output array is in the block of the point its row's quotient by 2000 names. -/
theorem cover5 (i : S50000x128.Idx) : ∃ t : Fin cfg5.N, (cfg5.win 9).flush t = true ∧ i ∈ ((cfg5.win 9).blk t).view.set := by
  have hi0 : (i 0).val < 50000 := (i 0).isLt
  have hi1 : (i 1).val < 128 := (i 1).isLt
  have hN : cfg5.N = 25 := N_5
  refine ⟨⟨(i 0).val / 2000, by rw [hN]; omega⟩, flush5_9 _, ?_⟩
  rw [mem_blk5]
  obtain ⟨-, -, -, -, -, -, -, -, -, -, -, -, -, -, -, -, -, -, e0, e1⟩ := idx5 ⟨(i 0).val / 2000, by rw [hN]; omega⟩
  intro a
  match a with
  | ⟨0, _⟩ =>
    show win5_9.index _ (0 : Fin 2) * 2000 ≤ (i 0).val ∧ (i 0).val < win5_9.index _ (0 : Fin 2) * 2000 + 2000
    rw [e0]; show (i 0).val / 2000 * 2000 ≤ (i 0).val ∧ (i 0).val < (i 0).val / 2000 * 2000 + 2000; omega
  | ⟨1, _⟩ =>
    show win5_9.index _ (1 : Fin 2) * 128 ≤ (i 1).val ∧ (i 1).val < win5_9.index _ (1 : Fin 2) * 128 + 128
    rw [e1]; omega

/-- The third transform region's output array after the region: the layer applied to the region's input, with the weights and
    rows as the region finds them. -/
theorem transform5 (c : Dev nD) :
    (dat5 V c).arrAt 9 cfg5.N
      = Net.linRelu (Net.bnRelu (Net.lin (V c main_v94) (fun k j => V c main_v108 (ix2 k j)) (fun j => V c main_v119 (ix2 (0 : Fin 1) j)))
            (fun j => V c main_v102 (ix2 (0 : Fin 1) j)) (fun j => V c main_v106 (ix2 (0 : Fin 1) j))
            (fun j => V c main_v120 (ix2 (0 : Fin 1) j)) (fun j => V c main_v121 (ix2 (0 : Fin 1) j)))
          (fun k j => V c main_v116 (ix2 k j)) (fun j => V c main_v122 (ix2 (0 : Fin 1) j)) :=
  (dat5 V c).arrAt_eq_of_cover 9 (G5 V c) (fun t _ => flushed5_eq V c t) cover5

end

end Cert.KernelIdeal.TileValue

end
-- ==== Proof.KLayer2.lean ====
/-
  The third graph layer of the idealized kernel, after its aggregation: the array the transform region leaves is the
  layer of the network (written with the variance "mean of squares minus square of the mean") of the aggregated rows and
  of the layer's slices of the stacked parameters. The statistics region leaves the column sums of z = h·W1 + b1 and of
  z², the host divides them by the number of nodes and forms the variance, and the transform region normalises,
  cuts at zero, applies the second matrix and cuts at zero again.
-/
import proofs.«149897_j14525579395559_1_alg».proof.Proof.KKeep
import proofs.«149897_j14525579395559_1_alg».proof.Proof.KRead
import proofs.«149897_j14525579395559_1_alg».proof.Proof.KLayer
import proofs.«149897_j14525579395559_1_alg».proof.Proof.Stats4
import proofs.«149897_j14525579395559_1_alg».proof.Proof.Transform5

set_option maxRecDepth 16384

noncomputable section

namespace Cert.KernelIdeal.KValue

open Cert.KernelIdeal Cert.KernelIdeal.Gen Cert.Net
open Idealize.ShloMosaic Idealize.ShloMosaic.TcCoe Idealize.ShloMosaic.Tactic Idealize.ShloMosaic.ValueIdx Idealize.SL.Sem

variable (m : (ℓ : Loc nD τ sig) → Buf (Elt Ideal) ℓ) (ρ : Dev nD → PrngReg) (c : Dev nD)

/-! ## The stacked parameters reach the layer as launched -/

theorem pre2_arg2 : W8 m ρ c (Proc.devRef .tc main_arg2) = (m ((c : Thread nD τ).loc main_arg2)) := by wreg W8_of_ne; whost hostOps3; wreg W6_of_ne; whost hostOps2; wreg W4_of_ne; whost hostOps1; wreg W2_of_ne; whost hostOps0; rfl
theorem pre2_arg3 : W8 m ρ c (Proc.devRef .tc main_arg3) = (m ((c : Thread nD τ).loc main_arg3)) := by wreg W8_of_ne; whost hostOps3; wreg W6_of_ne; whost hostOps2; wreg W4_of_ne; whost hostOps1; wreg W2_of_ne; whost hostOps0; rfl
theorem mid2_arg2 : W10 m ρ c (Proc.devRef .tc main_arg2) = (m ((c : Thread nD τ).loc main_arg2)) := by wreg W10_of_ne; whost hostOps4; wreg W8_of_ne; whost hostOps3; wreg W6_of_ne; whost hostOps2; wreg W4_of_ne; whost hostOps1; wreg W2_of_ne; whost hostOps0; rfl
theorem mid2_arg3 : W10 m ρ c (Proc.devRef .tc main_arg3) = (m ((c : Thread nD τ).loc main_arg3)) := by wreg W10_of_ne; whost hostOps4; wreg W8_of_ne; whost hostOps3; wreg W6_of_ne; whost hostOps2; wreg W4_of_ne; whost hostOps1; wreg W2_of_ne; whost hostOps0; rfl
theorem mid2_arg4 : W10 m ρ c (Proc.devRef .tc main_arg4) = (m ((c : Thread nD τ).loc main_arg4)) := by wreg W10_of_ne; whost hostOps4; wreg W8_of_ne; whost hostOps3; wreg W6_of_ne; whost hostOps2; wreg W4_of_ne; whost hostOps1; wreg W2_of_ne; whost hostOps0; rfl
theorem mid2_arg5 : W10 m ρ c (Proc.devRef .tc main_arg5) = (m ((c : Thread nD τ).loc main_arg5)) := by wreg W10_of_ne; whost hostOps4; wreg W8_of_ne; whost hostOps3; wreg W6_of_ne; whost hostOps2; wreg W4_of_ne; whost hostOps1; wreg W2_of_ne; whost hostOps0; rfl
theorem mid2_arg6 : W10 m ρ c (Proc.devRef .tc main_arg6) = (m ((c : Thread nD τ).loc main_arg6)) := by wreg W10_of_ne; whost hostOps4; wreg W8_of_ne; whost hostOps3; wreg W6_of_ne; whost hostOps2; wreg W4_of_ne; whost hostOps1; wreg W2_of_ne; whost hostOps0; rfl
theorem mid2_arg7 : W10 m ρ c (Proc.devRef .tc main_arg7) = (m ((c : Thread nD τ).loc main_arg7)) := by wreg W10_of_ne; whost hostOps4; wreg W8_of_ne; whost hostOps3; wreg W6_of_ne; whost hostOps2; wreg W4_of_ne; whost hostOps1; wreg W2_of_ne; whost hostOps0; rfl

/-! ## What the statistics region is given -/

theorem in2_w1 : (fun k j => V9 m ρ c main_v96 (ix2 k j)) = mat3 (m ((c : Thread nD τ).loc main_arg2)) 2 := by
  have e : (V9 m ρ c main_v96 : S128x128.Idx → EReal)
      = shapeCast S128x128 (extractStridedSlice S1x128x128 ![2, 0, 0] (W8 m ρ c (Proc.devRef .tc main_arg2)) slices_S3x128x128_S1x128x128_2_0_0)
          shapeCasts_S1x128x128_S128x128 := by
    dsimp only [V9, W9, hostOps4]; after_results <;> rfl
  funext k j
  rw [e, pre2_arg2]
  exact KRead.mat_read 2 _ _ _ 2 rfl k j

theorem in2_b1 : (fun j => V9 m ρ c main_v99 (ix2 (0 : Fin 1) j)) = row3 (m ((c : Thread nD τ).loc main_arg3)) 2 := by
  have e : (V9 m ρ c main_v99 : S1x128.Idx → EReal)
      = shapeCast S1x128 (shapeCast S128 (extractStridedSlice S1x128 ![2, 0] (W8 m ρ c (Proc.devRef .tc main_arg3)) slices_S3x128_S1x128_2_0)
          shapeCasts_S1x128_S128) shapeCasts_S128_S1x128 := by
    dsimp only [V9, W9, hostOps4]; after_results <;> rfl
  funext j
  rw [e, pre2_arg3]
  exact KRead.row_read 2 _ _ _ _ 2 rfl j

/-! ## What it leaves: the column sums of z and of z² -/

/-- The aggregated rows the layer starts from. -/
abbrev hin2 : FVec Ideal SN .f32 := V9 m ρ c main_v94
/-- The row of column sums, the row of column sums of squares, the mean row and the variance row. -/
abbrev sumRow2 : (⟨2, ![1, 128]⟩ : Shape).Idx → EReal := V10 m ρ c main_v100_0
abbrev sqRow2 : (⟨2, ![1, 128]⟩ : Shape).Idx → EReal := V10 m ρ c main_v100_1
abbrev muRow2 : (⟨2, ![1, 128]⟩ : Shape).Idx → EReal := V11 m ρ c main_v102
abbrev varRow2 : (⟨2, ![1, 128]⟩ : Shape).Idx → EReal := V11 m ρ c main_v106

theorem sum2 (j : Fin 128) : sumRow2 m ρ c (ix2 (0 : Fin 1) j)
    = colSum (lin (hin2 m ρ c) (mat3 (m ((c : Thread nD τ).loc main_arg2)) 2) (row3 (m ((c : Thread nD τ).loc main_arg3)) 2)) j := by
  have e : sumRow2 m ρ c = (dat4 (V9 m ρ) c).arrAt 3 cfg4.N := W10_arr m ρ c 3
  rw [e, StatsValue.stats4_sum (V9 m ρ) c, in2_w1, in2_b1]

theorem sumsq2 (j : Fin 128) : sqRow2 m ρ c (ix2 (0 : Fin 1) j)
    = colSumSq (lin (hin2 m ρ c) (mat3 (m ((c : Thread nD τ).loc main_arg2)) 2) (row3 (m ((c : Thread nD τ).loc main_arg3)) 2)) j := by
  have e : sqRow2 m ρ c = (dat4 (V9 m ρ) c).arrAt 4 cfg4.N := W10_arr m ρ c 4
  rw [e, StatsValue.stats4_sumsq (V9 m ρ) c, in2_w1, in2_b1]

/-! ## The host's mean and variance rows -/

theorem muRow2_eq : muRow2 m ρ c = Host.divf (sumRow2 m ρ c) (broadcastInDim S1x128 ![] bcast_S_S1x128 (constant (F := Ideal) S_ .f32 0x47435000#32)) := by
  dsimp only [muRow2, sumRow2, V11, V10, W11, hostOps5]; after_results <;> rfl

theorem varRow2_eq : varRow2 m ρ c
    = subf (Host.divf (sqRow2 m ρ c) (broadcastInDim S1x128 ![] bcast_S_S1x128 (constant (F := Ideal) S_ .f32 0x47435000#32)))
        (mulf (Host.divf (sumRow2 m ρ c) (broadcastInDim S1x128 ![] bcast_S_S1x128 (constant (F := Ideal) S_ .f32 0x47435000#32))) (Host.divf (sumRow2 m ρ c) (broadcastInDim S1x128 ![] bcast_S_S1x128 (constant (F := Ideal) S_ .f32 0x47435000#32)))) := by
  dsimp only [varRow2, sumRow2, sqRow2, V11, V10, W11, hostOps5]; after_results <;> rfl

theorem mu2 (j : Fin 128) : muRow2 m ρ c (ix2 (0 : Fin 1) j) = Ideal.div (sumRow2 m ρ c (ix2 (0 : Fin 1) j)) nF := by
  rw [muRow2_eq]; rfl

theorem var2 (j : Fin 128) : varRow2 m ρ c (ix2 (0 : Fin 1) j)
    = Ideal.div (sqRow2 m ρ c (ix2 (0 : Fin 1) j)) nF - muRow2 m ρ c (ix2 (0 : Fin 1) j) * muRow2 m ρ c (ix2 (0 : Fin 1) j) := by
  rw [varRow2_eq, muRow2_eq]; rfl

/-! ## What the transform region is given -/

theorem tr2_hin : V11 m ρ c main_v94 = hin2 m ρ c := by
  show W11 m ρ c (Proc.devRef .tc main_v94) = W9 m ρ c (Proc.devRef .tc main_v94)
  whost hostOps5
  exact (W10_arr m ρ c 0).trans (((dat4 (V9 m ρ) c).arrAt_in 0 rfl _).trans (A_eq4 (V9 m ρ) c 0))

theorem tr2_w1 : (fun k j => V11 m ρ c main_v108 (ix2 k j)) = mat3 (m ((c : Thread nD τ).loc main_arg2)) 2 := by
  have e : (V11 m ρ c main_v108 : S128x128.Idx → EReal)
      = shapeCast S128x128 (extractStridedSlice S1x128x128 ![2, 0, 0] (W10 m ρ c (Proc.devRef .tc main_arg2)) slices_S3x128x128_S1x128x128_2_0_0)
          shapeCasts_S1x128x128_S128x128 := by
    dsimp only [V11, W11, hostOps5]; after_results <;> rfl
  funext k j
  rw [e, mid2_arg2]
  exact KRead.mat_read 2 _ _ _ 2 rfl k j

theorem tr2_w2 : (fun k j => V11 m ρ c main_v116 (ix2 k j)) = mat3 (m ((c : Thread nD τ).loc main_arg6)) 2 := by
  have e : (V11 m ρ c main_v116 : S128x128.Idx → EReal)
      = shapeCast S128x128 (extractStridedSlice S1x128x128 ![2, 0, 0] (W10 m ρ c (Proc.devRef .tc main_arg6)) slices_S3x128x128_S1x128x128_2_0_0)
          shapeCasts_S1x128x128_S128x128 := by
    dsimp only [V11, W11, hostOps5]; after_results <;> rfl
  funext k j
  rw [e, mid2_arg6]
  exact KRead.mat_read 2 _ _ _ 2 rfl k j

theorem tr2_b1 : (fun j => V11 m ρ c main_v119 (ix2 (0 : Fin 1) j)) = row3 (m ((c : Thread nD τ).loc main_arg3)) 2 := by
  have e : (V11 m ρ c main_v119 : S1x128.Idx → EReal)
      = shapeCast S1x128 (shapeCast S128 (extractStridedSlice S1x128 ![2, 0] (W10 m ρ c (Proc.devRef .tc main_arg3)) slices_S3x128_S1x128_2_0)
          shapeCasts_S1x128_S128) shapeCasts_S128_S1x128 := by
    dsimp only [V11, W11, hostOps5]; after_results <;> rfl
  funext j
  rw [e, mid2_arg3]
  exact KRead.row_read 2 _ _ _ _ 2 rfl j

theorem tr2_g : (fun j => V11 m ρ c main_v120 (ix2 (0 : Fin 1) j)) = row3 (m ((c : Thread nD τ).loc main_arg4)) 2 := by
  have e : (V11 m ρ c main_v120 : S1x128.Idx → EReal)
      = shapeCast S1x128 (shapeCast S128 (extractStridedSlice S1x128 ![2, 0] (W10 m ρ c (Proc.devRef .tc main_arg4)) slices_S3x128_S1x128_2_0)
          shapeCasts_S1x128_S128) shapeCasts_S128_S1x128 := by
    dsimp only [V11, W11, hostOps5]; after_results <;> rfl
  funext j
  rw [e, mid2_arg4]
  exact KRead.row_read 2 _ _ _ _ 2 rfl j

theorem tr2_be : (fun j => V11 m ρ c main_v121 (ix2 (0 : Fin 1) j)) = row3 (m ((c : Thread nD τ).loc main_arg5)) 2 := by
  have e : (V11 m ρ c main_v121 : S1x128.Idx → EReal)
      = shapeCast S1x128 (shapeCast S128 (extractStridedSlice S1x128 ![2, 0] (W10 m ρ c (Proc.devRef .tc main_arg5)) slices_S3x128_S1x128_2_0)
          shapeCasts_S1x128_S128) shapeCasts_S128_S1x128 := by
    dsimp only [V11, W11, hostOps5]; after_results <;> rfl
  funext j
  rw [e, mid2_arg5]
  exact KRead.row_read 2 _ _ _ _ 2 rfl j

theorem tr2_b2 : (fun j => V11 m ρ c main_v122 (ix2 (0 : Fin 1) j)) = row3 (m ((c : Thread nD τ).loc main_arg7)) 2 := by
  have e : (V11 m ρ c main_v122 : S1x128.Idx → EReal)
      = shapeCast S1x128 (shapeCast S128 (extractStridedSlice S1x128 ![2, 0] (W10 m ρ c (Proc.devRef .tc main_arg7)) slices_S3x128_S1x128_2_0)
          shapeCasts_S1x128_S128) shapeCasts_S128_S1x128 := by
    dsimp only [V11, W11, hostOps5]; after_results <;> rfl
  funext j
  rw [e, mid2_arg7]
  exact KRead.row_read 2 _ _ _ _ 2 rfl j

/-! ## The layer -/

/-- The transform region's output is the layer of the aggregated rows. -/
theorem layer2 : W12 m ρ c (Proc.devRef .tc main_v123)
    = layer varK (hin2 m ρ c) (mat3 (m ((c : Thread nD τ).loc main_arg2)) 2) (row3 (m ((c : Thread nD τ).loc main_arg3)) 2) (row3 (m ((c : Thread nD τ).loc main_arg4)) 2) (row3 (m ((c : Thread nD τ).loc main_arg5)) 2)
        (mat3 (m ((c : Thread nD τ).loc main_arg6)) 2) (row3 (m ((c : Thread nD τ).loc main_arg7)) 2) := by
  refine layer_of_reads (hin2 m ρ c) _ (sumRow2 m ρ c) (sqRow2 m ρ c) (muRow2 m ρ c) (varRow2 m ρ c)
    _ _ _ _ _ _ (sum2 m ρ c) (sumsq2 m ρ c) (mu2 m ρ c) (var2 m ρ c) ?_
  have e : W12 m ρ c (Proc.devRef .tc main_v123) = (dat5 (V11 m ρ) c).arrAt 9 cfg5.N := W12_arr m ρ c 9
  rw [e, TileValue.transform5 (V11 m ρ) c, tr2_hin, tr2_w1, tr2_b1, tr2_g, tr2_be, tr2_w2, tr2_b2]

end Cert.KernelIdeal.KValue

end
-- ==== Proof.LibRowScatter.lean ====
/-
  General lemmas for programs that move whole rows of an [N, D] table by an integer column of row numbers.

  * `rowGather_apply`: gathering rows of an [N, D] table at an [E, 1] column of row numbers reads, at (e, k), the table at
    (row number of e clamped into [0, N - 1], k).
  * `rowScatter_lands`: the update at (e, k) of a row scatter lands on (n, k') exactly when the row number of e is n and k = k'.
  * `rowScatterAdd_apply`: adding [E, D] updates into the rows of an [N, D] table at an [E, 1] column of row numbers reads,
    at (n, k), the table at (n, k) plus the sum over the e whose row number is n of the update at (e, k).
-/
import Idealize.ShloMosaic.PureOps.Ideal
import Idealize.ShloMosaic.PureOps.Ideal.Laws
import Idealize.ShloMosaic.Lib.ValueIdx

noncomputable section

open scoped BigOperators

namespace Cert.RowScatter

open Idealize.ShloMosaic Idealize.ShloMosaic.ValueIdx

/-! ## Gathering rows -/

/-- The dimension numbers of a row gather: operand `[N, D]`, start indices `[E, 1]`, result `[E, D]`; axis 0 of the operand
    is indexed and collapsed, axis 1 is copied whole. -/
abbrev rowGatherDims (N E D : ℕ)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- On the indexed axis a row gather reads the start index `idx[e, 0]`, signed and clamped into `[0, N - 1]`. -/
private theorem rowGather_coord0 {N E D w : ℕ}
    (wf : GatherDims.WF ⟨2, ![N, D]⟩ ⟨2, ![E, 1]⟩ ⟨2, ![E, D]⟩ [1] [0] [] [0] [] 1 ![1, D])
    (idx : IVec ⟨2, ![E, 1]⟩ w) (e : Fin E) (k : Fin D) :
    (rowGatherDims N E D wf).start (ix2 e k) idx (0 : Fin 2) + (rowGatherDims N E D wf).batchCoord (ix2 e k) (0 : Fin 2)
      + (rowGatherDims N E D wf).offCoord (ix2 e k) (0 : Fin 2) = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E D wf).startIndexMap from List.mem_singleton.mpr rfl)]
  have hsi : (rowGatherDims N E D wf).siIdx (ix2 e k) ⟨List.idxOf (0 : Fin 2) (rowGatherDims N E D wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the copied axis a row gather reads the result's own column. -/
private theorem rowGather_coord1 {N E D w : ℕ}
    (wf : GatherDims.WF ⟨2, ![N, D]⟩ ⟨2, ![E, 1]⟩ ⟨2, ![E, D]⟩ [1] [0] [] [0] [] 1 ![1, D])
    (idx : IVec ⟨2, ![E, 1]⟩ w) (e : Fin E) (k : Fin D) :
    (rowGatherDims N E D wf).start (ix2 e k) idx (1 : Fin 2) + (rowGatherDims N E D wf).batchCoord (ix2 e k) (1 : Fin 2)
      + (rowGatherDims N E D wf).offCoord (ix2 e k) (1 : Fin 2) = k.val := by
  have h10 : (1 : Fin 2) ∉ [(0 : Fin 2)] := fun h => absurd (List.mem_singleton.mp h) (by decide)
  have hs : (rowGatherDims N E D wf).start (ix2 e k) idx (1 : Fin 2) = 0 := by
    unfold GatherDims.start
    rw [dif_neg (show (1 : Fin 2) ∉ (rowGatherDims N E D wf).startIndexMap from h10)]
  have ho : (rowGatherDims N E D wf).offCoord (ix2 e k) (1 : Fin 2) = k.val := by
    unfold GatherDims.offCoord
    rw [dif_pos (show (1 : Fin 2) ∈ (rowGatherDims N E D wf).sKept from
      (GatherDims.mem_sKept _ _).mpr ⟨h10, List.not_mem_nil⟩)]
    rfl
  rw [GatherDims.batchCoord_eq_zero _ _ _ List.not_mem_nil, hs, ho]
  omega

/-- A row gather reads, at (e, k), the operand at row `idx[e, 0]` (read signed, clamped into `[0, N - 1]`) and column k. -/
theorem rowGather_apply {α : Type} {N E D w : ℕ} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGatherDims N E D wf) x idx (ix2 e k)
      = x (ix2 ⟨min (idx (ix2 e (0 : Fin 1))).toInt.toNat (N - 1), by omega⟩ k) := by
  unfold Host.gather
  congr 1
  funext a
  match a with
  | ⟨0, _⟩ => exact Fin.ext (rowGather_coord0 wf idx e k)
  | ⟨1, _⟩ => exact Fin.ext (rowGather_coord1 wf idx e k)

/-! ## Adding updates into rows -/

/-- The dimension numbers of a row scatter: operand `[N, D]`, scatter indices `[E, 1]`, updates `[E, D]`; axis 0 of the
    operand is indexed, axis 1 of the updates is the window laid along axis 1 of the operand. -/
abbrev rowScatterDims (N E D : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Coords
variable {N E D w : ℕ} (wf : ScatterDims.WF ⟨2, ![N, D]⟩ ⟨2, ![E, 1]⟩ ⟨2, ![E, D]⟩ [1] [0] [0] 1)
  (idx : IVec ⟨2, ![E, 1]⟩ w) (e : Fin E) (k : Fin D)

private theorem one_not_mem : (1 : Fin 2) ∉ [(0 : Fin 2)] := fun h => absurd (List.mem_singleton.mp h) (by decide)

/-- The window of update (e, k) starts, on the indexed axis, at the row number `idx[e, 0]` read signed. -/
private theorem start0 :
    (rowScatterDims N E D wf).start (ix2 e k) idx (0 : Fin 2) = (idx (ix2 e (0 : Fin 1))).toInt := by
  unfold ScatterDims.start
  rw [dif_pos (show (0 : Fin 2) ∈ (rowScatterDims N E D wf).scatterDimsToOperandDims from List.mem_singleton.mpr rfl)]
  have hsi : (rowScatterDims N E D wf).siIdx (ix2 e k)
      ⟨List.idxOf (0 : Fin 2) (rowScatterDims N E D wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the window axis the start is 0. -/
private theorem start1 : (rowScatterDims N E D wf).start (ix2 e k) idx (1 : Fin 2) = 0 := by
  unfold ScatterDims.start
  rw [dif_neg (show (1 : Fin 2) ∉ (rowScatterDims N E D wf).scatterDimsToOperandDims from one_not_mem)]

/-- The indexed axis is inserted: no window coordinate there. -/
private theorem window0 : (rowScatterDims N E D wf).window (ix2 e k) (0 : Fin 2) = 0 := by
  unfold ScatterDims.window
  rw [dif_neg]
  intro h
  have h' : (0 : Fin 2) ∈ (List.finRange 2).filter (· ∉ [(0 : Fin 2)]) := h
  simp at h'

/-- On the window axis the window coordinate is the update's column. -/
private theorem window1 : (rowScatterDims N E D wf).window (ix2 e k) (1 : Fin 2) = k.val := by
  unfold ScatterDims.window
  rw [dif_pos (show (1 : Fin 2) ∈ (rowScatterDims N E D wf).sKept from by
    show (1 : Fin 2) ∈ (List.finRange 2).filter (· ∉ [(0 : Fin 2)])
    decide)]
  rfl

end Coords

/-- The update at (e, k) of a row scatter lands on (n, k') exactly when the row number `idx[e, 0]`, read signed, is n
    and k = k'. -/
theorem rowScatter_lands {N E D w : ℕ} (wf : ScatterDims.WF ⟨2, ![N, D]⟩ ⟨2, ![E, 1]⟩ ⟨2, ![E, D]⟩ [1] [0] [0] 1)
    (idx : IVec ⟨2, ![E, 1]⟩ w) (e : Fin E) (k : Fin D) (n : Fin N) (k' : Fin D) :
    (rowScatterDims N E D wf).resultIdx? (ix2 e k) idx = some (ix2 n k')
      ↔ ((idx (ix2 e (0 : Fin 1))).toInt = (n.val : ℤ) ∧ k = k') := by
  have hs0 := start0 wf idx e k
  have hs1 := start1 wf idx e k
  have hw0 := window0 wf e k
  have hw1 := window1 wf e k
  have hn := n.isLt
  have hk := k.isLt
  unfold ScatterDims.resultIdx?
  split
  · rename_i h
    have h0 : 0 ≤ (rowScatterDims N E D wf).start (ix2 e k) idx (0 : Fin 2)
        + ((rowScatterDims N E D wf).window (ix2 e k) (0 : Fin 2) : ℤ) := (h 0).1
    rw [hs0, hw0] at h0
    constructor
    · intro heq
      have heq' := Option.some.inj heq
      have e0 : ((rowScatterDims N E D wf).start (ix2 e k) idx (0 : Fin 2)
          + ((rowScatterDims N E D wf).window (ix2 e k) (0 : Fin 2) : ℤ)).toNat = n.val :=
        congrArg Fin.val (congrFun heq' (0 : Fin 2))
      have e1 : ((rowScatterDims N E D wf).start (ix2 e k) idx (1 : Fin 2)
          + ((rowScatterDims N E D wf).window (ix2 e k) (1 : Fin 2) : ℤ)).toNat = k'.val :=
        congrArg Fin.val (congrFun heq' (1 : Fin 2))
      rw [hs0, hw0] at e0
      rw [hs1, hw1] at e1
      exact ⟨by omega, Fin.ext (by omega)⟩
    · rintro ⟨hi, rfl⟩
      congr 1
      funext a
      refine Fin.ext ?_
      match a with
      | ⟨0, _⟩ =>
        show ((rowScatterDims N E D wf).start (ix2 e k) idx (0 : Fin 2)
          + ((rowScatterDims N E D wf).window (ix2 e k) (0 : Fin 2) : ℤ)).toNat = n.val
        rw [hs0, hw0]; omega
      | ⟨1, _⟩ =>
        show ((rowScatterDims N E D wf).start (ix2 e k) idx (1 : Fin 2)
          + ((rowScatterDims N E D wf).window (ix2 e k) (1 : Fin 2) : ℤ)).toNat = k.val
        rw [hs1, hw1]; omega
  · rename_i h
    constructor
    · intro heq; exact absurd heq (by simp)
    · rintro ⟨hi, rfl⟩
      exfalso
      apply h
      intro a
      match a with
      | ⟨0, _⟩ =>
        show 0 ≤ (rowScatterDims N E D wf).start (ix2 e k) idx (0 : Fin 2)
            + ((rowScatterDims N E D wf).window (ix2 e k) (0 : Fin 2) : ℤ)
          ∧ (rowScatterDims N E D wf).start (ix2 e k) idx (0 : Fin 2)
            + ((rowScatterDims N E D wf).window (ix2 e k) (0 : Fin 2) : ℤ) < (N : ℤ)
        rw [hs0, hw0]; omega
      | ⟨1, _⟩ =>
        show 0 ≤ (rowScatterDims N E D wf).start (ix2 e k) idx (1 : Fin 2)
            + ((rowScatterDims N E D wf).window (ix2 e k) (1 : Fin 2) : ℤ)
          ∧ (rowScatterDims N E D wf).start (ix2 e k) idx (1 : Fin 2)
            + ((rowScatterDims N E D wf).window (ix2 e k) (1 : Fin 2) : ℤ) < (D : ℤ)
        rw [hs1, hw1]; omega

/-- Adding updates into rows reads, at (n, k), the operand at (n, k) plus the sum, over the e whose row number
    `idx[e, 0]` read signed is n, of the update at (e, k). -/
theorem rowScatterAdd_apply {N E D w : ℕ} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (k : Fin D) :
    Host.scatterAdd (F := Ideal) (φ := .f32) (rowScatterDims N E D wf) x idx upd (ix2 n k)
      = x (ix2 n k) + ∑ e ∈ Finset.univ.filter (fun e : Fin E => (idx (ix2 e (0 : Fin 1))).toInt = (n.val : ℤ)),
          upd (ix2 e k) := by
  show Ideal.hostScatterAdd (rowScatterDims N E D wf) x idx upd (ix2 n k) = _
  unfold Ideal.hostScatterAdd
  congr 1
  rw [Finset.sum_filter, sum_idx2, Finset.sum_filter]
  refine Finset.sum_congr rfl fun e _ => ?_
  by_cases hP : (idx (ix2 e (0 : Fin 1))).toInt = (n.val : ℤ)
  · rw [if_pos hP]
    have : ∀ b : Fin D, (if (rowScatterDims N E D wf).resultIdx? (ix2 e b) idx = some (ix2 n k) then upd (ix2 e b) else 0)
        = if k = b then upd (ix2 e b) else 0 := by
      intro b
      refine if_congr ?_ rfl rfl
      rw [rowScatter_lands]
      exact ⟨fun h => h.2.symm, fun h => ⟨hP, h.symm⟩⟩
    rw [Finset.sum_congr rfl fun b _ => this b, Finset.sum_ite_eq]
    simp
  · rw [if_neg hP]
    refine Finset.sum_eq_zero fun b _ => ?_
    rw [if_neg]
    rw [rowScatter_lands]
    exact fun h => hP h.1

end Cert.RowScatter

end
-- ==== Proof.LibGraphConv.lean ====
/-
  General lemmas for graph-convolution layers, read at the exact (extended-real) instance, one entry at a time.
  A layer's value at node p, feature j is  max (agg (p, j) + d p · h (p, j) + b j) 0 : the neighbours' weighted sum,
  plus the node's own row weighted by its self-loop coefficient, plus the bias, cut at zero.

  * `hostMM_apply`: the host's product of an [M, K] by a [K, N] array, at (p, j), is the plain sum over k.
  * `hostCol_apply`: an [a, 1] column laid along the rows by the host reads, at (p, j), the column at p.
  * `hostDense_apply`: the host's product plus a [1, N] bias row laid down the rows.
  * `hostConv_apply`: the layer as a host program spells it (host broadcasts, maximum with the zero scalar broadcast).
  * `bodyConv_apply`: the layer as a kernel body spells it (identity recasts, vector broadcasts, maximum with a zero splat).
  Both spellings read the same number, so a kernel tile and the host's whole array agree entry by entry.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«149897_j14525579395559_1_alg».proof.Proof.LibPlainLayers

noncomputable section

open scoped BigOperators

namespace Cert.GraphConv

open Idealize.ShloMosaic Idealize.ShloMosaic.ValueIdx

variable {M K N : ℕ}

/-- The host's product of an [M, K] array with a [K, N] array at (p, j): the sum over k of left (p, k) times right (k, j). -/
theorem hostMM_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (w : FVec Ideal ⟨2, ![K, N]⟩ φ₂) (p : Fin M) (j : Fin N) :
    Host.dotGeneral D prec x w (ix2 p j) = ∑ k : Fin K, x (ix2 p k) * w (ix2 k j) := by
  rw [← matmul_zero_eq_dotGeneral]
  exact Cert.PlainLayers.plainMM_of_eq D hD prec x w p j

/-- An [a, 1] column laid along the rows of an [a, b] array by the host reads, at (p, j), the column's entry of row p. -/
theorem hostCol_apply {α : Type} {a b : ℕ} (h : (⟨2, ![a, 1]⟩ : Shape).BroadcastsInDim ⟨2, ![a, b]⟩ ![0, 1])
    (v : (⟨2, ![a, 1]⟩ : Shape).Idx → α) (p : Fin a) (j : Fin b) :
    broadcastInDim ⟨2, ![a, b]⟩ ![0, 1] h v (ix2 p j) = v (ix2 p (0 : Fin 1)) := by
  refine broadcastInDim_apply ![0, 1] h v (ix2 p j) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else j.val
    rw [if_pos rfl]

/-- The host's product plus a [1, N] bias row laid down the rows, at (p, j). -/
theorem hostDense_apply (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hb : (⟨2, ![1, N]⟩ : Shape).BroadcastsInDim ⟨2, ![M, N]⟩ ![0, 1]) (p : Fin M) (j : Fin N) :
    addf (Host.dotGeneral D prec x w) (broadcastInDim ⟨2, ![M, N]⟩ ![0, 1] hb b) (ix2 p j)
      = (∑ k : Fin K, x (ix2 p k) * w (ix2 k j)) + b (ix2 (0 : Fin 1) j) :=
  congrArg₂ (· + ·) (hostMM_apply D hD prec x w p j) (broadcastInDim_oneRow_apply hb b p j)

/-- The layer as a host program spells it, at (p, j). -/
theorem hostConv_apply {a b : ℕ} {s0 : Shape} (hd : (⟨2, ![a, 1]⟩ : Shape).BroadcastsInDim ⟨2, ![a, b]⟩ ![0, 1])
    (hb : (⟨2, ![1, b]⟩ : Shape).BroadcastsInDim ⟨2, ![a, b]⟩ ![0, 1])
    (dz : Fin s0.rank → Fin (⟨2, ![a, b]⟩ : Shape).rank) (hz : s0.BroadcastsInDim ⟨2, ![a, b]⟩ dz)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf agg (mulf (broadcastInDim ⟨2, ![a, b]⟩ ![0, 1] hd d) h)) (broadcastInDim ⟨2, ![a, b]⟩ ![0, 1] hb bias))
        (broadcastInDim ⟨2, ![a, b]⟩ dz hz (constant s0 .f32 0x00000000#32)) (ix2 p j)
      = max ((agg (ix2 p j) + d (ix2 p (0 : Fin 1)) * h (ix2 p j)) + bias (ix2 (0 : Fin 1) j)) 0 :=
  congrArg₂ max
    (congrArg₂ (· + ·) (congrArg (agg (ix2 p j) + ·) (congrArg (· * h (ix2 p j)) (hostCol_apply hd d p j)))
      (broadcastInDim_oneRow_apply hb bias p j))
    Ideal.ofBits_zero_f32

/-- The layer as a kernel body spells it on one tile, at (p, j): the recasts are of a shape to itself. -/
theorem bodyConv_apply {a b : ℕ} (ca : (⟨2, ![a, b]⟩ : Shape).ShapeCasts ⟨2, ![a, b]⟩)
    (cd : (⟨2, ![a, 1]⟩ : Shape).ShapeCasts ⟨2, ![a, 1]⟩) (cb : (⟨2, ![1, b]⟩ : Shape).ShapeCasts ⟨2, ![1, b]⟩)
    (hd : (⟨2, ![a, 1]⟩ : Shape).Broadcasts ⟨2, ![a, b]⟩) (hb : (⟨2, ![1, b]⟩ : Shape).Broadcasts ⟨2, ![a, b]⟩)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf (shapeCast ⟨2, ![a, b]⟩ agg ca)
          (mulf (broadcastTo ⟨2, ![a, b]⟩ (shapeCast ⟨2, ![a, 1]⟩ d cd) hd) (shapeCast ⟨2, ![a, b]⟩ h ca)))
        (broadcastTo ⟨2, ![a, b]⟩ (shapeCast ⟨2, ![1, b]⟩ bias cb) hb))
        (broadcast ⟨2, ![a, b]⟩ (Scalar.ofBits (F := Ideal) .f32 0x00000000#32)) (ix2 p j)
      = max ((agg (ix2 p j) + d (ix2 p (0 : Fin 1)) * h (ix2 p j)) + bias (ix2 (0 : Fin 1) j)) 0 :=
  congrArg₂ max
    (congrArg₂ (· + ·)
      (congrArg₂ (· + ·) (congrFun (shapeCast_self agg ca) _)
        (congrArg₂ (· * ·) ((Cert.Columns.broadcastTo_a1_ab_apply _ hd p j).trans (congrFun (shapeCast_self d cd) _))
          (congrFun (shapeCast_self h ca) _)))
      ((broadcastTo_1b_ab_apply _ hb p j).trans (congrFun (shapeCast_self bias cb) _)))
    Ideal.ofBits_zero_f32

end Cert.GraphConv

end
-- ==== Proof.HostRead.lean ====
/-
  The host operations the two programs share, read at an index over the extended reals.

  Both programs cut a layer's weight matrix and parameter rows out of stacks of three, lay vectors out as one-row
  tables and repeat them down the 50000 rows, sum a column over the rows, divide by the number of rows, and add to
  every node's row the rows of the nodes that send it an edge. Each lemma here reads one such operation at an entry;
  every shape fact an operation carries is a variable, so a lemma serves whichever program's operation it meets.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«149897_j14525579395559_1_alg».proof.Proof.Net
import proofs.«149897_j14525579395559_1_alg».proof.Proof.Consts
import proofs.«149897_j14525579395559_1_alg».proof.Proof.LibRowScatter
import proofs.«149897_j14525579395559_1_alg».proof.Proof.LibGraphConv

noncomputable section

open scoped BigOperators

namespace Cert.HostRead

open Idealize.ShloMosaic Idealize.ShloMosaic.ValueIdx Cert.Spec Cert.Net

/-! ## Slices of the stacked parameters -/

/-- Layer l's matrix cut out of a stack of three and recast as a matrix reads, at (k, j), the stack at (l, k, j). -/
theorem layerMat_apply {α : Type} (l : Fin 3) (o : ℕ) (ho : o = l.val) (a : (⟨3, ![3, 128, 128]⟩ : Shape).Idx → α)
    (hs : (⟨3, ![3, 128, 128]⟩ : Shape).Slices ![o, 0, 0] ⟨3, ![1, 128, 128]⟩)
    (hc : (⟨3, ![1, 128, 128]⟩ : Shape).ShapeCasts ⟨2, ![128, 128]⟩) (k j : Fin 128) :
    shapeCast ⟨2, ![128, 128]⟩ (extractStridedSlice ⟨3, ![1, 128, 128]⟩ ![o, 0, 0] a hs) hc (ix2 k j) = a (ix3 l k j) := by
  subst ho
  refine (shapeCast_1ab_ab_apply _ hc k j).trans ?_
  refine extractStridedSlice_apply _ a hs _ (ix3 l k j) fun ax => ?_
  match ax with
  | ⟨0, _⟩ => rfl
  | ⟨1, _⟩ => exact (Nat.zero_add k.val).symm
  | ⟨2, _⟩ => exact (Nat.zero_add j.val).symm

/-- Layer l's row cut out of a stack of three and recast as a vector reads, at j, the stack at (l, j). -/
theorem layerRow_apply {α : Type} (l : Fin 3) (o : ℕ) (ho : o = l.val) (a : (⟨2, ![3, 128]⟩ : Shape).Idx → α)
    (hs : (⟨2, ![3, 128]⟩ : Shape).Slices ![o, 0] ⟨2, ![1, 128]⟩)
    (hc : (⟨2, ![1, 128]⟩ : Shape).ShapeCasts ⟨1, ![128]⟩) (j : Fin 128) :
    shapeCast ⟨1, ![128]⟩ (extractStridedSlice ⟨2, ![1, 128]⟩ ![o, 0] a hs) hc (ix1 j) = a (ix2 l j) := by
  subst ho
  refine (shapeCast_1a_a_apply _ hc j).trans ?_
  refine extractStridedSlice_apply _ a hs _ (ix2 l j) fun ax => ?_
  match ax with
  | ⟨0, _⟩ => rfl
  | ⟨1, _⟩ => exact (Nat.zero_add j.val).symm

/-- Row r of the edge list cut out and recast as a vector reads, at e, the edge list at (r, e). -/
theorem edgeRow_apply {α : Type} (r : Fin 2) (o : ℕ) (ho : o = r.val) (ei : (⟨2, ![2, 800000]⟩ : Shape).Idx → α)
    (hs : (⟨2, ![2, 800000]⟩ : Shape).Slices ![o, 0] ⟨2, ![1, 800000]⟩)
    (hc : (⟨2, ![1, 800000]⟩ : Shape).ShapeCasts ⟨1, ![800000]⟩) (e : Fin 800000) :
    shapeCast ⟨1, ![800000]⟩ (extractStridedSlice ⟨2, ![1, 800000]⟩ ![o, 0] ei hs) hc (ix1 e) = ei (ix2 r e) := by
  subst ho
  refine (shapeCast_1a_a_apply _ hc e).trans ?_
  refine extractStridedSlice_apply _ ei hs _ (ix2 r e) fun ax => ?_
  match ax with
  | ⟨0, _⟩ => rfl
  | ⟨1, _⟩ => exact (Nat.zero_add e.val).symm

/-! ## Vectors as one-row tables, rows repeated, constants -/

/-- A vector recast as a one-row table reads, at (0, j), the vector at j. -/
theorem vecAsRow_apply {α : Type} {n : ℕ} (v : (⟨1, ![n]⟩ : Shape).Idx → α) (hc : (⟨1, ![n]⟩ : Shape).ShapeCasts ⟨2, ![1, n]⟩)
    (u : Fin 1) (j : Fin n) : shapeCast ⟨2, ![1, n]⟩ v hc (ix2 u j) = v (ix1 j) :=
  shapeCast_a_1a_apply v hc u j

/-- A vector laid out by the host as a one-row table reads, at (0, j), the vector at j. -/
theorem rowOfVec_apply {α : Type} {n : ℕ} (h : (⟨1, ![n]⟩ : Shape).BroadcastsInDim ⟨2, ![1, n]⟩ ![1])
    (v : (⟨1, ![n]⟩ : Shape).Idx → α) (u : Fin 1) (j : Fin n) :
    broadcastInDim ⟨2, ![1, n]⟩ ![1] h v (ix2 u j) = v (ix1 j) := by
  refine broadcastInDim_apply ![1] h v (ix2 u j) (ix1 j) fun ax => ?_
  match ax with
  | ⟨0, _⟩ =>
    show j.val = if n = 1 then 0 else j.val
    split
    · have := j.isLt; omega
    · rfl

/-- A vector laid out by the host as a one-column table reads, at (e, 0), the vector at e. -/
theorem colOfVec_apply {α : Type} {n : ℕ} (h : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] h v (ix2 e u) = v (ix1 e) := by
  refine broadcastInDim_apply ![0] h v (ix2 e u) (ix1 e) fun ax => ?_
  match ax with
  | ⟨0, _⟩ =>
    show e.val = if n = 1 then 0 else e.val
    split
    · have := e.isLt; omega
    · rfl

/-- A one-row table repeated down R rows reads, at (p, j), the row at (0, j). -/
theorem rowsOfRow_apply {α : Type} {R n : ℕ} (h : (⟨2, ![1, n]⟩ : Shape).BroadcastsInDim ⟨2, ![R, n]⟩ ![0, 1])
    (r : (⟨2, ![1, n]⟩ : Shape).Idx → α) (p : Fin R) (j : Fin n) :
    broadcastInDim ⟨2, ![R, n]⟩ ![0, 1] h r (ix2 p j) = r (ix2 (0 : Fin 1) j) :=
  broadcastInDim_oneRow_apply h r p j

/-- A vector laid out as a one-row table and repeated down R rows reads, at (p, j), the vector at j. -/
theorem rowsOfVec_apply {α : Type} {R n : ℕ} (h1 : (⟨1, ![n]⟩ : Shape).BroadcastsInDim ⟨2, ![1, n]⟩ ![1])
    (h : (⟨2, ![1, n]⟩ : Shape).BroadcastsInDim ⟨2, ![R, n]⟩ ![0, 1]) (v : (⟨1, ![n]⟩ : Shape).Idx → α) (p : Fin R) (j : Fin n) :
    broadcastInDim ⟨2, ![R, n]⟩ ![0, 1] h (broadcastInDim ⟨2, ![1, n]⟩ ![1] h1 v) (ix2 p j) = v (ix1 j) :=
  (rowsOfRow_apply h _ p j).trans (rowOfVec_apply h1 v 0 j)

/-- A scalar constant repeated over any shape is, at every index, the number its word denotes. -/
theorem splat_apply {s t : Shape} {φ : FTy} (dims : Fin s.rank → Fin t.rank) (h : s.BroadcastsInDim t dims) (b : BitVec φ.bits)
    (i : t.Idx) : broadcastInDim t dims h (constant (F := Ideal) s φ b) i = Ideal.ofBits φ b := rfl

/-- A scalar repeated over any shape is, at every index, the scalar. -/
theorem splatOf_apply {α : Type} {t : Shape} (dims : Fin (⟨0, ![]⟩ : Shape).rank → Fin t.rank)
    (h : (⟨0, ![]⟩ : Shape).BroadcastsInDim t dims) (c : (⟨0, ![]⟩ : Shape).Idx → α) (i : t.Idx) :
    broadcastInDim t dims h c i = c ix0 := by
  unfold broadcastInDim
  exact congrArg c (funext fun a => a.elim0)

/-! ## A column's sum over the nodes -/

/-- The host's sum of a 50000 by 128 table over its rows, from an initial value that is zero, is at j the column's sum. -/
theorem hostColSum_apply (x : FVec Ideal SN .f32) (init : FVec Ideal ⟨0, ![]⟩ .f32) (hr : SN.ReducesTo [0] ⟨1, ![128]⟩)
    (hu : 0 < (⟨0, ![]⟩ : Shape).numel) (h0 : init (Shape.Idx.first hu) = 0) (j : Fin 128) :
    Host.reduceAdd (F := Ideal) x init hr hu (ix1 j) = colSum x j := by
  have h : SN.Reduces [0] ⟨1, ![128]⟩ := by decide
  show Ideal.hostReduceAdd hr x (init (Shape.Idx.first hu)) (ix1 j) = _
  rw [Ideal.hostReduceAdd_single hr h, h0, zero_add]
  unfold colSum
  refine Finset.sum_congr rfl fun k _ => congrArg x (funext fun c => Fin.ext ?_)
  rw [h.lift_val]
  match c with
  | ⟨0, _⟩ => rfl
  | ⟨1, _⟩ => rfl

/-- The same with the initial value spelt as the zero constant. -/
theorem hostColSum_zero_apply (x : FVec Ideal SN .f32) (hr : SN.ReducesTo [0] ⟨1, ![128]⟩)
    (hu : 0 < (⟨0, ![]⟩ : Shape).numel) (j : Fin 128) :
    Host.reduceAdd (F := Ideal) x (constant (F := Ideal) ⟨0, ![]⟩ .f32 0x00000000#32) hr hu (ix1 j) = colSum x j :=
  hostColSum_apply x _ hr hu Ideal.ofBits_zero_f32 j

/-! ## The mean and the two variances -/

/-- A one-row table divided by the number of nodes, at (0, j). -/
theorem divN_apply (s : FVec Ideal ⟨2, ![1, 128]⟩ .f32) (dims : Fin (⟨0, ![]⟩ : Shape).rank → Fin (⟨2, ![1, 128]⟩ : Shape).rank)
    (h : (⟨0, ![]⟩ : Shape).BroadcastsInDim ⟨2, ![1, 128]⟩ dims) (u : Fin 1) (j : Fin 128) :
    Host.divf (F := Ideal) s (broadcastInDim ⟨2, ![1, 128]⟩ dims h (constant (F := Ideal) ⟨0, ![]⟩ .f32 0x47435000#32)) (ix2 u j)
      = Ideal.div (s (ix2 u j)) nF := rfl

/-- The column sums divided by the number of nodes are the column means. -/
theorem hostMean_apply (z : FVec Ideal SN .f32) (s : FVec Ideal ⟨2, ![1, 128]⟩ .f32)
    (dims : Fin (⟨0, ![]⟩ : Shape).rank → Fin (⟨2, ![1, 128]⟩ : Shape).rank)
    (h : (⟨0, ![]⟩ : Shape).BroadcastsInDim ⟨2, ![1, 128]⟩ dims) (u : Fin 1) (j : Fin 128) (hs : s (ix2 u j) = colSum z j) :
    Host.divf (F := Ideal) s (broadcastInDim ⟨2, ![1, 128]⟩ dims h (constant (F := Ideal) ⟨0, ![]⟩ .f32 0x47435000#32)) (ix2 u j)
      = mean z j :=
  congrArg (Ideal.div · nF) hs

/-- The mean of the squares minus the square of the mean, as host lines on one-row tables of the column sums and the
    column sums of squares. -/
theorem hostVarK_apply (z : FVec Ideal SN .f32) (s q : FVec Ideal ⟨2, ![1, 128]⟩ .f32)
    (dims dims' : Fin (⟨0, ![]⟩ : Shape).rank → Fin (⟨2, ![1, 128]⟩ : Shape).rank)
    (h : (⟨0, ![]⟩ : Shape).BroadcastsInDim ⟨2, ![1, 128]⟩ dims) (h' : (⟨0, ![]⟩ : Shape).BroadcastsInDim ⟨2, ![1, 128]⟩ dims')
    (u : Fin 1) (j : Fin 128) (hs : s (ix2 u j) = colSum z j) (hq : q (ix2 u j) = colSumSq z j) :
    subf (Host.divf (F := Ideal) q (broadcastInDim ⟨2, ![1, 128]⟩ dims' h' (constant (F := Ideal) ⟨0, ![]⟩ .f32 0x47435000#32)))
        (mulf (Host.divf (F := Ideal) s (broadcastInDim ⟨2, ![1, 128]⟩ dims h (constant (F := Ideal) ⟨0, ![]⟩ .f32 0x47435000#32)))
          (Host.divf (F := Ideal) s (broadcastInDim ⟨2, ![1, 128]⟩ dims h (constant (F := Ideal) ⟨0, ![]⟩ .f32 0x47435000#32))))
        (ix2 u j)
      = varK z j := by
  show Ideal.div (q (ix2 u j)) nF - Ideal.div (s (ix2 u j)) nF * Ideal.div (s (ix2 u j)) nF = _
  rw [hs, hq]
  rfl

/-- The number of nodes less the integer zero, read as a number, is the number of nodes. -/
theorem divisor_eq : nF - (((0#32 : BitVec 32).toInt : ℝ) : EReal) = nF := by
  simp

/-- The number of nodes is above zero. -/
theorem nF_pos : zeroF < nF := by
  rw [nF_eq, zeroF_eq]
  exact_mod_cast (by norm_num : (0 : ℝ) < 50000)

/-- The comparison "the number of nodes is above zero" is true. -/
theorem cmp_nF_pos : Ideal.cmp .ogt nF zeroF = 1#1 := by
  unfold Ideal.cmp
  simp [nF_pos]

/-- A selection on a true bit between the sum of squared distances to the mean over the number of nodes and anything
    else is the variance as the mean of the squared distances. -/
theorem hostVarR_apply (z : FVec Ideal SN .f32) (c : IVec ⟨2, ![1, 128]⟩ 1) (num den other : FVec Ideal ⟨2, ![1, 128]⟩ .f32)
    (u : Fin 1) (j : Fin 128) (hc : c (ix2 u j) = 1#1)
    (hnum : num (ix2 u j) = ∑ n : Fin 50000, (z (ix2 n j) - mean z j) * (z (ix2 n j) - mean z j)) (hden : den (ix2 u j) = nF) :
    select c (Host.divf (F := Ideal) num den) other (ix2 u j) = varR z j := by
  show Scalar.select (c (ix2 u j)) (Ideal.div (num (ix2 u j)) (den (ix2 u j))) (other (ix2 u j)) = _
  rw [hc, select_one, hnum, hden]
  rfl

/-! ## The aggregation over the edges -/

/-- A sender index below zero is counted from the end. -/
theorem signFix (x : BitVec 32) :
    Scalar.select (IntOp.cmpi .slt x 0#32) (IntOp.addi x 50000#32) x = if x.slt 0#32 then x + 50000#32 else x := by
  unfold Scalar.select IntOp.cmpi IntOp.addi
  cases h : x.slt 0#32 <;> simp

/-- The aggregation as the host spells it, at (p, j): the node's own row plus, from zero, the sum over the edges that name
    p as receiver of the sender's row; the senders and the receivers are any two vectors of edge ends. -/
theorem hostAggRows_apply (g : GatherDims SN ⟨2, ![800000, 1]⟩ ⟨2, ![800000, 128]⟩)
    (s : ScatterDims SN ⟨2, ![800000, 1]⟩ ⟨2, ![800000, 128]⟩)
    (wfg : GatherDims.WF SN ⟨2, ![800000, 1]⟩ ⟨2, ![800000, 128]⟩ [1] [0] [] [0] [] 1 ![1, 128])
    (wfs : ScatterDims.WF SN ⟨2, ![800000, 1]⟩ ⟨2, ![800000, 128]⟩ [1] [0] [0] 1)
    (hg : g = Cert.RowScatter.rowGatherDims 50000 800000 128 wfg) (hs : s = Cert.RowScatter.rowScatterDims 50000 800000 128 wfs)
    (h : FVec Ideal SN .f32) (src dst : IVec ⟨1, ![800000]⟩ 32)
    (dz : Fin (⟨0, ![]⟩ : Shape).rank → Fin (⟨1, ![800000]⟩ : Shape).rank) (hbz : (⟨0, ![]⟩ : Shape).BroadcastsInDim ⟨1, ![800000]⟩ dz)
    (hcol : (⟨1, ![800000]⟩ : Shape).BroadcastsInDim ⟨2, ![800000, 1]⟩ ![0])
    (dz2 : Fin (⟨0, ![]⟩ : Shape).rank → Fin SN.rank) (hz : (⟨0, ![]⟩ : Shape).BroadcastsInDim SN dz2) (p : Fin 50000) (j : Fin 128) :
    addf h (Host.scatterAdd (F := Ideal) (φ := .f32) s
        (broadcastInDim SN dz2 hz (constant (F := Ideal) ⟨0, ![]⟩ .f32 0x00000000#32))
        (broadcastInDim ⟨2, ![800000, 1]⟩ ![0] hcol dst)
        (Host.gather g h (broadcastInDim ⟨2, ![800000, 1]⟩ ![0] hcol
          (select (cmpi .slt src (broadcastInDim ⟨1, ![800000]⟩ dz hbz (constantI ⟨0, ![]⟩ 32 0#32)))
            (addi src (broadcastInDim ⟨1, ![800000]⟩ dz hbz (constantI ⟨0, ![]⟩ 32 50000#32))) src)))) (ix2 p j)
      = h (ix2 p j) + (zeroF + ∑ e ∈ Finset.univ.filter (fun e : Fin 800000 => (dst (ix1 e)).toInt = (p.val : ℤ)),
          h (ix2 (⟨min (if (src (ix1 e)).slt 0#32 then src (ix1 e) + 50000#32 else src (ix1 e)).toInt.toNat (50000 - 1),
            by omega⟩ : Fin 50000) j)) := by
  subst hg; subst hs
  refine congrArg (h (ix2 p j) + ·) ?_
  refine (Cert.RowScatter.rowScatterAdd_apply wfs _ _ _ p j).trans ?_
  refine congrArg₂ (· + ·) rfl ?_
  refine Finset.sum_congr (Finset.filter_congr fun e _ => ?_) fun e _ => ?_
  · rw [colOfVec_apply hcol dst e 0]
  · refine (Cert.RowScatter.rowGather_apply (by norm_num) wfg h _ e j).trans ?_
    refine congrArg (fun r : Fin 50000 => h (ix2 r j)) (Fin.ext ?_)
    refine congrArg (fun w : BitVec 32 => min w.toInt.toNat (50000 - 1)) ?_
    refine (colOfVec_apply hcol _ e 0).trans ?_
    exact signFix (src (ix1 e))

/-- The aggregation as the host spells it is the network's aggregation, when the senders and the receivers are the two rows
    of the edge list. -/
theorem hostAgg_eq (g : GatherDims SN ⟨2, ![800000, 1]⟩ ⟨2, ![800000, 128]⟩)
    (s : ScatterDims SN ⟨2, ![800000, 1]⟩ ⟨2, ![800000, 128]⟩)
    (wfg : GatherDims.WF SN ⟨2, ![800000, 1]⟩ ⟨2, ![800000, 128]⟩ [1] [0] [] [0] [] 1 ![1, 128])
    (wfs : ScatterDims.WF SN ⟨2, ![800000, 1]⟩ ⟨2, ![800000, 128]⟩ [1] [0] [0] 1)
    (hg : g = Cert.RowScatter.rowGatherDims 50000 800000 128 wfg) (hs : s = Cert.RowScatter.rowScatterDims 50000 800000 128 wfs)
    (h : FVec Ideal SN .f32) (ei : IVec ⟨2, ![2, 800000]⟩ 32) (src dst : IVec ⟨1, ![800000]⟩ 32)
    (hsrc : ∀ e : Fin 800000, src (ix1 e) = ei (ix2 (0 : Fin 2) e)) (hdst : ∀ e : Fin 800000, dst (ix1 e) = ei (ix2 (1 : Fin 2) e))
    (dz : Fin (⟨0, ![]⟩ : Shape).rank → Fin (⟨1, ![800000]⟩ : Shape).rank) (hbz : (⟨0, ![]⟩ : Shape).BroadcastsInDim ⟨1, ![800000]⟩ dz)
    (hcol : (⟨1, ![800000]⟩ : Shape).BroadcastsInDim ⟨2, ![800000, 1]⟩ ![0])
    (dz2 : Fin (⟨0, ![]⟩ : Shape).rank → Fin SN.rank) (hz : (⟨0, ![]⟩ : Shape).BroadcastsInDim SN dz2) :
    addf h (Host.scatterAdd (F := Ideal) (φ := .f32) s
        (broadcastInDim SN dz2 hz (constant (F := Ideal) ⟨0, ![]⟩ .f32 0x00000000#32))
        (broadcastInDim ⟨2, ![800000, 1]⟩ ![0] hcol dst)
        (Host.gather g h (broadcastInDim ⟨2, ![800000, 1]⟩ ![0] hcol
          (select (cmpi .slt src (broadcastInDim ⟨1, ![800000]⟩ dz hbz (constantI ⟨0, ![]⟩ 32 0#32)))
            (addi src (broadcastInDim ⟨1, ![800000]⟩ dz hbz (constantI ⟨0, ![]⟩ 32 50000#32))) src))))
      = agg h ei := by
  funext i
  have e := hostAggRows_apply g s wfg wfs hg hs h src dst dz hbz hcol dz2 hz (row i) (col i)
  rw [ix2_row_col] at e
  refine e.trans ?_
  unfold agg srcRow
  simp only [hsrc, hdst]

end Cert.HostRead

end
-- ==== Proof.KAgg.lean ====
/-
  The three aggregations of the kernel program: before each layer's two regions the host adds to every node's row the
  rows of the nodes that send it an edge.

  The senders and the receivers are the two rows of the edge list, cut out and recast as vectors once, before the first
  layer; the later layers read the same two vectors, which nothing in between writes. The rows that are added are the
  launched features for the first layer and what the previous layer's transform region left for the other two.
-/
import proofs.«149897_j14525579395559_1_alg».proof.Proof.Gen.KernelIdeal.Frame
import proofs.«149897_j14525579395559_1_alg».proof.Proof.KKeep
import proofs.«149897_j14525579395559_1_alg».proof.Proof.HostRead
import Idealize.ShloMosaic.Lib.Tactic

noncomputable section

open Idealize.ShloMosaic Idealize.ShloMosaic.TcCoe Idealize.SL.Sem Idealize.ShloMosaic.ValueIdx

namespace Cert.KernelIdeal.KValue

open Cert.KernelIdeal Cert.KernelIdeal.Gen Cert.Net

variable (m : (ℓ : Loc nD τ sig) → Buf (Elt Ideal) ℓ) (ρ : Dev nD → PrngReg) (c : Dev nD)

/-- The senders' vector after the first stretch: row 0 of the launched edge list, recast as a vector. -/
theorem w1_v1 : (W1 m ρ c (Proc.devRef .tc main_v1) : S800000.Idx → BitVec 32)
    = shapeCast S800000 (extractStridedSlice S1x800000 ![0, 0] (m ((c : Thread nD τ).loc main_arg1) : S2x800000.Idx → BitVec 32)
        slices_S2x800000_S1x800000_0_0) shapeCasts_S1x800000_S800000 := by
  dsimp only [W1, hostOps0]
  after_results_simp
  rfl

/-- The receivers' vector after the first stretch: row 1 of the launched edge list, recast as a vector. -/
theorem w1_v3 : (W1 m ρ c (Proc.devRef .tc main_v3) : S800000.Idx → BitVec 32)
    = shapeCast S800000 (extractStridedSlice S1x800000 ![1, 0] (m ((c : Thread nD τ).loc main_arg1) : S2x800000.Idx → BitVec 32)
        slices_S2x800000_S1x800000_1_0) shapeCasts_S1x800000_S800000 := by
  dsimp only [W1, hostOps0]
  after_results_simp
  rfl

/-- Both vectors are still there when the second layer starts … -/
theorem w4_v1 : W4 m ρ c (Proc.devRef .tc main_v1) = W1 m ρ c (Proc.devRef .tc main_v1) := by
  wreg W4_of_ne; whost hostOps1; wreg W2_of_ne; rfl
theorem w4_v3 : W4 m ρ c (Proc.devRef .tc main_v3) = W1 m ρ c (Proc.devRef .tc main_v3) := by
  wreg W4_of_ne; whost hostOps1; wreg W2_of_ne; rfl

/-- … and when the third layer starts. -/
theorem w8_v1 : W8 m ρ c (Proc.devRef .tc main_v1) = W1 m ρ c (Proc.devRef .tc main_v1) := by
  wreg W8_of_ne; whost hostOps3; wreg W6_of_ne; whost hostOps2; exact w4_v1 m ρ c
theorem w8_v3 : W8 m ρ c (Proc.devRef .tc main_v3) = W1 m ρ c (Proc.devRef .tc main_v3) := by
  wreg W8_of_ne; whost hostOps3; wreg W6_of_ne; whost hostOps2; exact w4_v3 m ρ c

/-- The senders' vector at edge e is the edge list at (0, e). -/
theorem src_apply (e : Fin 800000) :
    (W1 m ρ c (Proc.devRef .tc main_v1) : S800000.Idx → BitVec 32) (ix1 e)
      = (m ((c : Thread nD τ).loc main_arg1) : S2x800000.Idx → BitVec 32) (ix2 (0 : Fin 2) e) :=
  (congrFun (w1_v1 m ρ c) (ix1 e)).trans
    (Cert.HostRead.edgeRow_apply 0 0 rfl _ slices_S2x800000_S1x800000_0_0 shapeCasts_S1x800000_S800000 e)

/-- The receivers' vector at edge e is the edge list at (1, e). -/
theorem dst_apply (e : Fin 800000) :
    (W1 m ρ c (Proc.devRef .tc main_v3) : S800000.Idx → BitVec 32) (ix1 e)
      = (m ((c : Thread nD τ).loc main_arg1) : S2x800000.Idx → BitVec 32) (ix2 (1 : Fin 2) e) :=
  (congrFun (w1_v3 m ρ c) (ix1 e)).trans
    (Cert.HostRead.edgeRow_apply 1 1 rfl _ slices_S2x800000_S1x800000_1_0 shapeCasts_S1x800000_S800000 e)

attribute [local irreducible] Host.gather Host.scatterAdd in
/-- The first layer's aggregation, of the launched features. -/
theorem agg0 : (V1 m ρ c main_v14) = Net.agg (m ((c : Thread nD τ).loc main_arg0)) (m ((c : Thread nD τ).loc main_arg1)) := by
  show (W1 m ρ c (Proc.devRef .tc main_v14) : S50000x128.Idx → EReal) = _
  dsimp only [W1, hostOps0]
  after_results_simp
  exact Cert.HostRead.hostAgg_eq _ _ _ _ rfl rfl _ _ _ _
    (fun e => Cert.HostRead.edgeRow_apply 0 0 rfl _ slices_S2x800000_S1x800000_0_0 shapeCasts_S1x800000_S800000 e)
    (fun e => Cert.HostRead.edgeRow_apply 1 1 rfl _ slices_S2x800000_S1x800000_1_0 shapeCasts_S1x800000_S800000 e) _ _ _ _ _

attribute [local irreducible] Host.gather Host.scatterAdd in
/-- The second layer's aggregation, of what the first transform region left. -/
theorem agg1 : (V5 m ρ c main_v54) = Net.agg (W4 m ρ c (Proc.devRef .tc main_v43)) (m ((c : Thread nD τ).loc main_arg1)) := by
  show (W5 m ρ c (Proc.devRef .tc main_v54) : S50000x128.Idx → EReal) = _
  dsimp only [W5, hostOps2]
  after_results_simp
  exact Cert.HostRead.hostAgg_eq _ _ _ _ rfl rfl _ _ _ _
    (fun e => (congrFun (w4_v1 m ρ c) (ix1 e)).trans (src_apply m ρ c e))
    (fun e => (congrFun (w4_v3 m ρ c) (ix1 e)).trans (dst_apply m ρ c e)) _ _ _ _ _

attribute [local irreducible] Host.gather Host.scatterAdd in
/-- The third layer's aggregation, of what the second transform region left. -/
theorem agg2 : (V9 m ρ c main_v94) = Net.agg (W8 m ρ c (Proc.devRef .tc main_v83)) (m ((c : Thread nD τ).loc main_arg1)) := by
  show (W9 m ρ c (Proc.devRef .tc main_v94) : S50000x128.Idx → EReal) = _
  dsimp only [W9, hostOps4]
  after_results_simp
  exact Cert.HostRead.hostAgg_eq _ _ _ _ rfl rfl _ _ _ _
    (fun e => (congrFun (w8_v1 m ρ c) (ix1 e)).trans (src_apply m ρ c e))
    (fun e => (congrFun (w8_v3 m ρ c) (ix1 e)).trans (dst_apply m ρ c e)) _ _ _ _ _

end Cert.KernelIdeal.KValue

end
-- ==== Proof.Final6.lean ====
/-
  The closing region's output array: the two closing weight matrices and the row-wise log-softmax of the region's input.

  The region's grid has 25 points; point t works on rows 2000 t … 2000 t + 1999 of the input and of the output, and sees
  the weights and bias rows whole. A row of the result depends on that row of the input only, so what point t writes
  back is block t of ONE whole-array function, `Net.final` of the arrays as the region finds them, and the 25 blocks
  tile the output.
-/
import proofs.«149897_j14525579395559_1_alg».proof.Proof.Gen.KernelIdeal.Frame
import proofs.«149897_j14525579395559_1_alg».proof.Proof.TileBody
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.TileValue

open Cert.KernelIdeal Cert.KernelIdeal.Gen Cert.Spec Cert.Net

theorem hz6 : (![0, 0] : Fin 2 → Nat) = fun _ => 0 := funext fun a => by fin_cases a <;> rfl

/-- The body's stored value is the closing stage of its input tile, the weights and bias rows read off their blocks. -/
theorem pay6_eq (x0 : Vec Ideal S2000x128 .f32) (x1 : Vec Ideal S128x128 .f32) (x2 : Vec Ideal S1x128 .f32)
    (x3 : Vec Ideal S128x40 .f32) (x4 : Vec Ideal S1x40 .f32) :
    k6_pay1 x0 x1 x2 x3 x4
      = Net.logSoftmax (Net.lin (Net.linRelu x0 (fun k j => x1 (ix2 k j)) (fun j => x2 (ix2 (0 : Fin 1) j)))
          (fun k j => x3 (ix2 k j)) (fun j => x4 (ix2 (0 : Fin 1) j))) := by
  unfold k6_pay1
  dsimp only
  rw [shapeCast_self x0]
  rw [linTile dot_S2000x128_S128x128_S2000x128_1_0_0_1_n_n rfl none x0 x1 x2]
  rw [reluTile]
  rw [linTile dot_S2000x128_S128x40_S2000x40_1_0_0_1_n_n rfl none _ x3 x4]
  exact logSoftmaxTile _ _ _ _ _ _ _

section
variable (V : (c : Dev nD) → (b : Ref sig .tc) → Buf (Elt Ideal) ((c : Thread nD τ).loc b))

/-- The block indices over the grid: the row-tiled windows are at block (t, 0), the others at block (0, 0). -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- What the output array ends holding. -/
abbrev G6 (c : Dev nD) : FVec Ideal ⟨2, ![50000, 40]⟩ .f32 :=
  Net.final (V c main_v123) (fun k j => V c main_arg8 (ix2 k j)) (fun j => V c main_v124 (ix2 (0 : Fin 1) j))
    (fun k j => V c main_arg10 (ix2 k j)) (fun j => V c main_v125 (ix2 (0 : Fin 1) j))

/-- The input tile at point t is rows 2000 t … of the input array. -/
theorem iblk6_0_apply (c : Dev nD) (t : Fin cfg6.N) (p : Fin 2000) (k : Fin 128) (n : Fin 50000) (hn : n.val = 2000 * t.val + p.val) :
    (iblk6 V c 0 t : Vec Ideal S2000x128 .f32) (ix2 p k) = (V c main_v123 : S50000x128.Idx → EReal) (ix2 n k) := by
  obtain ⟨e0, e1, -⟩ := idx6 t
  unfold iblk6
  rw [View.read_apply]
  show (V c main_v123 : S50000x128.Idx → EReal) _ = _
  refine congrArg (V c main_v123 : S50000x128.Idx → EReal) (funext fun a => Fin.ext ?_)
  match a with
  | ⟨0, _⟩ => show win6_0.index t (0 : Fin 2) * 2000 + 1 * p.val = n.val; rw [e0, hn]; omega
  | ⟨1, _⟩ => show win6_0.index t (1 : Fin 2) * 128 + 1 * k.val = k.val; rw [e1]; omega

/-- The windows that are not tiled hold their whole arrays at every point. -/
theorem iblk6_1_apply (c : Dev nD) (t : Fin cfg6.N) (k : Fin 128) (j : Fin 128) :
    (iblk6 V c 1 t : Vec Ideal S128x128 .f32) (ix2 k j) = (V c main_arg8 : S128x128.Idx → EReal) (ix2 k j) := by
  obtain ⟨-, -, e0, e1, -⟩ := idx6 t
  unfold iblk6
  rw [View.read_apply]
  show (V c main_arg8 : S128x128.Idx → EReal) _ = _
  refine congrArg (V c main_arg8 : S128x128.Idx → EReal) (funext fun a => Fin.ext ?_)
  match a with
  | ⟨0, _⟩ => show win6_1.index t (0 : Fin 2) * 128 + 1 * k.val = k.val; rw [e0]; omega
  | ⟨1, _⟩ => show win6_1.index t (1 : Fin 2) * 128 + 1 * j.val = j.val; rw [e1]; omega

theorem iblk6_2_apply (c : Dev nD) (t : Fin cfg6.N) (j : Fin 128) :
    (iblk6 V c 2 t : Vec Ideal S1x128 .f32) (ix2 (0 : Fin 1) j) = (V c main_v124 : S1x128.Idx → EReal) (ix2 (0 : Fin 1) j) := by
  obtain ⟨-, -, -, -, e0, e1, -⟩ := idx6 t
  unfold iblk6
  rw [View.read_apply]
  show (V c main_v124 : S1x128.Idx → EReal) _ = _
  refine congrArg (V c main_v124 : S1x128.Idx → EReal) (funext fun a => Fin.ext ?_)
  match a with
  | ⟨0, _⟩ => show win6_2.index t (0 : Fin 2) * 1 + 1 * 0 = 0; rw [e0]
  | ⟨1, _⟩ => show win6_2.index t (1 : Fin 2) * 128 + 1 * j.val = j.val; rw [e1]; omega

theorem iblk6_3_apply (c : Dev nD) (t : Fin cfg6.N) (k : Fin 128) (j : Fin 40) :
    (iblk6 V c 3 t : Vec Ideal S128x40 .f32) (ix2 k j) = (V c main_arg10 : S128x40.Idx → EReal) (ix2 k j) := by
  obtain ⟨-, -, -, -, -, -, e0, e1, -⟩ := idx6 t
  unfold iblk6
  rw [View.read_apply]
  show (V c main_arg10 : S128x40.Idx → EReal) _ = _
  refine congrArg (V c main_arg10 : S128x40.Idx → EReal) (funext fun a => Fin.ext ?_)
  match a with
  | ⟨0, _⟩ => show win6_3.index t (0 : Fin 2) * 128 + 1 * k.val = k.val; rw [e0]; omega
  | ⟨1, _⟩ => show win6_3.index t (1 : Fin 2) * 40 + 1 * j.val = j.val; rw [e1]; omega

theorem iblk6_4_apply (c : Dev nD) (t : Fin cfg6.N) (j : Fin 40) :
    (iblk6 V c 4 t : Vec Ideal S1x40 .f32) (ix2 (0 : Fin 1) j) = (V c main_v125 : S1x40.Idx → EReal) (ix2 (0 : Fin 1) j) := by
  obtain ⟨-, -, -, -, -, -, -, -, e0, e1, -⟩ := idx6 t
  unfold iblk6
  rw [View.read_apply]
  show (V c main_v125 : S1x40.Idx → EReal) _ = _
  refine congrArg (V c main_v125 : S1x40.Idx → EReal) (funext fun a => Fin.ext ?_)
  match a with
  | ⟨0, _⟩ => show win6_4.index t (0 : Fin 2) * 1 + 1 * 0 = 0; rw [e0]
  | ⟨1, _⟩ => show win6_4.index t (1 : Fin 2) * 40 + 1 * j.val = j.val; rw [e1]; omega

/-- What point t writes back is block t of 'G6'. -/
theorem flushed6_eq (c : Dev nD) (t : Fin cfg6.N) :
    (dat6 V c).flushed 5 t = ((cfg6.win 5).blk t).view.read (Elt Ideal) (G6 V c) := by
  show (cfg6.win 5).cut (grid6.coords t) ((dat6 V c).after 5 t) = _
  rw [after6_5]
  unfold out6_5
  rw [View.canon_unit_zero hz6]
  simp only [View.ld_unit_zero (S := S2000x128) hz6, View.ld_unit_zero (S := S128x128) hz6, View.ld_unit_zero (S := S1x128) hz6,
    View.ld_unit_zero (S := S128x40) hz6, View.ld_unit_zero (S := S1x40) hz6]
  funext y
  rw [View.read_apply]
  have hy0 : (y 0).val < 2000 := (y 0).isLt
  have hy1 : (y 1).val < 40 := (y 1).isLt
  have ht : t.val < 25 := Nat.lt_of_lt_of_eq t.isLt N_6
  obtain ⟨-, -, -, -, -, -, -, -, -, -, e0, e1⟩ := idx6 t
  have hx : (cfg6.win 5).xinj (grid6.coords t) y = (ix2 (⟨(y 0).val, hy0⟩ : Fin 2000) (⟨(y 1).val, hy1⟩ : Fin 40) : S2000x40.Idx) :=
    funext fun a => match a with | ⟨0, _⟩ => rfl | ⟨1, _⟩ => rfl
  have hemb : (((cfg6.win 5).blk t).view.emb y : S50000x40.Idx)
      = ix2 (⟨2000 * t.val + (y 0).val, by omega⟩ : Fin 50000) (⟨(y 1).val, hy1⟩ : Fin 40) :=
    funext fun a => Fin.ext (by
      match a with
      | ⟨0, _⟩ => show win6_5.index t (0 : Fin 2) * 2000 + 1 * (y 0).val = 2000 * t.val + (y 0).val; rw [e0]; omega
      | ⟨1, _⟩ => show win6_5.index t (1 : Fin 2) * 40 + 1 * (y 1).val = (y 1).val; rw [e1]; omega)
  show k6_pay1 (iblk6 V c 0 t) (iblk6 V c 1 t) (iblk6 V c 2 t) (iblk6 V c 3 t) (iblk6 V c 4 t) ((cfg6.win 5).xinj (grid6.coords t) y)
    = G6 V c (((cfg6.win 5).blk t).view.emb y)
  refine (congrArg (k6_pay1 (iblk6 V c 0 t) (iblk6 V c 1 t) (iblk6 V c 2 t) (iblk6 V c 3 t) (iblk6 V c 4 t)) hx).trans ?_
  refine Eq.trans ?_ (congrArg (G6 V c) hemb).symm
  refine (congrFun (pay6_eq (iblk6 V c 0 t) (iblk6 V c 1 t) (iblk6 V c 2 t) (iblk6 V c 3 t) (iblk6 V c 4 t)) _).trans ?_
  exact final_rows (iblk6 V c 0 t) (V c main_v123) _ _ _ _ _ _ _ _ _ _ _
    (fun k => iblk6_0_apply V c t _ k _ rfl)
    (funext fun k => funext fun j => iblk6_1_apply V c t k j) (funext fun j => iblk6_2_apply V c t j)
    (funext fun k => funext fun j => iblk6_3_apply V c t k j) (funext fun j => iblk6_4_apply V c t j)

/-- An index of the output array is in point t's block iff its row is in rows 2000 t … 2000 t + 1999. -/
theorem mem_blk6 (t : Fin cfg6.N) (i : S50000x40.Idx) :
    i ∈ ((cfg6.win 5).blk t).view.set ↔ ∀ a : Fin 2, win6_5.index t a * S2000x40.size a ≤ (i a).val ∧ (i a).val < win6_5.index t a * S2000x40.size a + S2000x40.size a := by
  show i ∈ ((View.whole main_v126).slice (win6_5.rect t)).set ↔ _
  rw [View.set_slice_whole, Rect.mem_set_unit]
  exact Iff.rfl

/-- Every index of the output array is in the block of the point its row's quotient by 2000 names. -/
theorem cover6 (i : S50000x40.Idx) : ∃ t : Fin cfg6.N, (cfg6.win 5).flush t = true ∧ i ∈ ((cfg6.win 5).blk t).view.set := by
  have hi0 : (i 0).val < 50000 := (i 0).isLt
  have hi1 : (i 1).val < 40 := (i 1).isLt
  have hN : cfg6.N = 25 := N_6
  refine ⟨⟨(i 0).val / 2000, by rw [hN]; omega⟩, flush6_5 _, ?_⟩
  rw [mem_blk6]
  obtain ⟨-, -, -, -, -, -, -, -, -, -, e0, e1⟩ := idx6 ⟨(i 0).val / 2000, by rw [hN]; omega⟩
  intro a
  match a with
  | ⟨0, _⟩ =>
    show win6_5.index _ (0 : Fin 2) * 2000 ≤ (i 0).val ∧ (i 0).val < win6_5.index _ (0 : Fin 2) * 2000 + 2000
    rw [e0]; show (i 0).val / 2000 * 2000 ≤ (i 0).val ∧ (i 0).val < (i 0).val / 2000 * 2000 + 2000; omega
  | ⟨1, _⟩ =>
    show win6_5.index _ (1 : Fin 2) * 40 ≤ (i 1).val ∧ (i 1).val < win6_5.index _ (1 : Fin 2) * 40 + 40
    rw [e1]; omega

/-- The closing region's output array after the region: the closing stage of the region's input, with the weights and bias
    rows as the region finds them. -/
theorem final6 (c : Dev nD) :
    (dat6 V c).arrAt 5 cfg6.N
      = Net.final (V c main_v123) (fun k j => V c main_arg8 (ix2 k j)) (fun j => V c main_v124 (ix2 (0 : Fin 1) j))
          (fun k j => V c main_arg10 (ix2 k j)) (fun j => V c main_v125 (ix2 (0 : Fin 1) j)) :=
  (dat6 V c).arrAt_eq_of_cover 5 (G6 V c) (fun t _ => flushed6_eq V c t) cover6

end

end Cert.KernelIdeal.TileValue

end
-- ==== Proof.KFinal.lean ====
/-
  The kernel program's result array at the last boundary: the closing stage of what the third transform region left,
  with the closing weights and biases as launched.

  The closing region finds its input where the third transform region wrote it (the two reshapes before it write only the
  two bias rows), its two weight matrices as launched (nothing writes an argument), and its two bias rows as the launched
  bias vectors laid out as one row each.
-/
import proofs.«149897_j14525579395559_1_alg».proof.Proof.Gen.KernelIdeal.Frame
import proofs.«149897_j14525579395559_1_alg».proof.Proof.Final6
import proofs.«149897_j14525579395559_1_alg».proof.Proof.KKeep
import proofs.«149897_j14525579395559_1_alg».proof.Proof.KRead
import Idealize.ShloMosaic.Lib.Tactic

noncomputable section

open Idealize.ShloMosaic Idealize.ShloMosaic.TcCoe Idealize.SL.Sem Idealize.ShloMosaic.ValueIdx

namespace Cert.KernelIdeal.KValue

open Cert.KernelIdeal Cert.KernelIdeal.Gen Cert.Net

variable (m : (ℓ : Loc nD τ sig) → Buf (Elt Ideal) ℓ) (ρ : Dev nD → PrngReg) (c : Dev nD)

/-- The first closing weight matrix at the closing region's entry is the launched one: the region only reads it, and
    nothing before the region writes it. -/
theorem w13_arg8 : W13 m ρ c (Proc.devRef .tc main_arg8) = m ((c : Thread nD τ).loc main_arg8) :=
  ((W14_arr m ρ c 1).trans (((dat6 (V13 m ρ) c).arrAt_in 1 rfl _).trans (A_eq6 (V13 m ρ) c 1))).symm.trans (W14_main_arg8 m ρ c)

/-- The second closing weight matrix likewise. -/
theorem w13_arg10 : W13 m ρ c (Proc.devRef .tc main_arg10) = m ((c : Thread nD τ).loc main_arg10) :=
  ((W14_arr m ρ c 3).trans (((dat6 (V13 m ρ) c).arrAt_in 3 rfl _).trans (A_eq6 (V13 m ρ) c 3))).symm.trans (W14_main_arg10 m ρ c)

/-- The first closing bias vector before the two reshapes is the launched one. -/
theorem w12_arg9 : W12 m ρ c (Proc.devRef .tc main_arg9) = m ((c : Thread nD τ).loc main_arg9) := by
  refine Eq.trans (Eq.symm ?_) (W14_main_arg9 m ρ c)
  wreg W14_of_ne
  whost hostOps6
  rfl

/-- The second closing bias vector likewise. -/
theorem w12_arg11 : W12 m ρ c (Proc.devRef .tc main_arg11) = m ((c : Thread nD τ).loc main_arg11) := by
  refine Eq.trans (Eq.symm ?_) (W14_main_arg11 m ρ c)
  wreg W14_of_ne
  whost hostOps6
  rfl

/-- The two reshapes do not write the closing region's input. -/
theorem w13_v123 : W13 m ρ c (Proc.devRef .tc main_v123) = W12 m ρ c (Proc.devRef .tc main_v123) := by
  whost hostOps6
  rfl

/-- The first bias row at the closing region's entry is the first bias vector laid out as one row. -/
theorem w13_v124 : (W13 m ρ c (Proc.devRef .tc main_v124) : S1x128.Idx → EReal)
    = shapeCast S1x128 (W12 m ρ c (Proc.devRef .tc main_arg9) : S128.Idx → EReal) shapeCasts_S128_S1x128 := by
  dsimp only [W13, hostOps6]
  after_results
  rfl

/-- The second bias row likewise. -/
theorem w13_v125 : (W13 m ρ c (Proc.devRef .tc main_v125) : S1x40.Idx → EReal)
    = shapeCast S1x40 (W12 m ρ c (Proc.devRef .tc main_arg11) : S40.Idx → EReal) shapeCasts_S40_S1x40 := by
  dsimp only [W13, hostOps6]
  after_results
  rfl

/-- The result array after the closing region. -/
theorem final_value :
    W14 m ρ c (Proc.devRef .tc main_v126)
      = Net.final (W12 m ρ c (Proc.devRef .tc main_v123)) (fun k j => m ((c : Thread nD τ).loc main_arg8) (ix2 k j))
          (fun j => m ((c : Thread nD τ).loc main_arg9) (ix1 j)) (fun k j => m ((c : Thread nD τ).loc main_arg10) (ix2 k j))
          (fun j => m ((c : Thread nD τ).loc main_arg11) (ix1 j)) := by
  refine (W14_arr m ρ c 5).trans ?_
  refine (Cert.KernelIdeal.TileValue.final6 (V13 m ρ) c).trans ?_
  show Net.final (W13 m ρ c (Proc.devRef .tc main_v123)) (fun k j => W13 m ρ c (Proc.devRef .tc main_arg8) (ix2 k j))
      (fun j => (W13 m ρ c (Proc.devRef .tc main_v124) : S1x128.Idx → EReal) (ix2 (0 : Fin 1) j))
      (fun k j => W13 m ρ c (Proc.devRef .tc main_arg10) (ix2 k j))
      (fun j => (W13 m ρ c (Proc.devRef .tc main_v125) : S1x40.Idx → EReal) (ix2 (0 : Fin 1) j)) = _
  rw [w13_v123 m ρ c, w13_arg8 m ρ c, w13_arg10 m ρ c, w13_v124 m ρ c, w13_v125 m ρ c]
  have e1 : (fun j : Fin 128 => shapeCast S1x128 (W12 m ρ c (Proc.devRef .tc main_arg9) : S128.Idx → EReal) shapeCasts_S128_S1x128 (ix2 (0 : Fin 1) j))
      = fun j => m ((c : Thread nD τ).loc main_arg9) (ix1 j) :=
    funext fun j => (Cert.KRead.vec_row_read _ shapeCasts_S128_S1x128 j).trans (congrFun (w12_arg9 m ρ c) (ix1 j))
  have e2 : (fun j : Fin 40 => shapeCast S1x40 (W12 m ρ c (Proc.devRef .tc main_arg11) : S40.Idx → EReal) shapeCasts_S40_S1x40 (ix2 (0 : Fin 1) j))
      = fun j => m ((c : Thread nD τ).loc main_arg11) (ix1 j) :=
    funext fun j => (Cert.KRead.vec_row_read _ shapeCasts_S40_S1x40 j).trans (congrFun (w12_arg11 m ρ c) (ix1 j))
  rw [e1, e2]

end Cert.KernelIdeal.KValue

end
-- ==== Proof.KValue.lean ====
/-
  The value of the idealized kernel's result array: the whole network, written with the variance "mean of squares minus
  square of the mean", of the twelve argument arrays as launched — three times an aggregation over the edges followed by a
  layer, then the closing two weight matrices and the row-wise log-softmax.
-/
import proofs.«149897_j14525579395559_1_alg».proof.Proof.KLayer0
import proofs.«149897_j14525579395559_1_alg».proof.Proof.KLayer1
import proofs.«149897_j14525579395559_1_alg».proof.Proof.KLayer2
import proofs.«149897_j14525579395559_1_alg».proof.Proof.KAgg
import proofs.«149897_j14525579395559_1_alg».proof.Proof.KFinal

set_option maxRecDepth 16384

noncomputable section

namespace Cert.KernelIdeal.KValue

open Cert.KernelIdeal Cert.KernelIdeal.Gen Cert.Net
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- After the last region the result array holds the network of the arguments. -/
theorem kernel_value : W14 m ρ c (Proc.devRef .tc main_v126)
    = net varK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h0 : hin0 m ρ c = agg (m ((c : Thread nD τ).loc main_arg0)) (m ((c : Thread nD τ).loc main_arg1)) := agg0 m ρ c
  have h1 : hin1 m ρ c = agg (W4 m ρ c (Proc.devRef .tc main_v43)) (m ((c : Thread nD τ).loc main_arg1)) := agg1 m ρ c
  have h2 : hin2 m ρ c = agg (W8 m ρ c (Proc.devRef .tc main_v83)) (m ((c : Thread nD τ).loc main_arg1)) := agg2 m ρ c
  rw [final_value m ρ c, layer2 m ρ c, h2, layer1 m ρ c, h1, layer0 m ρ c, h0]
  rfl

end Cert.KernelIdeal.KValue

end
-- ==== Proof.RefMainEq.lean ====
/-
  The reference program is its list of operations run in order. A call of one of the program's functions runs the
  function's body on the call's own buffers: that body is the run of the body's operations over those buffers (the
  typed references' transports are the identity at literal buffers). The program is printed in four consecutive
  windows; each window, its calls replaced by those runs, is the run of the pieces of the list that fall into it, once
  the sequencing is re-associated. The windows run one after the other are the whole list.
-/
import proofs.«149897_j14525579395559_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.gather Host.scatterAdd Host.reduceAdd Host.reduce in
/-- The call into record `main_call0` is the run of the function's operations over that record's buffers. -/
theorem main_call0_eq : fn_var.body (F := F) (.of main_v22 : StableHlo.TRef sig ⟨S50000x128, .f32⟩) (.of main_c_3 : StableHlo.TRef sig ⟨S_, .i32⟩) main_call0 = seq
    [ StableHlo.nullary main_call0_cst (constant S_ .f32 0x00000000#32),
      StableHlo.binary main_v22 main_call0_cst main_call0_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
      StableHlo.unary main_call0_v0 main_call0_v1 ((broadcastInDim S1x128 ![1] bcast_S128_S1x128_1) : (⟨S128, .f32⟩ : BufTy).Contents (Elt F) → (⟨S1x128, .f32⟩ : BufTy).Contents (Elt F)),
      StableHlo.nullary main_call0_cst_0 (constant S_ .f32 0x47435000#32),
      StableHlo.unary main_call0_cst_0 main_call0_v2 ((broadcastInDim S1x128 ![] bcast_S_S1x128) : (⟨S_, .f32⟩ : BufTy).Contents (Elt F) → (⟨S1x128, .f32⟩ : BufTy).Contents (Elt F)),
      StableHlo.binary main_call0_v1 main_call0_v2 main_call0_v3 (Host.divf : (⟨S1x128, .f32⟩ : BufTy).Contents (Elt F) → (⟨S1x128, .f32⟩ : BufTy).Contents (Elt F) → (⟨S1x128, .f32⟩ : BufTy).Contents (Elt F)),
      StableHlo.unary main_call0_v3 main_call0_v4 ((broadcastInDim S50000x128 ![0, 1] bcast_S1x128_S50000x128_0_1) : (⟨S1x128, .f32⟩ : BufTy).Contents (Elt F) → (⟨S50000x128, .f32⟩ : BufTy).Contents (Elt F)),
      StableHlo.binary main_v22 main_call0_v4 main_call0_v5 (subf : (⟨S50000x128, .f32⟩ : BufTy).Contents (Elt F) → (⟨S50000x128, .f32⟩ : BufTy).Contents (Elt F) → (⟨S50000x128, .f32⟩ : BufTy).Contents (Elt F)),
      StableHlo.binary main_call0_v5 main_call0_v5 main_call0_v6 (mulf : (⟨S50000x128, .f32⟩ : BufTy).Contents (Elt F) → (⟨S50000x128, .f32⟩ : BufTy).Contents (Elt F) → (⟨S50000x128, .f32⟩ : BufTy).Contents (Elt F)),
      StableHlo.unary main_c_3 main_call0_v7 ((sitofp .f32) : (⟨S_, .i32⟩ : BufTy).Contents (Elt F) → (⟨S_, .f32⟩ : BufTy).Contents (Elt F)),
      StableHlo.nullary main_call0_cst_1 (constant S_ .f32 0x47435000#32),
      StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
      StableHlo.nullary main_call0_cst_2 (constant S_ .f32 0x00000000#32),
      StableHlo.binary main_call0_v6 main_call0_cst_2 main_call0_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
      StableHlo.unary main_call0_v9 main_call0_v10 ((broadcastInDim S1x128 ![1] bcast_S128_S1x128_1) : (⟨S128, .f32⟩ : BufTy).Contents (Elt F) → (⟨S1x128, .f32⟩ : BufTy).Contents (Elt F)),
      StableHlo.unary main_call0_v8 main_call0_v11 ((broadcastInDim S1x128 ![] bcast_S_S1x128) : (⟨S_, .f32⟩ : BufTy).Contents (Elt F) → (⟨S1x128, .f32⟩ : BufTy).Contents (Elt F)),
      StableHlo.binary main_call0_v10 main_call0_v11 main_call0_v12 (Host.divf : (⟨S1x128, .f32⟩ : BufTy).Contents (Elt F) → (⟨S1x128, .f32⟩ : BufTy).Contents (Elt F) → (⟨S1x128, .f32⟩ : BufTy).Contents (Elt F)),
      StableHlo.nullary main_call0_cst_3 (constant S_ .f32 0x00000000#32),
      StableHlo.binary main_call0_v8 main_call0_cst_3 main_call0_v13 ((cmpf .ogt) : (⟨S_, .f32⟩ : BufTy).Contents (Elt F) → (⟨S_, .f32⟩ : BufTy).Contents (Elt F) → (⟨S_, .i1⟩ : BufTy).Contents (Elt F)),
      StableHlo.nullary main_call0_cst_4 (constant S_ .f32 0x7FC00000#32),
      StableHlo.unary main_call0_cst_4 main_call0_call0_v0 (id : (⟨S_, .f32⟩ : BufTy).Contents (Elt F) → (⟨S_, .f32⟩ : BufTy).Contents (Elt F)),
      StableHlo.unary main_call0_call0_v0 main_call0_call0_v1 ((broadcastInDim S1x128 ![] bcast_S_S1x128) : (⟨S_, .f32⟩ : BufTy).Contents (Elt F) → (⟨S1x128, .f32⟩ : BufTy).Contents (Elt F)),
      StableHlo.ternary main_call0_v13 main_call0_v12 main_call0_call0_v1 main_v31 ((fun p a b => select (broadcastInDim S1x128 ![] bcast_S_S1x128 p) a b) : (⟨S_, .i1⟩ : BufTy).Contents (Elt F) → (⟨S1x128, .f32⟩ : BufTy).Contents (Elt F) → (⟨S1x128, .f32⟩ : BufTy).Contents (Elt F) → (⟨S1x128, .f32⟩ : BufTy).Contents (Elt F)) ] := by
  simp only [fn_var.body, fn_where.body, seq, bind_assoc, pure_bind]
  rfl

attribute [local irreducible] Host.gather Host.scatterAdd Host.reduceAdd Host.reduce in
/-- The call into record `main_call1` is the run of the function's operations over that record's buffers. -/
theorem main_call1_eq : fn_relu.body (F := F) (.of main_v44 : StableHlo.TRef sig ⟨S50000x128, .f32⟩) main_call1 = seq
    [ StableHlo.nullary main_call1_cst (constant S_ .f32 0x00000000#32),
      StableHlo.unary main_call1_cst main_call1_v0 ((broadcastInDim S50000x128 ![] bcast_S_S50000x128) : (⟨S_, .f32⟩ : BufTy).Contents (Elt F) → (⟨S50000x128, .f32⟩ : BufTy).Contents (Elt F)),
      StableHlo.binary main_v44 main_call1_v0 main_v45 (maximumf : (⟨S50000x128, .f32⟩ : BufTy).Contents (Elt F) → (⟨S50000x128, .f32⟩ : BufTy).Contents (Elt F) → (⟨S50000x128, .f32⟩ : BufTy).Contents (Elt F)) ] := by
  simp only [fn_relu.body, seq, bind_assoc, pure_bind]
  rfl

attribute [local irreducible] Host.gather Host.scatterAdd Host.reduceAdd Host.reduce in
/-- The call into record `main_call2` is the run of the function's operations over that record's buffers. -/
theorem main_call2_eq : fn_relu.body (F := F) (.of main_v53 : StableHlo.TRef sig ⟨S50000x128, .f32⟩) main_call2 = seq
    [ StableHlo.nullary main_call2_cst (constant S_ .f32 0x00000000#32),
      StableHlo.unary main_call2_cst main_call2_v0 ((broadcastInDim S50000x128 ![] bcast_S_S50000x128) : (⟨S_, .f32⟩ : BufTy).Contents (Elt F) → (⟨S50000x128, .f32⟩ : BufTy).Contents (Elt F)),
      StableHlo.binary main_v53 main_call2_v0 main_v54 (maximumf : (⟨S50000x128, .f32⟩ : BufTy).Contents (Elt F) → (⟨S50000x128, .f32⟩ : BufTy).Contents (Elt F) → (⟨S50000x128, .f32⟩ : BufTy).Contents (Elt F)) ] := by
  simp only [fn_relu.body, seq, bind_assoc, pure_bind]
  rfl

attribute [local irreducible] Host.gather Host.scatterAdd Host.reduceAdd Host.reduce in
/-- The call into record `main_call3` is the run of the function's operations over that record's buffers. -/
theorem main_call3_eq : fn_var.body (F := F) (.of main_v73 : StableHlo.TRef sig ⟨S50000x128, .f32⟩) (.of main_c_10 : StableHlo.TRef sig ⟨S_, .i32⟩) main_call3 = seq
    [ StableHlo.nullary main_call3_cst (constant S_ .f32 0x00000000#32),
      StableHlo.binary main_v73 main_call3_cst main_call3_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
      StableHlo.unary main_call3_v0 main_call3_v1 ((broadcastInDim S1x128 ![1] bcast_S128_S1x128_1) : (⟨S128, .f32⟩ : BufTy).Contents (Elt F) → (⟨S1x128, .f32⟩ : BufTy).Contents (Elt F)),
      StableHlo.nullary main_call3_cst_0 (constant S_ .f32 0x47435000#32),
      StableHlo.unary main_call3_cst_0 main_call3_v2 ((broadcastInDim S1x128 ![] bcast_S_S1x128) : (⟨S_, .f32⟩ : BufTy).Contents (Elt F) → (⟨S1x128, .f32⟩ : BufTy).Contents (Elt F)),
      StableHlo.binary main_call3_v1 main_call3_v2 main_call3_v3 (Host.divf : (⟨S1x128, .f32⟩ : BufTy).Contents (Elt F) → (⟨S1x128, .f32⟩ : BufTy).Contents (Elt F) → (⟨S1x128, .f32⟩ : BufTy).Contents (Elt F)),
      StableHlo.unary main_call3_v3 main_call3_v4 ((broadcastInDim S50000x128 ![0, 1] bcast_S1x128_S50000x128_0_1) : (⟨S1x128, .f32⟩ : BufTy).Contents (Elt F) → (⟨S50000x128, .f32⟩ : BufTy).Contents (Elt F)),
      StableHlo.binary main_v73 main_call3_v4 main_call3_v5 (subf : (⟨S50000x128, .f32⟩ : BufTy).Contents (Elt F) → (⟨S50000x128, .f32⟩ : BufTy).Contents (Elt F) → (⟨S50000x128, .f32⟩ : BufTy).Contents (Elt F)),
      StableHlo.binary main_call3_v5 main_call3_v5 main_call3_v6 (mulf : (⟨S50000x128, .f32⟩ : BufTy).Contents (Elt F) → (⟨S50000x128, .f32⟩ : BufTy).Contents (Elt F) → (⟨S50000x128, .f32⟩ : BufTy).Contents (Elt F)),
      StableHlo.unary main_c_10 main_call3_v7 ((sitofp .f32) : (⟨S_, .i32⟩ : BufTy).Contents (Elt F) → (⟨S_, .f32⟩ : BufTy).Contents (Elt F)),
      StableHlo.nullary main_call3_cst_1 (constant S_ .f32 0x47435000#32),
      StableHlo.binary main_call3_cst_1 main_call3_v7 main_call3_v8 (subf : (⟨S_, .f32⟩ : BufTy).Contents (Elt F) → (⟨S_, .f32⟩ : BufTy).Contents (Elt F) → (⟨S_, .f32⟩ : BufTy).Contents (Elt F)),
      StableHlo.nullary main_call3_cst_2 (constant S_ .f32 0x00000000#32),
      StableHlo.binary main_call3_v6 main_call3_cst_2 main_call3_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
      StableHlo.unary main_call3_v9 main_call3_v10 ((broadcastInDim S1x128 ![1] bcast_S128_S1x128_1) : (⟨S128, .f32⟩ : BufTy).Contents (Elt F) → (⟨S1x128, .f32⟩ : BufTy).Contents (Elt F)),
      StableHlo.unary main_call3_v8 main_call3_v11 ((broadcastInDim S1x128 ![] bcast_S_S1x128) : (⟨S_, .f32⟩ : BufTy).Contents (Elt F) → (⟨S1x128, .f32⟩ : BufTy).Contents (Elt F)),
      StableHlo.binary main_call3_v10 main_call3_v11 main_call3_v12 (Host.divf : (⟨S1x128, .f32⟩ : BufTy).Contents (Elt F) → (⟨S1x128, .f32⟩ : BufTy).Contents (Elt F) → (⟨S1x128, .f32⟩ : BufTy).Contents (Elt F)),
      StableHlo.nullary main_call3_cst_3 (constant S_ .f32 0x00000000#32),
      StableHlo.binary main_call3_v8 main_call3_cst_3 main_call3_v13 ((cmpf .ogt) : (⟨S_, .f32⟩ : BufTy).Contents (Elt F) → (⟨S_, .f32⟩ : BufTy).Contents (Elt F) → (⟨S_, .i1⟩ : BufTy).Contents (Elt F)),
      StableHlo.nullary main_call3_cst_4 (constant S_ .f32 0x7FC00000#32),
      StableHlo.unary main_call3_cst_4 main_call3_call0_v0 (id : (⟨S_, .f32⟩ : BufTy).Contents (Elt F) → (⟨S_, .f32⟩ : BufTy).Contents (Elt F)),
      StableHlo.unary main_call3_call0_v0 main_call3_call0_v1 ((broadcastInDim S1x128 ![] bcast_S_S1x128) : (⟨S_, .f32⟩ : BufTy).Contents (Elt F) → (⟨S1x128, .f32⟩ : BufTy).Contents (Elt F)),
      StableHlo.ternary main_call3_v13 main_call3_v12 main_call3_call0_v1 main_v82 ((fun p a b => select (broadcastInDim S1x128 ![] bcast_S_S1x128 p) a b) : (⟨S_, .i1⟩ : BufTy).Contents (Elt F) → (⟨S1x128, .f32⟩ : BufTy).Contents (Elt F) → (⟨S1x128, .f32⟩ : BufTy).Contents (Elt F) → (⟨S1x128, .f32⟩ : BufTy).Contents (Elt F)) ] := by
  simp only [fn_var.body, fn_where.body, seq, bind_assoc, pure_bind]
  rfl

attribute [local irreducible] Host.gather Host.scatterAdd Host.reduceAdd Host.reduce in
/-- The call into record `main_call4` is the run of the function's operations over that record's buffers. -/
theorem main_call4_eq : fn_relu.body (F := F) (.of main_v95 : StableHlo.TRef sig ⟨S50000x128, .f32⟩) main_call4 = seq
    [ StableHlo.nullary main_call4_cst (constant S_ .f32 0x00000000#32),
      StableHlo.unary main_call4_cst main_call4_v0 ((broadcastInDim S50000x128 ![] bcast_S_S50000x128) : (⟨S_, .f32⟩ : BufTy).Contents (Elt F) → (⟨S50000x128, .f32⟩ : BufTy).Contents (Elt F)),
      StableHlo.binary main_v95 main_call4_v0 main_v96 (maximumf : (⟨S50000x128, .f32⟩ : BufTy).Contents (Elt F) → (⟨S50000x128, .f32⟩ : BufTy).Contents (Elt F) → (⟨S50000x128, .f32⟩ : BufTy).Contents (Elt F)) ] := by
  simp only [fn_relu.body, seq, bind_assoc, pure_bind]
  rfl

attribute [local irreducible] Host.gather Host.scatterAdd Host.reduceAdd Host.reduce in
/-- The call into record `main_call5` is the run of the function's operations over that record's buffers. -/
theorem main_call5_eq : fn_relu.body (F := F) (.of main_v104 : StableHlo.TRef sig ⟨S50000x128, .f32⟩) main_call5 = seq
    [ StableHlo.nullary main_call5_cst (constant S_ .f32 0x00000000#32),
      StableHlo.unary main_call5_cst main_call5_v0 ((broadcastInDim S50000x128 ![] bcast_S_S50000x128) : (⟨S_, .f32⟩ : BufTy).Contents (Elt F) → (⟨S50000x128, .f32⟩ : BufTy).Contents (Elt F)),
      StableHlo.binary main_v104 main_call5_v0 main_v105 (maximumf : (⟨S50000x128, .f32⟩ : BufTy).Contents (Elt F) → (⟨S50000x128, .f32⟩ : BufTy).Contents (Elt F) → (⟨S50000x128, .f32⟩ : BufTy).Contents (Elt F)) ] := by
  simp only [fn_relu.body, seq, bind_assoc, pure_bind]
  rfl

attribute [local irreducible] Host.gather Host.scatterAdd Host.reduceAdd Host.reduce in
/-- The call into record `main_call6` is the run of the function's operations over that record's buffers. -/
theorem main_call6_eq : fn_var.body (F := F) (.of main_v124 : StableHlo.TRef sig ⟨S50000x128, .f32⟩) (.of main_c_17 : StableHlo.TRef sig ⟨S_, .i32⟩) main_call6 = seq
    [ StableHlo.nullary main_call6_cst (constant S_ .f32 0x00000000#32),
      StableHlo.binary main_v124 main_call6_cst main_call6_v0 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
      StableHlo.unary main_call6_v0 main_call6_v1 ((broadcastInDim S1x128 ![1] bcast_S128_S1x128_1) : (⟨S128, .f32⟩ : BufTy).Contents (Elt F) → (⟨S1x128, .f32⟩ : BufTy).Contents (Elt F)),
      StableHlo.nullary main_call6_cst_0 (constant S_ .f32 0x47435000#32),
      StableHlo.unary main_call6_cst_0 main_call6_v2 ((broadcastInDim S1x128 ![] bcast_S_S1x128) : (⟨S_, .f32⟩ : BufTy).Contents (Elt F) → (⟨S1x128, .f32⟩ : BufTy).Contents (Elt F)),
      StableHlo.binary main_call6_v1 main_call6_v2 main_call6_v3 (Host.divf : (⟨S1x128, .f32⟩ : BufTy).Contents (Elt F) → (⟨S1x128, .f32⟩ : BufTy).Contents (Elt F) → (⟨S1x128, .f32⟩ : BufTy).Contents (Elt F)),
      StableHlo.unary main_call6_v3 main_call6_v4 ((broadcastInDim S50000x128 ![0, 1] bcast_S1x128_S50000x128_0_1) : (⟨S1x128, .f32⟩ : BufTy).Contents (Elt F) → (⟨S50000x128, .f32⟩ : BufTy).Contents (Elt F)),
      StableHlo.binary main_v124 main_call6_v4 main_call6_v5 (subf : (⟨S50000x128, .f32⟩ : BufTy).Contents (Elt F) → (⟨S50000x128, .f32⟩ : BufTy).Contents (Elt F) → (⟨S50000x128, .f32⟩ : BufTy).Contents (Elt F)),
      StableHlo.binary main_call6_v5 main_call6_v5 main_call6_v6 (mulf : (⟨S50000x128, .f32⟩ : BufTy).Contents (Elt F) → (⟨S50000x128, .f32⟩ : BufTy).Contents (Elt F) → (⟨S50000x128, .f32⟩ : BufTy).Contents (Elt F)),
      StableHlo.unary main_c_17 main_call6_v7 ((sitofp .f32) : (⟨S_, .i32⟩ : BufTy).Contents (Elt F) → (⟨S_, .f32⟩ : BufTy).Contents (Elt F)),
      StableHlo.nullary main_call6_cst_1 (constant S_ .f32 0x47435000#32),
      StableHlo.binary main_call6_cst_1 main_call6_v7 main_call6_v8 (subf : (⟨S_, .f32⟩ : BufTy).Contents (Elt F) → (⟨S_, .f32⟩ : BufTy).Contents (Elt F) → (⟨S_, .f32⟩ : BufTy).Contents (Elt F)),
      StableHlo.nullary main_call6_cst_2 (constant S_ .f32 0x00000000#32),
      StableHlo.binary main_call6_v6 main_call6_cst_2 main_call6_v9 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
      StableHlo.unary main_call6_v9 main_call6_v10 ((broadcastInDim S1x128 ![1] bcast_S128_S1x128_1) : (⟨S128, .f32⟩ : BufTy).Contents (Elt F) → (⟨S1x128, .f32⟩ : BufTy).Contents (Elt F)),
      StableHlo.unary main_call6_v8 main_call6_v11 ((broadcastInDim S1x128 ![] bcast_S_S1x128) : (⟨S_, .f32⟩ : BufTy).Contents (Elt F) → (⟨S1x128, .f32⟩ : BufTy).Contents (Elt F)),
      StableHlo.binary main_call6_v10 main_call6_v11 main_call6_v12 (Host.divf : (⟨S1x128, .f32⟩ : BufTy).Contents (Elt F) → (⟨S1x128, .f32⟩ : BufTy).Contents (Elt F) → (⟨S1x128, .f32⟩ : BufTy).Contents (Elt F)),
      StableHlo.nullary main_call6_cst_3 (constant S_ .f32 0x00000000#32),
      StableHlo.binary main_call6_v8 main_call6_cst_3 main_call6_v13 ((cmpf .ogt) : (⟨S_, .f32⟩ : BufTy).Contents (Elt F) → (⟨S_, .f32⟩ : BufTy).Contents (Elt F) → (⟨S_, .i1⟩ : BufTy).Contents (Elt F)),
      StableHlo.nullary main_call6_cst_4 (constant S_ .f32 0x7FC00000#32),
      StableHlo.unary main_call6_cst_4 main_call6_call0_v0 (id : (⟨S_, .f32⟩ : BufTy).Contents (Elt F) → (⟨S_, .f32⟩ : BufTy).Contents (Elt F)),
      StableHlo.unary main_call6_call0_v0 main_call6_call0_v1 ((broadcastInDim S1x128 ![] bcast_S_S1x128) : (⟨S_, .f32⟩ : BufTy).Contents (Elt F) → (⟨S1x128, .f32⟩ : BufTy).Contents (Elt F)),
      StableHlo.ternary main_call6_v13 main_call6_v12 main_call6_call0_v1 main_v133 ((fun p a b => select (broadcastInDim S1x128 ![] bcast_S_S1x128 p) a b) : (⟨S_, .i1⟩ : BufTy).Contents (Elt F) → (⟨S1x128, .f32⟩ : BufTy).Contents (Elt F) → (⟨S1x128, .f32⟩ : BufTy).Contents (Elt F) → (⟨S1x128, .f32⟩ : BufTy).Contents (Elt F)) ] := by
  simp only [fn_var.body, fn_where.body, seq, bind_assoc, pure_bind]
  rfl

attribute [local irreducible] Host.gather Host.scatterAdd Host.reduceAdd Host.reduce in
/-- The call into record `main_call7` is the run of the function's operations over that record's buffers. -/
theorem main_call7_eq : fn_relu.body (F := F) (.of main_v146 : StableHlo.TRef sig ⟨S50000x128, .f32⟩) main_call7 = seq
    [ StableHlo.nullary main_call7_cst (constant S_ .f32 0x00000000#32),
      StableHlo.unary main_call7_cst main_call7_v0 ((broadcastInDim S50000x128 ![] bcast_S_S50000x128) : (⟨S_, .f32⟩ : BufTy).Contents (Elt F) → (⟨S50000x128, .f32⟩ : BufTy).Contents (Elt F)),
      StableHlo.binary main_v146 main_call7_v0 main_v147 (maximumf : (⟨S50000x128, .f32⟩ : BufTy).Contents (Elt F) → (⟨S50000x128, .f32⟩ : BufTy).Contents (Elt F) → (⟨S50000x128, .f32⟩ : BufTy).Contents (Elt F)) ] := by
  simp only [fn_relu.body, seq, bind_assoc, pure_bind]
  rfl

attribute [local irreducible] Host.gather Host.scatterAdd Host.reduceAdd Host.reduce in
/-- The call into record `main_call8` is the run of the function's operations over that record's buffers. -/
theorem main_call8_eq : fn_relu.body (F := F) (.of main_v155 : StableHlo.TRef sig ⟨S50000x128, .f32⟩) main_call8 = seq
    [ StableHlo.nullary main_call8_cst (constant S_ .f32 0x00000000#32),
      StableHlo.unary main_call8_cst main_call8_v0 ((broadcastInDim S50000x128 ![] bcast_S_S50000x128) : (⟨S_, .f32⟩ : BufTy).Contents (Elt F) → (⟨S50000x128, .f32⟩ : BufTy).Contents (Elt F)),
      StableHlo.binary main_v155 main_call8_v0 main_v156 (maximumf : (⟨S50000x128, .f32⟩ : BufTy).Contents (Elt F) → (⟨S50000x128, .f32⟩ : BufTy).Contents (Elt F) → (⟨S50000x128, .f32⟩ : BufTy).Contents (Elt F)) ] := by
  simp only [fn_relu.body, seq, bind_assoc, pure_bind]
  rfl

attribute [local irreducible] Host.gather Host.scatterAdd Host.reduceAdd Host.reduce in
/-- The call into record `main_call9` is the run of the function's operations over that record's buffers. -/
theorem main_call9_eq : fn_relu.body (F := F) (.of main_v160 : StableHlo.TRef sig ⟨S50000x128, .f32⟩) main_call9 = seq
    [ StableHlo.nullary main_call9_cst (constant S_ .f32 0x00000000#32),
      StableHlo.unary main_call9_cst main_call9_v0 ((broadcastInDim S50000x128 ![] bcast_S_S50000x128) : (⟨S_, .f32⟩ : BufTy).Contents (Elt F) → (⟨S50000x128, .f32⟩ : BufTy).Contents (Elt F)),
      StableHlo.binary main_v160 main_call9_v0 main_v161 (maximumf : (⟨S50000x128, .f32⟩ : BufTy).Contents (Elt F) → (⟨S50000x128, .f32⟩ : BufTy).Contents (Elt F) → (⟨S50000x128, .f32⟩ : BufTy).Contents (Elt F)) ] := by
  simp only [fn_relu.body, seq, bind_assoc, pure_bind]
  rfl

attribute [local irreducible] Host.gather Host.scatterAdd Host.reduceAdd Host.reduce in
/-- The call into record `main_call10` is the run of the function's operations over that record's buffers. -/
theorem main_call10_eq : fn_log_softmax.body (F := F) (.of main_v165 : StableHlo.TRef sig ⟨S50000x40, .f32⟩) main_call10 = seq
    [ StableHlo.nullary main_call10_cst (constant S_ .f32 0xFF800000#32),
      StableHlo.binary main_v165 main_call10_cst main_call10_v0 ((fun x v => Host.reduce FloatOps.maximumf x v reducesTo_S50000x40_S50000_d1 h_S_) : (⟨S50000x40, .f32⟩ : BufTy).Contents (Elt F) → (⟨S_, .f32⟩ : BufTy).Contents (Elt F) → (⟨S50000, .f32⟩ : BufTy).Contents (Elt F)),
      StableHlo.nullary main_call10_cst_0 (constant S_ .f32 0xFF800000#32),
      StableHlo.unary main_call10_cst_0 main_call10_v1 ((broadcastInDim S50000 ![] bcast_S_S50000) : (⟨S_, .f32⟩ : BufTy).Contents (Elt F) → (⟨S50000, .f32⟩ : BufTy).Contents (Elt F)),
      StableHlo.binary main_call10_v1 main_call10_v0 main_call10_v2 (maximumf : (⟨S50000, .f32⟩ : BufTy).Contents (Elt F) → (⟨S50000, .f32⟩ : BufTy).Contents (Elt F) → (⟨S50000, .f32⟩ : BufTy).Contents (Elt F)),
      StableHlo.unary main_call10_v2 main_call10_v3 ((broadcastInDim S50000x1 ![0] bcast_S50000_S50000x1_0) : (⟨S50000, .f32⟩ : BufTy).Contents (Elt F) → (⟨S50000x1, .f32⟩ : BufTy).Contents (Elt F)),
      StableHlo.unary main_call10_v3 main_call10_v4 ((broadcastInDim S50000x40 ![0, 1] bcast_S50000x1_S50000x40_0_1) : (⟨S50000x1, .f32⟩ : BufTy).Contents (Elt F) → (⟨S50000x40, .f32⟩ : BufTy).Contents (Elt F)),
      StableHlo.binary main_v165 main_call10_v4 main_call10_v5 (subf : (⟨S50000x40, .f32⟩ : BufTy).Contents (Elt F) → (⟨S50000x40, .f32⟩ : BufTy).Contents (Elt F) → (⟨S50000x40, .f32⟩ : BufTy).Contents (Elt F)),
      StableHlo.unary main_call10_v5 main_call10_v6 (Host.exp : (⟨S50000x40, .f32⟩ : BufTy).Contents (Elt F) → (⟨S50000x40, .f32⟩ : BufTy).Contents (Elt F)),
      StableHlo.nullary main_call10_cst_1 (constant S_ .f32 0x00000000#32),
      StableHlo.binary main_call10_v6 main_call10_cst_1 main_call10_v7 ((fun x v => Host.reduceAdd x v reducesTo_S50000x40_S50000_d1 h_S_) : (⟨S50000x40, .f32⟩ : BufTy).Contents (Elt F) → (⟨S_, .f32⟩ : BufTy).Contents (Elt F) → (⟨S50000, .f32⟩ : BufTy).Contents (Elt F)),
      StableHlo.unary main_call10_v7 main_call10_v8 ((broadcastInDim S50000x1 ![0] bcast_S50000_S50000x1_0) : (⟨S50000, .f32⟩ : BufTy).Contents (Elt F) → (⟨S50000x1, .f32⟩ : BufTy).Contents (Elt F)),
      StableHlo.unary main_call10_v8 main_call10_v9 (Host.log : (⟨S50000x1, .f32⟩ : BufTy).Contents (Elt F) → (⟨S50000x1, .f32⟩ : BufTy).Contents (Elt F)),
      StableHlo.unary main_call10_v9 main_call10_v10 ((broadcastInDim S50000x40 ![0, 1] bcast_S50000x1_S50000x40_0_1) : (⟨S50000x1, .f32⟩ : BufTy).Contents (Elt F) → (⟨S50000x40, .f32⟩ : BufTy).Contents (Elt F)),
      StableHlo.binary main_call10_v5 main_call10_v10 main_v166 (subf : (⟨S50000x40, .f32⟩ : BufTy).Contents (Elt F) → (⟨S50000x40, .f32⟩ : BufTy).Contents (Elt F) → (⟨S50000x40, .f32⟩ : BufTy).Contents (Elt F)) ] := by
  simp only [fn_log_softmax.body, seq, bind_assoc, pure_bind]
  rfl

set_option maxHeartbeats 4000000 in
/-- Window `main_part0` is the run of its pieces. -/
theorem main_part0_eq (c : Dev nD) : main_part0 (F := F) c = seq (p0 ++ (p1)) := by
  simp only [main_part0, main_call0_eq, main_call1_eq, p0, p1, List.cons_append, List.nil_append, seq,
    bind_assoc, pure_bind]
  all_goals rfl

set_option maxHeartbeats 4000000 in
/-- Window `main_part1` is the run of its pieces. -/
theorem main_part1_eq (c : Dev nD) : main_part1 (F := F) c = seq (p2 ++ (p3 ++ (p4))) := by
  simp only [main_part1, main_call2_eq, main_call3_eq, main_call4_eq, main_call5_eq, p2, p3, p4, List.cons_append, List.nil_append, seq,
    bind_assoc, pure_bind]
  all_goals rfl

set_option maxHeartbeats 4000000 in
/-- Window `main_part2` is the run of its pieces. -/
theorem main_part2_eq (c : Dev nD) : main_part2 (F := F) c = seq (p5 ++ (p6 ++ (p7))) := by
  simp only [main_part2, main_call6_eq, main_call7_eq, main_call8_eq, p5, p6, p7, List.cons_append, List.nil_append, seq,
    bind_assoc, pure_bind]
  all_goals rfl

set_option maxHeartbeats 4000000 in
/-- Window `main_part3` is the run of its pieces. -/
theorem main_part3_eq (c : Dev nD) : main_part3 (F := F) c = seq (p8) := by
  simp only [main_part3, main_call9_eq, main_call10_eq, p8, List.cons_append, List.nil_append, seq,
    bind_assoc, pure_bind]
  all_goals rfl

/-- The whole program is the run of the whole list. -/
theorem main_eq (c : Dev nD) : main (F := F) c = seq ops := by
  have h : (ops : List (HloOp τ sig (Elt F))) = (p0 ++ p1) ++ ((p2 ++ (p3 ++ p4)) ++ ((p5 ++ (p6 ++ p7)) ++ p8)) := by
    simp only [ops, List.append_assoc]
  rw [h, seq_append (p0 ++ p1) _, seq_append (p2 ++ (p3 ++ p4)) _, seq_append (p5 ++ (p6 ++ p7)) p8,
    ← main_part0_eq c, ← main_part1_eq c, ← main_part2_eq c, ← main_part3_eq c]
  rfl

end Cert.ReferenceIdeal.RefRun

end
-- ==== Proof.RefSub.lean ====
/-
  Side conditions of the run: the signature scopes no buffer and no semaphore; every operation of the list touches
  TensorCore references only, and determines everything it writes. Each is checked piece by piece and joined over the
  concatenation.
-/
import proofs.«149897_j14525579395559_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

theorem p0_sub : (p0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
theorem p0_fresh : (p0 : List (HloOp τ sig (Elt F))).Forall fun op => op.fresh = ∅ :=
  ⟨rfl, rfl, rfl, rfl, rfl, rfl, rfl, rfl, rfl, rfl, rfl, rfl, rfl, rfl, rfl, rfl, rfl, rfl⟩

theorem p1_sub : (p1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub ..⟩
theorem p1_fresh : (p1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem p2_sub : (p2 : List (HloOp τ sig (Elt F))).Forall fun op => op.bufs ⊆ tcRefs τ sig :=
  ⟨binary_bufs_sub .., nullary_bufs_sub .., unary_bufs_sub .., binary_bufs_sub ..⟩
theorem p2_fresh : (p2 : List (HloOp τ sig (Elt F))).Forall fun op => op.fresh = ∅ :=
  ⟨rfl, rfl, rfl, rfl⟩

theorem p3_sub : (p3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
theorem p3_fresh : (p3 : List (HloOp τ sig (Elt F))).Forall fun op => op.fresh = ∅ :=
  ⟨rfl, rfl, rfl, rfl, rfl, rfl, rfl, rfl, rfl, rfl, rfl, rfl, rfl, rfl⟩

theorem p4_sub : (p4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩
theorem p4_fresh : (p4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem p5_sub : (p5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩
theorem p5_fresh : (p5 : List (HloOp τ sig (Elt F))).Forall fun op => op.fresh = ∅ :=
  ⟨rfl, rfl, rfl, rfl, rfl, rfl, rfl, rfl, rfl, rfl, rfl, rfl, rfl, rfl⟩

theorem p6_sub : (p6 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩
theorem p6_fresh : (p6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem p7_sub : (p7 : List (HloOp τ sig (Elt F))).Forall fun op => op.bufs ⊆ tcRefs τ sig :=
  ⟨binary_bufs_sub .., unary_bufs_sub ..⟩
theorem p7_fresh : (p7 : List (HloOp τ sig (Elt F))).Forall fun op => op.fresh = ∅ :=
  ⟨rfl, rfl⟩

theorem p8_sub : (p8 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem p8_fresh : (p8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp p0_sub op h, List.forall_iff_forall_mem.mp p1_sub op h, List.forall_iff_forall_mem.mp p2_sub op h, List.forall_iff_forall_mem.mp p3_sub op h, List.forall_iff_forall_mem.mp p4_sub op h, List.forall_iff_forall_mem.mp p5_sub op h, List.forall_iff_forall_mem.mp p6_sub op h, List.forall_iff_forall_mem.mp p7_sub op h, List.forall_iff_forall_mem.mp p8_sub op h]

/-- Every operation determines everything it writes. -/
theorem ops_fresh : ∀ op ∈ (ops : List (HloOp τ sig (Elt F))), op.fresh = ∅ := fun op h => by
  simp only [ops, List.mem_append] at h
  rcases h with h | h | h | h | h | h | h | h | h
  exacts [List.forall_iff_forall_mem.mp p0_fresh op h, List.forall_iff_forall_mem.mp p1_fresh op h, List.forall_iff_forall_mem.mp p2_fresh op h, List.forall_iff_forall_mem.mp p3_fresh op h, List.forall_iff_forall_mem.mp p4_fresh op h, List.forall_iff_forall_mem.mp p5_fresh op h, List.forall_iff_forall_mem.mp p6_fresh op h, List.forall_iff_forall_mem.mp p7_fresh op h, List.forall_iff_forall_mem.mp p8_fresh op h]

end Cert.ReferenceIdeal.RefRun

end
-- ==== Proof.RefVals.lean ====
/-
  What each stage of the reference program leaves in its result buffer, over the extended reals, as the composed
  term of what the stage found in the buffers it reads: the aggregation of the node rows along the edges, the layer
  (weights, normalisation, cut at zero, weights, cut at zero), the closing stage (two weight matrices and the row-wise
  log-softmax). Joined stage by stage — a stage's inputs are the previous stage's result, the edge rows cut out at the
  start, and the arguments, which every stage in between leaves alone — the run ends with the whole network's term of
  the twelve arguments in the result buffer.
-/
import proofs.«149897_j14525579395559_1_alg».proof.Proof.RefKeep
import proofs.«149897_j14525579395559_1_alg».proof.Proof.RefTerms

noncomputable section

namespace Cert.ReferenceIdeal.RefRun

open Cert.ReferenceIdeal Cert.ReferenceIdeal.Gen Idealize.ShloMosaic Idealize.ShloMosaic.TcCoe Idealize.SL.Sem Idealize.ShloMosaic.StableHlo

open Cert.ReferenceIdeal.RefTerms

set_option Elab.async false

attribute [local irreducible] Host.gather Host.scatterAdd Host.reduceAdd Host.reduce in
set_option maxHeartbeats 4000000 in
/-- The senders' row of the edge list, cut out by the first aggregation. -/
theorem c1_v1 (V : Valuation τ sig (Elt Ideal)) :
    after (c1 (F := Ideal)) V (main_v1 : DevRef τ sig) = edgeRowT 0 (V (main_arg1 : DevRef τ sig)) := by
  simp only [c1, p0, List.cons_append, List.nil_append]
  after_results_simp
  rfl

attribute [local irreducible] Host.gather Host.scatterAdd Host.reduceAdd Host.reduce in
set_option maxHeartbeats 4000000 in
/-- The receivers' row of the edge list, cut out by the first aggregation. -/
theorem c1_v3 (V : Valuation τ sig (Elt Ideal)) :
    after (c1 (F := Ideal)) V (main_v3 : DevRef τ sig) = edgeRowT 1 (V (main_arg1 : DevRef τ sig)) := by
  simp only [c1, p0, List.cons_append, List.nil_append]
  after_results_simp
  rfl

attribute [local irreducible] Host.gather Host.scatterAdd Host.reduceAdd Host.reduce in
set_option maxHeartbeats 4000000 in
/-- The first aggregation's result. -/
theorem c1_v14 (V : Valuation τ sig (Elt Ideal)) :
    after (c1 (F := Ideal)) V (main_v14 : DevRef τ sig) = aggT (V (main_arg0 : DevRef τ sig)) (V (main_arg1 : DevRef τ sig)) := by
  simp only [c1, p0, List.cons_append, List.nil_append]
  after_results_simp
  rfl

attribute [local irreducible] Host.gather Host.scatterAdd Host.reduceAdd Host.reduce in
set_option maxHeartbeats 4000000 in
/-- Layer 0's result. -/
theorem c2_v54 (V : Valuation τ sig (Elt Ideal)) :
    after (c2 (F := Ideal)) V (main_v54 : DevRef τ sig) = layerT 0 (V (main_v14 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  simp only [c2, p1, p2, List.cons_append, List.nil_append]
  after_results_simp
  rfl

attribute [local irreducible] Host.gather Host.scatterAdd Host.reduceAdd Host.reduce in
set_option maxHeartbeats 4000000 in
/-- The second aggregation's result. -/
theorem c3_v65 (V : Valuation τ sig (Elt Ideal)) :
    after (c3 (F := Ideal)) V (main_v65 : DevRef τ sig) = aggRowsT (V (main_v54 : DevRef τ sig)) (V (main_v1 : DevRef τ sig)) (V (main_v3 : DevRef τ sig)) := by
  simp only [c3, p3, List.cons_append, List.nil_append]
  after_results_simp
  rfl

attribute [local irreducible] Host.gather Host.scatterAdd Host.reduceAdd Host.reduce in
set_option maxHeartbeats 4000000 in
/-- Layer 1's result. -/
theorem c4_v105 (V : Valuation τ sig (Elt Ideal)) :
    after (c4 (F := Ideal)) V (main_v105 : DevRef τ sig) = layerT 1 (V (main_v65 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  simp only [c4, p4, List.cons_append, List.nil_append]
  after_results_simp
  rfl

attribute [local irreducible] Host.gather Host.scatterAdd Host.reduceAdd Host.reduce in
set_option maxHeartbeats 4000000 in
/-- The third aggregation's result. -/
theorem c5_v116 (V : Valuation τ sig (Elt Ideal)) :
    after (c5 (F := Ideal)) V (main_v116 : DevRef τ sig) = aggRowsT (V (main_v105 : DevRef τ sig)) (V (main_v1 : DevRef τ sig)) (V (main_v3 : DevRef τ sig)) := by
  simp only [c5, p5, List.cons_append, List.nil_append]
  after_results_simp
  rfl

attribute [local irreducible] Host.gather Host.scatterAdd Host.reduceAdd Host.reduce in
set_option maxHeartbeats 4000000 in
/-- Layer 2's result. -/
theorem c6_v156 (V : Valuation τ sig (Elt Ideal)) :
    after (c6 (F := Ideal)) V (main_v156 : DevRef τ sig) = layerT 2 (V (main_v116 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  simp only [c6, p6, List.cons_append, List.nil_append]
  after_results_simp
  rfl

attribute [local irreducible] Host.gather Host.scatterAdd Host.reduceAdd Host.reduce in
set_option maxHeartbeats 4000000 in
/-- The closing stage's result. -/
theorem c7_v166 (V : Valuation τ sig (Elt Ideal)) :
    after (c7 (F := Ideal)) V (main_v166 : DevRef τ sig) = finalT (V (main_v156 : DevRef τ sig)) (V (main_arg8 : DevRef τ sig)) (V (main_arg9 : DevRef τ sig)) (V (main_arg10 : DevRef τ sig)) (V (main_arg11 : DevRef τ sig)) := by
  simp only [c7, p7, p8, List.cons_append, List.nil_append]
  after_results_simp
  rfl

attribute [local irreducible] Host.gather Host.scatterAdd Host.reduceAdd Host.reduce in
set_option maxHeartbeats 4000000 in
/-- After the whole run the result buffer holds the network's term of the twelve arguments. -/
theorem out_eq (V : Valuation τ sig (Elt Ideal)) :
    after (ops (F := Ideal)) V (main_v166 : DevRef τ sig)
      = netT (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  rw [after_ops]
  rw [c7_v166]
  rw [c6_v156, c6_keep _ main_arg8 (by decide), c6_keep _ main_arg9 (by decide), c6_keep _ main_arg10 (by decide), c6_keep _ main_arg11 (by decide)]
  rw [c5_v116, c5_keep _ main_arg2 (by decide), c5_keep _ main_arg3 (by decide), c5_keep _ main_arg4 (by decide), c5_keep _ main_arg5 (by decide), c5_keep _ main_arg6 (by decide), c5_keep _ main_arg7 (by decide), c5_keep _ main_arg8 (by decide), c5_keep _ main_arg9 (by decide), c5_keep _ main_arg10 (by decide), c5_keep _ main_arg11 (by decide)]
  rw [c4_v105, c4_keep _ main_v1 (by decide), c4_keep _ main_v3 (by decide), c4_keep _ main_arg2 (by decide), c4_keep _ main_arg3 (by decide), c4_keep _ main_arg4 (by decide), c4_keep _ main_arg5 (by decide), c4_keep _ main_arg6 (by decide), c4_keep _ main_arg7 (by decide), c4_keep _ main_arg8 (by decide), c4_keep _ main_arg9 (by decide), c4_keep _ main_arg10 (by decide), c4_keep _ main_arg11 (by decide)]
  rw [c3_v65, c3_keep _ main_arg2 (by decide), c3_keep _ main_arg3 (by decide), c3_keep _ main_arg4 (by decide), c3_keep _ main_arg5 (by decide), c3_keep _ main_arg6 (by decide), c3_keep _ main_arg7 (by decide), c3_keep _ main_v1 (by decide), c3_keep _ main_v3 (by decide), c3_keep _ main_arg8 (by decide), c3_keep _ main_arg9 (by decide), c3_keep _ main_arg10 (by decide), c3_keep _ main_arg11 (by decide)]
  rw [c2_v54, c2_keep _ main_v1 (by decide), c2_keep _ main_v3 (by decide), c2_keep _ main_arg2 (by decide), c2_keep _ main_arg3 (by decide), c2_keep _ main_arg4 (by decide), c2_keep _ main_arg5 (by decide), c2_keep _ main_arg6 (by decide), c2_keep _ main_arg7 (by decide), c2_keep _ main_arg8 (by decide), c2_keep _ main_arg9 (by decide), c2_keep _ main_arg10 (by decide), c2_keep _ main_arg11 (by decide)]
  rw [c1_v14, c1_keep _ main_arg2 (by decide), c1_keep _ main_arg3 (by decide), c1_keep _ main_arg4 (by decide), c1_keep _ main_arg5 (by decide), c1_keep _ main_arg6 (by decide), c1_keep _ main_arg7 (by decide), c1_v1, c1_v3, c1_keep _ main_arg8 (by decide), c1_keep _ main_arg9 (by decide), c1_keep _ main_arg10 (by decide), c1_keep _ main_arg11 (by decide)]
  rfl

end Cert.ReferenceIdeal.RefRun

end
-- ==== Proof.RefRun.lean ====
/-
  The run of the reference program. From any memory with zero counters every weakly fair execution terminates, and
  every TensorCore buffer ends at the contents the program's operations, applied in order, give it from the launch
  contents. With the stage-by-stage reading of those contents (the other modules of this family, gathered here), the
  result buffer ends at the network's term of the twelve arguments and the arguments are unchanged.
-/
import proofs.«149897_j14525579395559_1_alg».proof.Proof.RefMainEq
import proofs.«149897_j14525579395559_1_alg».proof.Proof.RefSub
import proofs.«149897_j14525579395559_1_alg».proof.Proof.RefKeep
import proofs.«149897_j14525579395559_1_alg».proof.Proof.RefVals

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- At the compiled mesh, for any float values, from any memory with zero counters: every weakly fair execution of the
    program on the TensorCore terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefLayer.lean ====
/-
  The graph layers the reference program runs are the network's of Net.lean, with the variance written as the mean of
  the squared distances to the mean.

  Stage by stage: the aggregation over the edges; a layer's matrix and rows cut out of the stacks; rows times a matrix
  plus a bias row; a column's mean and variance over the nodes; the normalisation cut at zero. No finiteness is needed:
  both sides spell the same extended-real operations entry by entry.
-/
import proofs.«149897_j14525579395559_1_alg».proof.Proof.HostRead
import proofs.«149897_j14525579395559_1_alg».proof.Proof.RefTerms

noncomputable section

open scoped BigOperators

namespace Cert.ReferenceIdeal.RefValue

open Idealize.ShloMosaic Idealize.ShloMosaic.ValueIdx Cert.Spec Cert.Net Cert.HostRead
open Cert.ReferenceIdeal Cert.ReferenceIdeal.Gen Cert.ReferenceIdeal.RefTerms

/-! ## The aggregation and the parameter slices -/

/-- The reference's gather moves whole rows by a column of row numbers. -/
theorem gather_eq : gather_S50000x128_S800000x1_S800000x128_1_0_n_n_0_1_1128
    = Cert.RowScatter.rowGatherDims 50000 800000 128 gather_S50000x128_S800000x1_S800000x128_1_0_n_n_0_1_1128_wf := rfl

/-- The reference's scatter adds whole rows at a column of row numbers. -/
theorem scatter_eq : scatter_S50000x128_S800000x1_S800000x128_1_0_0_1
    = Cert.RowScatter.rowScatterDims 50000 800000 128 scatter_S50000x128_S800000x1_S800000x128_1_0_0_1_wf := rfl

/-- Row 0 of the edge list holds the senders. -/
theorem edgeRowT_zero (ei : IVec S2x800000 32) (e : Fin 800000) : edgeRowT 0 ei (ix1 e) = ei (ix2 (0 : Fin 2) e) :=
  edgeRow_apply 0 _ rfl ei _ _ e

/-- Row 1 of the edge list holds the receivers. -/
theorem edgeRowT_one (ei : IVec S2x800000 32) (e : Fin 800000) : edgeRowT 1 ei (ix1 e) = ei (ix2 (1 : Fin 2) e) :=
  edgeRow_apply 1 _ rfl ei _ _ e

/-- The reference's aggregation is the network's. -/
theorem aggT_eq (h : FVec Ideal S50000x128 .f32) (ei : IVec S2x800000 32) : aggT h ei = agg h ei := by
  unfold aggT aggRowsT srcT dstT zeroT
  exact hostAgg_eq _ _ _ _ gather_eq scatter_eq h ei (edgeRowT 0 ei) (edgeRowT 1 ei) (edgeRowT_zero ei) (edgeRowT_one ei)
    _ bcast_S_S800000 bcast_S800000_S800000x1_0 _ bcast_S_S50000x128

/-- Layer l's matrix at (k, j). -/
theorem matT_apply (l : Fin 3) (a : FVec Ideal S3x128x128 .f32) (k j : Fin 128) : matT l a (ix2 k j) = mat3 a l k j :=
  layerMat_apply l _ rfl a _ _ k j

/-- Layer l's row at j. -/
theorem rowT_apply (l : Fin 3) (a : FVec Ideal S3x128 .f32) (j : Fin 128) : rowT l a (ix1 j) = row3 a l j :=
  layerRow_apply l _ rfl a _ _ j

/-! ## Rows times a matrix plus a bias row; the cut at zero -/

/-- Rows times a matrix plus a bias row is the network's linear stage. -/
theorem denseT_eq (h : FVec Ideal S50000x128 .f32) (w : FVec Ideal S128x128 .f32) (b : FVec Ideal S128 .f32)
    (W : Fin 128 → Fin 128 → EReal) (bv : Fin 128 → EReal) (hW : ∀ k j, w (ix2 k j) = W k j) (hb : ∀ j, b (ix1 j) = bv j) :
    denseT h w b = lin h W bv := by
  funext i
  obtain ⟨p, j, rfl⟩ : ∃ (p : Fin 50000) (j : Fin 128), i = ix2 p j := ⟨row i, col i, (ix2_row_col i).symm⟩
  refine (congrArg₂ (· + ·) (Cert.GraphConv.hostMM_apply _ rfl none h w p j) (rowsOfVec_apply _ _ b p j)).trans ?_
  show (∑ k : Fin 128, h (ix2 p k) * w (ix2 k j)) + b (ix1 j) = (∑ k : Fin 128, h (ix2 p k) * W k j) + bv j
  simp only [hW, hb]

/-- The cut at zero, entry by entry. -/
theorem reluT_eq (z : FVec Ideal S50000x128 .f32) : reluT z = fun i => max (z i) zeroF := rfl

/-! ## A column's mean and variance -/

/-- The reference's mean of column j. -/
theorem meanT_apply (z : FVec Ideal S50000x128 .f32) (u : Fin 1) (j : Fin 128) : meanT z (ix2 u j) = mean z j :=
  hostMean_apply z _ _ bcast_S_S1x128 u j
    ((rowOfVec_apply _ _ u j).trans (hostColSum_apply z zeroT _ _ Ideal.ofBits_zero_f32 j))

/-- The means repeated down the rows. -/
theorem colsT_meanT_apply (z : FVec Ideal S50000x128 .f32) (p : Fin 50000) (j : Fin 128) :
    colsT (meanT z) (ix2 p j) = mean z j :=
  (rowsOfRow_apply _ _ p j).trans (meanT_apply z 0 j)

/-- The reference's variance of column j, its correction zero: the mean of the squared distances to the mean. -/
theorem varT_apply (z : FVec Ideal S50000x128 .f32) (u : Fin 1) (j : Fin 128) :
    varT z (constantI S_ 32 0#32) (ix2 u j) = varR z j := by
  refine hostVarR_apply z _ _ _ _ u j ?_ ?_ ?_
  · show Ideal.cmp .ogt (nF - (((0#32 : BitVec 32).toInt : ℝ) : EReal)) zeroF = 1#1
    rw [divisor_eq]
    exact cmp_nF_pos
  · refine (rowOfVec_apply _ _ u j).trans ?_
    refine (hostColSum_apply _ zeroT _ _ Ideal.ofBits_zero_f32 j).trans ?_
    unfold colSum
    refine Finset.sum_congr rfl fun n _ => ?_
    show (z (ix2 n j) - colsT (meanT z) (ix2 n j)) * (z (ix2 n j) - colsT (meanT z) (ix2 n j)) = _
    rw [colsT_meanT_apply]
  · show nF - (((0#32 : BitVec 32).toInt : ℝ) : EReal) = nF
    exact divisor_eq

/-! ## The normalisation -/

/-- The reference's normalisation at (p, j). -/
theorem bnT_apply (z : FVec Ideal S50000x128 .f32) (g be : FVec Ideal S128 .f32) (gv bev : Fin 128 → EReal)
    (hg : ∀ j, g (ix1 j) = gv j) (hbe : ∀ j, be (ix1 j) = bev j) (p : Fin 50000) (j : Fin 128) :
    bnT z g be (ix2 p j) = (z (ix2 p j) - mean z j) * Ideal.rsqrt (varR z j + epsF) * gv j + bev j := by
  refine congrArg₂ (· + ·) (congrArg₂ (· * ·) (congrArg₂ (· * ·) (congrArg (z (ix2 p j) - ·) (colsT_meanT_apply z p j)) ?_)
    ((rowsOfVec_apply _ _ g p j).trans (hg j))) ((rowsOfVec_apply _ _ be p j).trans (hbe j))
  refine (rowsOfRow_apply _ _ p j).trans ?_
  show Ideal.rsqrt (varT z (constantI S_ 32 0#32) (ix2 (0 : Fin 1) j) + epsF) = _
  rw [varT_apply]

/-- The normalisation cut at zero is the network's. -/
theorem bnReluT_eq (z : FVec Ideal S50000x128 .f32) (g be : FVec Ideal S128 .f32) (gv bev : Fin 128 → EReal)
    (hg : ∀ j, g (ix1 j) = gv j) (hbe : ∀ j, be (ix1 j) = bev j) :
    reluT (bnT z g be) = bnRelu z (mean z) (varR z) gv bev := by
  funext i
  obtain ⟨p, j, rfl⟩ : ∃ (p : Fin 50000) (j : Fin 128), i = ix2 p j := ⟨row i, col i, (ix2_row_col i).symm⟩
  exact congrArg (max · zeroF) (bnT_apply z g be gv bev hg hbe p j)

/-! ## One layer -/

/-- The reference's layer l after the aggregation is the network's. -/
theorem layerT_eq (l : Fin 3) (hin : FVec Ideal S50000x128 .f32) (a2 : FVec Ideal S3x128x128 .f32)
    (a3 a4 a5 : FVec Ideal S3x128 .f32) (a6 : FVec Ideal S3x128x128 .f32) (a7 : FVec Ideal S3x128 .f32) :
    layerT l hin a2 a3 a4 a5 a6 a7
      = layer varR hin (mat3 a2 l) (row3 a3 l) (row3 a4 l) (row3 a5 l) (mat3 a6 l) (row3 a7 l) := by
  unfold layerT layer
  rw [denseT_eq hin (matT l a2) (rowT l a3) (mat3 a2 l) (row3 a3 l) (matT_apply l a2) (rowT_apply l a3),
    bnReluT_eq _ (rowT l a4) (rowT l a5) (row3 a4 l) (row3 a5 l) (rowT_apply l a4) (rowT_apply l a5),
    denseT_eq _ (matT l a6) (rowT l a7) (mat3 a6 l) (row3 a7 l) (matT_apply l a6) (rowT_apply l a7)]
  rfl

/-- The reference's graph layer l is the network's. -/
theorem convT_eq (l : Fin 3) (h : FVec Ideal S50000x128 .f32) (ei : IVec S2x800000 32) (a2 : FVec Ideal S3x128x128 .f32)
    (a3 a4 a5 : FVec Ideal S3x128 .f32) (a6 : FVec Ideal S3x128x128 .f32) (a7 : FVec Ideal S3x128 .f32) :
    convT l h ei a2 a3 a4 a5 a6 a7 = conv varR l h ei a2 a3 a4 a5 a6 a7 := by
  unfold convT conv
  rw [aggT_eq, layerT_eq]

end Cert.ReferenceIdeal.RefValue

end
-- ==== Proof.RefClose.lean ====
/-
  The closing stage the reference program runs is the network's of Net.lean: two more weight matrices, the first cut
  at zero, and a row-wise log-softmax whose row maximum is a fold of max from minus infinity and whose row sum runs
  over the forty classes.
-/
import proofs.«149897_j14525579395559_1_alg».proof.Proof.RefLayer

noncomputable section

open scoped BigOperators

namespace Cert.ReferenceIdeal.RefValue

open Idealize.ShloMosaic Idealize.ShloMosaic.ValueIdx Cert.Spec Cert.Net Cert.HostRead
open Cert.ReferenceIdeal Cert.ReferenceIdeal.Gen Cert.ReferenceIdeal.RefTerms

/-! ## Sums and maxima along a row of the 50000 by 40 table -/

/-- The host's sum of a 50000 by 40 table along each row, from an initial value that is zero, is at p the row's sum. -/
theorem hostRowSum_apply (x : FVec Ideal S50000x40 .f32) (init : FVec Ideal S_ .f32) (hr : S50000x40.ReducesTo [1] S50000)
    (hu : 0 < S_.numel) (h0 : init (Shape.Idx.first hu) = 0) (p : Fin 50000) :
    Host.reduceAdd (F := Ideal) x init hr hu (ix1 p) = ∑ k : Fin 40, x (ix2 p k) := by
  have h : S50000x40.Reduces [1] S50000 := by decide
  show Ideal.hostReduceAdd hr x (init (Shape.Idx.first hu)) (ix1 p) = _
  rw [Ideal.hostReduceAdd_single hr h, h0, zero_add]
  refine Finset.sum_congr rfl fun k _ => congrArg x (funext fun c => Fin.ext ?_)
  rw [h.lift_val]
  match c with
  | ⟨0, _⟩ => rfl
  | ⟨1, _⟩ => rfl

/-- The host's maximum of a 50000 by 40 table along each row, from minus infinity, is at p the row's maximum. -/
theorem hostRowMax_apply (z : FVec Ideal S50000x40 .f32) (init : FVec Ideal S_ .f32) (hr : S50000x40.ReducesTo [1] S50000)
    (hu : 0 < S_.numel) (h0 : init (Shape.Idx.first hu) = Ideal.ofBits .f32 0xFF800000#32) (p : Fin 50000) :
    Host.reduce (FloatOps.maximumf (F := Ideal) (φ := .f32)) z init hr hu (ix1 p) = rowMax z p := by
  have h : S50000x40.Reduces [1] S50000 := by decide
  rw [Host.reduce_eq_fold_single (FloatOps.maximumf (F := Ideal) (φ := .f32)) z init hr h hu, h0]
  unfold rowMax
  refine congrArg (Finset.fold max (Ideal.ofBits .f32 0xFF800000#32) · Finset.univ) (funext fun k => ?_)
  refine congrArg z (funext fun c => Fin.ext ?_)
  rw [h.lift_val]
  match c with
  | ⟨0, _⟩ => rfl
  | ⟨1, _⟩ => rfl

/-! ## The host's unary operations and the cut at zero, entry by entry -/

/-- The host's exponential, entry by entry. -/
theorem hostExp_apply {s : Shape} (x : FVec Ideal s .f32) (i : s.Idx) : Host.exp (F := Ideal) x i = Ideal.exp (x i) := rfl

/-- The host's logarithm, entry by entry. -/
theorem hostLog_apply {s : Shape} (x : FVec Ideal s .f32) (i : s.Idx) : Host.log (F := Ideal) x i = Ideal.log (x i) := rfl

/-- The cut at zero of a linear stage is the network's. -/
theorem reluT_lin (h : FVec Ideal S50000x128 .f32) (W : Fin 128 → Fin 128 → EReal) (b : Fin 128 → EReal) :
    reluT (lin h W b) = linRelu h W b := rfl

/-! ## The row-wise log-softmax -/

/-- The larger of minus infinity and a row's maximum is the row's maximum. -/
theorem rowMaxVec_apply (z : FVec Ideal S50000x40 .f32) (a r : FVec Ideal S50000 .f32) (p : Fin 50000)
    (ha : a (ix1 p) = Ideal.ofBits .f32 0xFF800000#32) (hr : r (ix1 p) = rowMax z p) : maximumf a r (ix1 p) = rowMax z p := by
  show max (a (ix1 p)) (r (ix1 p)) = _
  rw [ha, hr, max_ninf]

/-- The row maxima as the reference lays them out over the table: at (p, q) the maximum of row p. -/
theorem rowMaxT_apply (z : FVec Ideal S50000x40 .f32) (p : Fin 50000) (q : Fin 40) :
    broadcastInDim S50000x40 ![0, 1] bcast_S50000x1_S50000x40_0_1
        (broadcastInDim S50000x1 ![0] bcast_S50000_S50000x1_0
          (maximumf (broadcastInDim S50000 ![] bcast_S_S50000 (constant (F := Ideal) S_ .f32 0xFF800000#32))
            (Host.reduce (FloatOps.maximumf (F := Ideal) (φ := .f32)) z (constant (F := Ideal) S_ .f32 0xFF800000#32)
              reducesTo_S50000x40_S50000_d1 h_S_))) (ix2 p q)
      = rowMax z p := by
  refine (Cert.GraphConv.hostCol_apply _ _ p q).trans ?_
  refine (colOfVec_apply _ _ p 0).trans ?_
  exact rowMaxVec_apply z _ _ p (splat_apply _ _ _ _) (hostRowMax_apply z _ _ _ rfl p)

/-- The log-softmax as the host spells it, over any table m that holds at (p, q) the maximum of row p. -/
theorem logSoftmax_of_rowMax (z m : FVec Ideal S50000x40 .f32) (hm : ∀ (p : Fin 50000) (q : Fin 40), m (ix2 p q) = rowMax z p) :
    subf (subf z m)
        (broadcastInDim S50000x40 ![0, 1] bcast_S50000x1_S50000x40_0_1
          (Host.log (F := Ideal)
            (broadcastInDim S50000x1 ![0] bcast_S50000_S50000x1_0
              (Host.reduceAdd (F := Ideal) (Host.exp (F := Ideal) (subf z m)) zeroT reducesTo_S50000x40_S50000_d1 h_S_))))
      = logSoftmax z := by
  funext i
  obtain ⟨p, q, rfl⟩ : ∃ (p : Fin 50000) (q : Fin 40), i = ix2 p q := ⟨row i, col i, (ix2_row_col i).symm⟩
  refine (subf_apply _ _ _).trans ?_
  refine congrArg₂ (· - ·) ((subf_apply _ _ _).trans (congrArg (z (ix2 p q) - ·) (hm p q))) ?_
  refine (Cert.GraphConv.hostCol_apply _ _ p q).trans ?_
  refine (hostLog_apply _ _).trans ?_
  refine congrArg Ideal.log ?_
  refine (colOfVec_apply _ _ p 0).trans ?_
  refine (hostRowSum_apply _ zeroT _ _ Ideal.ofBits_zero_f32 p).trans ?_
  refine Finset.sum_congr rfl fun k _ => ?_
  refine (hostExp_apply _ _).trans ?_
  refine congrArg Ideal.exp ?_
  exact (subf_apply _ _ _).trans (congrArg (z (ix2 p k) - ·) (hm p k))

/-- The reference's row-wise log-softmax is the network's. -/
theorem logSoftmaxT_eq (z : FVec Ideal S50000x40 .f32) : logSoftmaxT z = logSoftmax z := by
  unfold logSoftmaxT
  exact logSoftmax_of_rowMax z _ (rowMaxT_apply z)

/-! ## The closing stage -/

/-- Rows times the last matrix plus its bias row is the network's linear stage. -/
theorem dense40_eq (h : FVec Ideal S50000x128 .f32) (a10 : FVec Ideal S128x40 .f32) (a11 : FVec Ideal S40 .f32) :
    addf (Host.dotGeneral (F := Ideal) dot_S50000x128_S128x40_S50000x40_1_0_0_1_n_n none h a10)
        (broadcastInDim S50000x40 ![0, 1] bcast_S1x40_S50000x40_0_1 (broadcastInDim S1x40 ![1] bcast_S40_S1x40_1 a11))
      = lin h (fun k j => a10 (ix2 k j)) (fun j => a11 (ix1 j)) := by
  funext i
  obtain ⟨p, j, rfl⟩ : ∃ (p : Fin 50000) (j : Fin 40), i = ix2 p j := ⟨row i, col i, (ix2_row_col i).symm⟩
  exact congrArg₂ (· + ·) (Cert.GraphConv.hostMM_apply _ rfl none h a10 p j) (rowsOfVec_apply _ _ a11 p j)

/-- The reference's closing stage is the network's. -/
theorem finalT_eq (h : FVec Ideal S50000x128 .f32) (a8 : FVec Ideal S128x128 .f32) (a9 : FVec Ideal S128 .f32)
    (a10 : FVec Ideal S128x40 .f32) (a11 : FVec Ideal S40 .f32) :
    finalT h a8 a9 a10 a11
      = final h (fun k j => a8 (ix2 k j)) (fun j => a9 (ix1 j)) (fun k j => a10 (ix2 k j)) (fun j => a11 (ix1 j)) := by
  unfold finalT final
  rw [logSoftmaxT_eq, denseT_eq h a8 a9 (fun k j => a8 (ix2 k j)) (fun j => a9 (ix1 j)) (fun _ _ => rfl) (fun _ => rfl),
    reluT_lin, dense40_eq]

end Cert.ReferenceIdeal.RefValue

end
-- ==== Proof.RefValue.lean ====
/-
  The network the reference program runs is the network of Net.lean with the variance written as the mean of the
  squared distances to the mean: three graph layers (RefLayer.lean) and the closing stage (RefClose.lean).
-/
import proofs.«149897_j14525579395559_1_alg».proof.Proof.RefLayer
import proofs.«149897_j14525579395559_1_alg».proof.Proof.RefClose

noncomputable section

namespace Cert.ReferenceIdeal.RefValue

open Idealize.ShloMosaic Idealize.ShloMosaic.ValueIdx Cert.Net
open Cert.ReferenceIdeal Cert.ReferenceIdeal.Gen Cert.ReferenceIdeal.RefTerms

/-- The network the reference runs is the network with the variance as the mean of the squared distances to the mean. -/
theorem netT_eq (x : FVec Ideal S50000x128 .f32) (ei : IVec S2x800000 32) (a2 : FVec Ideal S3x128x128 .f32)
    (a3 a4 a5 : FVec Ideal S3x128 .f32) (a6 : FVec Ideal S3x128x128 .f32) (a7 : FVec Ideal S3x128 .f32)
    (a8 : FVec Ideal S128x128 .f32) (a9 : FVec Ideal S128 .f32) (a10 : FVec Ideal S128x40 .f32) (a11 : FVec Ideal S40 .f32) :
    netT x ei a2 a3 a4 a5 a6 a7 a8 a9 a10 a11 = net varR x ei a2 a3 a4 a5 a6 a7 a8 a9 a10 a11 := by
  unfold netT net
  rw [convT_eq, convT_eq, convT_eq, finalT_eq]

end Cert.ReferenceIdeal.RefValue

end
-- ==== Proof.lean ====
/-
  The kernel and the reference compute the same network, and the kernel leaves its arguments alone.

  The network: 50000 nodes with 128 features each, 800000 directed edges. Three times over, every node adds to its own
  row the rows of the nodes that send it an edge; the rows are multiplied by a 128 × 128 weight matrix and a bias row is
  added; each of the 128 feature columns is centred by its mean over the nodes and scaled by the reciprocal square root
  of its variance plus a small constant, then by a gain, shifted by an offset, and cut at zero; a second weight matrix
  and bias follow, cut at zero again. Two more weight matrices (the first cut at zero) and a row-wise log-softmax over
  40 classes close it.

  The kernel walks the nodes in 25 blocks of 2000 rows. Per layer one pass adds up, block after block, each column's sum
  and sum of squares (the sum over all rows is the sum over the blocks of the sums over a block's rows, by
  commutativity and associativity of addition alone), and a second pass normalises block by block with mean = sum / n
  and variance = (sum of squares) / n − mean². The reference computes the variance as the mean of the squared distances
  to the mean. The law that joins the two, Σ (z − μ)² = Σ z² − n μ² for μ = (Σ z) / n, expands a square and moves the
  constant μ across a sum; on the extended reals that is only valid when every z is a real number. This is the one
  place where the precondition is used: all float inputs finite makes every entry of the aggregated rows, of the
  products with the weight matrices and of the normalised columns a real number, layer after layer. Everything else —
  changes of float format, the matrix product against the host's contraction, a lane or row reduction against the host's
  reduce, the log-softmax spelt out against the host's — is the same extended-real function on both sides at infinities
  too.

  The idealization rewrote nothing in the kernel, so there is nothing to preserve; each frame claim is the
  corresponding run with the result forgotten.
-/
import proofs.«149897_j14525579395559_1_alg».proof.Defs
import proofs.«149897_j14525579395559_1_alg».proof.Proof.Assemble
import proofs.«149897_j14525579395559_1_alg».proof.Proof.KValue
import proofs.«149897_j14525579395559_1_alg».proof.Proof.RefRun
import proofs.«149897_j14525579395559_1_alg».proof.Proof.RefValue

noncomputable section

namespace Cert.Proof

open Idealize.ShloMosaic

/-- Every claim of the certificate: the three frames, the (empty) ledger of rewrites, and the equality of the two
    results over the extended reals from memories that agree on the twelve arguments. -/
theorem claim : Cert.Claim :=
  Assemble.claim_of
    (fun m ρ c => Cert.KernelIdeal.KValue.kernel_value m ρ c)
    (fun m ρ => Cert.ReferenceIdeal.RefRun.run_main (F := Ideal) m ρ)
    (fun V => Cert.ReferenceIdeal.RefRun.out_eq V)
    (fun x ei a2 a3 a4 a5 a6 a7 a8 a9 a10 a11 => Cert.ReferenceIdeal.RefValue.netT_eq x ei a2 a3 a4 a5 a6 a7 a8 a9 a10 a11)

end Cert.Proof

end
